-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v199)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v199) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3x2x640000 : Shape := ⟨3, ![3, 2, 640000]⟩
abbrev S2x3x128x128 : Shape := ⟨4, ![2, 3, 128, 128]⟩
abbrev S2x3x128 : Shape := ⟨3, ![2, 3, 128]⟩
abbrev S128x32 : Shape := ⟨2, ![128, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2x3x128x128 : S_.BroadcastsInDim S2x3x128x128 (![] : Fin 0 → Fin S2x3x128x128.rank)
  reducesTo_S2x3x128x128_S_d0_1_2_3 : S2x3x128x128.ReducesTo [0, 1, 2, 3] S_
  bcast_S_S2x3x128 : S_.BroadcastsInDim S2x3x128 (![] : Fin 0 → Fin S2x3x128.rank)
  reducesTo_S2x3x128_S_d0_1_2 : S2x3x128.ReducesTo [0, 1, 2] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S128x32 .f32) (main_arg6 : FVec F S32 .f32) (main_v13 : IVec S_ 1) (main_v16 : IVec S2x3x128 1) : IVec S_ 1 :=
  let main_c_5 : IVec S_ 1 := constantI S_ 1 1#1
  let main_v17 : IVec S_ 1 := (fun x v => Host.reduce IntOp.andi x v reducesTo_S2x3x128_S_d0_1_2 h_S_) main_v16 main_c_5
  let main_v18 : IVec S_ 1 := andi main_v13 main_v17
  let main_v19 : FVec F S128x32 .f32 := Host.absf main_arg5
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S50000x128 .f32) (main_arg1 : IVec S3x2x640000 32) (main_arg2 : FVec F S2x3x128x128 .f32) (main_arg3 : FVec F S2x3x128x128 .f32) (main_arg4 : FVec F S2x3x128 .f32) (main_arg5 : FVec F S128x32 .f32) (main_arg6 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S2x3x128x128 .f32 := Host.absf main_arg2
  let main_cst_0 : FVec F S_ .f32 := constant S_ .f32 0x7F800000#32
  let main_v5 : FVec F S2x3x128x128 .f32 := broadcastInDim S2x3x128x128 ![] bcast_S_S2x3x128x128 main_cst_0
  let main_v6 : IVec S2x3x128x128 1 := cmpf .olt main_v4 main_v5
  let main_c_1 : IVec S_ 1 := constantI S_ 1 1#1
  let main_v7 : IVec S_ 1 := (fun x v => Host.reduce IntOp.andi x v reducesTo_S2x3x128x128_S_d0_1_2_3 h_S_) main_v6 main_c_1
  let main_v8 : IVec S_ 1 := andi main_v3 main_v7
  let main_v9 : FVec F S2x3x128x128 .f32 := Host.absf main_arg3
  let main_cst_2 : FVec F S_ .f32 := constant S_ .f32 0x7F800000#32
  let main_v10 : FVec F S2x3x128x128 .f32 := broadcastInDim S2x3x128x128 ![] bcast_S_S2x3x128x128 main_cst_2
  let main_v11 : IVec S2x3x128x128 1 := cmpf .olt main_v9 main_v10
  let main_c_3 : IVec S_ 1 := constantI S_ 1 1#1
  let main_v12 : IVec S_ 1 := (fun x v => Host.reduce IntOp.andi x v reducesTo_S2x3x128x128_S_d0_1_2_3 h_S_) main_v11 main_c_3
  let main_v13 : IVec S_ 1 := andi main_v8 main_v12
  let main_v14 : FVec F S2x3x128 .f32 := Host.absf main_arg4
  let main_cst_4 : FVec F S_ .f32 := constant S_ .f32 0x7F800000#32
  let main_v15 : FVec F S2x3x128 .f32 := broadcastInDim S2x3x128 ![] bcast_S_S2x3x128 main_cst_4
  let main_v16 : IVec S2x3x128 1 := cmpf .olt main_v14 main_v15
  fn_part1 (F := F) main_arg5 main_arg6 main_v13 main_v16
-- ==== Kernel.lean ====
abbrev S50000x128 : Shape := ⟨2, ![50000, 128]⟩
abbrev S3x2x640000 : Shape := ⟨3, ![3, 2, 640000]⟩
abbrev S2x3x128x128 : Shape := ⟨4, ![2, 3, 128, 128]⟩
abbrev S2x3x128 : Shape := ⟨3, ![2, 3, 128]⟩
abbrev S128x32 : Shape := ⟨2, ![128, 32]⟩
abbrev S32 : Shape := ⟨1, ![32]⟩
abbrev S1x1x640000 : Shape := ⟨3, ![1, 1, 640000]⟩
abbrev S640000 : Shape := ⟨1, ![640000]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S1x50000x1 : Shape := ⟨3, ![1, 50000, 1]⟩
abbrev S3x50000x1 : Shape := ⟨3, ![3, 50000, 1]⟩
abbrev S640000x128 : Shape := ⟨2, ![640000, 128]⟩
abbrev S1x50000x128 : Shape := ⟨3, ![1, 50000, 128]⟩
abbrev S3x50000x128 : Shape := ⟨3, ![3, 50000, 128]⟩
abbrev S50000x512 : Shape := ⟨2, ![50000, 512]⟩
abbrev S1x3x128x128 : Shape := ⟨4, ![1, 3, 128, 128]⟩
abbrev S3x128x128 : Shape := ⟨3, ![3, 128, 128]⟩
abbrev S128x128 : Shape := ⟨2, ![128, 128]⟩
abbrev S1x1x128x128 : Shape := ⟨4, ![1, 1, 128, 128]⟩
abbrev S512x128 : Shape := ⟨2, ![512, 128]⟩
abbrev S1x3x128 : Shape := ⟨3, ![1, 3, 128]⟩
abbrev S3x128 : Shape := ⟨2, ![3, 128]⟩
abbrev S128 : Shape := ⟨1, ![128]⟩
abbrev S5000x512 : Shape := ⟨2, ![5000, 512]⟩
abbrev S5000x128 : Shape := ⟨2, ![5000, 128]⟩
abbrev S1x128 : Shape := ⟨2, ![1, 128]⟩
abbrev S50000x32 : Shape := ⟨2, ![50000, 32]⟩
abbrev S5000x32 : Shape := ⟨2, ![5000, 32]⟩
abbrev S1x32 : Shape := ⟨2, ![1, 32]⟩

abbrev nBuf : Space → Nat
  | .hbm => 241
  | .vmem => 14
  | .smem => 0
  | _ => 0

abbrev hbmTy0_0 (i : Nat) : BufTy := match i % 128 with
  | 0 => ⟨S50000x128, .f32⟩
  | 1 => ⟨S3x2x640000, .i32⟩
  | 2 => ⟨S2x3x128x128, .f32⟩
  | 3 => ⟨S2x3x128x128, .f32⟩
  | 4 => ⟨S2x3x128, .f32⟩
  | 5 => ⟨S128x32, .f32⟩
  | 6 => ⟨S32, .f32⟩
  | 7 => ⟨S1x1x640000, .i32⟩
  | 8 => ⟨S640000, .i32⟩
  | 9 => ⟨S_, .f32⟩
  | 10 => ⟨S640000, .f32⟩
  | 11 => ⟨S_, .f32⟩
  | 12 => ⟨S50000, .f32⟩
  | 13 => ⟨S640000x1, .i32⟩
  | 14 => ⟨S50000, .f32⟩
  | 15 => ⟨S_, .f32⟩
  | 16 => ⟨S50000, .f32⟩
  | 17 => ⟨S50000, .f32⟩
  | 18 => ⟨S_, .f32⟩
  | 19 => ⟨S50000, .f32⟩
  | 20 => ⟨S50000, .f32⟩
  | 21 => ⟨S50000x1, .f32⟩
  | 22 => ⟨S1x1x640000, .i32⟩
  | 23 => ⟨S640000, .i32⟩
  | 24 => ⟨S_, .f32⟩
  | 25 => ⟨S640000, .f32⟩
  | 26 => ⟨S_, .f32⟩
  | 27 => ⟨S50000, .f32⟩
  | 28 => ⟨S640000x1, .i32⟩
  | 29 => ⟨S50000, .f32⟩
  | 30 => ⟨S_, .f32⟩
  | 31 => ⟨S50000, .f32⟩
  | 32 => ⟨S50000, .f32⟩
  | 33 => ⟨S_, .f32⟩
  | 34 => ⟨S50000, .f32⟩
  | 35 => ⟨S50000, .f32⟩
  | 36 => ⟨S50000x1, .f32⟩
  | 37 => ⟨S1x1x640000, .i32⟩
  | 38 => ⟨S640000, .i32⟩
  | 39 => ⟨S_, .f32⟩
  | 40 => ⟨S640000, .f32⟩
  | 41 => ⟨S_, .f32⟩
  | 42 => ⟨S50000, .f32⟩
  | 43 => ⟨S640000x1, .i32⟩
  | 44 => ⟨S50000, .f32⟩
  | 45 => ⟨S_, .f32⟩
  | 46 => ⟨S50000, .f32⟩
  | 47 => ⟨S50000, .f32⟩
  | 48 => ⟨S_, .f32⟩
  | 49 => ⟨S50000, .f32⟩
  | 50 => ⟨S50000, .f32⟩
  | 51 => ⟨S50000x1, .f32⟩
  | 52 => ⟨S1x50000x1, .f32⟩
  | 53 => ⟨S1x50000x1, .f32⟩
  | 54 => ⟨S1x50000x1, .f32⟩
  | 55 => ⟨S3x50000x1, .f32⟩
  | 56 => ⟨S1x1x640000, .i32⟩
  | 57 => ⟨S640000, .i32⟩
  | 58 => ⟨S1x1x640000, .i32⟩
  | 59 => ⟨S640000, .i32⟩
  | 60 => ⟨S_, .i32⟩
  | 61 => ⟨S640000, .i32⟩
  | 62 => ⟨S640000, .i1⟩
  | 63 => ⟨S_, .i32⟩
  | 64 => ⟨S640000, .i32⟩
  | 65 => ⟨S640000, .i32⟩
  | 66 => ⟨S640000, .i32⟩
  | 67 => ⟨S640000x1, .i32⟩
  | 68 => ⟨S640000x128, .f32⟩
  | 69 => ⟨S_, .f32⟩
  | 70 => ⟨S50000x128, .f32⟩
  | 71 => ⟨S640000x1, .i32⟩
  | 72 => ⟨S50000x128, .f32⟩
  | 73 => ⟨S1x50000x1, .f32⟩
  | 74 => ⟨S50000x1, .f32⟩
  | 75 => ⟨S50000x128, .f32⟩
  | 76 => ⟨S50000x128, .f32⟩
  | 77 => ⟨S1x1x640000, .i32⟩
  | 78 => ⟨S640000, .i32⟩
  | 79 => ⟨S1x1x640000, .i32⟩
  | 80 => ⟨S640000, .i32⟩
  | 81 => ⟨S_, .i32⟩
  | 82 => ⟨S640000, .i32⟩
  | 83 => ⟨S640000, .i1⟩
  | 84 => ⟨S_, .i32⟩
  | 85 => ⟨S640000, .i32⟩
  | 86 => ⟨S640000, .i32⟩
  | 87 => ⟨S640000, .i32⟩
  | 88 => ⟨S640000x1, .i32⟩
  | 89 => ⟨S640000x128, .f32⟩
  | 90 => ⟨S_, .f32⟩
  | 91 => ⟨S50000x128, .f32⟩
  | 92 => ⟨S640000x1, .i32⟩
  | 93 => ⟨S50000x128, .f32⟩
  | 94 => ⟨S1x50000x1, .f32⟩
  | 95 => ⟨S50000x1, .f32⟩
  | 96 => ⟨S50000x128, .f32⟩
  | 97 => ⟨S50000x128, .f32⟩
  | 98 => ⟨S1x1x640000, .i32⟩
  | 99 => ⟨S640000, .i32⟩
  | 100 => ⟨S1x1x640000, .i32⟩
  | 101 => ⟨S640000, .i32⟩
  | 102 => ⟨S_, .i32⟩
  | 103 => ⟨S640000, .i32⟩
  | 104 => ⟨S640000, .i1⟩
  | 105 => ⟨S_, .i32⟩
  | 106 => ⟨S640000, .i32⟩
  | 107 => ⟨S640000, .i32⟩
  | 108 => ⟨S640000, .i32⟩
  | 109 => ⟨S640000x1, .i32⟩
  | 110 => ⟨S640000x128, .f32⟩
  | 111 => ⟨S_, .f32⟩
  | 112 => ⟨S50000x128, .f32⟩
  | 113 => ⟨S640000x1, .i32⟩
  | 114 => ⟨S50000x128, .f32⟩
  | 115 => ⟨S1x50000x1, .f32⟩
  | 116 => ⟨S50000x1, .f32⟩
  | 117 => ⟨S50000x128, .f32⟩
  | 118 => ⟨S50000x128, .f32⟩
  | 119 => ⟨S1x50000x128, .f32⟩
  | 120 => ⟨S1x50000x128, .f32⟩
  | 121 => ⟨S1x50000x128, .f32⟩
  | 122 => ⟨S3x50000x128, .f32⟩
  | 123 => ⟨S1x50000x128, .f32⟩
  | 124 => ⟨S50000x128, .f32⟩
  | 125 => ⟨S1x50000x128, .f32⟩
  | 126 => ⟨S50000x128, .f32⟩
  | 127 => ⟨S1x50000x128, .f32⟩
  | _ => ⟨S50000x128, .f32⟩

abbrev hbmTy0_1 (i : Nat) : BufTy := match i % 128 with
  | 0 => ⟨S50000x128, .f32⟩
  | 1 => ⟨S50000x512, .f32⟩
  | 2 => ⟨S50000x512, .bf16⟩
  | 3 => ⟨S1x3x128x128, .f32⟩
  | 4 => ⟨S3x128x128, .f32⟩
  | 5 => ⟨S_, .f32⟩
  | 6 => ⟨S128x128, .f32⟩
  | 7 => ⟨S1x1x128x128, .f32⟩
  | 8 => ⟨S128x128, .f32⟩
  | 9 => ⟨S1x1x128x128, .f32⟩
  | 10 => ⟨S128x128, .f32⟩
  | 11 => ⟨S1x1x128x128, .f32⟩
  | 12 => ⟨S128x128, .f32⟩
  | 13 => ⟨S512x128, .f32⟩
  | 14 => ⟨S512x128, .bf16⟩
  | 15 => ⟨S1x3x128, .f32⟩
  | 16 => ⟨S3x128, .f32⟩
  | 17 => ⟨S_, .f32⟩
  | 18 => ⟨S128, .f32⟩
  | 19 => ⟨S50000x128, .f32⟩
  | 20 => ⟨S1x1x640000, .i32⟩
  | 21 => ⟨S640000, .i32⟩
  | 22 => ⟨S1x1x640000, .i32⟩
  | 23 => ⟨S640000, .i32⟩
  | 24 => ⟨S_, .i32⟩
  | 25 => ⟨S640000, .i32⟩
  | 26 => ⟨S640000, .i1⟩
  | 27 => ⟨S_, .i32⟩
  | 28 => ⟨S640000, .i32⟩
  | 29 => ⟨S640000, .i32⟩
  | 30 => ⟨S640000, .i32⟩
  | 31 => ⟨S640000x1, .i32⟩
  | 32 => ⟨S640000x128, .f32⟩
  | 33 => ⟨S_, .f32⟩
  | 34 => ⟨S50000x128, .f32⟩
  | 35 => ⟨S640000x1, .i32⟩
  | 36 => ⟨S50000x128, .f32⟩
  | 37 => ⟨S1x50000x1, .f32⟩
  | 38 => ⟨S50000x1, .f32⟩
  | 39 => ⟨S50000x128, .f32⟩
  | 40 => ⟨S50000x128, .f32⟩
  | 41 => ⟨S1x1x640000, .i32⟩
  | 42 => ⟨S640000, .i32⟩
  | 43 => ⟨S1x1x640000, .i32⟩
  | 44 => ⟨S640000, .i32⟩
  | 45 => ⟨S_, .i32⟩
  | 46 => ⟨S640000, .i32⟩
  | 47 => ⟨S640000, .i1⟩
  | 48 => ⟨S_, .i32⟩
  | 49 => ⟨S640000, .i32⟩
  | 50 => ⟨S640000, .i32⟩
  | 51 => ⟨S640000, .i32⟩
  | 52 => ⟨S640000x1, .i32⟩
  | 53 => ⟨S640000x128, .f32⟩
  | 54 => ⟨S_, .f32⟩
  | 55 => ⟨S50000x128, .f32⟩
  | 56 => ⟨S640000x1, .i32⟩
  | 57 => ⟨S50000x128, .f32⟩
  | 58 => ⟨S1x50000x1, .f32⟩
  | 59 => ⟨S50000x1, .f32⟩
  | 60 => ⟨S50000x128, .f32⟩
  | 61 => ⟨S50000x128, .f32⟩
  | 62 => ⟨S1x1x640000, .i32⟩
  | 63 => ⟨S640000, .i32⟩
  | 64 => ⟨S1x1x640000, .i32⟩
  | 65 => ⟨S640000, .i32⟩
  | 66 => ⟨S_, .i32⟩
  | 67 => ⟨S640000, .i32⟩
  | 68 => ⟨S640000, .i1⟩
  | 69 => ⟨S_, .i32⟩
  | 70 => ⟨S640000, .i32⟩
  | 71 => ⟨S640000, .i32⟩
  | 72 => ⟨S640000, .i32⟩
  | 73 => ⟨S640000x1, .i32⟩
  | 74 => ⟨S640000x128, .f32⟩
  | 75 => ⟨S_, .f32⟩
  | 76 => ⟨S50000x128, .f32⟩
  | 77 => ⟨S640000x1, .i32⟩
  | 78 => ⟨S50000x128, .f32⟩
  | 79 => ⟨S1x50000x1, .f32⟩
  | 80 => ⟨S50000x1, .f32⟩
  | 81 => ⟨S50000x128, .f32⟩
  | 82 => ⟨S50000x128, .f32⟩
  | 83 => ⟨S1x50000x128, .f32⟩
  | 84 => ⟨S1x50000x128, .f32⟩
  | 85 => ⟨S1x50000x128, .f32⟩
  | 86 => ⟨S3x50000x128, .f32⟩
  | 87 => ⟨S1x50000x128, .f32⟩
  | 88 => ⟨S50000x128, .f32⟩
  | 89 => ⟨S1x50000x128, .f32⟩
  | 90 => ⟨S50000x128, .f32⟩
  | 91 => ⟨S1x50000x128, .f32⟩
  | 92 => ⟨S50000x128, .f32⟩
  | 93 => ⟨S50000x512, .f32⟩
  | 94 => ⟨S50000x512, .bf16⟩
  | 95 => ⟨S1x3x128x128, .f32⟩
  | 96 => ⟨S3x128x128, .f32⟩
  | 97 => ⟨S_, .f32⟩
  | 98 => ⟨S128x128, .f32⟩
  | 99 => ⟨S1x1x128x128, .f32⟩
  | 100 => ⟨S128x128, .f32⟩
  | 101 => ⟨S1x1x128x128, .f32⟩
  | 102 => ⟨S128x128, .f32⟩
  | 103 => ⟨S1x1x128x128, .f32⟩
  | 104 => ⟨S128x128, .f32⟩
  | 105 => ⟨S512x128, .f32⟩
  | 106 => ⟨S512x128, .bf16⟩
  | 107 => ⟨S1x3x128, .f32⟩
  | 108 => ⟨S3x128, .f32⟩
  | 109 => ⟨S_, .f32⟩
  | 110 => ⟨S128, .f32⟩
  | 111 => ⟨S128x32, .bf16⟩
  | 112 => ⟨S50000x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x512, .bf16⟩
  | .local _ .vmem, ⟨1, _⟩ => ⟨S5000x512, .bf16⟩
  | .local _ .vmem, ⟨2, _⟩ => ⟨S512x128, .bf16⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x512, .bf16⟩
  | .local _ .vmem, ⟨7, _⟩ => ⟨S5000x512, .bf16⟩
  | .local _ .vmem, ⟨8, _⟩ => ⟨S512x128, .bf16⟩
  | .local _ .vmem, ⟨9, _⟩ => ⟨S128, .f32⟩
  | .local _ .vmem, ⟨10, _⟩ => ⟨S128x32, .bf16⟩
  | .local _ .vmem, ⟨11, _⟩ => ⟨S32, .f32⟩
  | .local _ .vmem, ⟨12, _⟩ => ⟨S5000x32, .f32⟩
  | .local _ .vmem, ⟨13, _⟩ => ⟨S5000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_9 : Ref sig .tc := ⟨.hbm, 45, rfl⟩
abbrev main_v28 : Ref sig .tc := ⟨.hbm, 46, rfl⟩
abbrev main_v29 : Ref sig .tc := ⟨.hbm, 47, rfl⟩
abbrev main_cst_10 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c : Ref sig .tc := ⟨.hbm, 60, rfl⟩
abbrev main_v41 : Ref sig .tc := ⟨.hbm, 61, rfl⟩
abbrev main_v42 : Ref sig .tc := ⟨.hbm, 62, rfl⟩
abbrev main_c_11 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_13 : Ref sig .tc := ⟨.hbm, 81, rfl⟩
abbrev main_v59 : Ref sig .tc := ⟨.hbm, 82, rfl⟩
abbrev main_v60 : Ref sig .tc := ⟨.hbm, 83, rfl⟩
abbrev main_c_14 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_15 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_16 : Ref sig .tc := ⟨.hbm, 102, rfl⟩
abbrev main_v77 : Ref sig .tc := ⟨.hbm, 103, rfl⟩
abbrev main_v78 : Ref sig .tc := ⟨.hbm, 104, rfl⟩
abbrev main_c_17 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_18 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_19 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_cst_20 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_c_21 : Ref sig .tc := ⟨.hbm, 152, rfl⟩
abbrev main_v122 : Ref sig .tc := ⟨.hbm, 153, rfl⟩
abbrev main_v123 : Ref sig .tc := ⟨.hbm, 154, rfl⟩
abbrev main_c_22 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_cst_23 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_c_24 : Ref sig .tc := ⟨.hbm, 173, rfl⟩
abbrev main_v140 : Ref sig .tc := ⟨.hbm, 174, rfl⟩
abbrev main_v141 : Ref sig .tc := ⟨.hbm, 175, rfl⟩
abbrev main_c_25 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_cst_26 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_c_27 : Ref sig .tc := ⟨.hbm, 194, rfl⟩
abbrev main_v158 : Ref sig .tc := ⟨.hbm, 195, rfl⟩
abbrev main_v159 : Ref sig .tc := ⟨.hbm, 196, rfl⟩
abbrev main_c_28 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_cst_29 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_cst_30 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_cst_31 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x32 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S3x2x640000_S1x1x640000_0_1_0 : S3x2x640000.Slices ![0, 1, 0] S1x1x640000
  shapeCasts_S1x1x640000_S640000 : S1x1x640000.ShapeCasts S640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  slices_S3x2x640000_S1x1x640000_1_1_0 : S3x2x640000.Slices ![1, 1, 0] S1x1x640000
  slices_S3x2x640000_S1x1x640000_2_1_0 : S3x2x640000.Slices ![2, 1, 0] S1x1x640000
  bcast_S50000x1_S1x50000x1_1_2 : S50000x1.BroadcastsInDim S1x50000x1 (![1, 2] : Fin 2 → Fin S1x50000x1.rank)
  concatenates_S1x50000x1_S1x50000x1_S1x50000x1_S3x50000x1_d0 : Shape.Concatenates [S1x50000x1, S1x50000x1, S1x50000x1] S3x50000x1 0
  slices_S3x2x640000_S1x1x640000_0_0_0 : S3x2x640000.Slices ![0, 0, 0] S1x1x640000
  bcast_S_S50000x128 : S_.BroadcastsInDim S50000x128 (![] : Fin 0 → Fin S50000x128.rank)
  slices_S3x50000x1_S1x50000x1_0_0_0 : S3x50000x1.Slices ![0, 0, 0] S1x50000x1
  shapeCasts_S1x50000x1_S50000x1 : S1x50000x1.ShapeCasts S50000x1
  bcast_S50000x1_S50000x128_0_1 : S50000x1.BroadcastsInDim S50000x128 (![0, 1] : Fin 2 → Fin S50000x128.rank)
  slices_S3x2x640000_S1x1x640000_1_0_0 : S3x2x640000.Slices ![1, 0, 0] S1x1x640000
  slices_S3x50000x1_S1x50000x1_1_0_0 : S3x50000x1.Slices ![1, 0, 0] S1x50000x1
  slices_S3x2x640000_S1x1x640000_2_0_0 : S3x2x640000.Slices ![2, 0, 0] S1x1x640000
  slices_S3x50000x1_S1x50000x1_2_0_0 : S3x50000x1.Slices ![2, 0, 0] S1x50000x1
  bcast_S50000x128_S1x50000x128_1_2 : S50000x128.BroadcastsInDim S1x50000x128 (![1, 2] : Fin 2 → Fin S1x50000x128.rank)
  concatenates_S1x50000x128_S1x50000x128_S1x50000x128_S3x50000x128_d0 : Shape.Concatenates [S1x50000x128, S1x50000x128, S1x50000x128] S3x50000x128 0
  slices_S3x50000x128_S1x50000x128_0_0_0 : S3x50000x128.Slices ![0, 0, 0] S1x50000x128
  shapeCasts_S1x50000x128_S50000x128 : S1x50000x128.ShapeCasts S50000x128
  slices_S3x50000x128_S1x50000x128_1_0_0 : S3x50000x128.Slices ![1, 0, 0] S1x50000x128
  slices_S3x50000x128_S1x50000x128_2_0_0 : S3x50000x128.Slices ![2, 0, 0] S1x50000x128
  concatenates_S50000x128_S50000x128_S50000x128_S50000x128_S50000x512_d1 : Shape.Concatenates [S50000x128, S50000x128, S50000x128, S50000x128] S50000x512 1
  bitsLt_bf16_f32 : FTy.bits .bf16 < FTy.bits .f32
  slices_S2x3x128x128_S1x3x128x128_0_0_0_0 : S2x3x128x128.Slices ![0, 0, 0, 0] S1x3x128x128
  shapeCasts_S1x3x128x128_S3x128x128 : S1x3x128x128.ShapeCasts S3x128x128
  reducesTo_S3x128x128_S128x128_d0 : S3x128x128.ReducesTo [0] S128x128
  h_S_ : 0 < S_.numel
  slices_S2x3x128x128_S1x1x128x128_0_0_0_0 : S2x3x128x128.Slices ![0, 0, 0, 0] S1x1x128x128
  shapeCasts_S1x1x128x128_S128x128 : S1x1x128x128.ShapeCasts S128x128
  slices_S2x3x128x128_S1x1x128x128_0_1_0_0 : S2x3x128x128.Slices ![0, 1, 0, 0] S1x1x128x128
  slices_S2x3x128x128_S1x1x128x128_0_2_0_0 : S2x3x128x128.Slices ![0, 2, 0, 0] S1x1x128x128
  concatenates_S128x128_S128x128_S128x128_S128x128_S512x128_d0 : Shape.Concatenates [S128x128, S128x128, S128x128, S128x128] S512x128 0
  slices_S2x3x128_S1x3x128_0_0_0 : S2x3x128.Slices ![0, 0, 0] S1x3x128
  shapeCasts_S1x3x128_S3x128 : S1x3x128.ShapeCasts S3x128
  reducesTo_S3x128_S128_d0 : S3x128.ReducesTo [0] S128
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S2x3x128x128_S1x3x128x128_1_0_0_0 : S2x3x128x128.Slices ![1, 0, 0, 0] S1x3x128x128
  slices_S2x3x128x128_S1x1x128x128_1_0_0_0 : S2x3x128x128.Slices ![1, 0, 0, 0] S1x1x128x128
  slices_S2x3x128x128_S1x1x128x128_1_1_0_0 : S2x3x128x128.Slices ![1, 1, 0, 0] S1x1x128x128
  slices_S2x3x128x128_S1x1x128x128_1_2_0_0 : S2x3x128x128.Slices ![1, 2, 0, 0] S1x1x128x128
  slices_S2x3x128_S1x3x128_1_0_0 : S2x3x128.Slices ![1, 0, 0] S1x3x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x512_S512x128_S5000x128_1_0_0_1_n_n_wf : DotDims.WF S5000x512 S512x128 S5000x128 [1] [0] [0] [1] [] []
  dot_S5000x128_S128x32_S5000x32_1_0_0_1_n_n_wf : DotDims.WF S5000x128 S128x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .bf16 = 32 ∨ (Rect.block (s := S50000x512) S5000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x512.size a ≤ S50000x512.size a
  hwx1_0 : ∀ i : grid1.Coords, EltTy.bits .bf16 = 32 ∨ (Rect.block (s := S50000x512) S5000x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .bf16 = 32 ∨ (Rect.block (s := S512x128) S512x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x32.size a ≤ S128x32.size a
  hwx1_3 : ∀ i : grid1.Coords, EltTy.bits .bf16 = 32 ∨ (Rect.block (s := S128x32) S128x32.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S50000x32.size a
  hwx1_5 : ∀ i : grid1.Coords, EltTy.bits .f32 = 32 ∨ (Rect.block (s := S50000x32) S5000x32.size (cc1_transform_5 i) (hinb1_5 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf

abbrev win0_0 : Pipeline.Window sig grid0 :=
  Pipeline.Window.ofSpec (Memref.whole main_v102) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v113) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v116) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v117) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v183) S5000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v194) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v197) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v198) S128x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v199) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S3x2x640000 : Shape := ⟨3, ![3, 2, 640000]⟩
abbrev S2x3x128x128 : Shape := ⟨4, ![2, 3, 128, 128]⟩
abbrev S2x3x128 : Shape := ⟨3, ![2, 3, 128]⟩
abbrev S128x32 : Shape := ⟨2, ![128, 32]⟩
abbrev S32 : Shape := ⟨1, ![32]⟩
abbrev S1x3x128x128 : Shape := ⟨4, ![1, 3, 128, 128]⟩
abbrev S3x128x128 : Shape := ⟨3, ![3, 128, 128]⟩
abbrev S1x3x128 : Shape := ⟨3, ![1, 3, 128]⟩
abbrev S3x128 : Shape := ⟨2, ![3, 128]⟩
abbrev S_ : Shape := ⟨0, ![]⟩
abbrev S1x1x640000 : Shape := ⟨3, ![1, 1, 640000]⟩
abbrev S640000 : Shape := ⟨1, ![640000]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x32 : Shape := ⟨2, ![50000, 32]⟩
abbrev S1x32 : Shape := ⟨2, ![1, 32]⟩

abbrev nBuf : Space → Nat
  | .hbm => 285
  | .vmem => 0
  | .smem => 0
  | _ => 0

abbrev hbmTy0_0 (i : Nat) : BufTy := match i % 128 with
  | 0 => ⟨S50000x128, .f32⟩
  | 1 => ⟨S3x2x640000, .i32⟩
  | 2 => ⟨S2x3x128x128, .f32⟩
  | 3 => ⟨S2x3x128x128, .f32⟩
  | 4 => ⟨S2x3x128, .f32⟩
  | 5 => ⟨S128x32, .f32⟩
  | 6 => ⟨S32, .f32⟩
  | 7 => ⟨S1x3x128x128, .f32⟩
  | 8 => ⟨S3x128x128, .f32⟩
  | 9 => ⟨S1x3x128x128, .f32⟩
  | 10 => ⟨S3x128x128, .f32⟩
  | 11 => ⟨S1x3x128, .f32⟩
  | 12 => ⟨S3x128, .f32⟩
  | 13 => ⟨S_, .f32⟩
  | 14 => ⟨S50000x128, .f32⟩
  | 15 => ⟨S1x1x640000, .i32⟩
  | 16 => ⟨S640000, .i32⟩
  | 17 => ⟨S1x1x640000, .i32⟩
  | 18 => ⟨S640000, .i32⟩
  | 19 => ⟨S_, .i32⟩
  | 20 => ⟨S640000, .i32⟩
  | 21 => ⟨S640000, .i1⟩
  | 22 => ⟨S_, .i32⟩
  | 23 => ⟨S640000, .i32⟩
  | 24 => ⟨S640000, .i32⟩
  | 25 => ⟨S640000, .i32⟩
  | 26 => ⟨S640000x1, .i32⟩
  | 27 => ⟨S640000x128, .f32⟩
  | 28 => ⟨S_, .f32⟩
  | 29 => ⟨S50000x128, .f32⟩
  | 30 => ⟨S640000x1, .i32⟩
  | 31 => ⟨S50000x128, .f32⟩
  | 32 => ⟨S_, .f32⟩
  | 33 => ⟨S640000, .f32⟩
  | 34 => ⟨S_, .f32⟩
  | 35 => ⟨S50000, .f32⟩
  | 36 => ⟨S640000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x128, .f32⟩
  | 43 => ⟨S50000x128, .f32⟩
  | 44 => ⟨S1x128x128, .f32⟩
  | 45 => ⟨S128x128, .f32⟩
  | 46 => ⟨S50000x128, .f32⟩
  | 47 => ⟨S50000x128, .f32⟩
  | 48 => ⟨S1x128x128, .f32⟩
  | 49 => ⟨S128x128, .f32⟩
  | 50 => ⟨S50000x128, .f32⟩
  | 51 => ⟨S50000x128, .f32⟩
  | 52 => ⟨S1x128, .f32⟩
  | 53 => ⟨S128, .f32⟩
  | 54 => ⟨S1x128, .f32⟩
  | 55 => ⟨S50000x128, .f32⟩
  | 56 => ⟨S50000x128, .f32⟩
  | 57 => ⟨S1x1x640000, .i32⟩
  | 58 => ⟨S640000, .i32⟩
  | 59 => ⟨S1x1x640000, .i32⟩
  | 60 => ⟨S640000, .i32⟩
  | 61 => ⟨S_, .i32⟩
  | 62 => ⟨S640000, .i32⟩
  | 63 => ⟨S640000, .i1⟩
  | 64 => ⟨S_, .i32⟩
  | 65 => ⟨S640000, .i32⟩
  | 66 => ⟨S640000, .i32⟩
  | 67 => ⟨S640000, .i32⟩
  | 68 => ⟨S640000x1, .i32⟩
  | 69 => ⟨S640000x128, .f32⟩
  | 70 => ⟨S_, .f32⟩
  | 71 => ⟨S50000x128, .f32⟩
  | 72 => ⟨S640000x1, .i32⟩
  | 73 => ⟨S50000x128, .f32⟩
  | 74 => ⟨S_, .f32⟩
  | 75 => ⟨S640000, .f32⟩
  | 76 => ⟨S_, .f32⟩
  | 77 => ⟨S50000, .f32⟩
  | 78 => ⟨S640000x1, .i32⟩
  | 79 => ⟨S50000, .f32⟩
  | 80 => ⟨S_, .f32⟩
  | 81 => ⟨S50000, .f32⟩
  | 82 => ⟨S50000, .f32⟩
  | 83 => ⟨S50000x1, .f32⟩
  | 84 => ⟨S50000x128, .f32⟩
  | 85 => ⟨S50000x128, .f32⟩
  | 86 => ⟨S1x128x128, .f32⟩
  | 87 => ⟨S128x128, .f32⟩
  | 88 => ⟨S50000x128, .f32⟩
  | 89 => ⟨S50000x128, .f32⟩
  | 90 => ⟨S1x128x128, .f32⟩
  | 91 => ⟨S128x128, .f32⟩
  | 92 => ⟨S50000x128, .f32⟩
  | 93 => ⟨S50000x128, .f32⟩
  | 94 => ⟨S1x128, .f32⟩
  | 95 => ⟨S128, .f32⟩
  | 96 => ⟨S1x128, .f32⟩
  | 97 => ⟨S50000x128, .f32⟩
  | 98 => ⟨S50000x128, .f32⟩
  | 99 => ⟨S1x1x640000, .i32⟩
  | 100 => ⟨S640000, .i32⟩
  | 101 => ⟨S1x1x640000, .i32⟩
  | 102 => ⟨S640000, .i32⟩
  | 103 => ⟨S_, .i32⟩
  | 104 => ⟨S640000, .i32⟩
  | 105 => ⟨S640000, .i1⟩
  | 106 => ⟨S_, .i32⟩
  | 107 => ⟨S640000, .i32⟩
  | 108 => ⟨S640000, .i32⟩
  | 109 => ⟨S640000, .i32⟩
  | 110 => ⟨S640000x1, .i32⟩
  | 111 => ⟨S640000x128, .f32⟩
  | 112 => ⟨S_, .f32⟩
  | 113 => ⟨S50000x128, .f32⟩
  | 114 => ⟨S640000x1, .i32⟩
  | 115 => ⟨S50000x128, .f32⟩
  | 116 => ⟨S_, .f32⟩
  | 117 => ⟨S640000, .f32⟩
  | 118 => ⟨S_, .f32⟩
  | 119 => ⟨S50000, .f32⟩
  | 120 => ⟨S640000x1, .i32⟩
  | 121 => ⟨S50000, .f32⟩
  | 122 => ⟨S_, .f32⟩
  | 123 => ⟨S50000, .f32⟩
  | 124 => ⟨S50000, .f32⟩
  | 125 => ⟨S50000x1, .f32⟩
  | 126 => ⟨S50000x128, .f32⟩
  | 127 => ⟨S50000x128, .f32⟩
  | _ => ⟨S50000x128, .f32⟩

abbrev hbmTy0_1 (i : Nat) : BufTy := match i % 128 with
  | 0 => ⟨S1x128x128, .f32⟩
  | 1 => ⟨S128x128, .f32⟩
  | 2 => ⟨S50000x128, .f32⟩
  | 3 => ⟨S50000x128, .f32⟩
  | 4 => ⟨S1x128x128, .f32⟩
  | 5 => ⟨S128x128, .f32⟩
  | 6 => ⟨S50000x128, .f32⟩
  | 7 => ⟨S50000x128, .f32⟩
  | 8 => ⟨S1x128, .f32⟩
  | 9 => ⟨S128, .f32⟩
  | 10 => ⟨S1x128, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S1x3x128x128, .f32⟩
  | 17 => ⟨S3x128x128, .f32⟩
  | 18 => ⟨S1x3x128x128, .f32⟩
  | 19 => ⟨S3x128x128, .f32⟩
  | 20 => ⟨S1x3x128, .f32⟩
  | 21 => ⟨S3x128, .f32⟩
  | 22 => ⟨S_, .f32⟩
  | 23 => ⟨S50000x128, .f32⟩
  | 24 => ⟨S1x1x640000, .i32⟩
  | 25 => ⟨S640000, .i32⟩
  | 26 => ⟨S1x1x640000, .i32⟩
  | 27 => ⟨S640000, .i32⟩
  | 28 => ⟨S_, .i32⟩
  | 29 => ⟨S640000, .i32⟩
  | 30 => ⟨S640000, .i1⟩
  | 31 => ⟨S_, .i32⟩
  | 32 => ⟨S640000, .i32⟩
  | 33 => ⟨S640000, .i32⟩
  | 34 => ⟨S640000, .i32⟩
  | 35 => ⟨S640000x1, .i32⟩
  | 36 => ⟨S640000x128, .f32⟩
  | 37 => ⟨S_, .f32⟩
  | 38 => ⟨S50000x128, .f32⟩
  | 39 => ⟨S640000x1, .i32⟩
  | 40 => ⟨S50000x128, .f32⟩
  | 41 => ⟨S_, .f32⟩
  | 42 => ⟨S640000, .f32⟩
  | 43 => ⟨S_, .f32⟩
  | 44 => ⟨S50000, .f32⟩
  | 45 => ⟨S640000x1, .i32⟩
  | 46 => ⟨S50000, .f32⟩
  | 47 => ⟨S_, .f32⟩
  | 48 => ⟨S50000, .f32⟩
  | 49 => ⟨S50000, .f32⟩
  | 50 => ⟨S50000x1, .f32⟩
  | 51 => ⟨S50000x128, .f32⟩
  | 52 => ⟨S50000x128, .f32⟩
  | 53 => ⟨S1x128x128, .f32⟩
  | 54 => ⟨S128x128, .f32⟩
  | 55 => ⟨S50000x128, .f32⟩
  | 56 => ⟨S50000x128, .f32⟩
  | 57 => ⟨S1x128x128, .f32⟩
  | 58 => ⟨S128x128, .f32⟩
  | 59 => ⟨S50000x128, .f32⟩
  | 60 => ⟨S50000x128, .f32⟩
  | 61 => ⟨S1x128, .f32⟩
  | 62 => ⟨S128, .f32⟩
  | 63 => ⟨S1x128, .f32⟩
  | 64 => ⟨S50000x128, .f32⟩
  | 65 => ⟨S50000x128, .f32⟩
  | 66 => ⟨S1x1x640000, .i32⟩
  | 67 => ⟨S640000, .i32⟩
  | 68 => ⟨S1x1x640000, .i32⟩
  | 69 => ⟨S640000, .i32⟩
  | 70 => ⟨S_, .i32⟩
  | 71 => ⟨S640000, .i32⟩
  | 72 => ⟨S640000, .i1⟩
  | 73 => ⟨S_, .i32⟩
  | 74 => ⟨S640000, .i32⟩
  | 75 => ⟨S640000, .i32⟩
  | 76 => ⟨S640000, .i32⟩
  | 77 => ⟨S640000x1, .i32⟩
  | 78 => ⟨S640000x128, .f32⟩
  | 79 => ⟨S_, .f32⟩
  | 80 => ⟨S50000x128, .f32⟩
  | 81 => ⟨S640000x1, .i32⟩
  | 82 => ⟨S50000x128, .f32⟩
  | 83 => ⟨S_, .f32⟩
  | 84 => ⟨S640000, .f32⟩
  | 85 => ⟨S_, .f32⟩
  | 86 => ⟨S50000, .f32⟩
  | 87 => ⟨S640000x1, .i32⟩
  | 88 => ⟨S50000, .f32⟩
  | 89 => ⟨S_, .f32⟩
  | 90 => ⟨S50000, .f32⟩
  | 91 => ⟨S50000, .f32⟩
  | 92 => ⟨S50000x1, .f32⟩
  | 93 => ⟨S50000x128, .f32⟩
  | 94 => ⟨S50000x128, .f32⟩
  | 95 => ⟨S1x128x128, .f32⟩
  | 96 => ⟨S128x128, .f32⟩
  | 97 => ⟨S50000x128, .f32⟩
  | 98 => ⟨S50000x128, .f32⟩
  | 99 => ⟨S1x128x128, .f32⟩
  | 100 => ⟨S128x128, .f32⟩
  | 101 => ⟨S50000x128, .f32⟩
  | 102 => ⟨S50000x128, .f32⟩
  | 103 => ⟨S1x128, .f32⟩
  | 104 => ⟨S128, .f32⟩
  | 105 => ⟨S1x128, .f32⟩
  | 106 => ⟨S50000x128, .f32⟩
  | 107 => ⟨S50000x128, .f32⟩
  | 108 => ⟨S1x1x640000, .i32⟩
  | 109 => ⟨S640000, .i32⟩
  | 110 => ⟨S1x1x640000, .i32⟩
  | 111 => ⟨S640000, .i32⟩
  | 112 => ⟨S_, .i32⟩
  | 113 => ⟨S640000, .i32⟩
  | 114 => ⟨S640000, .i1⟩
  | 115 => ⟨S_, .i32⟩
  | 116 => ⟨S640000, .i32⟩
  | 117 => ⟨S640000, .i32⟩
  | 118 => ⟨S640000, .i32⟩
  | 119 => ⟨S640000x1, .i32⟩
  | 120 => ⟨S640000x128, .f32⟩
  | 121 => ⟨S_, .f32⟩
  | 122 => ⟨S50000x128, .f32⟩
  | 123 => ⟨S640000x1, .i32⟩
  | 124 => ⟨S50000x128, .f32⟩
  | 125 => ⟨S_, .f32⟩
  | 126 => ⟨S640000, .f32⟩
  | 127 => ⟨S_, .f32⟩
  | _ => ⟨S50000x128, .f32⟩

abbrev hbmTy0_2 (i : Nat) : BufTy := match i % 128 with
  | 0 => ⟨S50000, .f32⟩
  | 1 => ⟨S640000x1, .i32⟩
  | 2 => ⟨S50000, .f32⟩
  | 3 => ⟨S_, .f32⟩
  | 4 => ⟨S50000, .f32⟩
  | 5 => ⟨S50000, .f32⟩
  | 6 => ⟨S50000x1, .f32⟩
  | 7 => ⟨S50000x128, .f32⟩
  | 8 => ⟨S50000x128, .f32⟩
  | 9 => ⟨S1x128x128, .f32⟩
  | 10 => ⟨S128x128, .f32⟩
  | 11 => ⟨S50000x128, .f32⟩
  | 12 => ⟨S50000x128, .f32⟩
  | 13 => ⟨S1x128x128, .f32⟩
  | 14 => ⟨S128x128, .f32⟩
  | 15 => ⟨S50000x128, .f32⟩
  | 16 => ⟨S50000x128, .f32⟩
  | 17 => ⟨S1x128, .f32⟩
  | 18 => ⟨S128, .f32⟩
  | 19 => ⟨S1x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S50000x32, .f32⟩
  | 26 => ⟨S1x32, .f32⟩
  | 27 => ⟨S50000x32, .f32⟩
  | 28 => ⟨S50000x32, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_5 : Ref sig .tc := ⟨.hbm, 61, rfl⟩
abbrev main_v47 : Ref sig .tc := ⟨.hbm, 62, rfl⟩
abbrev main_v48 : Ref sig .tc := ⟨.hbm, 63, rfl⟩
abbrev main_c_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_10 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_c_11 : Ref sig .tc := ⟨.hbm, 103, rfl⟩
abbrev main_v83 : Ref sig .tc := ⟨.hbm, 104, rfl⟩
abbrev main_v84 : Ref sig .tc := ⟨.hbm, 105, rfl⟩
abbrev main_c_12 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_13 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_14 : Ref sig .tc := ⟨.hbm, 116, rfl⟩
abbrev main_v93 : Ref sig .tc := ⟨.hbm, 117, rfl⟩
abbrev main_cst_15 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_16 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_call0_cst : Ref sig .tc := ⟨.hbm, 141, rfl⟩
abbrev main_call0_v0 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_cst_17 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_c_18 : Ref sig .tc := ⟨.hbm, 156, rfl⟩
abbrev main_v127 : Ref sig .tc := ⟨.hbm, 157, rfl⟩
abbrev main_v128 : Ref sig .tc := ⟨.hbm, 158, rfl⟩
abbrev main_c_19 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_cst_20 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_cst_21 : Ref sig .tc := ⟨.hbm, 169, rfl⟩
abbrev main_v137 : Ref sig .tc := ⟨.hbm, 170, rfl⟩
abbrev main_cst_22 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_cst_23 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_c_24 : Ref sig .tc := ⟨.hbm, 198, rfl⟩
abbrev main_v163 : Ref sig .tc := ⟨.hbm, 199, rfl⟩
abbrev main_v164 : Ref sig .tc := ⟨.hbm, 200, rfl⟩
abbrev main_c_25 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_cst_26 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_cst_27 : Ref sig .tc := ⟨.hbm, 211, rfl⟩
abbrev main_v173 : Ref sig .tc := ⟨.hbm, 212, rfl⟩
abbrev main_cst_28 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_cst_29 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_c_30 : Ref sig .tc := ⟨.hbm, 240, rfl⟩
abbrev main_v199 : Ref sig .tc := ⟨.hbm, 241, rfl⟩
abbrev main_v200 : Ref sig .tc := ⟨.hbm, 242, rfl⟩
abbrev main_c_31 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_cst_32 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_cst_33 : Ref sig .tc := ⟨.hbm, 253, rfl⟩
abbrev main_v209 : Ref sig .tc := ⟨.hbm, 254, rfl⟩
abbrev main_cst_34 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_cst_35 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_call1_cst : Ref sig .tc := ⟨.hbm, 278, rfl⟩
abbrev main_call1_v0 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩

abbrev nD : Nat := 1
abbrev τ : Topo := Topo.v7x

variable {F : FTy → Type} [FloatOps F]

class Facts₀ : Prop where
  slices_S2x3x128x128_S1x3x128x128_0_0_0_0 : S2x3x128x128.Slices ![0, 0, 0, 0] S1x3x128x128
  shapeCasts_S1x3x128x128_S3x128x128 : S1x3x128x128.ShapeCasts S3x128x128
  slices_S2x3x128_S1x3x128_0_0_0 : S2x3x128.Slices ![0, 0, 0] S1x3x128
  shapeCasts_S1x3x128_S3x128 : S1x3x128.ShapeCasts S3x128
  bcast_S_S50000x128 : S_.BroadcastsInDim S50000x128 (![] : Fin 0 → Fin S50000x128.rank)
  slices_S3x2x640000_S1x1x640000_0_0_0 : S3x2x640000.Slices ![0, 0, 0] S1x1x640000
  shapeCasts_S1x1x640000_S640000 : S1x1x640000.ShapeCasts S640000
  slices_S3x2x640000_S1x1x640000_0_1_0 : S3x2x640000.Slices ![0, 1, 0] S1x1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x2x640000_S1x1x640000_1_0_0 : S3x2x640000.Slices ![1, 0, 0] S1x1x640000
  slices_S3x2x640000_S1x1x640000_1_1_0 : S3x2x640000.Slices ![1, 1, 0] S1x1x640000
  slices_S3x128x128_S1x128x128_1_0_0 : S3x128x128.Slices ![1, 0, 0] S1x128x128
  slices_S3x128_S1x128_1_0 : S3x128.Slices ![1, 0] S1x128
  slices_S3x2x640000_S1x1x640000_2_0_0 : S3x2x640000.Slices ![2, 0, 0] S1x1x640000
  slices_S3x2x640000_S1x1x640000_2_1_0 : S3x2x640000.Slices ![2, 1, 0] S1x1x640000
  slices_S3x128x128_S1x128x128_2_0_0 : S3x128x128.Slices ![2, 0, 0] S1x128x128
  slices_S3x128_S1x128_2_0 : S3x128.Slices ![2, 0] S1x128
  slices_S2x3x128x128_S1x3x128x128_1_0_0_0 : S2x3x128x128.Slices ![1, 0, 0, 0] S1x3x128x128
  slices_S2x3x128_S1x3x128_1_0_0 : S2x3x128.Slices ![1, 0, 0] S1x3x128
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x128_S128x128_S50000x128_1_0_0_1_n_n_wf : DotDims.WF S50000x128 S128x128 S50000x128 [1] [0] [0] [1] [] []
  dot_S50000x128_S128x32_S50000x32_1_0_0_1_n_n_wf : DotDims.WF S50000x128 S128x32 S50000x32 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf

class Facts : Prop extends Facts₀ where

variable [Facts]
-- ==== Proof.FrameK.lean ====
/-
  The run of the kernel program: @main is a stretch of host operations, the first kernel region (the stacked product of a layer, on a
  grid of ten row blocks), a second stretch of host operations, and the second kernel region (the stacked product, the clamp and the linear
  head, again on ten row blocks).

  Per region, at the contents `V` the region is entered with: each window's block at a grid point, what the body leaves in its output
  window's staging buffer (its one store, of the body's value of the loaded input blocks), the body's triple, the pipeline's proof data
  and the body obligation. Then the run: the buffers' contents at every boundary as a fold from the launch memory (a host stretch
  applies its operations; a region leaves its arrays at what its write-backs leave and every other buffer alone), the observation that no
  host operation writes an argument and no region does more than read one, and the launch over the four items. Its conclusions: every
  argument array ends as launched (`frame`), and the result array ends at what the second region's write-backs leave (`run_value`).
-/
import proofs.«181974_j41549513621817_2_alg».proof.Proof.Gen.Kernel.Launch
import proofs.«181974_j41549513621817_2_alg».proof.Proof.Gen.Kernel.Skeleton
import proofs.«181974_j41549513621817_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-! # Region 0: the call of `cc0__sage_combine_kernel`, at the entry contents `V` -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S5000x512 := Rect.unit (s := S5000x512) ![0, 0] S5000x512.size inb_S5000x512_S5000x512_0_0
abbrev r0_1 : Rect S512x128 := Rect.unit (s := S512x128) ![0, 0] S512x128.size inb_S512x128_S512x128_0_0
abbrev r0_2 : Rect S128 := Rect.unit (s := S128) ![0] S128.size inb_S128_S128_0
abbrev r0_3 : Rect S5000x128 := Rect.unit (s := S5000x128) ![0, 0] S5000x128.size inb_S5000x128_S5000x128_0_0

/-- The output window's staging buffer after the body: its one store, of the body's value of the loaded input blocks. -/
def out0_3 (x0 : Vec F S5000x512 .bf16) (x1 : Vec F S512x128 .bf16) (x2 : Vec F S128 .f32) : Vec F S5000x128 .f32 :=
  View.canon [⟨r0_3, k0_pay1 (View.ld x0 r0_0) (View.ld x1 r0_1) (View.ld x2 r0_2)⟩]

/-- The one store covers the buffer. -/
theorem cover0_3 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

set_option maxHeartbeats 1000000 in
/-- The body on whole staging buffers, the inputs' at contents `xW` and the output's at anything, runs to the continuation with the
    inputs' as they were and the output's at `out0_3` of them. -/
theorem sound_kernel0 (c : Dev nD) (E : Set ℕ) (i : grid0.Coords) (arg0 : Memref sig .tc .vmem S5000x512 .bf16) (harg0 : arg0.IsWhole) (arg1 : Memref sig .tc .vmem S512x128 .bf16) (harg1 : arg1.IsWhole) (arg2 : Memref sig .tc .vmem S128 .f32) (harg2 : arg2.IsWhole) (arg3 : Memref sig .tc .vmem S5000x128 .f32) (harg3 : arg3.IsWhole)
    (x0 : Vec F S5000x512 .bf16) (x1 : Vec F S512x128 .bf16) (x2 : Vec F S128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__sage_combine_kernel i arg0 harg0 arg1 harg1 arg2 harg2 arg3 harg3) K := by
  simp only [cc0__sage_combine_kernel_eq_skeleton]; unfold cc0__sage_combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body each input's buffer at its block and
    the output's at `out0_3` of the input blocks; the class invariant (the scoped rest and the generator register, untouched); nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and what the core owes
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the call of `cc1__sage_combine_head_kernel`, at the entry contents `V` -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_0 : Rect S5000x512 := Rect.unit (s := S5000x512) ![0, 0] S5000x512.size inb_S5000x512_S5000x512_0_0
abbrev r1_1 : Rect S512x128 := Rect.unit (s := S512x128) ![0, 0] S512x128.size inb_S512x128_S512x128_0_0
abbrev r1_2 : Rect S128 := Rect.unit (s := S128) ![0] S128.size inb_S128_S128_0
abbrev r1_3 : Rect S128x32 := Rect.unit (s := S128x32) ![0, 0] S128x32.size inb_S128x32_S128x32_0_0
abbrev r1_4 : Rect S32 := Rect.unit (s := S32) ![0] S32.size inb_S32_S32_0
abbrev r1_5 : Rect S5000x32 := Rect.unit (s := S5000x32) ![0, 0] S5000x32.size inb_S5000x32_S5000x32_0_0

/-- The output window's staging buffer after the body: its one store, of the body's value of the loaded input blocks. -/
def out1_5 (x0 : Vec F S5000x512 .bf16) (x1 : Vec F S512x128 .bf16) (x2 : Vec F S128 .f32) (x3 : Vec F S128x32 .bf16) (x4 : Vec F S32 .f32) : Vec F S5000x32 .f32 :=
  View.canon [⟨r1_5, k1_pay1 (View.ld x0 r1_0) (View.ld x1 r1_1) (View.ld x2 r1_2) (View.ld x3 r1_3) (View.ld x4 r1_4)⟩]

/-- The one store covers the buffer. -/
theorem cover1_5 (p0 : Vec F S5000x32 .f32) (y : S5000x32.Idx) :
    ∃ pc ∈ ([⟨r1_5, p0⟩] : List (View.Piece (Elt F) S5000x32 .f32)), y ∈ pc.1.set :=
  View.cover_of_tiled [⟨r1_5, p0⟩] S5000x32.size (by rfl) y

set_option maxHeartbeats 1000000 in
/-- The body on whole staging buffers, the inputs' at contents `xW` and the output's at anything, runs to the continuation with the
    inputs' as they were and the output's at `out1_5` of them. -/
theorem sound_kernel1 (c : Dev nD) (E : Set ℕ) (i : grid1.Coords) (arg0 : Memref sig .tc .vmem S5000x512 .bf16) (harg0 : arg0.IsWhole) (arg1 : Memref sig .tc .vmem S512x128 .bf16) (harg1 : arg1.IsWhole) (arg2 : Memref sig .tc .vmem S128 .f32) (harg2 : arg2.IsWhole) (arg3 : Memref sig .tc .vmem S128x32 .bf16) (harg3 : arg3.IsWhole) (arg4 : Memref sig .tc .vmem S32 .f32) (harg4 : arg4.IsWhole) (arg5 : Memref sig .tc .vmem S5000x32 .f32) (harg5 : arg5.IsWhole)
    (x0 : Vec F S5000x512 .bf16) (x1 : Vec F S512x128 .bf16) (x2 : Vec F S128 .f32) (x3 : Vec F S128x32 .bf16) (x4 : Vec F S32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1__sage_combine_head_kernel i arg0 harg0 arg1 harg1 arg2 harg2 arg3 harg3 arg4 harg4 arg5 harg5) K := by
  simp only [cc1__sage_combine_head_kernel_eq_skeleton]; unfold cc1__sage_combine_head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The pipeline's proof data on core `c`: the arrays as the region finds them; after the body each input's buffer at its block and
    the output's at `out1_5` of the input blocks; the class invariant (the scoped rest and the generator register, untouched); nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so `sound_kernel1` applies; the invariant and what the core owes
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

/-! # The run: @main's four items from the launch to the return

## The buffer contents at each boundary: a fold through @main -/

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves (the inputs as entered, the output's write-backs folded), every other
    buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What the host stretches write: every operation's result reference, none of them an argument -/

/-- The references the first stretch writes. -/
abbrev hostOps0_W : List (Ref sig .tc) := [main_v0, main_v1, main_cst, main_v2, main_cst_0, main_v3, main_v4, main_v5, main_cst_1, main_v6, main_v7, main_cst_2, main_v8, main_v9, main_v10, main_v11, main_v12, main_cst_3, main_v13, main_cst_4, main_v14, main_v15, main_v16, main_cst_5, main_v17, main_v18, main_cst_6, main_v19, main_v20, main_v21, main_v22, main_v23, main_cst_7, main_v24, main_cst_8, main_v25, main_v26, main_v27, main_cst_9, main_v28, main_v29, main_cst_10, main_v30, main_v31, main_v32, main_v33, main_v34, main_v35, main_v36, main_v37, main_v38, main_v39, main_v40, main_c, main_v41, main_v42, main_c_11, main_v43, main_v44, main_v45, main_v46, main_v47, main_cst_12, main_v48, main_v49, main_v50, main_v51, main_v52, main_v53, main_v54, main_v55, main_v56, main_v57, main_v58, main_c_13, main_v59, main_v60, main_c_14, main_v61, main_v62, main_v63, main_v64, main_v65, main_cst_15, main_v66, main_v67, main_v68, main_v69, main_v70, main_v71, main_v72, main_v73, main_v74, main_v75, main_v76, main_c_16, main_v77, main_v78, main_c_17, main_v79, main_v80, main_v81, main_v82, main_v83, main_cst_18, main_v84, main_v85, main_v86, main_v87, main_v88, main_v89, main_v90, main_v91, main_v92, main_v93, main_v94, main_v95, main_v96, main_v97, main_v98, main_v99, main_v100, main_v101, main_v102, main_v103, main_v104, main_cst_19, main_v105, main_v106, main_v107, main_v108, main_v109, main_v110, main_v111, main_v112, main_v113, main_v114, main_v115, main_cst_20, main_v116]
/-- The references the second stretch writes. -/
abbrev hostOps1_W : List (Ref sig .tc) := [main_v118, main_v119, main_v120, main_v121, main_c_21, main_v122, main_v123, main_c_22, main_v124, main_v125, main_v126, main_v127, main_v128, main_cst_23, main_v129, main_v130, main_v131, main_v132, main_v133, main_v134, main_v135, main_v136, main_v137, main_v138, main_v139, main_c_24, main_v140, main_v141, main_c_25, main_v142, main_v143, main_v144, main_v145, main_v146, main_cst_26, main_v147, main_v148, main_v149, main_v150, main_v151, main_v152, main_v153, main_v154, main_v155, main_v156, main_v157, main_c_27, main_v158, main_v159, main_c_28, main_v160, main_v161, main_v162, main_v163, main_v164, main_cst_29, main_v165, main_v166, main_v167, main_v168, main_v169, main_v170, main_v171, main_v172, main_v173, main_v174, main_v175, main_v176, main_v177, main_v178, main_v179, main_v180, main_v181, main_v182, main_v183, main_v184, main_v185, main_cst_30, main_v186, main_v187, main_v188, main_v189, main_v190, main_v191, main_v192, main_v193, main_v194, main_v195, main_v196, main_cst_31, main_v197, main_v198]

set_option maxHeartbeats 4000000 in
theorem hostOps0_writes : (hostOps0 : List (HloOp τ sig (Elt F))).Forall fun op => op.writes ⊆ (hostOps0_W.map (Proc.devRef (τ := τ) .tc)).toFinset := by
  simp only [hostOps0, List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
set_option maxHeartbeats 4000000 in
theorem hostOps1_writes : (hostOps1 : List (HloOp τ sig (Elt F))).Forall fun op => op.writes ⊆ (hostOps1_W.map (Proc.devRef (τ := τ) .tc)).toFinset := by
  simp only [hostOps1, List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)

/-- A reference the first stretch does not write holds after it what it held before. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- A reference the second stretch does not write holds after it what it held before. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-! ### The arguments end as launched: no host operation writes one, and a region only reads one (through an input window) or bypasses it -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 4).trans (((dat1 (V3 m ρ) c).arrAt_in 4 rfl _).trans (A_eq1 (V3 m ρ) c 4))
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what it owes, nothing. -/
abbrev R (c : Dev nD) : sProp 𝕄 := iprop((∃ r, prngReg c r) ∗ ∃ W, owes (c : Thread nD τ) (0 : CellTallies nD τ sig Unit) W)
/-- A stretch of host operations as an item: over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No operation of the first stretch allocates a buffer. -/
theorem hostOps0_fresh : (hostOps0 : List (HloOp τ sig (Elt F))).Forall fun op => op.fresh = ∅ := by
  simp only [List.Forall]; repeat' constructor
set_option maxHeartbeats 4000000 in
/-- No operation of the second stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the generator register at
    some state. -/
abbrev Tₙ (c : Dev nD) : sProp 𝕄 := iprop(StableHlo.held (c : Thread nD τ) (Pipeline.ucRefs τ sig) (W4 m ρ c) ∗ ∃ r, prngReg c r)

/-! ## The regions as items -/

set_option backward.isDefEq.respectTransparency.types false in
/-- Region 0 over the thread state: entered from every unscoped buffer at `W1`, left at `W2`. Its arrays are split out of the
    unscoped buffers and put back at the exit contents; the generator register goes into the class invariant and out; nothing owed; no
    semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out of the
    unscoped buffers and put back at the exit contents; the generator register goes into the class invariant and out; nothing owed; no
    semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

/-- @main's four items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
set_option maxHeartbeats 4000000 in
/-- @main is the run of the items. -/
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates, nothing faulting,
    and every final state has every unscoped buffer of every core at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c)⟩) (run_all m ρ)

/-- The run with the result array named: it ends at what region 1's write-backs leave in its output window's array, the arguments as
    launched. -/
theorem run_value : θ_run defs (onTc (τ := τ) (main (F := F))) ⟨m, fun _ => 0, ρ⟩ (fun r => ∀ c : Dev nD,
      r.2.mem ((c.tc : Thread nD τ).loc main_v199) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v199 (by decide))).trans (W4_arr m ρ c 5),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c)⟩) (run_all m ρ)

end Cert.Kernel.Gen.Hand

end
-- ==== Proof.FrameKI.lean ====
/-
  The run of the kernel program: @main is a stretch of host operations, the first kernel region (the stacked product of a layer, on a
  grid of ten row blocks), a second stretch of host operations, and the second kernel region (the stacked product, the clamp and the linear
  head, again on ten row blocks).

  Per region, at the contents `V` the region is entered with: each window's block at a grid point, what the body leaves in its output
  window's staging buffer (its one store, of the body's value of the loaded input blocks), the body's triple, the pipeline's proof data
  and the body obligation. Then the run: the buffers' contents at every boundary as a fold from the launch memory (a host stretch
  applies its operations; a region leaves its arrays at what its write-backs leave and every other buffer alone), the observation that no
  host operation writes an argument and no region does more than read one, and the launch over the four items. Its conclusions: every
  argument array ends as launched (`frame`), and the result array ends at what the second region's write-backs leave (`run_value`).
-/
import proofs.«181974_j41549513621817_2_alg».proof.Proof.Gen.KernelIdeal.Launch
import proofs.«181974_j41549513621817_2_alg».proof.Proof.Gen.KernelIdeal.Skeleton
import proofs.«181974_j41549513621817_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-! # Region 0: the call of `cc0__sage_combine_kernel`, at the entry contents `V` -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S5000x512 := Rect.unit (s := S5000x512) ![0, 0] S5000x512.size inb_S5000x512_S5000x512_0_0
abbrev r0_1 : Rect S512x128 := Rect.unit (s := S512x128) ![0, 0] S512x128.size inb_S512x128_S512x128_0_0
abbrev r0_2 : Rect S128 := Rect.unit (s := S128) ![0] S128.size inb_S128_S128_0
abbrev r0_3 : Rect S5000x128 := Rect.unit (s := S5000x128) ![0, 0] S5000x128.size inb_S5000x128_S5000x128_0_0

/-- The output window's staging buffer after the body: its one store, of the body's value of the loaded input blocks. -/
def out0_3 (x0 : Vec F S5000x512 .bf16) (x1 : Vec F S512x128 .bf16) (x2 : Vec F S128 .f32) : Vec F S5000x128 .f32 :=
  View.canon [⟨r0_3, k0_pay1 (View.ld x0 r0_0) (View.ld x1 r0_1) (View.ld x2 r0_2)⟩]

/-- The one store covers the buffer. -/
theorem cover0_3 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

set_option maxHeartbeats 1000000 in
/-- The body on whole staging buffers, the inputs' at contents `xW` and the output's at anything, runs to the continuation with the
    inputs' as they were and the output's at `out0_3` of them. -/
theorem sound_kernel0 (c : Dev nD) (E : Set ℕ) (i : grid0.Coords) (arg0 : Memref sig .tc .vmem S5000x512 .bf16) (harg0 : arg0.IsWhole) (arg1 : Memref sig .tc .vmem S512x128 .bf16) (harg1 : arg1.IsWhole) (arg2 : Memref sig .tc .vmem S128 .f32) (harg2 : arg2.IsWhole) (arg3 : Memref sig .tc .vmem S5000x128 .f32) (harg3 : arg3.IsWhole)
    (x0 : Vec F S5000x512 .bf16) (x1 : Vec F S512x128 .bf16) (x2 : Vec F S128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__sage_combine_kernel i arg0 harg0 arg1 harg1 arg2 harg2 arg3 harg3) K := by
  simp only [cc0__sage_combine_kernel_eq_skeleton]; unfold cc0__sage_combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body each input's buffer at its block and
    the output's at `out0_3` of the input blocks; the class invariant (the scoped rest and the generator register, untouched); nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and what the core owes
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the call of `cc1__sage_combine_head_kernel`, at the entry contents `V` -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_0 : Rect S5000x512 := Rect.unit (s := S5000x512) ![0, 0] S5000x512.size inb_S5000x512_S5000x512_0_0
abbrev r1_1 : Rect S512x128 := Rect.unit (s := S512x128) ![0, 0] S512x128.size inb_S512x128_S512x128_0_0
abbrev r1_2 : Rect S128 := Rect.unit (s := S128) ![0] S128.size inb_S128_S128_0
abbrev r1_3 : Rect S128x32 := Rect.unit (s := S128x32) ![0, 0] S128x32.size inb_S128x32_S128x32_0_0
abbrev r1_4 : Rect S32 := Rect.unit (s := S32) ![0] S32.size inb_S32_S32_0
abbrev r1_5 : Rect S5000x32 := Rect.unit (s := S5000x32) ![0, 0] S5000x32.size inb_S5000x32_S5000x32_0_0

/-- The output window's staging buffer after the body: its one store, of the body's value of the loaded input blocks. -/
def out1_5 (x0 : Vec F S5000x512 .bf16) (x1 : Vec F S512x128 .bf16) (x2 : Vec F S128 .f32) (x3 : Vec F S128x32 .bf16) (x4 : Vec F S32 .f32) : Vec F S5000x32 .f32 :=
  View.canon [⟨r1_5, k1_pay1 (View.ld x0 r1_0) (View.ld x1 r1_1) (View.ld x2 r1_2) (View.ld x3 r1_3) (View.ld x4 r1_4)⟩]

/-- The one store covers the buffer. -/
theorem cover1_5 (p0 : Vec F S5000x32 .f32) (y : S5000x32.Idx) :
    ∃ pc ∈ ([⟨r1_5, p0⟩] : List (View.Piece (Elt F) S5000x32 .f32)), y ∈ pc.1.set :=
  View.cover_of_tiled [⟨r1_5, p0⟩] S5000x32.size (by rfl) y

set_option maxHeartbeats 1000000 in
/-- The body on whole staging buffers, the inputs' at contents `xW` and the output's at anything, runs to the continuation with the
    inputs' as they were and the output's at `out1_5` of them. -/
theorem sound_kernel1 (c : Dev nD) (E : Set ℕ) (i : grid1.Coords) (arg0 : Memref sig .tc .vmem S5000x512 .bf16) (harg0 : arg0.IsWhole) (arg1 : Memref sig .tc .vmem S512x128 .bf16) (harg1 : arg1.IsWhole) (arg2 : Memref sig .tc .vmem S128 .f32) (harg2 : arg2.IsWhole) (arg3 : Memref sig .tc .vmem S128x32 .bf16) (harg3 : arg3.IsWhole) (arg4 : Memref sig .tc .vmem S32 .f32) (harg4 : arg4.IsWhole) (arg5 : Memref sig .tc .vmem S5000x32 .f32) (harg5 : arg5.IsWhole)
    (x0 : Vec F S5000x512 .bf16) (x1 : Vec F S512x128 .bf16) (x2 : Vec F S128 .f32) (x3 : Vec F S128x32 .bf16) (x4 : Vec F S32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1__sage_combine_head_kernel i arg0 harg0 arg1 harg1 arg2 harg2 arg3 harg3 arg4 harg4 arg5 harg5) K := by
  simp only [cc1__sage_combine_head_kernel_eq_skeleton]; unfold cc1__sage_combine_head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The pipeline's proof data on core `c`: the arrays as the region finds them; after the body each input's buffer at its block and
    the output's at `out1_5` of the input blocks; the class invariant (the scoped rest and the generator register, untouched); nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so `sound_kernel1` applies; the invariant and what the core owes
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

/-! # The run: @main's four items from the launch to the return

## The buffer contents at each boundary: a fold through @main -/

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves (the inputs as entered, the output's write-backs folded), every other
    buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What the host stretches write: every operation's result reference, none of them an argument -/

/-- The references the first stretch writes. -/
abbrev hostOps0_W : List (Ref sig .tc) := [main_v0, main_v1, main_cst, main_v2, main_cst_0, main_v3, main_v4, main_v5, main_cst_1, main_v6, main_v7, main_cst_2, main_v8, main_v9, main_v10, main_v11, main_v12, main_cst_3, main_v13, main_cst_4, main_v14, main_v15, main_v16, main_cst_5, main_v17, main_v18, main_cst_6, main_v19, main_v20, main_v21, main_v22, main_v23, main_cst_7, main_v24, main_cst_8, main_v25, main_v26, main_v27, main_cst_9, main_v28, main_v29, main_cst_10, main_v30, main_v31, main_v32, main_v33, main_v34, main_v35, main_v36, main_v37, main_v38, main_v39, main_v40, main_c, main_v41, main_v42, main_c_11, main_v43, main_v44, main_v45, main_v46, main_v47, main_cst_12, main_v48, main_v49, main_v50, main_v51, main_v52, main_v53, main_v54, main_v55, main_v56, main_v57, main_v58, main_c_13, main_v59, main_v60, main_c_14, main_v61, main_v62, main_v63, main_v64, main_v65, main_cst_15, main_v66, main_v67, main_v68, main_v69, main_v70, main_v71, main_v72, main_v73, main_v74, main_v75, main_v76, main_c_16, main_v77, main_v78, main_c_17, main_v79, main_v80, main_v81, main_v82, main_v83, main_cst_18, main_v84, main_v85, main_v86, main_v87, main_v88, main_v89, main_v90, main_v91, main_v92, main_v93, main_v94, main_v95, main_v96, main_v97, main_v98, main_v99, main_v100, main_v101, main_v102, main_v103, main_v104, main_cst_19, main_v105, main_v106, main_v107, main_v108, main_v109, main_v110, main_v111, main_v112, main_v113, main_v114, main_v115, main_cst_20, main_v116]
/-- The references the second stretch writes. -/
abbrev hostOps1_W : List (Ref sig .tc) := [main_v118, main_v119, main_v120, main_v121, main_c_21, main_v122, main_v123, main_c_22, main_v124, main_v125, main_v126, main_v127, main_v128, main_cst_23, main_v129, main_v130, main_v131, main_v132, main_v133, main_v134, main_v135, main_v136, main_v137, main_v138, main_v139, main_c_24, main_v140, main_v141, main_c_25, main_v142, main_v143, main_v144, main_v145, main_v146, main_cst_26, main_v147, main_v148, main_v149, main_v150, main_v151, main_v152, main_v153, main_v154, main_v155, main_v156, main_v157, main_c_27, main_v158, main_v159, main_c_28, main_v160, main_v161, main_v162, main_v163, main_v164, main_cst_29, main_v165, main_v166, main_v167, main_v168, main_v169, main_v170, main_v171, main_v172, main_v173, main_v174, main_v175, main_v176, main_v177, main_v178, main_v179, main_v180, main_v181, main_v182, main_v183, main_v184, main_v185, main_cst_30, main_v186, main_v187, main_v188, main_v189, main_v190, main_v191, main_v192, main_v193, main_v194, main_v195, main_v196, main_cst_31, main_v197, main_v198]

set_option maxHeartbeats 4000000 in
theorem hostOps0_writes : (hostOps0 : List (HloOp τ sig (Elt F))).Forall fun op => op.writes ⊆ (hostOps0_W.map (Proc.devRef (τ := τ) .tc)).toFinset := by
  simp only [hostOps0, List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
set_option maxHeartbeats 4000000 in
theorem hostOps1_writes : (hostOps1 : List (HloOp τ sig (Elt F))).Forall fun op => op.writes ⊆ (hostOps1_W.map (Proc.devRef (τ := τ) .tc)).toFinset := by
  simp only [hostOps1, List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)

/-- A reference the first stretch does not write holds after it what it held before. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- A reference the second stretch does not write holds after it what it held before. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-! ### The arguments end as launched: no host operation writes one, and a region only reads one (through an input window) or bypasses it -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 4).trans (((dat1 (V3 m ρ) c).arrAt_in 4 rfl _).trans (A_eq1 (V3 m ρ) c 4))
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what it owes, nothing. -/
abbrev R (c : Dev nD) : sProp 𝕄 := iprop((∃ r, prngReg c r) ∗ ∃ W, owes (c : Thread nD τ) (0 : CellTallies nD τ sig Unit) W)
/-- A stretch of host operations as an item: over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No operation of the first stretch allocates a buffer. -/
theorem hostOps0_fresh : (hostOps0 : List (HloOp τ sig (Elt F))).Forall fun op => op.fresh = ∅ := by
  simp only [List.Forall]; repeat' constructor
set_option maxHeartbeats 4000000 in
/-- No operation of the second stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the generator register at
    some state. -/
abbrev Tₙ (c : Dev nD) : sProp 𝕄 := iprop(StableHlo.held (c : Thread nD τ) (Pipeline.ucRefs τ sig) (W4 m ρ c) ∗ ∃ r, prngReg c r)

/-! ## The regions as items -/

set_option backward.isDefEq.respectTransparency.types false in
/-- Region 0 over the thread state: entered from every unscoped buffer at `W1`, left at `W2`. Its arrays are split out of the
    unscoped buffers and put back at the exit contents; the generator register goes into the class invariant and out; nothing owed; no
    semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out of the
    unscoped buffers and put back at the exit contents; the generator register goes into the class invariant and out; nothing owed; no
    semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

/-- @main's four items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
set_option maxHeartbeats 4000000 in
/-- @main is the run of the items. -/
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates, nothing faulting,
    and every final state has every unscoped buffer of every core at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c)⟩) (run_all m ρ)

/-- The run with the result array named: it ends at what region 1's write-backs leave in its output window's array, the arguments as
    launched. -/
theorem run_value : θ_run defs (onTc (τ := τ) (main (F := F))) ⟨m, fun _ => 0, ρ⟩ (fun r => ∀ c : Dev nD,
      r.2.mem ((c.tc : Thread nD τ).loc main_v199) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v199 (by decide))).trans (W4_arr m ρ c 5),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c)⟩) (run_all m ρ)

end Cert.KernelIdeal.Gen.Hand

end
-- ==== Proof.Spec.lean ====
/-
  The mathematics both programs compute, stated once over literal shapes and read at coordinates.

  A two-layer relational graph network on 50000 nodes with 128 features and three edge relations. For a
  node-feature matrix `h`, relation `r` contributes the MEAN of the neighbours' rows: the row sums `A r h` (the
  messages gathered along the relation's edges and added up at their target nodes) scaled by the clamped in-degree
  `D r` (`max (degree) 1`, so `1 ≤ D r`). The aggregation `A` and the degree `D` are PARAMETERS here: the two programs
  form them by the same operations, and the only facts used about them are that `A r` keeps real entries real and that
  `1 ≤ D r`.

  One program (`refLayer`) divides the row sums by the degree and accumulates, relation by relation,
  `mean_r · Wn_r + h · Wr_r + b_r` onto zero. The other (`kerLayer`) multiplies the row sums by the reciprocal of the
  degree, lays `h` and the three means side by side as one row of 512 entries, and takes ONE product with the 512 × 128
  stack of `Wr_0 + Wr_1 + Wr_2` over `Wn_0, Wn_1, Wn_2`, adding `b_0 + b_1 + b_2`. Both clamp at zero. After two layers both
  apply the same linear head.
-/
import Mathlib.Data.EReal.Operations
import Mathlib.Algebra.BigOperators.Fin
import Idealize.ShloMosaic.PureOps.Ideal
import Idealize.ShloMosaic.Lib.ValueIdx

noncomputable section

open scoped BigOperators

namespace Cert.Spec

open Idealize.ShloMosaic Idealize.ShloMosaic.ValueIdx

/-- An `a × b` array of extended reals, indexed as the programs index it. -/
abbrev Mat (a b : ℕ) := (⟨2, ![a, b]⟩ : Shape).Idx → EReal
/-- A vector of `a` extended reals. -/
abbrev Vc (a : ℕ) := (⟨1, ![a]⟩ : Shape).Idx → EReal

/-- A function of two coordinates as an array. -/
def arr2 {a b : ℕ} (f : Fin a → Fin b → EReal) : Mat a b := fun i => f (i 0) (i 1)
theorem arr2_ix2 {a b : ℕ} (f : Fin a → Fin b → EReal) (p : Fin a) (q : Fin b) : arr2 f (ix2 p q) = f p q := rfl

/-- Four rows of 128 entries laid side by side as one row of 512: entry `c` is entry `c % 128` of piece `c / 128`. -/
def band4 (f : Fin 4 → Fin 128 → EReal) (c : Fin 512) : EReal :=
  f ⟨c.val / 128, by omega⟩ ⟨c.val % 128, Nat.mod_lt _ (by decide)⟩

/-- Layer `l`, relation `r` of a stack of weight matrices `[2, 3, 128, 128]`. -/
def sliceW (W : (⟨4, ![2, 3, 128, 128]⟩ : Shape).Idx → EReal) (l : Fin 2) (r : Fin 3) : Mat 128 128 :=
  fun i => W (ix4 l r (i 0) (i 1))
/-- Layer `l`, relation `r` of a stack of bias vectors `[2, 3, 128]`. -/
def sliceB (B : (⟨3, ![2, 3, 128]⟩ : Shape).Idx → EReal) (l : Fin 2) (r : Fin 3) : Vc 128 :=
  fun i => B (ix3 l r (i 0))

section Layer

variable (A : Fin 3 → Mat 50000 128 → Mat 50000 128) (D : Fin 3 → Vc 50000)
variable (Wn Wr : Fin 3 → Mat 128 128) (b : Fin 3 → Vc 128)

/-- Relation `r`'s mean at node `n`, feature `k`, as a QUOTIENT by the clamped degree. -/
def meanR (r : Fin 3) (h : Mat 50000 128) (n : Fin 50000) (k : Fin 128) : EReal :=
  Ideal.div (A r h (ix2 n k)) (D r (ix1 n))
/-- The same mean as a PRODUCT with the degree's reciprocal. -/
def meanK (r : Fin 3) (h : Mat 50000 128) (n : Fin 50000) (k : Fin 128) : EReal :=
  A r h (ix2 n k) * Ideal.div 1 (D r (ix1 n))

/-- One relation's contribution added onto an accumulator: neighbours' mean times `Wn r`, then the node's own row
    times `Wr r`, then the bias. -/
def refStep (h : Mat 50000 128) (r : Fin 3) (acc : EReal) (n : Fin 50000) (j : Fin 128) : EReal :=
  ((acc + ∑ k : Fin 128, meanR A D r h n k * Wn r (ix2 k j)) + ∑ k : Fin 128, h (ix2 n k) * Wr r (ix2 k j)) + b r (ix1 j)

/-- A layer, relation by relation from zero, clamped at zero. -/
def refLayer (h : Mat 50000 128) : Mat 50000 128 := arr2 fun n j =>
  max (refStep A D Wn Wr b h 2 (refStep A D Wn Wr b h 1 (refStep A D Wn Wr b h 0 0 n j) n j) n j) 0

/-- Node `n`'s stacked row: its own features, then the three means. -/
def kerX (h : Mat 50000 128) (n : Fin 50000) : Fin 4 → Fin 128 → EReal :=
  ![fun k => h (ix2 n k), meanK A D 0 h n, meanK A D 1 h n, meanK A D 2 h n]
/-- Column `j` of the stacked weights: the three root matrices summed from zero, then the three neighbour matrices. -/
def kerW (j : Fin 128) : Fin 4 → Fin 128 → EReal :=
  ![fun k => 0 + ∑ r : Fin 3, Wr r (ix2 k j), fun k => Wn 0 (ix2 k j), fun k => Wn 1 (ix2 k j), fun k => Wn 2 (ix2 k j)]
/-- The three biases summed from zero. -/
def kerB (j : Fin 128) : EReal := 0 + ∑ r : Fin 3, b r (ix1 j)

/-- A layer as ONE product of the stacked row with the stacked weights, plus the summed bias, clamped at zero. -/
def kerLayer (h : Mat 50000 128) : Mat 50000 128 := arr2 fun n j =>
  max ((∑ c : Fin 512, band4 (kerX A D h n) c * band4 (kerW Wn Wr j) c) + kerB b j) 0

end Layer

/-- The linear head: `h · linW + linb`. -/
def head (linW : Mat 128 32) (linb : Vc 32) (h : Mat 50000 128) : Mat 50000 32 := arr2 fun n j =>
  (∑ k : Fin 128, h (ix2 n k) * linW (ix2 k j)) + linb (ix1 j)

end Cert.Spec

end
-- ==== Proof.KSpec.lean ====
/-
  The two whole-array functions the kernel regions compute from the arrays they are entered with.

  Region 0: a layer's stacked product — row `n` of the 50000 × 512 matrix `X` against column `j` of the 512 × 128 matrix `W` — plus the
  bias, clamped at zero. Region 1: the same, followed by the linear head with the 128 × 32 matrix `L` and the bias `lb`.
-/
import proofs.«181974_j41549513621817_2_alg».proof.KernelIdeal
import proofs.«181974_j41549513621817_2_alg».proof.Proof.Spec

noncomputable section

open scoped BigOperators

namespace Cert.KernelIdeal.KValue

open Idealize.ShloMosaic Idealize.ShloMosaic.ValueIdx Cert.KernelIdeal

/-- A layer's stacked product plus bias, clamped at zero. -/
def G0 (X : FVec Ideal S50000x512 .bf16) (W : FVec Ideal S512x128 .bf16) (b : FVec Ideal S128 .f32) : FVec Ideal S50000x128 .f32 :=
  Cert.Spec.arr2 fun n j => max ((∑ c : Fin 512, X (ix2 n c) * W (ix2 c j)) + b (ix1 j)) 0
/-- The same followed by the linear head. -/
def G1 (X : FVec Ideal S50000x512 .bf16) (W : FVec Ideal S512x128 .bf16) (b : FVec Ideal S128 .f32) (L : FVec Ideal S128x32 .bf16)
    (lb : FVec Ideal S32 .f32) : FVec Ideal S50000x32 .f32 :=
  Cert.Spec.arr2 fun n j => (∑ k : Fin 128, G0 X W b (ix2 n k) * L (ix2 k j)) + lb (ix1 j)

end Cert.KernelIdeal.KValue

end
-- ==== Proof.LibFinite.lean ====
/-
  Finite extended reals and the operations that keep them finite.

  An extended real is FINITE when it is the cast of a real number. The laws that fail at the infinities
  (distributivity, cancelling a subtraction, moving a factor across a sum) hold between finite values, so a proof that
  needs one of them first shows that the values it is applied to are finite. Finite values are closed under sums,
  differences, products, finite sums, maxima, the quotient by a nonzero finite value, and the reciprocal square root of
  a positive one; a scatter that ADDS finite updates into a finite array leaves it finite, whatever the indices say
  (an entry receives the sum of the updates that land on it, a finite sum, possibly empty).
-/
import Mathlib.Data.EReal.Operations
import Mathlib.Algebra.BigOperators.Ring.Finset
import Idealize.ShloMosaic.PureOps.Ideal

namespace Cert.Finite

open Idealize.ShloMosaic

/-- The extended real `x` is the cast of a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- Finite is: neither infinity. -/
theorem isReal_iff {x : EReal} : IsReal x ↔ x ≠ ⊤ ∧ x ≠ ⊥ := by
  refine ⟨fun h => ⟨h.ne_top, h.ne_bot⟩, fun ⟨ht, hb⟩ => ?_⟩
  induction x using EReal.rec with
  | bot => exact absurd rfl hb
  | coe r => exact ⟨r, rfl⟩
  | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

/-- A finite sum of finite values is finite. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a finite value by a nonzero finite one is finite. -/
theorem IsReal.div_coe {x : EReal} (hx : IsReal x) {y : ℝ} (hy : y ≠ 0) : IsReal (Ideal.div x (y : EReal)) := by
  rw [Ideal.div_coe hy]; exact hx.mul (isReal_coe _)

/-- In particular by a finite value that is at least one (a count of neighbours clamped from below at one). -/
theorem IsReal.div_of_one_le {x y : EReal} (hx : IsReal x) (hy : IsReal y) (h1 : 1 ≤ y) : IsReal (Ideal.div x y) := by
  obtain ⟨b, rfl⟩ := hy
  have hb : (1 : ℝ) ≤ b := by exact_mod_cast h1
  exact hx.div_coe (by linarith : b ≠ 0)

/-- The reciprocal square root of a positive finite value is finite. -/
theorem isReal_rsqrt_of_pos {r : ℝ} (hr : 0 < r) : IsReal (Ideal.rsqrt (r : EReal)) := by
  rw [Ideal.rsqrt_coe, if_neg (not_lt.2 hr.le), if_neg hr.ne']
  exact isReal_coe _

/-- A row of a matrix product: the sum of the products of finite entries is finite. -/
theorem isReal_dot {K : Type*} [Fintype K] (a b : K → EReal) (ha : ∀ k, IsReal (a k)) (hb : ∀ k, IsReal (b k)) :
    IsReal (∑ k, a k * b k) :=
  IsReal.sum _ _ fun k _ => (ha k).mul (hb k)

/-- A scatter that adds finite updates into a finite array leaves every entry finite, whatever the indices are. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (IsReal.sum _ _ fun j _ => hu j)

end Cert.Finite
-- ==== Proof.AggK.lean ====
/-
  The two quantities every layer of both programs forms from the edge list, as functions of the edge array `e`
  (three relations × (source row, target row) × 640000 edges, 32-bit words) and a node-feature matrix `h`:

  * `agg e r h`: for relation `r`, row `src` of `h` gathered for every edge (a negative source index counted from the
    end: `src + 50000`) and added up at the edge's target node, from a zero matrix — the neighbours' row sums;
  * `deg e r`: a one added up at every edge's target node, from a zero vector — the in-degree —, and `degc e r`, its
    maximum with one.

  Both are the programs' own host operations composed; nothing about them is used beyond `1 ≤ degc` and that `agg` keeps
  real entries real.
-/
import proofs.«181974_j41549513621817_2_alg».proof.Proof.Gen.KernelIdeal
import proofs.«181974_j41549513621817_2_alg».proof.Proof.Spec
import proofs.«181974_j41549513621817_2_alg».proof.Proof.LibFinite
import Idealize.ShloMosaic.Lib.ValueIdx

noncomputable section

namespace Cert.KernelIdeal.Agg

open Idealize.ShloMosaic Idealize.ShloMosaic.ValueIdx Cert.KernelIdeal Cert.KernelIdeal.Gen

/-- The edge array's type: 32-bit words over `[3, 2, 640000]`. -/
abbrev Edges : Type := (⟨S3x2x640000, .i32⟩ : BufTy).Contents (Elt Ideal)
/-- A vector of 640000 edge words. -/
abbrev EdgeVec : Type := (⟨S640000, .i32⟩ : BufTy).Contents (Elt Ideal)

/-- The source rows of relation 0, 1, 2. -/
def src0 (e : Edges) : EdgeVec := shapeCast S640000 (extractStridedSlice S1x1x640000 ![0, 0, 0] e slices_S3x2x640000_S1x1x640000_0_0_0) shapeCasts_S1x1x640000_S640000
def src1 (e : Edges) : EdgeVec := shapeCast S640000 (extractStridedSlice S1x1x640000 ![1, 0, 0] e slices_S3x2x640000_S1x1x640000_1_0_0) shapeCasts_S1x1x640000_S640000
def src2 (e : Edges) : EdgeVec := shapeCast S640000 (extractStridedSlice S1x1x640000 ![2, 0, 0] e slices_S3x2x640000_S1x1x640000_2_0_0) shapeCasts_S1x1x640000_S640000
/-- The target rows of relation 0, 1, 2. -/
def dst0 (e : Edges) : EdgeVec := shapeCast S640000 (extractStridedSlice S1x1x640000 ![0, 1, 0] e slices_S3x2x640000_S1x1x640000_0_1_0) shapeCasts_S1x1x640000_S640000
def dst1 (e : Edges) : EdgeVec := shapeCast S640000 (extractStridedSlice S1x1x640000 ![1, 1, 0] e slices_S3x2x640000_S1x1x640000_1_1_0) shapeCasts_S1x1x640000_S640000
def dst2 (e : Edges) : EdgeVec := shapeCast S640000 (extractStridedSlice S1x1x640000 ![2, 1, 0] e slices_S3x2x640000_S1x1x640000_2_1_0) shapeCasts_S1x1x640000_S640000

/-- A negative index counted from the end: `s + 50000` where `s < 0`, else `s`. -/
def wrap (s : EdgeVec) : EdgeVec :=
  select (cmpi .slt s (broadcastInDim S640000 ![] bcast_S_S640000 (constantI S_ 32 0#32)))
    (addi s (broadcastInDim S640000 ![] bcast_S_S640000 (constantI S_ 32 50000#32))) s

/-- Rows of `h` gathered by the source words `s` and added up at the target words `d`, from zero. -/
def rowSums (s d : EdgeVec) (h : FVec Ideal S50000x128 .f32) : FVec Ideal S50000x128 .f32 :=
  Host.scatterAdd scatter_S50000x128_S640000x1_S640000x128_1_0_0_1
    (broadcastInDim S50000x128 ![] bcast_S_S50000x128 (constant (F := Ideal) S_ .f32 0x00000000#32))
    (broadcastInDim S640000x1 ![0] bcast_S640000_S640000x1_0 d)
    (Host.gather gather_S50000x128_S640000x1_S640000x128_1_0_n_n_0_1_1128 h
      (broadcastInDim S640000x1 ![0] bcast_S640000_S640000x1_0 (wrap s)))

/-- A one added up at every target word, from zero: the in-degree. -/
def degOf (d : EdgeVec) : FVec Ideal S50000 .f32 :=
  Host.scatterAdd scatter_S50000_S640000x1_S640000_n_0_0_1
    (broadcastInDim S50000 ![] bcast_S_S50000 (constant (F := Ideal) S_ .f32 0x00000000#32))
    (broadcastInDim S640000x1 ![0] bcast_S640000_S640000x1_0 d)
    (broadcastInDim S640000 ![] bcast_S_S640000 (constant (F := Ideal) S_ .f32 0x3F800000#32))

/-- The in-degree clamped below at one. -/
def degcOf (d : EdgeVec) : FVec Ideal S50000 .f32 :=
  maximumf (degOf d) (broadcastInDim S50000 ![] bcast_S_S50000 (constant (F := Ideal) S_ .f32 0x3F800000#32))

/-- Relation `r`'s neighbour row sums of `h`. -/
def agg (e : Edges) : Fin 3 → Spec.Mat 50000 128 → Spec.Mat 50000 128 :=
  ![rowSums (src0 e) (dst0 e), rowSums (src1 e) (dst1 e), rowSums (src2 e) (dst2 e)]
/-- Relation `r`'s clamped in-degree. -/
def degc (e : Edges) : Fin 3 → Spec.Vc 50000 :=
  ![degcOf (dst0 e), degcOf (dst1 e), degcOf (dst2 e)]

end Cert.KernelIdeal.Agg

end
-- ==== Proof.KernelValue.lean ====
/-
  The kernel program's result array as the specification's kernel form.

  The run leaves the result at what the second region's write-backs leave; that is the second region's whole-array function of the arrays
  it is entered with; those arrays are the second host stretch's results, read at an index as the stacked row of the first region's output and
  the stacked weights of layer 1; the first region's output is likewise the first region's function of the first host stretch's results, the
  stacked row of the argument `x` and the stacked weights of layer 0. No host operation writes an argument or the stacked reciprocal
  degrees between the stretches, and the regions write only their own output arrays.
-/
import proofs.«181974_j41549513621817_2_alg».proof.Proof.FrameKI
import proofs.«181974_j41549513621817_2_alg».proof.Proof.KSpec
import proofs.«181974_j41549513621817_2_alg».proof.Proof.AggK

noncomputable section

open scoped BigOperators

namespace Cert.KernelIdeal.Assemble

open Idealize.ShloMosaic Idealize.ShloMosaic.TcCoe Idealize.ShloMosaic.ValueIdx Idealize.SL.Sem
open Cert.KernelIdeal Cert.KernelIdeal.Gen Cert.KernelIdeal.Gen.Hand Cert.KernelIdeal.Agg Cert.KernelIdeal.KValue

variable (m : (ℓ : Loc nD τ sig) → Buf (Elt Ideal) ℓ) (ρ : Dev nD → PrngReg) (c : Dev nD)

/-! ## What reaches the regions unchanged -/

/-- A reference neither host stretch writes and that is no array of the first region holds at the second stretch's start what it held at launch. -/
theorem W2_launch (r : Ref sig .tc) (h0 : r ∉ hostOps0_W) (hne : ∀ w, Pipeline.arrRef spec0 w ≠ r) :
    W2 m ρ c (Proc.devRef .tc r) = W0 m ρ c (Proc.devRef .tc r) :=
  (W2_of_ne m ρ c r hne).trans (W1_of m ρ c r h0)

/-- A region's function of three arrays is the specification's layer as soon as the arrays read, entry by entry, as the stacked row,
    the stacked weights and the summed bias. -/
theorem layer_of_reads (X : FVec Ideal S50000x512 .bf16) (Wc : FVec Ideal S512x128 .bf16) (b : FVec Ideal S128 .f32)
    (A : Fin 3 → Cert.Spec.Mat 50000 128 → Cert.Spec.Mat 50000 128) (D : Fin 3 → Cert.Spec.Vc 50000)
    (Wn Wr : Fin 3 → Cert.Spec.Mat 128 128) (bb : Fin 3 → Cert.Spec.Vc 128) (h : Cert.Spec.Mat 50000 128)
    (hX : ∀ (n : Fin 50000) (k : Fin 512), X (ix2 n k) = Cert.Spec.band4 (Cert.Spec.kerX A D h n) k)
    (hW : ∀ (k : Fin 512) (j : Fin 128), Wc (ix2 k j) = Cert.Spec.band4 (Cert.Spec.kerW Wn Wr j) k)
    (hb : ∀ j : Fin 128, b (ix1 j) = Cert.Spec.kerB bb j) :
    G0 X Wc b = Cert.Spec.kerLayer A D Wn Wr bb h := by
  funext i
  obtain ⟨n, j, rfl⟩ : ∃ (n : Fin 50000) (j : Fin 128), i = ix2 n j := ⟨i 0, i 1, eq_ix2 i⟩
  unfold G0 Cert.Spec.kerLayer
  rw [Cert.Spec.arr2_ix2, Cert.Spec.arr2_ix2, hb j]
  refine congrArg (fun s => max (s + Cert.Spec.kerB bb j) 0) ?_
  exact Finset.sum_congr rfl fun k _ => by rw [hX n k, hW k j]

section Closed

variable (invStack : Edges → FVec Ideal S3x50000x1 .f32)
variable (hfinal0 : ∀ (V : (c : Dev nD) → (b : Ref sig .tc) → Buf (Elt Ideal) ((c : Thread nD τ).loc b)) (c : Dev nD),
    (dat0 (F := Ideal) V c).arrAt 3 cfg0.N = G0 (V c main_v102) (V c main_v113) (V c main_v116))
variable (hfinal1 : ∀ (V : (c : Dev nD) → (b : Ref sig .tc) → Buf (Elt Ideal) ((c : Thread nD τ).loc b)) (c : Dev nD),
    (dat1 (F := Ideal) V c).arrAt 5 cfg1.N = G1 (V c main_v183) (V c main_v194) (V c main_v197) (V c main_v198) (V c main_arg6))
variable (h0inv : ∀ W : Valuation τ sig (Elt Ideal),
    StableHlo.after hostOps0 W (Proc.devRef .tc main_v36) = invStack (W (Proc.devRef .tc main_arg1)))
variable (h0X : ∀ (W : Valuation τ sig (Elt Ideal)) (n : Fin 50000) (k : Fin 512),
    StableHlo.after hostOps0 W (Proc.devRef .tc main_v102) (ix2 n k)
      = Cert.Spec.band4 (Cert.Spec.kerX (agg (W (Proc.devRef .tc main_arg1))) (degc (W (Proc.devRef .tc main_arg1))) (W (Proc.devRef .tc main_arg0)) n) k)
variable (h0W : ∀ (W : Valuation τ sig (Elt Ideal)) (k : Fin 512) (j : Fin 128),
    StableHlo.after hostOps0 W (Proc.devRef .tc main_v113) (ix2 k j)
      = Cert.Spec.band4 (Cert.Spec.kerW (Cert.Spec.sliceW (W (Proc.devRef .tc main_arg2)) 0) (Cert.Spec.sliceW (W (Proc.devRef .tc main_arg3)) 0) j) k)
variable (h0b : ∀ (W : Valuation τ sig (Elt Ideal)) (j : Fin 128),
    StableHlo.after hostOps0 W (Proc.devRef .tc main_v116) (ix1 j) = Cert.Spec.kerB (Cert.Spec.sliceB (W (Proc.devRef .tc main_arg4)) 0) j)
variable (h1X : ∀ (W : Valuation τ sig (Elt Ideal)) (hinv : W (Proc.devRef .tc main_v36) = invStack (W (Proc.devRef .tc main_arg1)))
    (n : Fin 50000) (k : Fin 512),
    StableHlo.after hostOps1 W (Proc.devRef .tc main_v183) (ix2 n k)
      = Cert.Spec.band4 (Cert.Spec.kerX (agg (W (Proc.devRef .tc main_arg1))) (degc (W (Proc.devRef .tc main_arg1))) (W (Proc.devRef .tc main_v117)) n) k)
variable (h1W : ∀ (W : Valuation τ sig (Elt Ideal)) (k : Fin 512) (j : Fin 128),
    StableHlo.after hostOps1 W (Proc.devRef .tc main_v194) (ix2 k j)
      = Cert.Spec.band4 (Cert.Spec.kerW (Cert.Spec.sliceW (W (Proc.devRef .tc main_arg2)) 1) (Cert.Spec.sliceW (W (Proc.devRef .tc main_arg3)) 1) j) k)
variable (h1b : ∀ (W : Valuation τ sig (Elt Ideal)) (j : Fin 128),
    StableHlo.after hostOps1 W (Proc.devRef .tc main_v197) (ix1 j) = Cert.Spec.kerB (Cert.Spec.sliceB (W (Proc.devRef .tc main_arg4)) 1) j)
variable (h1L : ∀ (W : Valuation τ sig (Elt Ideal)) (k : Fin 128) (j : Fin 32),
    StableHlo.after hostOps1 W (Proc.devRef .tc main_v198) (ix2 k j) = W (Proc.devRef .tc main_arg5) (ix2 k j))

include h0X h0W h0b in
/-- The first region's function of the first stretch's results is the specification's layer on the argument `x` with layer 0's weights. -/
theorem layer0 (W : Valuation τ sig (Elt Ideal)) :
    G0 (StableHlo.after hostOps0 W (Proc.devRef .tc main_v102)) (StableHlo.after hostOps0 W (Proc.devRef .tc main_v113))
        (StableHlo.after hostOps0 W (Proc.devRef .tc main_v116))
      = Cert.Spec.kerLayer (agg (W (Proc.devRef .tc main_arg1))) (degc (W (Proc.devRef .tc main_arg1)))
          (Cert.Spec.sliceW (W (Proc.devRef .tc main_arg2)) 0) (Cert.Spec.sliceW (W (Proc.devRef .tc main_arg3)) 0)
          (Cert.Spec.sliceB (W (Proc.devRef .tc main_arg4)) 0) (W (Proc.devRef .tc main_arg0)) :=
  layer_of_reads _ _ _ _ _ _ _ _ _ (h0X W) (h0W W) (h0b W)

include h1X h1W h1b in
/-- Likewise the second stretch, from any contents `W` that hold the stacked reciprocal degrees: layer 1 on whatever `main_v117` holds. -/
theorem layer1 (W : Valuation τ sig (Elt Ideal)) (hinv : W (Proc.devRef .tc main_v36) = invStack (W (Proc.devRef .tc main_arg1))) :
    G0 (StableHlo.after hostOps1 W (Proc.devRef .tc main_v183)) (StableHlo.after hostOps1 W (Proc.devRef .tc main_v194))
        (StableHlo.after hostOps1 W (Proc.devRef .tc main_v197))
      = Cert.Spec.kerLayer (agg (W (Proc.devRef .tc main_arg1))) (degc (W (Proc.devRef .tc main_arg1)))
          (Cert.Spec.sliceW (W (Proc.devRef .tc main_arg2)) 1) (Cert.Spec.sliceW (W (Proc.devRef .tc main_arg3)) 1)
          (Cert.Spec.sliceB (W (Proc.devRef .tc main_arg4)) 1) (W (Proc.devRef .tc main_v117)) :=
  layer_of_reads _ _ _ _ _ _ _ _ _ (h1X W hinv) (h1W W) (h1b W)

/-- The second region's function is the linear head of its layer, whenever the head's matrix is read entry by entry as `L'`. -/
theorem head_of_G1 (X : FVec Ideal S50000x512 .bf16) (Wc : FVec Ideal S512x128 .bf16) (b : FVec Ideal S128 .f32)
    (L : FVec Ideal S128x32 .bf16) (lb : FVec Ideal S32 .f32) (L' : Cert.Spec.Mat 128 32)
    (hL : ∀ (k : Fin 128) (j : Fin 32), L (ix2 k j) = L' (ix2 k j)) :
    G1 X Wc b L lb = Cert.Spec.head L' lb (G0 X Wc b) := by
  funext i
  obtain ⟨n, j, rfl⟩ : ∃ (n : Fin 50000) (j : Fin 32), i = ix2 n j := ⟨i 0, i 1, eq_ix2 i⟩
  unfold G1 Cert.Spec.head
  rw [Cert.Spec.arr2_ix2, Cert.Spec.arr2_ix2]
  congr 1
  exact Finset.sum_congr rfl fun k _ => by rw [hL k j]

include h0inv in
/-- The stacked reciprocal degrees reach the second stretch as the first stretch left them. -/
theorem inv_at_W2 : W2 m ρ c (Proc.devRef .tc main_v36) = invStack (W2 m ρ c (Proc.devRef .tc main_arg1)) := by
  rw [W2_of_ne m ρ c main_v36 (by decide), W2_launch m ρ c main_arg1 (by decide) (by decide)]
  exact h0inv (W0 m ρ c)

include hfinal0 h0X h0W h0b in
/-- The first region's output array at the second stretch's start is layer 0 of the argument `x`. -/
theorem h1_at_W2 : W2 m ρ c (Proc.devRef .tc main_v117)
    = Cert.Spec.kerLayer (agg (W0 m ρ c (Proc.devRef .tc main_arg1))) (degc (W0 m ρ c (Proc.devRef .tc main_arg1)))
        (Cert.Spec.sliceW (W0 m ρ c (Proc.devRef .tc main_arg2)) 0) (Cert.Spec.sliceW (W0 m ρ c (Proc.devRef .tc main_arg3)) 0)
        (Cert.Spec.sliceB (W0 m ρ c (Proc.devRef .tc main_arg4)) 0) (W0 m ρ c (Proc.devRef .tc main_arg0)) :=
  ((W2_arr m ρ c 3).trans (hfinal0 (V1 m ρ) c)).trans (layer0 h0X h0W h0b (W0 m ρ c))

include hfinal0 hfinal1 h0inv h0X h0W h0b h1X h1W h1b h1L in
/-- THE KERNEL'S RESULT: what the second region's write-backs leave is the head of layer 1 of layer 0 of `x`, in the kernel's form. -/
theorem result_closed : (dat1 (F := Ideal) (V3 m ρ) c).arrAt 5 cfg1.N
    = Cert.Spec.head (W0 m ρ c (Proc.devRef .tc main_arg5)) (W0 m ρ c (Proc.devRef .tc main_arg6))
        (Cert.Spec.kerLayer (agg (W0 m ρ c (Proc.devRef .tc main_arg1))) (degc (W0 m ρ c (Proc.devRef .tc main_arg1)))
          (Cert.Spec.sliceW (W0 m ρ c (Proc.devRef .tc main_arg2)) 1) (Cert.Spec.sliceW (W0 m ρ c (Proc.devRef .tc main_arg3)) 1)
          (Cert.Spec.sliceB (W0 m ρ c (Proc.devRef .tc main_arg4)) 1)
          (Cert.Spec.kerLayer (agg (W0 m ρ c (Proc.devRef .tc main_arg1))) (degc (W0 m ρ c (Proc.devRef .tc main_arg1)))
            (Cert.Spec.sliceW (W0 m ρ c (Proc.devRef .tc main_arg2)) 0) (Cert.Spec.sliceW (W0 m ρ c (Proc.devRef .tc main_arg3)) 0)
            (Cert.Spec.sliceB (W0 m ρ c (Proc.devRef .tc main_arg4)) 0) (W0 m ρ c (Proc.devRef .tc main_arg0)))) := by
  rw [hfinal1 (V3 m ρ) c]
  rw [head_of_G1 _ _ _ _ _ (W2 m ρ c (Proc.devRef .tc main_arg5)) (fun k j => h1L (W2 m ρ c) k j)]
  rw [show (V3 m ρ c main_arg6 : FVec Ideal S32 .f32) = W0 m ρ c (Proc.devRef .tc main_arg6) from
    (W3_of m ρ c main_arg6 (by decide)).trans (W2_launch m ρ c main_arg6 (by decide) (by decide))]
  rw [layer1 invStack h1X h1W h1b (W2 m ρ c) (inv_at_W2 m ρ c invStack h0inv)]
  rw [h1_at_W2 m ρ c hfinal0 h0X h0W h0b]
  rw [W2_launch m ρ c main_arg1 (by decide) (by decide), W2_launch m ρ c main_arg2 (by decide) (by decide),
    W2_launch m ρ c main_arg3 (by decide) (by decide), W2_launch m ρ c main_arg4 (by decide) (by decide),
    W2_launch m ρ c main_arg5 (by decide) (by decide)]

end Closed

end Cert.KernelIdeal.Assemble

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.KValueLemmas.lean ====
/-
  What one row block of a layer leaves at an entry.

  A kernel body works on a block of 5000 stacked rows `x0` (each row: a node's own features followed by the three
  relation means, 512 entries), the 512 × 128 stacked weights `x1` and the summed bias `x2`. It multiplies the rows by
  the weights into a zero accumulator, adds the bias down the rows, and clamps at zero: entry (p, q) is
  `max (∑ c, x0 (p, c) · x1 (c, q) + x2 q) 0`. Changes of float format do nothing on the extended reals and the
  accumulator's zero word is the number zero, so nothing else is left.

  The second body goes on from that clamped block: it multiplies it by the 128 × 32 head matrix `x3` into a zero
  accumulator and adds the head's bias `x4` down the rows: entry (p, q) is
  `∑ k, (first body's entry (p, k)) · x3 (k, q) + x4 q`.
-/
import proofs.«181974_j41549513621817_2_alg».proof.Proof.Gen.KernelIdeal.Skeleton
import proofs.«181974_j41549513621817_2_alg».proof.Proof.LibPlainDot
import proofs.«181974_j41549513621817_2_alg».proof.Proof.LibLayout
import proofs.«181974_j41549513621817_2_alg».proof.Proof.KSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KValue

open Idealize.ShloMosaic Idealize.ShloMosaic.ValueIdx Cert.KernelIdeal Cert.KernelIdeal.Gen

/-- The zero offsets of a rectangle over a whole buffer, as constant functions. -/
theorem zeros2 : (![0, 0] : Fin 2 → Nat) = fun _ => 0 := funext fun a => by fin_cases a <;> rfl
theorem zeros1 : (![0] : Fin 1 → Nat) = fun _ => 0 := funext fun a => by fin_cases a; rfl

/-- The first body's value at entry (p, q): row p of the block against column q of the weights, plus the bias at q,
    clamped at zero. -/
theorem layer_block_entry (x0 : FVec Ideal S5000x512 .bf16) (x1 : FVec Ideal S512x128 .bf16) (x2 : FVec Ideal S128 .f32)
    (p : Fin 5000) (q : Fin 128) :
    k0_pay1 (F := Ideal) x0 x1 x2 (ix2 p q)
      = max ((∑ c : Fin 512, x0 (ix2 p c) * x1 (ix2 c q)) + x2 (ix1 q)) 0 := by
  unfold k0_pay1
  show max (matmul (DotDims.plain 5000 512 128) none (shapeCast S5000x512 x0 shapeCasts_S5000x512_S5000x512)
        (shapeCast S512x128 x1 shapeCasts_S512x128_S512x128) (constant (F := Ideal) S5000x128 .f32 0x00000000#32) (ix2 p q)
      + broadcastTo S5000x128 (shapeCast S1x128 (shapeCast S128 x2 shapeCasts_S128_S128) shapeCasts_S128_S1x128)
          broadcasts_S1x128_S5000x128 (ix2 p q)) (Ideal.ofBits .f32 0x00000000#32) = _
  rw [Ideal.ofBits_zero_f32, shapeCast_self, shapeCast_self, shapeCast_self]
  refine congrArg (fun z => max z 0) (congrArg₂ (· + ·) ?_ ?_)
  · exact Cert.PlainDot.matmul_zero_plain_apply none x0 x1 p q
  · exact Cert.LibLayout.bias_apply x2 _ _ p q

/-- The second body's value at entry (p, q): the first body's row p against column q of the head matrix, plus the
    head's bias at q. -/
theorem head_block_entry (x0 : FVec Ideal S5000x512 .bf16) (x1 : FVec Ideal S512x128 .bf16) (x2 : FVec Ideal S128 .f32)
    (x3 : FVec Ideal S128x32 .bf16) (x4 : FVec Ideal S32 .f32) (p : Fin 5000) (q : Fin 32) :
    k1_pay1 (F := Ideal) x0 x1 x2 x3 x4 (ix2 p q)
      = (∑ k : Fin 128, max ((∑ c : Fin 512, x0 (ix2 p c) * x1 (ix2 c k)) + x2 (ix1 k)) 0 * x3 (ix2 k q)) + x4 (ix1 q) := by
  unfold k1_pay1
  show matmul (DotDims.plain 5000 128 32) none (truncf .bf16 (k0_pay1 (F := Ideal) x0 x1 x2) bitsLt_bf16_f32)
        (shapeCast S128x32 x3 shapeCasts_S128x32_S128x32) (constant (F := Ideal) S5000x32 .f32 0x00000000#32) (ix2 p q)
      + broadcastTo S5000x32 (shapeCast S1x32 x4 shapeCasts_S32_S1x32) broadcasts_S1x32_S5000x32 (ix2 p q) = _
  rw [shapeCast_self]
  refine congrArg₂ (· + ·) ?_ ?_
  · refine (Cert.PlainDot.matmul_zero_plain_apply none _ x3 p q).trans (Finset.sum_congr rfl fun k _ => ?_)
    exact congrArg (· * x3 (ix2 k q)) (layer_block_entry x0 x1 x2 p k)
  · exact Cert.LibLayout.bias_apply x4 _ _ p q

/-- The first body's entry (p, q) is entry (n, q) of the whole-array layer function, when the block's row p is the
    array's row n and the weights' column q and the bias at q are the arrays'. -/
theorem layer_entry_of_rows (X : FVec Ideal S50000x512 .bf16) (W : FVec Ideal S512x128 .bf16) (b : FVec Ideal S128 .f32)
    (x0 : FVec Ideal S5000x512 .bf16) (x1 : FVec Ideal S512x128 .bf16) (x2 : FVec Ideal S128 .f32)
    (n : Fin 50000) (p : Fin 5000) (q : Fin 128)
    (h0 : ∀ k : Fin 512, x0 (ix2 p k) = X (ix2 n k)) (h1 : ∀ k : Fin 512, x1 (ix2 k q) = W (ix2 k q))
    (h2 : x2 (ix1 q) = b (ix1 q)) :
    k0_pay1 (F := Ideal) x0 x1 x2 (ix2 p q) = G0 X W b (ix2 n q) := by
  refine (layer_block_entry x0 x1 x2 p q).trans ?_
  show _ = max ((∑ c : Fin 512, X (ix2 n c) * W (ix2 c q)) + b (ix1 q)) 0
  refine congrArg (fun z => max z 0) (congrArg₂ (· + ·) (Finset.sum_congr rfl fun k _ => ?_) h2)
  exact congrArg₂ (· * ·) (h0 k) (h1 k)

/-- The second body's entry (p, q) is entry (n, q) of the whole-array function with the head, under the same reading of
    the blocks. -/
theorem head_entry_of_rows (X : FVec Ideal S50000x512 .bf16) (W : FVec Ideal S512x128 .bf16) (b : FVec Ideal S128 .f32)
    (L : FVec Ideal S128x32 .bf16) (lb : FVec Ideal S32 .f32)
    (x0 : FVec Ideal S5000x512 .bf16) (x1 : FVec Ideal S512x128 .bf16) (x2 : FVec Ideal S128 .f32)
    (x3 : FVec Ideal S128x32 .bf16) (x4 : FVec Ideal S32 .f32)
    (n : Fin 50000) (p : Fin 5000) (q : Fin 32)
    (h0 : ∀ k : Fin 512, x0 (ix2 p k) = X (ix2 n k)) (h1 : ∀ (k : Fin 512) (j : Fin 128), x1 (ix2 k j) = W (ix2 k j))
    (h2 : ∀ j : Fin 128, x2 (ix1 j) = b (ix1 j)) (h3 : ∀ k : Fin 128, x3 (ix2 k q) = L (ix2 k q))
    (h4 : x4 (ix1 q) = lb (ix1 q)) :
    k1_pay1 (F := Ideal) x0 x1 x2 x3 x4 (ix2 p q) = G1 X W b L lb (ix2 n q) := by
  refine (head_block_entry x0 x1 x2 x3 x4 p q).trans ?_
  show _ = (∑ k : Fin 128, G0 X W b (ix2 n k) * L (ix2 k q)) + lb (ix1 q)
  refine congrArg₂ (· + ·) (Finset.sum_congr rfl fun k _ => ?_) h4
  refine congrArg₂ (· * ·) ?_ (h3 k)
  refine (layer_block_entry x0 x1 x2 p k).symm.trans ?_
  exact layer_entry_of_rows X W b x0 x1 x2 n p k h0 (fun c => h1 c k) (h2 k)

end Cert.KernelIdeal.KValue

end
-- ==== Proof.KValue0.lean ====
/-
  What the first kernel region leaves in its result array.

  The region runs on ten grid points. Point t stages rows 5000·t … 5000·t + 4999 of the 50000 × 512 matrix of stacked
  rows, the whole 512 × 128 matrix of stacked weights and the whole bias, and writes back rows 5000·t … 5000·t + 4999 of
  the 50000 × 128 result. An entry of a row block of the result reads one row of the block of stacked rows, so what
  point t writes back is the row block of ONE function of the whole arrays, `G0`: row n of the stacked rows against
  the weights, plus the bias, clamped at zero. Row r of the result lies in the block of point r / 5000, so the ten
  blocks cover the array and it ends holding `G0`.
-/
import proofs.«181974_j41549513621817_2_alg».proof.Proof.FrameKI
import proofs.«181974_j41549513621817_2_alg».proof.Proof.KSpec
import proofs.«181974_j41549513621817_2_alg».proof.Proof.KValueLemmas
import Idealize.ShloMosaic.Lib.Pipeline.Value
import Idealize.ShloMosaic.Lib.Tactic

noncomputable section

open scoped BigOperators
open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Gen.Hand Idealize.ShloMosaic.ValueIdx

variable (V : (c : Dev nD) → (b : Ref sig .tc) → Buf (Elt Ideal) ((c : Thread nD τ).loc b))

/-- The block indices over the grid: point t's blocks of the stacked rows and of the result are block t down the rows;
    the weights and the bias are one block each. -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row p of point t's block of stacked rows is row 5000·t + p of the array. -/
theorem rows_block0 (c : Dev nD) (t : Fin cfg0.N) (p : Fin 5000) (k : Fin 512) (n : Fin 50000)
    (hn : n.val = 5000 * t.val + p.val) :
    (iblk0 (F := Ideal) V c 0 t : FVec Ideal S5000x512 .bf16) (ix2 p k)
      = (V c main_v102 : FVec Ideal S50000x512 .bf16) (ix2 n k) := by
  obtain ⟨e0, e1, -⟩ := block_index0 t
  unfold iblk0
  rw [View.read_apply]
  show V c main_v102 _ = V c main_v102 _
  refine congrArg (V c main_v102) ?_
  funext a
  apply Fin.ext
  match a with
  | ⟨0, _⟩ => show win0_0.index t 0 * 5000 + 1 * p.val = n.val; rw [e0, hn]; omega
  | ⟨1, _⟩ => show win0_0.index t 1 * 512 + 1 * k.val = k.val; rw [e1]; omega

/-- Every point's block of the weights is the whole matrix. -/
theorem weights_block0 (c : Dev nD) (t : Fin cfg0.N) (k : Fin 512) (q : Fin 128) :
    (iblk0 (F := Ideal) V c 1 t : FVec Ideal S512x128 .bf16) (ix2 k q)
      = (V c main_v113 : FVec Ideal S512x128 .bf16) (ix2 k q) := by
  obtain ⟨-, -, e0, e1, -⟩ := block_index0 t
  unfold iblk0
  rw [View.read_apply]
  show V c main_v113 _ = V c main_v113 _
  refine congrArg (V c main_v113) ?_
  funext a
  apply Fin.ext
  match a with
  | ⟨0, _⟩ => show win0_1.index t 0 * 512 + 1 * k.val = k.val; rw [e0]; omega
  | ⟨1, _⟩ => show win0_1.index t 1 * 128 + 1 * q.val = q.val; rw [e1]; omega

/-- Every point's block of the bias is the whole vector. -/
theorem bias_block0 (c : Dev nD) (t : Fin cfg0.N) (q : Fin 128) :
    (iblk0 (F := Ideal) V c 2 t : FVec Ideal S128 .f32) (ix1 q) = (V c main_v116 : FVec Ideal S128 .f32) (ix1 q) := by
  obtain ⟨-, -, -, -, e0, -⟩ := block_index0 t
  unfold iblk0
  rw [View.read_apply]
  show V c main_v116 _ = V c main_v116 _
  refine congrArg (V c main_v116) ?_
  funext a
  apply Fin.ext
  match a with
  | ⟨0, _⟩ => show win0_2.index t 0 * 128 + 1 * q.val = q.val; rw [e0]; omega

/-- What point t writes back is the row block at t of `G0` of the arrays the region is entered with. -/
theorem flushed_eq0 (c : Dev nD) (t : Fin cfg0.N) :
    (dat0 (F := Ideal) V c).flushed 3 t
      = ((cfg0.win 3).blk t).view.read (Elt Ideal) (G0 (V c main_v102) (V c main_v113) (V c main_v116)) := by
  show (cfg0.win 3).cut (grid0.coords t) ((dat0 V c).after 3 t) = _
  rw [after0_3]
  unfold out0_3
  rw [View.canon_unit_zero zeros2]
  simp only [View.ld_unit_zero (S := S5000x512) zeros2, View.ld_unit_zero (S := S512x128) zeros2,
    View.ld_unit_zero (S := S128) zeros1]
  obtain ⟨-, -, -, -, -, e0, e1⟩ := block_index0 t
  have hN : cfg0.N = 10 := N_0
  have ht : t.val < cfg0.N := t.isLt
  funext j
  obtain ⟨p, q, rfl⟩ : ∃ (p : Fin 5000) (q : Fin 128), j = ix2 p q := ⟨j 0, j 1, eq_ix2 j⟩
  have hp : p.val < 5000 := p.isLt
  rw [View.read_apply]
  show k0_pay1 (F := Ideal) (iblk0 V c 0 t) (iblk0 V c 1 t) (iblk0 V c 2 t) (ix2 p q)
    = G0 (V c main_v102) (V c main_v113) (V c main_v116) (((cfg0.win 3).blk t).view.emb (ix2 p q))
  have e : ((cfg0.win 3).blk t).view.emb (ix2 p q) = ix2 (⟨5000 * t.val + p.val, by omega⟩ : Fin 50000) q := by
    funext a
    apply Fin.ext
    match a with
    | ⟨0, _⟩ => show win0_3.index t 0 * 5000 + 1 * p.val = 5000 * t.val + p.val; rw [e0]; omega
    | ⟨1, _⟩ => show win0_3.index t 1 * 128 + 1 * q.val = q.val; rw [e1]; omega
  rw [e]
  exact layer_entry_of_rows (V c main_v102) (V c main_v113) (V c main_v116) (iblk0 V c 0 t) (iblk0 V c 1 t) (iblk0 V c 2 t)
    ⟨5000 * t.val + p.val, by omega⟩ p q (fun k => rows_block0 V c t p k _ rfl) (fun k => weights_block0 V c t k q)
    (bias_block0 V c t q)

/-- An index of the result array is in point t's block iff each coordinate is in the block's range on its axis. -/
theorem mem_block0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v117).slice (win0_3.rect t)).set ↔ _
  rw [View.set_slice_whole, Rect.mem_set_unit]
  exact Iff.rfl

/-- Row r of the result is in the block of point r / 5000. -/
theorem cover0 (i : S50000x128.Idx) :
    ∃ t : Fin cfg0.N, (cfg0.win 3).flush t = true ∧ i ∈ ((cfg0.win 3).blk t).view.set := by
  have hN : cfg0.N = 10 := N_0
  have hi0 : (i 0).val < 50000 := (i 0).isLt
  have hi1 : (i 1).val < 128 := (i 1).isLt
  obtain ⟨t, ht⟩ : ∃ t : Fin cfg0.N, t.val = (i 0).val / 5000 := ⟨⟨(i 0).val / 5000, by omega⟩, rfl⟩
  obtain ⟨-, -, -, -, -, e0, e1⟩ := block_index0 t
  refine ⟨t, flush0_3 t, ?_⟩
  rw [mem_block0]
  intro a
  match a with
  | ⟨0, _⟩ =>
    show win0_3.index t 0 * 5000 ≤ (i 0).val ∧ (i 0).val < win0_3.index t 0 * 5000 + 5000
    rw [e0, ht]; omega
  | ⟨1, _⟩ =>
    show win0_3.index t 1 * 128 ≤ (i 1).val ∧ (i 1).val < win0_3.index t 1 * 128 + 128
    rw [e1]; omega

/-- The result array after the region: `G0` of the arrays the region is entered with. -/
theorem final0 (c : Dev nD) :
    (dat0 (F := Ideal) V c).arrAt 3 cfg0.N = G0 (V c main_v102) (V c main_v113) (V c main_v116) :=
  (dat0 V c).arrAt_eq_of_cover 3 (G0 (V c main_v102) (V c main_v113) (V c main_v116))
    (fun t _ => flushed_eq0 V c t) cover0

end Cert.KernelIdeal.KValue

end
-- ==== Proof.KValue1.lean ====
/-
  What the second kernel region leaves in its result array.

  The region runs on ten grid points. Point t stages rows 5000·t … 5000·t + 4999 of the 50000 × 512 matrix of stacked
  rows, and whole: the 512 × 128 stacked weights, the bias, the 128 × 32 head matrix and the head's bias; it writes back
  rows 5000·t … 5000·t + 4999 of the 50000 × 32 result. An entry of a row block of the result reads one row of the block
  of stacked rows, so what point t writes back is the row block of ONE function of the whole arrays, `G1`: the layer
  function `G0` followed by the linear head. Row r of the result lies in the block of point r / 5000, so the ten blocks
  cover the array and it ends holding `G1`.
-/
import proofs.«181974_j41549513621817_2_alg».proof.Proof.FrameKI
import proofs.«181974_j41549513621817_2_alg».proof.Proof.KSpec
import proofs.«181974_j41549513621817_2_alg».proof.Proof.KValueLemmas
import Idealize.ShloMosaic.Lib.Pipeline.Value
import Idealize.ShloMosaic.Lib.Tactic

noncomputable section

open scoped BigOperators
open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Gen.Hand Idealize.ShloMosaic.ValueIdx

variable (V : (c : Dev nD) → (b : Ref sig .tc) → Buf (Elt Ideal) ((c : Thread nD τ).loc b))

/-- The block indices over the grid: point t's blocks of the stacked rows and of the result are block t down the rows;
    the weights, the bias, the head matrix and the head's bias are one block each. -/
theorem block_index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row p of point t's block of stacked rows is row 5000·t + p of the array. -/
theorem rows_block1 (c : Dev nD) (t : Fin cfg1.N) (p : Fin 5000) (k : Fin 512) (n : Fin 50000)
    (hn : n.val = 5000 * t.val + p.val) :
    (iblk1 (F := Ideal) V c 0 t : FVec Ideal S5000x512 .bf16) (ix2 p k)
      = (V c main_v183 : FVec Ideal S50000x512 .bf16) (ix2 n k) := by
  obtain ⟨e0, e1, -⟩ := block_index1 t
  unfold iblk1
  rw [View.read_apply]
  show V c main_v183 _ = V c main_v183 _
  refine congrArg (V c main_v183) ?_
  funext a
  apply Fin.ext
  match a with
  | ⟨0, _⟩ => show win1_0.index t 0 * 5000 + 1 * p.val = n.val; rw [e0, hn]; omega
  | ⟨1, _⟩ => show win1_0.index t 1 * 512 + 1 * k.val = k.val; rw [e1]; omega

/-- Every point's block of the weights is the whole matrix. -/
theorem weights_block1 (c : Dev nD) (t : Fin cfg1.N) (k : Fin 512) (q : Fin 128) :
    (iblk1 (F := Ideal) V c 1 t : FVec Ideal S512x128 .bf16) (ix2 k q)
      = (V c main_v194 : FVec Ideal S512x128 .bf16) (ix2 k q) := by
  obtain ⟨-, -, e0, e1, -⟩ := block_index1 t
  unfold iblk1
  rw [View.read_apply]
  show V c main_v194 _ = V c main_v194 _
  refine congrArg (V c main_v194) ?_
  funext a
  apply Fin.ext
  match a with
  | ⟨0, _⟩ => show win1_1.index t 0 * 512 + 1 * k.val = k.val; rw [e0]; omega
  | ⟨1, _⟩ => show win1_1.index t 1 * 128 + 1 * q.val = q.val; rw [e1]; omega

/-- Every point's block of the bias is the whole vector. -/
theorem bias_block1 (c : Dev nD) (t : Fin cfg1.N) (q : Fin 128) :
    (iblk1 (F := Ideal) V c 2 t : FVec Ideal S128 .f32) (ix1 q) = (V c main_v197 : FVec Ideal S128 .f32) (ix1 q) := by
  obtain ⟨-, -, -, -, e0, -⟩ := block_index1 t
  unfold iblk1
  rw [View.read_apply]
  show V c main_v197 _ = V c main_v197 _
  refine congrArg (V c main_v197) ?_
  funext a
  apply Fin.ext
  match a with
  | ⟨0, _⟩ => show win1_2.index t 0 * 128 + 1 * q.val = q.val; rw [e0]; omega

/-- Every point's block of the head matrix is the whole matrix. -/
theorem head_block1 (c : Dev nD) (t : Fin cfg1.N) (k : Fin 128) (q : Fin 32) :
    (iblk1 (F := Ideal) V c 3 t : FVec Ideal S128x32 .bf16) (ix2 k q)
      = (V c main_v198 : FVec Ideal S128x32 .bf16) (ix2 k q) := by
  obtain ⟨-, -, -, -, -, e0, e1, -⟩ := block_index1 t
  unfold iblk1
  rw [View.read_apply]
  show V c main_v198 _ = V c main_v198 _
  refine congrArg (V c main_v198) ?_
  funext a
  apply Fin.ext
  match a with
  | ⟨0, _⟩ => show win1_3.index t 0 * 128 + 1 * k.val = k.val; rw [e0]; omega
  | ⟨1, _⟩ => show win1_3.index t 1 * 32 + 1 * q.val = q.val; rw [e1]; omega

/-- Every point's block of the head's bias is the whole vector. -/
theorem headbias_block1 (c : Dev nD) (t : Fin cfg1.N) (q : Fin 32) :
    (iblk1 (F := Ideal) V c 4 t : FVec Ideal S32 .f32) (ix1 q) = (V c main_arg6 : FVec Ideal S32 .f32) (ix1 q) := by
  obtain ⟨-, -, -, -, -, -, -, e0, -⟩ := block_index1 t
  unfold iblk1
  rw [View.read_apply]
  show V c main_arg6 _ = V c main_arg6 _
  refine congrArg (V c main_arg6) ?_
  funext a
  apply Fin.ext
  match a with
  | ⟨0, _⟩ => show win1_4.index t 0 * 32 + 1 * q.val = q.val; rw [e0]; omega

/-- What point t writes back is the row block at t of `G1` of the arrays the region is entered with. -/
theorem flushed_eq1 (c : Dev nD) (t : Fin cfg1.N) :
    (dat1 (F := Ideal) V c).flushed 5 t
      = ((cfg1.win 5).blk t).view.read (Elt Ideal)
          (G1 (V c main_v183) (V c main_v194) (V c main_v197) (V c main_v198) (V c main_arg6)) := by
  show (cfg1.win 5).cut (grid1.coords t) ((dat1 V c).after 5 t) = _
  rw [after1_5]
  unfold out1_5
  rw [View.canon_unit_zero zeros2]
  simp only [View.ld_unit_zero (S := S5000x512) zeros2, View.ld_unit_zero (S := S512x128) zeros2,
    View.ld_unit_zero (S := S128) zeros1, View.ld_unit_zero (S := S128x32) zeros2, View.ld_unit_zero (S := S32) zeros1]
  obtain ⟨-, -, -, -, -, -, -, -, e0, e1⟩ := block_index1 t
  have hN : cfg1.N = 10 := N_1
  have ht : t.val < cfg1.N := t.isLt
  funext j
  obtain ⟨p, q, rfl⟩ : ∃ (p : Fin 5000) (q : Fin 32), j = ix2 p q := ⟨j 0, j 1, eq_ix2 j⟩
  have hp : p.val < 5000 := p.isLt
  rw [View.read_apply]
  show k1_pay1 (F := Ideal) (iblk1 V c 0 t) (iblk1 V c 1 t) (iblk1 V c 2 t) (iblk1 V c 3 t) (iblk1 V c 4 t) (ix2 p q)
    = G1 (V c main_v183) (V c main_v194) (V c main_v197) (V c main_v198) (V c main_arg6)
        (((cfg1.win 5).blk t).view.emb (ix2 p q))
  have e : ((cfg1.win 5).blk t).view.emb (ix2 p q) = ix2 (⟨5000 * t.val + p.val, by omega⟩ : Fin 50000) q := by
    funext a
    apply Fin.ext
    match a with
    | ⟨0, _⟩ => show win1_5.index t 0 * 5000 + 1 * p.val = 5000 * t.val + p.val; rw [e0]; omega
    | ⟨1, _⟩ => show win1_5.index t 1 * 32 + 1 * q.val = q.val; rw [e1]; omega
  rw [e]
  exact head_entry_of_rows (V c main_v183) (V c main_v194) (V c main_v197) (V c main_v198) (V c main_arg6)
    (iblk1 V c 0 t) (iblk1 V c 1 t) (iblk1 V c 2 t) (iblk1 V c 3 t) (iblk1 V c 4 t)
    ⟨5000 * t.val + p.val, by omega⟩ p q (fun k => rows_block1 V c t p k _ rfl) (fun k j => weights_block1 V c t k j)
    (fun j => bias_block1 V c t j) (fun k => head_block1 V c t k q) (headbias_block1 V c t q)

/-- An index of the result array is in point t's block iff each coordinate is in the block's range on its axis. -/
theorem mem_block1 (t : Fin cfg1.N) (i : S50000x32.Idx) :
    i ∈ ((cfg1.win 5).blk t).view.set ↔ ∀ a : Fin 2, win1_5.index t a * S5000x32.size a ≤ (i a).val
      ∧ (i a).val < win1_5.index t a * S5000x32.size a + S5000x32.size a := by
  show i ∈ ((View.whole main_v199).slice (win1_5.rect t)).set ↔ _
  rw [View.set_slice_whole, Rect.mem_set_unit]
  exact Iff.rfl

/-- Row r of the result is in the block of point r / 5000. -/
theorem cover1 (i : S50000x32.Idx) :
    ∃ t : Fin cfg1.N, (cfg1.win 5).flush t = true ∧ i ∈ ((cfg1.win 5).blk t).view.set := by
  have hN : cfg1.N = 10 := N_1
  have hi0 : (i 0).val < 50000 := (i 0).isLt
  have hi1 : (i 1).val < 32 := (i 1).isLt
  obtain ⟨t, ht⟩ : ∃ t : Fin cfg1.N, t.val = (i 0).val / 5000 := ⟨⟨(i 0).val / 5000, by omega⟩, rfl⟩
  obtain ⟨-, -, -, -, -, -, -, -, e0, e1⟩ := block_index1 t
  refine ⟨t, flush1_5 t, ?_⟩
  rw [mem_block1]
  intro a
  match a with
  | ⟨0, _⟩ =>
    show win1_5.index t 0 * 5000 ≤ (i 0).val ∧ (i 0).val < win1_5.index t 0 * 5000 + 5000
    rw [e0, ht]; omega
  | ⟨1, _⟩ =>
    show win1_5.index t 1 * 32 ≤ (i 1).val ∧ (i 1).val < win1_5.index t 1 * 32 + 32
    rw [e1]; omega

/-- The result array after the region: `G1` of the arrays the region is entered with. -/
theorem final1 (c : Dev nD) :
    (dat1 (F := Ideal) V c).arrAt 5 cfg1.N
      = G1 (V c main_v183) (V c main_v194) (V c main_v197) (V c main_v198) (V c main_arg6) :=
  (dat1 V c).arrAt_eq_of_cover 5 (G1 (V c main_v183) (V c main_v194) (V c main_v197) (V c main_v198) (V c main_arg6))
    (fun t _ => flushed_eq1 V c t) cover1

end Cert.KernelIdeal.KValue

end
-- ==== Proof.KHostTerms.lean ====
/-
  What the two stretches of host operations leave in the buffers the regions read, as terms over what the buffers held
  when the stretch started.

  Both stretches form, for a node-feature matrix h: the three neighbour row sums of h, each multiplied entry by entry
  with the reciprocal of its relation's clamped in-degree (one column per relation, kept stacked [3, 50000, 1] and
  spread over the 128 feature columns); the three products stacked [3, 50000, 128] and cut apart again; and h with the
  three products laid side by side, [50000, 512].  They also stack the layer's weights — the three root matrices summed
  from zero, then the three neighbour matrices, one under another, [512, 128] — and sum the layer's three bias vectors
  from zero.  The first stretch computes the stacked reciprocal degrees; the second finds them where the first left
  them.  The gather and the scatter-adds stay inside the row sums and the clamped degree: nothing here opens them.
-/
import proofs.«181974_j41549513621817_2_alg».proof.Proof.Gen.KernelIdeal.Launch
import proofs.«181974_j41549513621817_2_alg».proof.Proof.AggK

noncomputable section

namespace Cert.KernelIdeal.KHost

open Cert.KernelIdeal Cert.KernelIdeal.Gen Cert.KernelIdeal.Agg Idealize.ShloMosaic Idealize.ShloMosaic.ValueIdx

/-! ## The reciprocal clamped degrees -/

/-- One over the clamped in-degree of the target words d, as a column [50000, 1]. -/
def invCol (d : EdgeVec) : FVec Ideal S50000x1 .f32 :=
  broadcastInDim S50000x1 ![0] bcast_S50000_S50000x1_0
    (Host.divf (F := Ideal) (broadcastInDim S50000 ![] bcast_S_S50000 (constant (F := Ideal) S_ .f32 0x3F800000#32)) (degcOf d))

/-- Three columns stacked along a new leading axis, [3, 50000, 1]. -/
def stackCols (c0 c1 c2 : FVec Ideal S50000x1 .f32) : FVec Ideal S3x50000x1 .f32 :=
  concatenate S3x50000x1 0
    [⟨S1x50000x1, broadcastInDim S1x50000x1 ![1, 2] bcast_S50000x1_S1x50000x1_1_2 c0⟩,
     ⟨S1x50000x1, broadcastInDim S1x50000x1 ![1, 2] bcast_S50000x1_S1x50000x1_1_2 c1⟩,
     ⟨S1x50000x1, broadcastInDim S1x50000x1 ![1, 2] bcast_S50000x1_S1x50000x1_1_2 c2⟩]
    concatenates_S1x50000x1_S1x50000x1_S1x50000x1_S3x50000x1_d0

/-- The three reciprocal clamped degrees as the first stretch stacks them, [3, 50000, 1]. -/
def invStack (e : Agg.Edges) : FVec Ideal S3x50000x1 .f32 :=
  stackCols (invCol (dst0 e)) (invCol (dst1 e)) (invCol (dst2 e))

/-- Column 0, 1, 2 of a stack of columns, spread over the 128 feature columns. -/
def spread0 (inv : FVec Ideal S3x50000x1 .f32) : FVec Ideal S50000x128 .f32 :=
  broadcastInDim S50000x128 ![0, 1] bcast_S50000x1_S50000x128_0_1
    (shapeCast S50000x1 (extractStridedSlice S1x50000x1 ![0, 0, 0] inv slices_S3x50000x1_S1x50000x1_0_0_0) shapeCasts_S1x50000x1_S50000x1)
def spread1 (inv : FVec Ideal S3x50000x1 .f32) : FVec Ideal S50000x128 .f32 :=
  broadcastInDim S50000x128 ![0, 1] bcast_S50000x1_S50000x128_0_1
    (shapeCast S50000x1 (extractStridedSlice S1x50000x1 ![1, 0, 0] inv slices_S3x50000x1_S1x50000x1_1_0_0) shapeCasts_S1x50000x1_S50000x1)
def spread2 (inv : FVec Ideal S3x50000x1 .f32) : FVec Ideal S50000x128 .f32 :=
  broadcastInDim S50000x128 ![0, 1] bcast_S50000x1_S50000x128_0_1
    (shapeCast S50000x1 (extractStridedSlice S1x50000x1 ![2, 0, 0] inv slices_S3x50000x1_S1x50000x1_2_0_0) shapeCasts_S1x50000x1_S50000x1)

/-! ## The stacked row -/

/-- Three matrices stacked along a new leading axis, [3, 50000, 128]. -/
def stackMats (m0 m1 m2 : FVec Ideal S50000x128 .f32) : FVec Ideal S3x50000x128 .f32 :=
  concatenate S3x50000x128 0
    [⟨S1x50000x128, broadcastInDim S1x50000x128 ![1, 2] bcast_S50000x128_S1x50000x128_1_2 m0⟩,
     ⟨S1x50000x128, broadcastInDim S1x50000x128 ![1, 2] bcast_S50000x128_S1x50000x128_1_2 m1⟩,
     ⟨S1x50000x128, broadcastInDim S1x50000x128 ![1, 2] bcast_S50000x128_S1x50000x128_1_2 m2⟩]
    concatenates_S1x50000x128_S1x50000x128_S1x50000x128_S3x50000x128_d0

/-- Matrix 0, 1, 2 of a stack of matrices. -/
def slab0 (s : FVec Ideal S3x50000x128 .f32) : FVec Ideal S50000x128 .f32 :=
  shapeCast S50000x128 (extractStridedSlice S1x50000x128 ![0, 0, 0] s slices_S3x50000x128_S1x50000x128_0_0_0) shapeCasts_S1x50000x128_S50000x128
def slab1 (s : FVec Ideal S3x50000x128 .f32) : FVec Ideal S50000x128 .f32 :=
  shapeCast S50000x128 (extractStridedSlice S1x50000x128 ![1, 0, 0] s slices_S3x50000x128_S1x50000x128_1_0_0) shapeCasts_S1x50000x128_S50000x128
def slab2 (s : FVec Ideal S3x50000x128 .f32) : FVec Ideal S50000x128 .f32 :=
  shapeCast S50000x128 (extractStridedSlice S1x50000x128 ![2, 0, 0] s slices_S3x50000x128_S1x50000x128_2_0_0) shapeCasts_S1x50000x128_S50000x128

/-- A matrix and three more laid side by side after a trip through one stack, [50000, 512]. -/
def sideBySide (h m0 m1 m2 : FVec Ideal S50000x128 .f32) : FVec Ideal S50000x512 .bf16 :=
  truncf .bf16 (concatenate S50000x512 1
    [⟨S50000x128, h⟩, ⟨S50000x128, slab0 (stackMats m0 m1 m2)⟩, ⟨S50000x128, slab1 (stackMats m0 m1 m2)⟩,
     ⟨S50000x128, slab2 (stackMats m0 m1 m2)⟩]
    concatenates_S50000x128_S50000x128_S50000x128_S50000x128_S50000x512_d1) bitsLt_bf16_f32

/-- The stacked row of a stretch: h beside its three neighbour row sums, each scaled by its column of inv. -/
def xTerm (inv : FVec Ideal S3x50000x1 .f32) (e : Agg.Edges) (h : FVec Ideal S50000x128 .f32) : FVec Ideal S50000x512 .bf16 :=
  sideBySide h (mulf (rowSums (src0 e) (dst0 e) h) (spread0 inv)) (mulf (rowSums (src1 e) (dst1 e) h) (spread1 inv))
    (mulf (rowSums (src2 e) (dst2 e) h) (spread2 inv))

/-! ## The stacked weights and the summed bias -/

/-- The three root matrices of one layer summed from zero: the layer's slab of the stack (offset off), its three matrices
    added up along the leading axis. -/
def rootSum (Wr : FVec Ideal S2x3x128x128 .f32) (off : Fin 4 → ℕ) (hs : S2x3x128x128.Slices off S1x3x128x128) :
    FVec Ideal S128x128 .f32 :=
  Host.reduceAdd (F := Ideal)
    (shapeCast S3x128x128 (extractStridedSlice S1x3x128x128 off Wr hs) shapeCasts_S1x3x128x128_S3x128x128)
    (constant (F := Ideal) S_ .f32 0x00000000#32) reducesTo_S3x128x128_S128x128_d0 h_S_

/-- One neighbour matrix of the stack (offset off) as a matrix. -/
def neighMat (Wn : FVec Ideal S2x3x128x128 .f32) (off : Fin 4 → ℕ) (hs : S2x3x128x128.Slices off S1x1x128x128) :
    FVec Ideal S128x128 .f32 :=
  shapeCast S128x128 (extractStridedSlice S1x1x128x128 off Wn hs) shapeCasts_S1x1x128x128_S128x128

/-- Four matrices laid one under another, [512, 128]. -/
def oneUnderAnother (a b c d : FVec Ideal S128x128 .f32) : FVec Ideal S512x128 .bf16 :=
  truncf .bf16 (concatenate S512x128 0 [⟨S128x128, a⟩, ⟨S128x128, b⟩, ⟨S128x128, c⟩, ⟨S128x128, d⟩]
    concatenates_S128x128_S128x128_S128x128_S128x128_S512x128_d0) bitsLt_bf16_f32

/-- The three bias vectors of one layer (offset off) summed from zero. -/
def biasSum (B : FVec Ideal S2x3x128 .f32) (off : Fin 3 → ℕ) (hs : S2x3x128.Slices off S1x3x128) : FVec Ideal S128 .f32 :=
  Host.reduceAdd (F := Ideal)
    (shapeCast S3x128 (extractStridedSlice S1x3x128 off B hs) shapeCasts_S1x3x128_S3x128)
    (constant (F := Ideal) S_ .f32 0x00000000#32) reducesTo_S3x128_S128_d0 h_S_

end Cert.KernelIdeal.KHost

end
-- ==== Proof.LibStackLayout.lean ====
/-
  The layout steps of the host stretches, read at an entry.

  The stretches move data in a handful of ways, each of which reads ONE entry of its operand:
  * a vector [a] stood up as a column [a, 1]; a column [a, 1] spread over b columns [a, b]; a matrix [a, b] given a
    leading unit axis [1, a, b];
  * three [1, a, b] slabs stacked to [3, a, b], and slab r cut back out and viewed [a, b] again — together the identity
    on slab r;
  * four [r, b] matrices laid side by side ([r, 4·b]: column c is column c % b of piece c / b), and four [b, c]
    matrices laid one under another ([4·b, c]: row r is row r % b of piece r / b);
  * layer l of a [2, 3, m, n] stack as the three matrices [3, m, n], one matrix (l, r) of it as [m, n], and layer l of
    a [2, 3, n] stack of vectors as [3, n];
  * the sum over the leading axis of a [3, m, n] or [3, n] array from an initial value: initial value plus the three
    entries' sum.
-/
import Idealize.ShloMosaic.Lib.Pipeline.Value
import Idealize.ShloMosaic.Lib.ValueIdx
import Idealize.ShloMosaic.Lib.IdealHost

noncomputable section

namespace Cert.Lib.StackLayout

open Idealize.ShloMosaic Idealize.ShloMosaic.ValueIdx
open scoped BigOperators

variable {α : Type}

/-! ## Unit axes added and spread -/

/-- A vector [a] stood up as a column [a, 1]: entry (p, 0) is entry p. -/
theorem column_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column [a, 1] spread over b columns: entry (p, q) is the column's entry p. -/
theorem spread_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A matrix [a, b] given a leading unit axis: entry (0, p, q) is entry (p, q). -/
theorem lead_apply {a b : ℕ} (x : (⟨2, ![a, b]⟩ : Shape).Idx → α)
    (h : (⟨2, ![a, b]⟩ : Shape).BroadcastsInDim ⟨3, ![1, a, b]⟩ ![1, 2]) (u : Fin 1) (p : Fin a) (q : Fin b) :
    broadcastInDim ⟨3, ![1, a, b]⟩ ![1, 2] h x (ix3 u p q) = x (ix2 p q) := by
  refine broadcastInDim_apply _ h x (ix3 u p q) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-! ## Three slabs stacked, and one cut back out -/

/-- Three [1, a, b] slabs stacked along the leading axis: entry (r, p, q) is entry (0, p, q) of slab r. -/
theorem stack3_apply {a b : ℕ} (y : Fin 3 → (⟨3, ![1, a, b]⟩ : Shape).Idx → α)
    (h : Shape.Concatenates (([⟨⟨3, ![1, a, b]⟩, y 0⟩, ⟨⟨3, ![1, a, b]⟩, y 1⟩, ⟨⟨3, ![1, a, b]⟩, y 2⟩] :
      List ((s : Shape) × (s.Idx → α))).map (·.1)) ⟨3, ![3, a, b]⟩ (0 : Fin 3))
    (r : Fin 3) (p : Fin a) (q : Fin b) :
    concatenate ⟨3, ![3, a, b]⟩ (0 : Fin 3) [⟨⟨3, ![1, a, b]⟩, y 0⟩, ⟨⟨3, ![1, a, b]⟩, y 1⟩, ⟨⟨3, ![1, a, b]⟩, y 2⟩] h (ix3 r p q)
      = y r (ix3 (0 : Fin 1) p q) :=
  concatenate_ofFn_apply (t := ⟨3, ![3, a, b]⟩) (s₁ := ⟨3, ![1, a, b]⟩) (0 : Fin 3) y h rfl 1 rfl (ix3 r p q) r (Nat.div_one _) (ix3 (0 : Fin 1) p q)
    (Nat.mod_one _).symm fun bb hb => by
      match bb with
      | ⟨0, _⟩ => exact absurd rfl hb
      | ⟨1, _⟩ => rfl
      | ⟨2, _⟩ => rfl

/-- Slab r of a [3, a, b] array cut out and viewed [a, b]: entry (p, q) is entry (r, p, q). -/
theorem unstack_apply {a b : ℕ} (x : (⟨3, ![3, a, b]⟩ : Shape).Idx → α) (off : Fin 3 → ℕ)
    (hs : (⟨3, ![3, a, b]⟩ : Shape).Slices off ⟨3, ![1, a, b]⟩) (hc : (⟨3, ![1, a, b]⟩ : Shape).ShapeCasts ⟨2, ![a, b]⟩)
    (r : Fin 3) (h0 : off 0 = r.val) (h1 : off 1 = 0) (h2 : off 2 = 0) (p : Fin a) (q : Fin b) :
    shapeCast ⟨2, ![a, b]⟩ (extractStridedSlice ⟨3, ![1, a, b]⟩ off x hs) hc (ix2 p q) = x (ix3 r p q) := by
  refine (shapeCast_apply _ hc (ix2 p q) (ix3 (0 : Fin 1) p q) ?_).trans
    (extractStridedSlice_apply off x hs (ix3 (0 : Fin 1) p q) (ix3 r p q) fun ax => ?_)
  · rw [Shape.rowMajor_val_three, Shape.rowMajor_val_two]
    show (0 * a + p.val) * b + q.val = p.val * b + q.val
    simp only [Nat.zero_mul, Nat.zero_add]
  · match ax with
    | ⟨0, _⟩ => show r.val = off 0 + 0; omega
    | ⟨1, _⟩ => show p.val = off 1 + p.val; omega
    | ⟨2, _⟩ => show q.val = off 2 + q.val; omega

/-- Three matrices given a leading unit axis and stacked, then slab r cut back out and viewed as a matrix: matrix r. -/
theorem stack_unstack_apply {a b : ℕ} (y : Fin 3 → (⟨2, ![a, b]⟩ : Shape).Idx → α)
    (hl : (⟨2, ![a, b]⟩ : Shape).BroadcastsInDim ⟨3, ![1, a, b]⟩ ![1, 2])
    (h : Shape.Concatenates (([⟨⟨3, ![1, a, b]⟩, broadcastInDim ⟨3, ![1, a, b]⟩ ![1, 2] hl (y 0)⟩,
      ⟨⟨3, ![1, a, b]⟩, broadcastInDim ⟨3, ![1, a, b]⟩ ![1, 2] hl (y 1)⟩,
      ⟨⟨3, ![1, a, b]⟩, broadcastInDim ⟨3, ![1, a, b]⟩ ![1, 2] hl (y 2)⟩] :
      List ((s : Shape) × (s.Idx → α))).map (·.1)) ⟨3, ![3, a, b]⟩ (0 : Fin 3))
    (off : Fin 3 → ℕ) (hs : (⟨3, ![3, a, b]⟩ : Shape).Slices off ⟨3, ![1, a, b]⟩)
    (hc : (⟨3, ![1, a, b]⟩ : Shape).ShapeCasts ⟨2, ![a, b]⟩)
    (r : Fin 3) (h0 : off 0 = r.val) (h1 : off 1 = 0) (h2 : off 2 = 0) (p : Fin a) (q : Fin b) :
    shapeCast ⟨2, ![a, b]⟩ (extractStridedSlice ⟨3, ![1, a, b]⟩ off
      (concatenate ⟨3, ![3, a, b]⟩ (0 : Fin 3) [⟨⟨3, ![1, a, b]⟩, broadcastInDim ⟨3, ![1, a, b]⟩ ![1, 2] hl (y 0)⟩,
        ⟨⟨3, ![1, a, b]⟩, broadcastInDim ⟨3, ![1, a, b]⟩ ![1, 2] hl (y 1)⟩,
        ⟨⟨3, ![1, a, b]⟩, broadcastInDim ⟨3, ![1, a, b]⟩ ![1, 2] hl (y 2)⟩] h) hs) hc (ix2 p q) = y r (ix2 p q) := by
  rw [unstack_apply _ off hs hc r h0 h1 h2 p q]
  exact (stack3_apply (fun k => broadcastInDim ⟨3, ![1, a, b]⟩ ![1, 2] hl (y k)) h r p q).trans
    (lead_apply (y r) hl (0 : Fin 1) p q)

/-! ## Four pieces side by side, and one under another -/

/-- Four [r, b] matrices laid side by side: column c of the result is column c % b of piece c / b. -/
theorem cols4_apply {r b n : ℕ} (x : Fin 4 → (⟨2, ![r, b]⟩ : Shape).Idx → α)
    (h : Shape.Concatenates (([⟨⟨2, ![r, b]⟩, x 0⟩, ⟨⟨2, ![r, b]⟩, x 1⟩, ⟨⟨2, ![r, b]⟩, x 2⟩, ⟨⟨2, ![r, b]⟩, x 3⟩] :
      List ((s : Shape) × (s.Idx → α))).map (·.1)) ⟨2, ![r, n]⟩ (1 : Fin 2))
    (p : Fin r) (c : Fin n) (g : Fin 4) (k : Fin b) (hg : c.val / b = g.val) (hk : k.val = c.val % b) :
    concatenate ⟨2, ![r, n]⟩ (1 : Fin 2) [⟨⟨2, ![r, b]⟩, x 0⟩, ⟨⟨2, ![r, b]⟩, x 1⟩, ⟨⟨2, ![r, b]⟩, x 2⟩, ⟨⟨2, ![r, b]⟩, x 3⟩] h (ix2 p c)
      = x g (ix2 p k) :=
  concatenate_ofFn_apply (t := ⟨2, ![r, n]⟩) (s₁ := ⟨2, ![r, b]⟩) (1 : Fin 2) x h rfl b rfl (ix2 p c) g hg (ix2 p k) hk fun bb hb => by
    match bb with
    | ⟨0, _⟩ => rfl
    | ⟨1, _⟩ => exact absurd rfl hb

/-- Four [b, c] matrices laid one under another: row r of the result is row r % b of piece r / b. -/
theorem rows4_apply {b c n : ℕ} (x : Fin 4 → (⟨2, ![b, c]⟩ : Shape).Idx → α)
    (h : Shape.Concatenates (([⟨⟨2, ![b, c]⟩, x 0⟩, ⟨⟨2, ![b, c]⟩, x 1⟩, ⟨⟨2, ![b, c]⟩, x 2⟩, ⟨⟨2, ![b, c]⟩, x 3⟩] :
      List ((s : Shape) × (s.Idx → α))).map (·.1)) ⟨2, ![n, c]⟩ (0 : Fin 2))
    (r : Fin n) (j : Fin c) (g : Fin 4) (k : Fin b) (hg : r.val / b = g.val) (hk : k.val = r.val % b) :
    concatenate ⟨2, ![n, c]⟩ (0 : Fin 2) [⟨⟨2, ![b, c]⟩, x 0⟩, ⟨⟨2, ![b, c]⟩, x 1⟩, ⟨⟨2, ![b, c]⟩, x 2⟩, ⟨⟨2, ![b, c]⟩, x 3⟩] h (ix2 r j)
      = x g (ix2 k j) :=
  concatenate_ofFn_apply (t := ⟨2, ![n, c]⟩) (s₁ := ⟨2, ![b, c]⟩) (0 : Fin 2) x h rfl b rfl (ix2 r j) g hg (ix2 k j) hk fun bb hb => by
    match bb with
    | ⟨0, _⟩ => exact absurd rfl hb
    | ⟨1, _⟩ => rfl

/-! ## Layers of the stacked parameters -/

/-- Layer l of a [2, 3, m, n] stack as three matrices [3, m, n]: entry (r, k, j) is entry (l, r, k, j). -/
theorem layer3_apply {m n : ℕ} (x : (⟨4, ![2, 3, m, n]⟩ : Shape).Idx → α) (off : Fin 4 → ℕ)
    (hs : (⟨4, ![2, 3, m, n]⟩ : Shape).Slices off ⟨4, ![1, 3, m, n]⟩)
    (hc : (⟨4, ![1, 3, m, n]⟩ : Shape).ShapeCasts ⟨3, ![3, m, n]⟩)
    (l : Fin 2) (h0 : off 0 = l.val) (h1 : off 1 = 0) (h2 : off 2 = 0) (h3 : off 3 = 0)
    (r : Fin 3) (k : Fin m) (j : Fin n) :
    shapeCast ⟨3, ![3, m, n]⟩ (extractStridedSlice ⟨4, ![1, 3, m, n]⟩ off x hs) hc (ix3 r k j) = x (ix4 l r k j) := by
  refine (shapeCast_apply _ hc (ix3 r k j) (ix4 (0 : Fin 1) r k j) ?_).trans
    (extractStridedSlice_apply off x hs (ix4 (0 : Fin 1) r k j) (ix4 l r k j) fun ax => ?_)
  · rw [Shape.rowMajor_val_four, Shape.rowMajor_val_three]
    show ((0 * 3 + r.val) * m + k.val) * n + j.val = (r.val * m + k.val) * n + j.val
    simp only [Nat.zero_mul, Nat.zero_add]
  · match ax with
    | ⟨0, _⟩ => show l.val = off 0 + 0; omega
    | ⟨1, _⟩ => show r.val = off 1 + r.val; omega
    | ⟨2, _⟩ => show k.val = off 2 + k.val; omega
    | ⟨3, _⟩ => show j.val = off 3 + j.val; omega

/-- Matrix (l, r) of a [2, 3, m, n] stack as a matrix [m, n]: entry (k, j) is entry (l, r, k, j). -/
theorem layer1_apply {m n : ℕ} (x : (⟨4, ![2, 3, m, n]⟩ : Shape).Idx → α) (off : Fin 4 → ℕ)
    (hs : (⟨4, ![2, 3, m, n]⟩ : Shape).Slices off ⟨4, ![1, 1, m, n]⟩)
    (hc : (⟨4, ![1, 1, m, n]⟩ : Shape).ShapeCasts ⟨2, ![m, n]⟩)
    (l : Fin 2) (r : Fin 3) (h0 : off 0 = l.val) (h1 : off 1 = r.val) (h2 : off 2 = 0) (h3 : off 3 = 0)
    (k : Fin m) (j : Fin n) :
    shapeCast ⟨2, ![m, n]⟩ (extractStridedSlice ⟨4, ![1, 1, m, n]⟩ off x hs) hc (ix2 k j) = x (ix4 l r k j) := by
  refine (shapeCast_apply _ hc (ix2 k j) (ix4 (0 : Fin 1) (0 : Fin 1) k j) ?_).trans
    (extractStridedSlice_apply off x hs (ix4 (0 : Fin 1) (0 : Fin 1) k j) (ix4 l r k j) fun ax => ?_)
  · rw [Shape.rowMajor_val_four, Shape.rowMajor_val_two]
    show ((0 * 1 + 0) * m + k.val) * n + j.val = k.val * n + j.val
    simp only [Nat.zero_mul, Nat.zero_add]
  · match ax with
    | ⟨0, _⟩ => show l.val = off 0 + 0; omega
    | ⟨1, _⟩ => show r.val = off 1 + 0; omega
    | ⟨2, _⟩ => show k.val = off 2 + k.val; omega
    | ⟨3, _⟩ => show j.val = off 3 + j.val; omega

/-- Layer l of a [2, 3, n] stack of vectors as [3, n]: entry (r, j) is entry (l, r, j). -/
theorem layerB_apply {n : ℕ} (x : (⟨3, ![2, 3, n]⟩ : Shape).Idx → α) (off : Fin 3 → ℕ)
    (hs : (⟨3, ![2, 3, n]⟩ : Shape).Slices off ⟨3, ![1, 3, n]⟩)
    (hc : (⟨3, ![1, 3, n]⟩ : Shape).ShapeCasts ⟨2, ![3, n]⟩)
    (l : Fin 2) (h0 : off 0 = l.val) (h1 : off 1 = 0) (h2 : off 2 = 0) (r : Fin 3) (j : Fin n) :
    shapeCast ⟨2, ![3, n]⟩ (extractStridedSlice ⟨3, ![1, 3, n]⟩ off x hs) hc (ix2 r j) = x (ix3 l r j) := by
  refine (shapeCast_apply _ hc (ix2 r j) (ix3 (0 : Fin 1) r j) ?_).trans
    (extractStridedSlice_apply off x hs (ix3 (0 : Fin 1) r j) (ix3 l r j) fun ax => ?_)
  · rw [Shape.rowMajor_val_three, Shape.rowMajor_val_two]
    show (0 * 3 + r.val) * n + j.val = r.val * n + j.val
    simp only [Nat.zero_mul, Nat.zero_add]
  · match ax with
    | ⟨0, _⟩ => show l.val = off 0 + 0; omega
    | ⟨1, _⟩ => show r.val = off 1 + r.val; omega
    | ⟨2, _⟩ => show j.val = off 2 + j.val; omega

/-! ## Sums over the leading axis -/

/-- The sum of a [3, m, n] array over its leading axis from an initial value: at (k, j), the initial value plus the
    three entries (r, k, j). -/
theorem sum3_mat_apply {m n : ℕ} {u : Shape} (x : FVec Ideal ⟨3, ![3, m, n]⟩ .f32) (init : u.Idx → Ideal .f32)
    (h' : (⟨3, ![3, m, n]⟩ : Shape).ReducesTo [0] ⟨2, ![m, n]⟩) (hu : 0 < u.numel) (k : Fin m) (j : Fin n) :
    Host.reduceAdd x init h' hu (ix2 k j) = init (Shape.Idx.first hu) + ∑ r : Fin 3, x (ix3 r k j) := by
  have h : (⟨3, ![3, m, n]⟩ : Shape).Reduces [0] ⟨2, ![m, n]⟩ := ⟨h'.1, Nat.two_pos, h'.2⟩
  show Ideal.hostReduceAdd h' x _ (ix2 k j) = _
  rw [Ideal.hostReduceAdd_single h' h]
  refine congrArg (_ + ·) (Finset.sum_congr rfl fun r _ => ?_)
  refine congrArg x (funext fun a => Fin.ext ?_)
  match a with
  | ⟨0, _⟩ => rfl
  | ⟨1, _⟩ => rfl
  | ⟨2, _⟩ => rfl

/-- The sum of a [3, n] array over its leading axis from an initial value: at j, the initial value plus the three
    entries (r, j). -/
theorem sum3_vec_apply {n : ℕ} {u : Shape} (x : FVec Ideal ⟨2, ![3, n]⟩ .f32) (init : u.Idx → Ideal .f32)
    (h' : (⟨2, ![3, n]⟩ : Shape).ReducesTo [0] ⟨1, ![n]⟩) (hu : 0 < u.numel) (j : Fin n) :
    Host.reduceAdd x init h' hu (ix1 j) = init (Shape.Idx.first hu) + ∑ r : Fin 3, x (ix2 r j) := by
  have h : (⟨2, ![3, n]⟩ : Shape).Reduces [0] ⟨1, ![n]⟩ := ⟨h'.1, Nat.one_pos, h'.2⟩
  show Ideal.hostReduceAdd h' x _ (ix1 j) = _
  rw [Ideal.hostReduceAdd_single h' h]
  refine congrArg (_ + ·) (Finset.sum_congr rfl fun r _ => ?_)
  refine congrArg x (funext fun a => Fin.ext ?_)
  match a with
  | ⟨0, _⟩ => rfl
  | ⟨1, _⟩ => rfl

end Cert.Lib.StackLayout

end
-- ==== Proof.KHostRead.lean ====
/-
  The stretches' terms read at an entry.

  * The stacked reciprocal degrees, relation r's column spread over the feature columns, at (n, k): one over the
    clamped in-degree of node n for relation r — the constant the program divides is the word of 1.
  * The stacked row at (n, c): piece c / 128 at column c % 128, where piece 0 is the node's own features and piece
    r + 1 is relation r's neighbour row sum times the reciprocal of its clamped in-degree (the trip of the three scaled
    sums through one [3, 50000, 128] stack and back is the identity).
  * The stacked weights at (c, j): piece c / 128 at row c % 128, where piece 0 is zero plus the layer's three root
    matrices' entries and piece r + 1 is the layer's neighbour matrix r.
  * The summed bias at j: zero plus the layer's three bias entries.
-/
import proofs.«181974_j41549513621817_2_alg».proof.Proof.KHostTerms
import proofs.«181974_j41549513621817_2_alg».proof.Proof.LibStackLayout
import Idealize.ShloMosaic.Lib.IdealHost

noncomputable section

namespace Cert.KernelIdeal.KHost

open Cert.KernelIdeal Cert.KernelIdeal.Gen Cert.KernelIdeal.Agg Idealize.ShloMosaic Idealize.ShloMosaic.ValueIdx
open Cert.Lib.StackLayout
open scoped BigOperators

/-! ## The reciprocal degrees -/

/-- One over a vector of degrees, as a column [50000, 1]. -/
def recipCol (dg : FVec Ideal S50000 .f32) : FVec Ideal S50000x1 .f32 :=
  broadcastInDim S50000x1 ![0] bcast_S50000_S50000x1_0
    (Host.divf (F := Ideal) (broadcastInDim S50000 ![] bcast_S_S50000 (constant (F := Ideal) S_ .f32 0x3F800000#32)) dg)

/-- The column of reciprocal clamped degrees is one over the clamped degree. -/
theorem invCol_eq (d : EdgeVec) : invCol d = recipCol (degcOf d) := rfl

/-- One over a degree vector at node n: the constant the program divides is the word of 1. -/
theorem recipCol_apply (dg : FVec Ideal S50000 .f32) (n : Fin 50000) (u : Fin 1) :
    recipCol dg (ix2 n u) = Ideal.div 1 (dg (ix1 n)) := by
  refine (column_apply _ bcast_S50000_S50000x1_0 n u).trans ?_
  refine (hostDivf_apply _ _ _).trans ?_
  rw [broadcastInDim_scalar_apply, constant_apply, Ideal.ofBits_one_f32]

/-- Column r of three stacked columns, spread over the feature columns, at (n, k): column r at node n. -/
theorem spread_stackCols_apply (c : Fin 3 → FVec Ideal S50000x1 .f32) (off : Fin 3 → ℕ)
    (hs : S3x50000x1.Slices off S1x50000x1) (r : Fin 3) (h0 : off 0 = r.val) (h1 : off 1 = 0) (h2 : off 2 = 0)
    (n : Fin 50000) (k : Fin 128) :
    broadcastInDim S50000x128 ![0, 1] bcast_S50000x1_S50000x128_0_1
      (shapeCast S50000x1 (extractStridedSlice S1x50000x1 off (stackCols (c 0) (c 1) (c 2)) hs) shapeCasts_S1x50000x1_S50000x1)
      (ix2 n k) = c r (ix2 n (0 : Fin 1)) :=
  (spread_apply _ bcast_S50000x1_S50000x128_0_1 n k).trans
    (stack_unstack_apply c bcast_S50000x1_S1x50000x1_1_2 concatenates_S1x50000x1_S1x50000x1_S1x50000x1_S3x50000x1_d0
      off hs shapeCasts_S1x50000x1_S50000x1 r h0 h1 h2 n (0 : Fin 1))

/-! ## The stacked row -/

/-- Matrix r of three stacked matrices is matrix r. -/
theorem slab_stackMats_apply (m : Fin 3 → FVec Ideal S50000x128 .f32) (off : Fin 3 → ℕ)
    (hs : S3x50000x128.Slices off S1x50000x128) (r : Fin 3) (h0 : off 0 = r.val) (h1 : off 1 = 0) (h2 : off 2 = 0)
    (n : Fin 50000) (k : Fin 128) :
    shapeCast S50000x128 (extractStridedSlice S1x50000x128 off (stackMats (m 0) (m 1) (m 2)) hs)
      shapeCasts_S1x50000x128_S50000x128 (ix2 n k) = m r (ix2 n k) :=
  stack_unstack_apply m bcast_S50000x128_S1x50000x128_1_2
    concatenates_S1x50000x128_S1x50000x128_S1x50000x128_S3x50000x128_d0 off hs shapeCasts_S1x50000x128_S50000x128 r h0 h1 h2 n k

/-- A matrix beside three more, at (n, c): piece c / 128 at column c % 128, the pieces read by f. -/
theorem sideBySide_apply (h m0 m1 m2 : FVec Ideal S50000x128 .f32) (f : Fin 4 → Fin 128 → EReal) (n : Fin 50000)
    (hf : ∀ (g : Fin 4) (k : Fin 128), (![h, m0, m1, m2] : Fin 4 → FVec Ideal S50000x128 .f32) g (ix2 n k) = f g k)
    (c : Fin 512) : sideBySide h m0 m1 m2 (ix2 n c) = Spec.band4 f c := by
  have hg : c.val / 128 < 4 := by have := c.isLt; omega
  have hk : c.val % 128 < 128 := Nat.mod_lt _ (by decide)
  refine (cols4_apply ![h, slab0 (stackMats m0 m1 m2), slab1 (stackMats m0 m1 m2), slab2 (stackMats m0 m1 m2)]
    concatenates_S50000x128_S50000x128_S50000x128_S50000x128_S50000x512_d1 n c ⟨c.val / 128, hg⟩ ⟨c.val % 128, hk⟩ rfl rfl).trans ?_
  show _ = f ⟨c.val / 128, _⟩ ⟨c.val % 128, _⟩
  refine Eq.trans ?_ (hf ⟨c.val / 128, hg⟩ ⟨c.val % 128, hk⟩)
  generalize (⟨c.val % 128, hk⟩ : Fin 128) = k
  generalize (⟨c.val / 128, hg⟩ : Fin 4) = g
  match g with
  | 0 => rfl
  | 1 => exact slab_stackMats_apply ![m0, m1, m2] ![0, 0, 0] slices_S3x50000x128_S1x50000x128_0_0_0 0 rfl rfl rfl n k
  | 2 => exact slab_stackMats_apply ![m0, m1, m2] ![1, 0, 0] slices_S3x50000x128_S1x50000x128_1_0_0 1 rfl rfl rfl n k
  | 3 => exact slab_stackMats_apply ![m0, m1, m2] ![2, 0, 0] slices_S3x50000x128_S1x50000x128_2_0_0 2 rfl rfl rfl n k

/-- A matrix beside three more, each of the three scaled by its column of one stack of columns, at (n, c). -/
theorem scaledRow_apply (h s0 s1 s2 : FVec Ideal S50000x128 .f32) (c0 c1 c2 : FVec Ideal S50000x1 .f32)
    (n : Fin 50000) (c : Fin 512) :
    sideBySide h (mulf s0 (spread0 (stackCols c0 c1 c2))) (mulf s1 (spread1 (stackCols c0 c1 c2)))
        (mulf s2 (spread2 (stackCols c0 c1 c2))) (ix2 n c)
      = Spec.band4 ![fun k => h (ix2 n k), fun k => s0 (ix2 n k) * c0 (ix2 n (0 : Fin 1)),
          fun k => s1 (ix2 n k) * c1 (ix2 n (0 : Fin 1)), fun k => s2 (ix2 n k) * c2 (ix2 n (0 : Fin 1))] c := by
  refine sideBySide_apply h _ _ _ _ n (fun g k => ?_) c
  match g with
  | 0 => rfl
  | 1 =>
    exact congrArg (s0 (ix2 n k) * ·)
      (spread_stackCols_apply ![c0, c1, c2] ![0, 0, 0] slices_S3x50000x1_S1x50000x1_0_0_0 0 rfl rfl rfl n k)
  | 2 =>
    exact congrArg (s1 (ix2 n k) * ·)
      (spread_stackCols_apply ![c0, c1, c2] ![1, 0, 0] slices_S3x50000x1_S1x50000x1_1_0_0 1 rfl rfl rfl n k)
  | 3 =>
    exact congrArg (s2 (ix2 n k) * ·)
      (spread_stackCols_apply ![c0, c1, c2] ![2, 0, 0] slices_S3x50000x1_S1x50000x1_2_0_0 2 rfl rfl rfl n k)

/-- The mathematics' stacked row of node n, relation by relation. -/
theorem kerX_eq (A : Fin 3 → Spec.Mat 50000 128 → Spec.Mat 50000 128) (D : Fin 3 → Spec.Vc 50000) (h : Spec.Mat 50000 128)
    (n : Fin 50000) :
    Spec.kerX A D h n = ![fun k => h (ix2 n k), fun k => A 0 h (ix2 n k) * Ideal.div 1 (D 0 (ix1 n)),
      fun k => A 1 h (ix2 n k) * Ideal.div 1 (D 1 (ix1 n)), fun k => A 2 h (ix2 n k) * Ideal.div 1 (D 2 (ix1 n))] := rfl

theorem agg_zero (e : Agg.Edges) : agg e 0 = rowSums (src0 e) (dst0 e) := by unfold agg; rfl
theorem agg_one (e : Agg.Edges) : agg e 1 = rowSums (src1 e) (dst1 e) := by unfold agg; rfl
theorem agg_two (e : Agg.Edges) : agg e 2 = rowSums (src2 e) (dst2 e) := by unfold agg; rfl
theorem degc_zero (e : Agg.Edges) : degc e 0 = degcOf (dst0 e) := by unfold degc; rfl
theorem degc_one (e : Agg.Edges) : degc e 1 = degcOf (dst1 e) := by unfold degc; rfl
theorem degc_two (e : Agg.Edges) : degc e 2 = degcOf (dst2 e) := by unfold degc; rfl

/-- The stretch's stacked row, written out over the row sums and the reciprocal columns. -/
theorem xTerm_eq (e : Agg.Edges) (h : FVec Ideal S50000x128 .f32) :
    xTerm (invStack e) e h
      = sideBySide h
          (mulf (rowSums (src0 e) (dst0 e) h) (spread0 (stackCols (recipCol (degcOf (dst0 e))) (recipCol (degcOf (dst1 e))) (recipCol (degcOf (dst2 e))))))
          (mulf (rowSums (src1 e) (dst1 e) h) (spread1 (stackCols (recipCol (degcOf (dst0 e))) (recipCol (degcOf (dst1 e))) (recipCol (degcOf (dst2 e))))))
          (mulf (rowSums (src2 e) (dst2 e) h) (spread2 (stackCols (recipCol (degcOf (dst0 e))) (recipCol (degcOf (dst1 e))) (recipCol (degcOf (dst2 e)))))) := by
  unfold xTerm invStack
  rw [invCol_eq, invCol_eq, invCol_eq]

/-- The stacked row with the stretch's own reciprocal degrees, at (n, c): the mathematics' stacked row of node n. -/
theorem xTerm_apply (e : Agg.Edges) (h : FVec Ideal S50000x128 .f32) (n : Fin 50000) (c : Fin 512) :
    xTerm (invStack e) e h (ix2 n c) = Spec.band4 (Spec.kerX (agg e) (degc e) h n) c := by
  have key := scaledRow_apply h (rowSums (src0 e) (dst0 e) h) (rowSums (src1 e) (dst1 e) h) (rowSums (src2 e) (dst2 e) h)
    (recipCol (degcOf (dst0 e))) (recipCol (degcOf (dst1 e))) (recipCol (degcOf (dst2 e))) n c
  rw [recipCol_apply, recipCol_apply, recipCol_apply] at key
  rw [xTerm_eq, kerX_eq, agg_zero, agg_one, agg_two, degc_zero, degc_one, degc_two]
  exact key

/-! ## The stacked weights and the summed bias -/

/-- The layer's three root matrices summed from zero, at (k, j). -/
theorem rootSum_apply (Wr : FVec Ideal S2x3x128x128 .f32) (off : Fin 4 → ℕ) (hs : S2x3x128x128.Slices off S1x3x128x128)
    (l : Fin 2) (h0 : off 0 = l.val) (h1 : off 1 = 0) (h2 : off 2 = 0) (h3 : off 3 = 0) (k j : Fin 128) :
    rootSum Wr off hs (ix2 k j) = 0 + ∑ r : Fin 3, Spec.sliceW Wr l r (ix2 k j) := by
  refine (sum3_mat_apply _ _ reducesTo_S3x128x128_S128x128_d0 h_S_ k j).trans ?_
  refine congrArg₂ (· + ·) ?_ (Finset.sum_congr rfl fun r _ => ?_)
  · exact Ideal.ofBits_zero_f32
  · exact layer3_apply Wr off hs shapeCasts_S1x3x128x128_S3x128x128 l h0 h1 h2 h3 r k j

/-- One neighbour matrix of the stack, at (k, j). -/
theorem neighMat_apply (Wn : FVec Ideal S2x3x128x128 .f32) (off : Fin 4 → ℕ) (hs : S2x3x128x128.Slices off S1x1x128x128)
    (l : Fin 2) (r : Fin 3) (h0 : off 0 = l.val) (h1 : off 1 = r.val) (h2 : off 2 = 0) (h3 : off 3 = 0) (k j : Fin 128) :
    neighMat Wn off hs (ix2 k j) = Spec.sliceW Wn l r (ix2 k j) :=
  layer1_apply Wn off hs shapeCasts_S1x1x128x128_S128x128 l r h0 h1 h2 h3 k j

/-- Four matrices one under another, at (c, j): piece c / 128 at row c % 128, the pieces read by f. -/
theorem oneUnderAnother_apply (a b c d : FVec Ideal S128x128 .f32) (f : Fin 4 → Fin 128 → EReal) (j : Fin 128)
    (hf : ∀ (g : Fin 4) (k : Fin 128), (![a, b, c, d] : Fin 4 → FVec Ideal S128x128 .f32) g (ix2 k j) = f g k)
    (r : Fin 512) : oneUnderAnother a b c d (ix2 r j) = Spec.band4 f r := by
  have hg : r.val / 128 < 4 := by have := r.isLt; omega
  have hk : r.val % 128 < 128 := Nat.mod_lt _ (by decide)
  refine (rows4_apply ![a, b, c, d] concatenates_S128x128_S128x128_S128x128_S128x128_S512x128_d0 r j
    ⟨r.val / 128, hg⟩ ⟨r.val % 128, hk⟩ rfl rfl).trans ?_
  exact hf ⟨r.val / 128, hg⟩ ⟨r.val % 128, hk⟩

/-- The stacked weights of layer l, at (c, j): the mathematics' stacked weights, column j. -/
theorem weights_apply (Wn Wr : FVec Ideal S2x3x128x128 .f32) (l : Fin 2)
    (oR o0 o1 o2 : Fin 4 → ℕ) (hR : S2x3x128x128.Slices oR S1x3x128x128) (hs0 : S2x3x128x128.Slices o0 S1x1x128x128)
    (hs1 : S2x3x128x128.Slices o1 S1x1x128x128) (hs2 : S2x3x128x128.Slices o2 S1x1x128x128)
    (eR : oR = ![l.val, 0, 0, 0]) (e0 : o0 = ![l.val, 0, 0, 0]) (e1 : o1 = ![l.val, 1, 0, 0]) (e2 : o2 = ![l.val, 2, 0, 0])
    (c : Fin 512) (j : Fin 128) :
    oneUnderAnother (rootSum Wr oR hR) (neighMat Wn o0 hs0) (neighMat Wn o1 hs1) (neighMat Wn o2 hs2) (ix2 c j)
      = Spec.band4 (Spec.kerW (Spec.sliceW Wn l) (Spec.sliceW Wr l) j) c := by
  subst eR e0 e1 e2
  refine oneUnderAnother_apply _ _ _ _ _ j (fun g k => ?_) c
  match g with
  | 0 => exact rootSum_apply Wr _ hR l rfl rfl rfl rfl k j
  | 1 => exact neighMat_apply Wn _ hs0 l 0 rfl rfl rfl rfl k j
  | 2 => exact neighMat_apply Wn _ hs1 l 1 rfl rfl rfl rfl k j
  | 3 => exact neighMat_apply Wn _ hs2 l 2 rfl rfl rfl rfl k j

/-- The summed bias of layer l, at j: the mathematics' summed bias. -/
theorem biasSum_apply (B : FVec Ideal S2x3x128 .f32) (off : Fin 3 → ℕ) (hs : S2x3x128.Slices off S1x3x128)
    (l : Fin 2) (h0 : off 0 = l.val) (h1 : off 1 = 0) (h2 : off 2 = 0) (j : Fin 128) :
    biasSum B off hs (ix1 j) = Spec.kerB (Spec.sliceB B l) j := by
  refine (sum3_vec_apply _ _ reducesTo_S3x128_S128_d0 h_S_ j).trans ?_
  refine congrArg₂ (· + ·) ?_ (Finset.sum_congr rfl fun r _ => ?_)
  · exact Ideal.ofBits_zero_f32
  · exact layerB_apply B off hs shapeCasts_S1x3x128_S3x128 l h0 h1 h2 r j

end Cert.KernelIdeal.KHost

end
-- ==== Proof.LibNaryThree.lean ====
/-
  A stretch of host operations as a term: the result of a three-operand operation with each operand's contents read at
  its own reference, so that the operands' own results can be rewritten in turn, and the rewriting of a whole stretch's
  result buffer to the composed term of its operations, in one pass.
-/
import Idealize.ShloMosaic.Lib.StableHlo.Run

noncomputable section

namespace Cert.Lib.NaryThree

open Idealize.ShloMosaic Idealize.ShloMosaic.StableHlo

variable {τ : Topo} {sig : RefSig} {Val : EltTy → Type}

/-- An operation over a literal family of three references (a concatenate of three operands): its result with each
    operand's contents at its own reference. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The third entry of a family built entry by entry. -/
theorem cons_two {n : ℕ} {α : Fin (n + 3) → Sort _} (x : α 0) (p : ∀ i : Fin (n + 2), α i.succ) :
    (Fin.cons x p : ∀ i, α i) 2 = p 1 := rfl

/-- The fourth entry of a family built entry by entry. -/
theorem cons_three {n : ℕ} {α : Fin (n + 4) → Sort _} (x : α 0) (p : ∀ i : Fin (n + 3), α i.succ) :
    (Fin.cons x p : ∀ i, α i) 3 = p 2 := rfl

/-- Rewrites 'after ops V' at a reference to the composed term of the operations, in one pass: each operation's result
    at its own result buffer becomes its function applied to its operands' contents, at any other reference what was
    there; the operands of a three- or four-operand operation are read at their own references. -/
macro "host_results" : tactic =>
  `(tactic| (simp (disch := decide) only [after_cons, after_nil,
      nullary_result', unary_result', binary_result', ternary_result', quaternary_result', reshape_result',
      nary3_result', nary4_result',
      nullary_result_ne', unary_result_ne', binary_result_ne', ternary_result_ne', quaternary_result_ne', reshape_result_ne',
      nary_result_ne', Fin.cons_zero, Fin.cons_one, cons_two, cons_three]))

end Cert.Lib.NaryThree

end
-- ==== Proof.LibRunPieces.lean ====
/-
  Two facts for reading a long host program's run in pieces.

  The buffer contents after a list of host operations are a fold of the operations' results.  Over a concatenation the
  fold runs the first part and then the second from what the first left: a long program can be read up to an intermediate
  buffer and then from it, instead of as one term.

  An operation of a called function is stated at the tensor value's type and carried to the buffer's own type and back
  along the reference's type equation.  Carrying there and back is the identity, whatever the equation's proof: where one
  operation's output feeds the next, the two carryings cancel by rewriting, and nothing has to be unfolded.  (Left to
  definitional unfolding, a reduction over a large shape on one side and its carried form on the other can make the
  unifier evaluate the reduction.)
-/
import Idealize.ShloMosaic.Lib.StableHlo.Run

noncomputable section

namespace Cert.Lib.RunPieces

open Idealize.ShloMosaic Idealize.ShloMosaic.StableHlo

variable {τ : Topo} {sig : RefSig} {Val : EltTy → Type}

/-- Running a concatenation of operations is running its halves in turn. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents carried to a typed reference's own buffer type and back are the contents. -/
theorem ofBuf_toBuf {T : BufTy} (x : TRef sig T) (v : T.Contents Val) : x.ofBuf (x.toBuf v) = v := by
  unfold TRef.ofBuf TRef.toBuf
  rw [cast_cast, cast_eq]

/-- Contents of the buffer's own type carried to the value's type and back are the contents. -/
theorem toBuf_ofBuf {T : BufTy} (x : TRef sig T) (w : x.ref.ty.Contents Val) : x.toBuf (x.ofBuf w) = w := by
  unfold TRef.ofBuf TRef.toBuf
  rw [cast_cast, cast_eq]

end Cert.Lib.RunPieces

end
-- ==== Proof.KHostPieces0.lean ====
/-
  The first stretch of host operations cut into the pieces the mathematics has, and what each piece leaves.

  Three degree blocks, one per relation: the relation's target words, a one added up at every target from zero — the
  in-degree —, its maximum with one, and one divided by it, laid as a column. The block that stacks the three columns.
  Three relation blocks: the relation's neighbour row sums of the node features times its column of the stack. The block
  that stacks the three products, cuts them apart again and lays them beside the node features. The layer's stacked
  weights, and its summed bias. Each piece's result is a term over what the piece found, and a piece keeps every buffer
  it does not write; the degree blocks and the stack together leave the reciprocal degrees formed from the edge array.
-/
import proofs.«181974_j41549513621817_2_alg».proof.Proof.KHostTerms
import proofs.«181974_j41549513621817_2_alg».proof.Proof.LibNaryThree
import proofs.«181974_j41549513621817_2_alg».proof.Proof.LibRunPieces

set_option maxRecDepth 16384

noncomputable section

namespace Cert.KernelIdeal.KHost

open Cert.KernelIdeal Cert.KernelIdeal.Gen Cert.KernelIdeal.Agg Idealize.ShloMosaic Idealize.ShloMosaic.ValueIdx
open Cert.Lib.NaryThree Idealize.ShloMosaic.StableHlo

section Pieces

variable {F : FTy → Type} [FloatOps F]

/-- Relation 0's degree block: its target words, a one added up at every target from zero, the maximum with one, one divided by it, laid as a column. -/
abbrev h0d0 : List (HloOp τ sig (Elt F)) :=
  [ StableHlo.unary main_arg1 main_v0 ((extractStridedSlice S1x1x640000 ![0, 1, 0] · slices_S3x2x640000_S1x1x640000_0_1_0) : (⟨S3x2x640000, .i32⟩ : BufTy).Contents (Elt F) → (⟨S1x1x640000, .i32⟩ : BufTy).Contents (Elt F)),
    StableHlo.reshape main_v0 main_v1 rfl shapeCasts_S1x1x640000_S640000,
    StableHlo.nullary main_cst (constant S_ .f32 0x3F800000#32),
    StableHlo.unary main_cst main_v2 (broadcastInDim S640000 ![] bcast_S_S640000 : (⟨S_, .f32⟩ : BufTy).Contents (Elt F) → (⟨S640000, .f32⟩ : BufTy).Contents (Elt F)),
    StableHlo.nullary main_cst_0 (constant S_ .f32 0x00000000#32),
    StableHlo.unary main_cst_0 main_v3 (broadcastInDim S50000 ![] bcast_S_S50000 : (⟨S_, .f32⟩ : BufTy).Contents (Elt F) → (⟨S50000, .f32⟩ : BufTy).Contents (Elt F)),
    StableHlo.unary main_v1 main_v4 (broadcastInDim S640000x1 ![0] bcast_S640000_S640000x1_0 : (⟨S640000, .i32⟩ : BufTy).Contents (Elt F) → (⟨S640000x1, .i32⟩ : BufTy).Contents (Elt F)),
    StableHlo.ternary main_v3 main_v4 main_v2 main_v5 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    StableHlo.nullary main_cst_1 (constant S_ .f32 0x3F800000#32),
    StableHlo.unary main_cst_1 main_v6 (broadcastInDim S50000 ![] bcast_S_S50000 : (⟨S_, .f32⟩ : BufTy).Contents (Elt F) → (⟨S50000, .f32⟩ : BufTy).Contents (Elt F)),
    StableHlo.binary main_v5 main_v6 main_v7 (maximumf : (⟨S50000, .f32⟩ : BufTy).Contents (Elt F) → (⟨S50000, .f32⟩ : BufTy).Contents (Elt F) → (⟨S50000, .f32⟩ : BufTy).Contents (Elt F)),
    StableHlo.nullary main_cst_2 (constant S_ .f32 0x3F800000#32),
    StableHlo.unary main_cst_2 main_v8 (broadcastInDim S50000 ![] bcast_S_S50000 : (⟨S_, .f32⟩ : BufTy).Contents (Elt F) → (⟨S50000, .f32⟩ : BufTy).Contents (Elt F)),
    StableHlo.binary main_v8 main_v7 main_v9 (Host.divf : (⟨S50000, .f32⟩ : BufTy).Contents (Elt F) → (⟨S50000, .f32⟩ : BufTy).Contents (Elt F) → (⟨S50000, .f32⟩ : BufTy).Contents (Elt F)),
    StableHlo.unary main_v9 main_v10 (broadcastInDim S50000x1 ![0] bcast_S50000_S50000x1_0 : (⟨S50000, .f32⟩ : BufTy).Contents (Elt F) → (⟨S50000x1, .f32⟩ : BufTy).Contents (Elt F)) ]

/-- Relation 1's degree block. -/
abbrev h0d1 : List (HloOp τ sig (Elt F)) :=
  [ StableHlo.unary main_arg1 main_v11 ((extractStridedSlice S1x1x640000 ![1, 1, 0] · slices_S3x2x640000_S1x1x640000_1_1_0) : (⟨S3x2x640000, .i32⟩ : BufTy).Contents (Elt F) → (⟨S1x1x640000, .i32⟩ : BufTy).Contents (Elt F)),
    StableHlo.reshape main_v11 main_v12 rfl shapeCasts_S1x1x640000_S640000,
    StableHlo.nullary main_cst_3 (constant S_ .f32 0x3F800000#32),
    StableHlo.unary main_cst_3 main_v13 (broadcastInDim S640000 ![] bcast_S_S640000 : (⟨S_, .f32⟩ : BufTy).Contents (Elt F) → (⟨S640000, .f32⟩ : BufTy).Contents (Elt F)),
    StableHlo.nullary main_cst_4 (constant S_ .f32 0x00000000#32),
    StableHlo.unary main_cst_4 main_v14 (broadcastInDim S50000 ![] bcast_S_S50000 : (⟨S_, .f32⟩ : BufTy).Contents (Elt F) → (⟨S50000, .f32⟩ : BufTy).Contents (Elt F)),
    StableHlo.unary main_v12 main_v15 (broadcastInDim S640000x1 ![0] bcast_S640000_S640000x1_0 : (⟨S640000, .i32⟩ : BufTy).Contents (Elt F) → (⟨S640000x1, .i32⟩ : BufTy).Contents (Elt F)),
    StableHlo.ternary main_v14 main_v15 main_v13 main_v16 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    StableHlo.nullary main_cst_5 (constant S_ .f32 0x3F800000#32),
    StableHlo.unary main_cst_5 main_v17 (broadcastInDim S50000 ![] bcast_S_S50000 : (⟨S_, .f32⟩ : BufTy).Contents (Elt F) → (⟨S50000, .f32⟩ : BufTy).Contents (Elt F)),
    StableHlo.binary main_v16 main_v17 main_v18 (maximumf : (⟨S50000, .f32⟩ : BufTy).Contents (Elt F) → (⟨S50000, .f32⟩ : BufTy).Contents (Elt F) → (⟨S50000, .f32⟩ : BufTy).Contents (Elt F)),
    StableHlo.nullary main_cst_6 (constant S_ .f32 0x3F800000#32),
    StableHlo.unary main_cst_6 main_v19 (broadcastInDim S50000 ![] bcast_S_S50000 : (⟨S_, .f32⟩ : BufTy).Contents (Elt F) → (⟨S50000, .f32⟩ : BufTy).Contents (Elt F)),
    StableHlo.binary main_v19 main_v18 main_v20 (Host.divf : (⟨S50000, .f32⟩ : BufTy).Contents (Elt F) → (⟨S50000, .f32⟩ : BufTy).Contents (Elt F) → (⟨S50000, .f32⟩ : BufTy).Contents (Elt F)),
    StableHlo.unary main_v20 main_v21 (broadcastInDim S50000x1 ![0] bcast_S50000_S50000x1_0 : (⟨S50000, .f32⟩ : BufTy).Contents (Elt F) → (⟨S50000x1, .f32⟩ : BufTy).Contents (Elt F)) ]

/-- Relation 2's degree block. -/
abbrev h0d2 : List (HloOp τ sig (Elt F)) :=
  [ StableHlo.unary main_arg1 main_v22 ((extractStridedSlice S1x1x640000 ![2, 1, 0] · slices_S3x2x640000_S1x1x640000_2_1_0) : (⟨S3x2x640000, .i32⟩ : BufTy).Contents (Elt F) → (⟨S1x1x640000, .i32⟩ : BufTy).Contents (Elt F)),
    StableHlo.reshape main_v22 main_v23 rfl shapeCasts_S1x1x640000_S640000,
    StableHlo.nullary main_cst_7 (constant S_ .f32 0x3F800000#32),
    StableHlo.unary main_cst_7 main_v24 (broadcastInDim S640000 ![] bcast_S_S640000 : (⟨S_, .f32⟩ : BufTy).Contents (Elt F) → (⟨S640000, .f32⟩ : BufTy).Contents (Elt F)),
    StableHlo.nullary main_cst_8 (constant S_ .f32 0x00000000#32),
    StableHlo.unary main_cst_8 main_v25 (broadcastInDim S50000 ![] bcast_S_S50000 : (⟨S_, .f32⟩ : BufTy).Contents (Elt F) → (⟨S50000, .f32⟩ : BufTy).Contents (Elt F)),
    StableHlo.unary main_v23 main_v26 (broadcastInDim S640000x1 ![0] bcast_S640000_S640000x1_0 : (⟨S640000, .i32⟩ : BufTy).Contents (Elt F) → (⟨S640000x1, .i32⟩ : BufTy).Contents (Elt F)),
    StableHlo.ternary main_v25 main_v26 main_v24 main_v27 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    StableHlo.nullary main_cst_9 (constant S_ .f32 0x3F800000#32),
    StableHlo.unary main_cst_9 main_v28 (broadcastInDim S50000 ![] bcast_S_S50000 : (⟨S_, .f32⟩ : BufTy).Contents (Elt F) → (⟨S50000, .f32⟩ : BufTy).Contents (Elt F)),
    StableHlo.binary main_v27 main_v28 main_v29 (maximumf : (⟨S50000, .f32⟩ : BufTy).Contents (Elt F) → (⟨S50000, .f32⟩ : BufTy).Contents (Elt F) → (⟨S50000, .f32⟩ : BufTy).Contents (Elt F)),
    StableHlo.nullary main_cst_10 (constant S_ .f32 0x3F800000#32),
    StableHlo.unary main_cst_10 main_v30 (broadcastInDim S50000 ![] bcast_S_S50000 : (⟨S_, .f32⟩ : BufTy).Contents (Elt F) → (⟨S50000, .f32⟩ : BufTy).Contents (Elt F)),
    StableHlo.binary main_v30 main_v29 main_v31 (Host.divf : (⟨S50000, .f32⟩ : BufTy).Contents (Elt F) → (⟨S50000, .f32⟩ : BufTy).Contents (Elt F) → (⟨S50000, .f32⟩ : BufTy).Contents (Elt F)),
    StableHlo.unary main_v31 main_v32 (broadcastInDim S50000x1 ![0] bcast_S50000_S50000x1_0 : (⟨S50000, .f32⟩ : BufTy).Contents (Elt F) → (⟨S50000x1, .f32⟩ : BufTy).Contents (Elt F)) ]

/-- The three reciprocal columns stacked. -/
abbrev h0inv : List (HloOp τ sig (Elt F)) :=
  [ StableHlo.unary main_v10 main_v33 (broadcastInDim S1x50000x1 ![1, 2] bcast_S50000x1_S1x50000x1_1_2 : (⟨S50000x1, .f32⟩ : BufTy).Contents (Elt F) → (⟨S1x50000x1, .f32⟩ : BufTy).Contents (Elt F)),
    StableHlo.unary main_v21 main_v34 (broadcastInDim S1x50000x1 ![1, 2] bcast_S50000x1_S1x50000x1_1_2 : (⟨S50000x1, .f32⟩ : BufTy).Contents (Elt F) → (⟨S1x50000x1, .f32⟩ : BufTy).Contents (Elt F)),
    StableHlo.unary main_v32 main_v35 (broadcastInDim S1x50000x1 ![1, 2] bcast_S50000x1_S1x50000x1_1_2 : (⟨S50000x1, .f32⟩ : BufTy).Contents (Elt F) → (⟨S1x50000x1, .f32⟩ : BufTy).Contents (Elt F)),
    StableHlo.nary ![main_v33, main_v34, main_v35] main_v36 (fun u => concatenate S3x50000x1 0 [⟨S1x50000x1, u 0⟩, ⟨S1x50000x1, u 1⟩, ⟨S1x50000x1, u 2⟩] concatenates_S1x50000x1_S1x50000x1_S1x50000x1_S3x50000x1_d0) ]

/-- Relation 0's block: its source and target words, the rows gathered and added up at the targets, times the relation's column of reciprocal degrees. -/
abbrev h0r0 : List (HloOp τ sig (Elt F)) :=
  [ StableHlo.unary main_arg1 main_v37 ((extractStridedSlice S1x1x640000 ![0, 0, 0] · slices_S3x2x640000_S1x1x640000_0_0_0) : (⟨S3x2x640000, .i32⟩ : BufTy).Contents (Elt F) → (⟨S1x1x640000, .i32⟩ : BufTy).Contents (Elt F)),
    StableHlo.reshape main_v37 main_v38 rfl shapeCasts_S1x1x640000_S640000,
    StableHlo.unary main_arg1 main_v39 ((extractStridedSlice S1x1x640000 ![0, 1, 0] · slices_S3x2x640000_S1x1x640000_0_1_0) : (⟨S3x2x640000, .i32⟩ : BufTy).Contents (Elt F) → (⟨S1x1x640000, .i32⟩ : BufTy).Contents (Elt F)),
    StableHlo.reshape main_v39 main_v40 rfl shapeCasts_S1x1x640000_S640000,
    StableHlo.nullary main_c (constantI S_ 32 0#32),
    StableHlo.unary main_c main_v41 (broadcastInDim S640000 ![] bcast_S_S640000 : (⟨S_, .i32⟩ : BufTy).Contents (Elt F) → (⟨S640000, .i32⟩ : BufTy).Contents (Elt F)),
    StableHlo.binary main_v38 main_v41 main_v42 (cmpi .slt : (⟨S640000, .i32⟩ : BufTy).Contents (Elt F) → (⟨S640000, .i32⟩ : BufTy).Contents (Elt F) → (⟨S640000, .i1⟩ : BufTy).Contents (Elt F)),
    StableHlo.nullary main_c_11 (constantI S_ 32 50000#32),
    StableHlo.unary main_c_11 main_v43 (broadcastInDim S640000 ![] bcast_S_S640000 : (⟨S_, .i32⟩ : BufTy).Contents (Elt F) → (⟨S640000, .i32⟩ : BufTy).Contents (Elt F)),
    StableHlo.binary main_v38 main_v43 main_v44 (addi : (⟨S640000, .i32⟩ : BufTy).Contents (Elt F) → (⟨S640000, .i32⟩ : BufTy).Contents (Elt F) → (⟨S640000, .i32⟩ : BufTy).Contents (Elt F)),
    StableHlo.ternary main_v42 main_v44 main_v38 main_v45 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v45 main_v46 (broadcastInDim S640000x1 ![0] bcast_S640000_S640000x1_0 : (⟨S640000, .i32⟩ : BufTy).Contents (Elt F) → (⟨S640000x1, .i32⟩ : BufTy).Contents (Elt F)),
    StableHlo.binary main_arg0 main_v46 main_v47 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.nullary main_cst_12 (constant S_ .f32 0x00000000#32),
    StableHlo.unary main_cst_12 main_v48 (broadcastInDim S50000x128 ![] bcast_S_S50000x128 : (⟨S_, .f32⟩ : BufTy).Contents (Elt F) → (⟨S50000x128, .f32⟩ : BufTy).Contents (Elt F)),
    StableHlo.unary main_v40 main_v49 (broadcastInDim S640000x1 ![0] bcast_S640000_S640000x1_0 : (⟨S640000, .i32⟩ : BufTy).Contents (Elt F) → (⟨S640000x1, .i32⟩ : BufTy).Contents (Elt F)),
    StableHlo.ternary main_v48 main_v49 main_v47 main_v50 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.unary main_v36 main_v51 ((extractStridedSlice S1x50000x1 ![0, 0, 0] · slices_S3x50000x1_S1x50000x1_0_0_0) : (⟨S3x50000x1, .f32⟩ : BufTy).Contents (Elt F) → (⟨S1x50000x1, .f32⟩ : BufTy).Contents (Elt F)),
    StableHlo.reshape main_v51 main_v52 rfl shapeCasts_S1x50000x1_S50000x1,
    StableHlo.unary main_v52 main_v53 (broadcastInDim S50000x128 ![0, 1] bcast_S50000x1_S50000x128_0_1 : (⟨S50000x1, .f32⟩ : BufTy).Contents (Elt F) → (⟨S50000x128, .f32⟩ : BufTy).Contents (Elt F)),
    StableHlo.binary main_v50 main_v53 main_v54 (mulf : (⟨S50000x128, .f32⟩ : BufTy).Contents (Elt F) → (⟨S50000x128, .f32⟩ : BufTy).Contents (Elt F) → (⟨S50000x128, .f32⟩ : BufTy).Contents (Elt F)) ]

/-- Relation 1's block. -/
abbrev h0r1 : List (HloOp τ sig (Elt F)) :=
  [ StableHlo.unary main_arg1 main_v55 ((extractStridedSlice S1x1x640000 ![1, 0, 0] · slices_S3x2x640000_S1x1x640000_1_0_0) : (⟨S3x2x640000, .i32⟩ : BufTy).Contents (Elt F) → (⟨S1x1x640000, .i32⟩ : BufTy).Contents (Elt F)),
    StableHlo.reshape main_v55 main_v56 rfl shapeCasts_S1x1x640000_S640000,
    StableHlo.unary main_arg1 main_v57 ((extractStridedSlice S1x1x640000 ![1, 1, 0] · slices_S3x2x640000_S1x1x640000_1_1_0) : (⟨S3x2x640000, .i32⟩ : BufTy).Contents (Elt F) → (⟨S1x1x640000, .i32⟩ : BufTy).Contents (Elt F)),
    StableHlo.reshape main_v57 main_v58 rfl shapeCasts_S1x1x640000_S640000,
    StableHlo.nullary main_c_13 (constantI S_ 32 0#32),
    StableHlo.unary main_c_13 main_v59 (broadcastInDim S640000 ![] bcast_S_S640000 : (⟨S_, .i32⟩ : BufTy).Contents (Elt F) → (⟨S640000, .i32⟩ : BufTy).Contents (Elt F)),
    StableHlo.binary main_v56 main_v59 main_v60 (cmpi .slt : (⟨S640000, .i32⟩ : BufTy).Contents (Elt F) → (⟨S640000, .i32⟩ : BufTy).Contents (Elt F) → (⟨S640000, .i1⟩ : BufTy).Contents (Elt F)),
    StableHlo.nullary main_c_14 (constantI S_ 32 50000#32),
    StableHlo.unary main_c_14 main_v61 (broadcastInDim S640000 ![] bcast_S_S640000 : (⟨S_, .i32⟩ : BufTy).Contents (Elt F) → (⟨S640000, .i32⟩ : BufTy).Contents (Elt F)),
    StableHlo.binary main_v56 main_v61 main_v62 (addi : (⟨S640000, .i32⟩ : BufTy).Contents (Elt F) → (⟨S640000, .i32⟩ : BufTy).Contents (Elt F) → (⟨S640000, .i32⟩ : BufTy).Contents (Elt F)),
    StableHlo.ternary main_v60 main_v62 main_v56 main_v63 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v63 main_v64 (broadcastInDim S640000x1 ![0] bcast_S640000_S640000x1_0 : (⟨S640000, .i32⟩ : BufTy).Contents (Elt F) → (⟨S640000x1, .i32⟩ : BufTy).Contents (Elt F)),
    StableHlo.binary main_arg0 main_v64 main_v65 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.nullary main_cst_15 (constant S_ .f32 0x00000000#32),
    StableHlo.unary main_cst_15 main_v66 (broadcastInDim S50000x128 ![] bcast_S_S50000x128 : (⟨S_, .f32⟩ : BufTy).Contents (Elt F) → (⟨S50000x128, .f32⟩ : BufTy).Contents (Elt F)),
    StableHlo.unary main_v58 main_v67 (broadcastInDim S640000x1 ![0] bcast_S640000_S640000x1_0 : (⟨S640000, .i32⟩ : BufTy).Contents (Elt F) → (⟨S640000x1, .i32⟩ : BufTy).Contents (Elt F)),
    StableHlo.ternary main_v66 main_v67 main_v65 main_v68 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.unary main_v36 main_v69 ((extractStridedSlice S1x50000x1 ![1, 0, 0] · slices_S3x50000x1_S1x50000x1_1_0_0) : (⟨S3x50000x1, .f32⟩ : BufTy).Contents (Elt F) → (⟨S1x50000x1, .f32⟩ : BufTy).Contents (Elt F)),
    StableHlo.reshape main_v69 main_v70 rfl shapeCasts_S1x50000x1_S50000x1,
    StableHlo.unary main_v70 main_v71 (broadcastInDim S50000x128 ![0, 1] bcast_S50000x1_S50000x128_0_1 : (⟨S50000x1, .f32⟩ : BufTy).Contents (Elt F) → (⟨S50000x128, .f32⟩ : BufTy).Contents (Elt F)),
    StableHlo.binary main_v68 main_v71 main_v72 (mulf : (⟨S50000x128, .f32⟩ : BufTy).Contents (Elt F) → (⟨S50000x128, .f32⟩ : BufTy).Contents (Elt F) → (⟨S50000x128, .f32⟩ : BufTy).Contents (Elt F)) ]

/-- Relation 2's block. -/
abbrev h0r2 : List (HloOp τ sig (Elt F)) :=
  [ StableHlo.unary main_arg1 main_v73 ((extractStridedSlice S1x1x640000 ![2, 0, 0] · slices_S3x2x640000_S1x1x640000_2_0_0) : (⟨S3x2x640000, .i32⟩ : BufTy).Contents (Elt F) → (⟨S1x1x640000, .i32⟩ : BufTy).Contents (Elt F)),
    StableHlo.reshape main_v73 main_v74 rfl shapeCasts_S1x1x640000_S640000,
    StableHlo.unary main_arg1 main_v75 ((extractStridedSlice S1x1x640000 ![2, 1, 0] · slices_S3x2x640000_S1x1x640000_2_1_0) : (⟨S3x2x640000, .i32⟩ : BufTy).Contents (Elt F) → (⟨S1x1x640000, .i32⟩ : BufTy).Contents (Elt F)),
    StableHlo.reshape main_v75 main_v76 rfl shapeCasts_S1x1x640000_S640000,
    StableHlo.nullary main_c_16 (constantI S_ 32 0#32),
    StableHlo.unary main_c_16 main_v77 (broadcastInDim S640000 ![] bcast_S_S640000 : (⟨S_, .i32⟩ : BufTy).Contents (Elt F) → (⟨S640000, .i32⟩ : BufTy).Contents (Elt F)),
    StableHlo.binary main_v74 main_v77 main_v78 (cmpi .slt : (⟨S640000, .i32⟩ : BufTy).Contents (Elt F) → (⟨S640000, .i32⟩ : BufTy).Contents (Elt F) → (⟨S640000, .i1⟩ : BufTy).Contents (Elt F)),
    StableHlo.nullary main_c_17 (constantI S_ 32 50000#32),
    StableHlo.unary main_c_17 main_v79 (broadcastInDim S640000 ![] bcast_S_S640000 : (⟨S_, .i32⟩ : BufTy).Contents (Elt F) → (⟨S640000, .i32⟩ : BufTy).Contents (Elt F)),
    StableHlo.binary main_v74 main_v79 main_v80 (addi : (⟨S640000, .i32⟩ : BufTy).Contents (Elt F) → (⟨S640000, .i32⟩ : BufTy).Contents (Elt F) → (⟨S640000, .i32⟩ : BufTy).Contents (Elt F)),
    StableHlo.ternary main_v78 main_v80 main_v74 main_v81 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v81 main_v82 (broadcastInDim S640000x1 ![0] bcast_S640000_S640000x1_0 : (⟨S640000, .i32⟩ : BufTy).Contents (Elt F) → (⟨S640000x1, .i32⟩ : BufTy).Contents (Elt F)),
    StableHlo.binary main_arg0 main_v82 main_v83 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.nullary main_cst_18 (constant S_ .f32 0x00000000#32),
    StableHlo.unary main_cst_18 main_v84 (broadcastInDim S50000x128 ![] bcast_S_S50000x128 : (⟨S_, .f32⟩ : BufTy).Contents (Elt F) → (⟨S50000x128, .f32⟩ : BufTy).Contents (Elt F)),
    StableHlo.unary main_v76 main_v85 (broadcastInDim S640000x1 ![0] bcast_S640000_S640000x1_0 : (⟨S640000, .i32⟩ : BufTy).Contents (Elt F) → (⟨S640000x1, .i32⟩ : BufTy).Contents (Elt F)),
    StableHlo.ternary main_v84 main_v85 main_v83 main_v86 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.unary main_v36 main_v87 ((extractStridedSlice S1x50000x1 ![2, 0, 0] · slices_S3x50000x1_S1x50000x1_2_0_0) : (⟨S3x50000x1, .f32⟩ : BufTy).Contents (Elt F) → (⟨S1x50000x1, .f32⟩ : BufTy).Contents (Elt F)),
    StableHlo.reshape main_v87 main_v88 rfl shapeCasts_S1x50000x1_S50000x1,
    StableHlo.unary main_v88 main_v89 (broadcastInDim S50000x128 ![0, 1] bcast_S50000x1_S50000x128_0_1 : (⟨S50000x1, .f32⟩ : BufTy).Contents (Elt F) → (⟨S50000x128, .f32⟩ : BufTy).Contents (Elt F)),
    StableHlo.binary main_v86 main_v89 main_v90 (mulf : (⟨S50000x128, .f32⟩ : BufTy).Contents (Elt F) → (⟨S50000x128, .f32⟩ : BufTy).Contents (Elt F) → (⟨S50000x128, .f32⟩ : BufTy).Contents (Elt F)) ]

/-- The three products stacked, cut apart again, and laid beside the node features; then narrowed. -/
abbrev h0stack : List (HloOp τ sig (Elt F)) :=
  [ StableHlo.unary main_v54 main_v91 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v72 main_v92 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v90 main_v93 (broadcastInDim S1x50000x128 ![1, 2] bcast_S50000x128_S1x50000x128_1_2 : (⟨S50000x128, .f32⟩ : BufTy).Contents (Elt F) → (⟨S1x50000x128, .f32⟩ : BufTy).Contents (Elt F)),
    StableHlo.nary ![main_v91, main_v92, main_v93] main_v94 (fun u => concatenate S3x50000x128 0 [⟨S1x50000x128, u 0⟩, ⟨S1x50000x128, u 1⟩, ⟨S1x50000x128, u 2⟩] concatenates_S1x50000x128_S1x50000x128_S1x50000x128_S3x50000x128_d0),
    StableHlo.unary main_v94 main_v95 ((extractStridedSlice S1x50000x128 ![0, 0, 0] · slices_S3x50000x128_S1x50000x128_0_0_0) : (⟨S3x50000x128, .f32⟩ : BufTy).Contents (Elt F) → (⟨S1x50000x128, .f32⟩ : BufTy).Contents (Elt F)),
    StableHlo.reshape main_v95 main_v96 rfl shapeCasts_S1x50000x128_S50000x128,
    StableHlo.unary main_v94 main_v97 ((extractStridedSlice S1x50000x128 ![1, 0, 0] · slices_S3x50000x128_S1x50000x128_1_0_0) : (⟨S3x50000x128, .f32⟩ : BufTy).Contents (Elt F) → (⟨S1x50000x128, .f32⟩ : BufTy).Contents (Elt F)),
    StableHlo.reshape main_v97 main_v98 rfl shapeCasts_S1x50000x128_S50000x128,
    StableHlo.unary main_v94 main_v99 ((extractStridedSlice S1x50000x128 ![2, 0, 0] · slices_S3x50000x128_S1x50000x128_2_0_0) : (⟨S3x50000x128, .f32⟩ : BufTy).Contents (Elt F) → (⟨S1x50000x128, .f32⟩ : BufTy).Contents (Elt F)),
    StableHlo.reshape main_v99 main_v100 rfl shapeCasts_S1x50000x128_S50000x128,
    StableHlo.nary ![main_arg0, main_v96, main_v98, main_v100] main_v101 (fun u => concatenate S50000x512 1 [⟨S50000x128, u 0⟩, ⟨S50000x128, u 1⟩, ⟨S50000x128, u 2⟩, ⟨S50000x128, u 3⟩] concatenates_S50000x128_S50000x128_S50000x128_S50000x128_S50000x512_d1),
    StableHlo.unary main_v101 main_v102 ((truncf .bf16 · bitsLt_bf16_f32) : (⟨S50000x512, .f32⟩ : BufTy).Contents (Elt F) → (⟨S50000x512, .bf16⟩ : BufTy).Contents (Elt F)) ]

/-- Layer 0's stacked weights: the root matrices summed, over the three neighbour matrices; then narrowed. -/
abbrev h0wts : List (HloOp τ sig (Elt F)) :=
  [ StableHlo.unary main_arg3 main_v103 ((extractStridedSlice S1x3x128x128 ![0, 0, 0, 0] · slices_S2x3x128x128_S1x3x128x128_0_0_0_0) : (⟨S2x3x128x128, .f32⟩ : BufTy).Contents (Elt F) → (⟨S1x3x128x128, .f32⟩ : BufTy).Contents (Elt F)),
    StableHlo.reshape main_v103 main_v104 rfl shapeCasts_S1x3x128x128_S3x128x128,
    StableHlo.nullary main_cst_19 (constant S_ .f32 0x00000000#32),
    StableHlo.binary main_v104 main_cst_19 main_v105 ((fun x v => Host.reduceAdd x v reducesTo_S3x128x128_S128x128_d0 h_S_) : (⟨S3x128x128, .f32⟩ : BufTy).Contents (Elt F) → (⟨S_, .f32⟩ : BufTy).Contents (Elt F) → (⟨S128x128, .f32⟩ : BufTy).Contents (Elt F)),
    StableHlo.unary main_arg2 main_v106 ((extractStridedSlice S1x1x128x128 ![0, 0, 0, 0] · slices_S2x3x128x128_S1x1x128x128_0_0_0_0) : (⟨S2x3x128x128, .f32⟩ : BufTy).Contents (Elt F) → (⟨S1x1x128x128, .f32⟩ : BufTy).Contents (Elt F)),
    StableHlo.reshape main_v106 main_v107 rfl shapeCasts_S1x1x128x128_S128x128,
    StableHlo.unary main_arg2 main_v108 ((extractStridedSlice S1x1x128x128 ![0, 1, 0, 0] · slices_S2x3x128x128_S1x1x128x128_0_1_0_0) : (⟨S2x3x128x128, .f32⟩ : BufTy).Contents (Elt F) → (⟨S1x1x128x128, .f32⟩ : BufTy).Contents (Elt F)),
    StableHlo.reshape main_v108 main_v109 rfl shapeCasts_S1x1x128x128_S128x128,
    StableHlo.unary main_arg2 main_v110 ((extractStridedSlice S1x1x128x128 ![0, 2, 0, 0] · slices_S2x3x128x128_S1x1x128x128_0_2_0_0) : (⟨S2x3x128x128, .f32⟩ : BufTy).Contents (Elt F) → (⟨S1x1x128x128, .f32⟩ : BufTy).Contents (Elt F)),
    StableHlo.reshape main_v110 main_v111 rfl shapeCasts_S1x1x128x128_S128x128,
    StableHlo.nary ![main_v105, main_v107, main_v109, main_v111] main_v112 (fun u => concatenate S512x128 0 [⟨S128x128, u 0⟩, ⟨S128x128, u 1⟩, ⟨S128x128, u 2⟩, ⟨S128x128, u 3⟩] concatenates_S128x128_S128x128_S128x128_S128x128_S512x128_d0),
    StableHlo.unary main_v112 main_v113 ((truncf .bf16 · bitsLt_bf16_f32) : (⟨S512x128, .f32⟩ : BufTy).Contents (Elt F) → (⟨S512x128, .bf16⟩ : BufTy).Contents (Elt F)) ]

/-- Layer 0's three bias vectors summed. -/
abbrev h0bias : List (HloOp τ sig (Elt F)) :=
  [ StableHlo.unary main_arg4 main_v114 ((extractStridedSlice S1x3x128 ![0, 0, 0] · slices_S2x3x128_S1x3x128_0_0_0) : (⟨S2x3x128, .f32⟩ : BufTy).Contents (Elt F) → (⟨S1x3x128, .f32⟩ : BufTy).Contents (Elt F)),
    StableHlo.reshape main_v114 main_v115 rfl shapeCasts_S1x3x128_S3x128,
    StableHlo.nullary main_cst_20 (constant S_ .f32 0x00000000#32),
    StableHlo.binary main_v115 main_cst_20 main_v116 ((fun x v => Host.reduceAdd x v reducesTo_S3x128_S128_d0 h_S_) : (⟨S3x128, .f32⟩ : BufTy).Contents (Elt F) → (⟨S_, .f32⟩ : BufTy).Contents (Elt F) → (⟨S128, .f32⟩ : BufTy).Contents (Elt F)) ]

set_option maxHeartbeats 4000000 in
/-- The stretch's operations are the pieces in a row. -/
theorem hostOps0_eq : (hostOps0 : List (HloOp τ sig (Elt F)))
    = h0d0 ++ (h0d1 ++ (h0d2 ++ (h0inv ++ (h0r0 ++ (h0r1 ++ (h0r2 ++ (h0stack ++ (h0wts ++ h0bias)))))))) := by
  simp only [hostOps0, h0d0, h0d1, h0d2, h0inv, h0r0, h0r1, h0r2, h0stack, h0wts, h0bias, List.cons_append, List.nil_append]

end Pieces

/-! ## What each piece writes, and that it keeps the rest -/

/-- The references `h0d0` writes. -/
abbrev h0d0_W : List (Ref sig .tc) := [main_v0, main_v1, main_cst, main_v2, main_cst_0, main_v3, main_v4, main_v5, main_cst_1, main_v6, main_v7, main_cst_2, main_v8, main_v9, main_v10]

theorem h0d0_writes : (h0d0 : List (HloOp τ sig (Elt Ideal))).Forall fun op => op.writes ⊆ (h0d0_W.map (Proc.devRef (τ := τ) .tc)).toFinset := by
  simp only [h0d0, List.Forall, nullary_writes, unary_writes, binary_writes, ternary_writes, reshape_writes, nary_writes, Finset.singleton_subset_iff, List.mem_toFinset]
  repeat' apply And.intro
  all_goals exact List.mem_map_of_mem (by decide)

/-- A reference `h0d0` does not write keeps its contents. -/
theorem h0d0_keeps (V : Valuation τ sig (Elt Ideal)) (r : Ref sig .tc) (h : r ∉ h0d0_W) :
    after h0d0 V (Proc.devRef .tc r) = V (Proc.devRef .tc r) :=
  after_of_writes_sub h0d0 V h0d0_writes h

/-- The references `h0d1` writes. -/
abbrev h0d1_W : List (Ref sig .tc) := [main_v11, main_v12, main_cst_3, main_v13, main_cst_4, main_v14, main_v15, main_v16, main_cst_5, main_v17, main_v18, main_cst_6, main_v19, main_v20, main_v21]

theorem h0d1_writes : (h0d1 : List (HloOp τ sig (Elt Ideal))).Forall fun op => op.writes ⊆ (h0d1_W.map (Proc.devRef (τ := τ) .tc)).toFinset := by
  simp only [h0d1, List.Forall, nullary_writes, unary_writes, binary_writes, ternary_writes, reshape_writes, nary_writes, Finset.singleton_subset_iff, List.mem_toFinset]
  repeat' apply And.intro
  all_goals exact List.mem_map_of_mem (by decide)

/-- A reference `h0d1` does not write keeps its contents. -/
theorem h0d1_keeps (V : Valuation τ sig (Elt Ideal)) (r : Ref sig .tc) (h : r ∉ h0d1_W) :
    after h0d1 V (Proc.devRef .tc r) = V (Proc.devRef .tc r) :=
  after_of_writes_sub h0d1 V h0d1_writes h

/-- The references `h0d2` writes. -/
abbrev h0d2_W : List (Ref sig .tc) := [main_v22, main_v23, main_cst_7, main_v24, main_cst_8, main_v25, main_v26, main_v27, main_cst_9, main_v28, main_v29, main_cst_10, main_v30, main_v31, main_v32]

theorem h0d2_writes : (h0d2 : List (HloOp τ sig (Elt Ideal))).Forall fun op => op.writes ⊆ (h0d2_W.map (Proc.devRef (τ := τ) .tc)).toFinset := by
  simp only [h0d2, List.Forall, nullary_writes, unary_writes, binary_writes, ternary_writes, reshape_writes, nary_writes, Finset.singleton_subset_iff, List.mem_toFinset]
  repeat' apply And.intro
  all_goals exact List.mem_map_of_mem (by decide)

/-- A reference `h0d2` does not write keeps its contents. -/
theorem h0d2_keeps (V : Valuation τ sig (Elt Ideal)) (r : Ref sig .tc) (h : r ∉ h0d2_W) :
    after h0d2 V (Proc.devRef .tc r) = V (Proc.devRef .tc r) :=
  after_of_writes_sub h0d2 V h0d2_writes h

/-- The references `h0inv` writes. -/
abbrev h0inv_W : List (Ref sig .tc) := [main_v33, main_v34, main_v35, main_v36]

theorem h0inv_writes : (h0inv : List (HloOp τ sig (Elt Ideal))).Forall fun op => op.writes ⊆ (h0inv_W.map (Proc.devRef (τ := τ) .tc)).toFinset := by
  simp only [h0inv, List.Forall, nullary_writes, unary_writes, binary_writes, ternary_writes, reshape_writes, nary_writes, Finset.singleton_subset_iff, List.mem_toFinset]
  repeat' apply And.intro
  all_goals exact List.mem_map_of_mem (by decide)

/-- A reference `h0inv` does not write keeps its contents. -/
theorem h0inv_keeps (V : Valuation τ sig (Elt Ideal)) (r : Ref sig .tc) (h : r ∉ h0inv_W) :
    after h0inv V (Proc.devRef .tc r) = V (Proc.devRef .tc r) :=
  after_of_writes_sub h0inv V h0inv_writes h

/-- The references `h0r0` writes. -/
abbrev h0r0_W : List (Ref sig .tc) := [main_v37, main_v38, main_v39, main_v40, main_c, main_v41, main_v42, main_c_11, main_v43, main_v44, main_v45, main_v46, main_v47, main_cst_12, main_v48, main_v49, main_v50, main_v51, main_v52, main_v53, main_v54]

theorem h0r0_writes : (h0r0 : List (HloOp τ sig (Elt Ideal))).Forall fun op => op.writes ⊆ (h0r0_W.map (Proc.devRef (τ := τ) .tc)).toFinset := by
  simp only [h0r0, List.Forall, nullary_writes, unary_writes, binary_writes, ternary_writes, reshape_writes, nary_writes, Finset.singleton_subset_iff, List.mem_toFinset]
  repeat' apply And.intro
  all_goals exact List.mem_map_of_mem (by decide)

/-- A reference `h0r0` does not write keeps its contents. -/
theorem h0r0_keeps (V : Valuation τ sig (Elt Ideal)) (r : Ref sig .tc) (h : r ∉ h0r0_W) :
    after h0r0 V (Proc.devRef .tc r) = V (Proc.devRef .tc r) :=
  after_of_writes_sub h0r0 V h0r0_writes h

/-- The references `h0r1` writes. -/
abbrev h0r1_W : List (Ref sig .tc) := [main_v55, main_v56, main_v57, main_v58, main_c_13, main_v59, main_v60, main_c_14, main_v61, main_v62, main_v63, main_v64, main_v65, main_cst_15, main_v66, main_v67, main_v68, main_v69, main_v70, main_v71, main_v72]

theorem h0r1_writes : (h0r1 : List (HloOp τ sig (Elt Ideal))).Forall fun op => op.writes ⊆ (h0r1_W.map (Proc.devRef (τ := τ) .tc)).toFinset := by
  simp only [h0r1, List.Forall, nullary_writes, unary_writes, binary_writes, ternary_writes, reshape_writes, nary_writes, Finset.singleton_subset_iff, List.mem_toFinset]
  repeat' apply And.intro
  all_goals exact List.mem_map_of_mem (by decide)

/-- A reference `h0r1` does not write keeps its contents. -/
theorem h0r1_keeps (V : Valuation τ sig (Elt Ideal)) (r : Ref sig .tc) (h : r ∉ h0r1_W) :
    after h0r1 V (Proc.devRef .tc r) = V (Proc.devRef .tc r) :=
  after_of_writes_sub h0r1 V h0r1_writes h

/-- The references `h0r2` writes. -/
abbrev h0r2_W : List (Ref sig .tc) := [main_v73, main_v74, main_v75, main_v76, main_c_16, main_v77, main_v78, main_c_17, main_v79, main_v80, main_v81, main_v82, main_v83, main_cst_18, main_v84, main_v85, main_v86, main_v87, main_v88, main_v89, main_v90]

theorem h0r2_writes : (h0r2 : List (HloOp τ sig (Elt Ideal))).Forall fun op => op.writes ⊆ (h0r2_W.map (Proc.devRef (τ := τ) .tc)).toFinset := by
  simp only [h0r2, List.Forall, nullary_writes, unary_writes, binary_writes, ternary_writes, reshape_writes, nary_writes, Finset.singleton_subset_iff, List.mem_toFinset]
  repeat' apply And.intro
  all_goals exact List.mem_map_of_mem (by decide)

/-- A reference `h0r2` does not write keeps its contents. -/
theorem h0r2_keeps (V : Valuation τ sig (Elt Ideal)) (r : Ref sig .tc) (h : r ∉ h0r2_W) :
    after h0r2 V (Proc.devRef .tc r) = V (Proc.devRef .tc r) :=
  after_of_writes_sub h0r2 V h0r2_writes h

/-- The references `h0stack` writes. -/
abbrev h0stack_W : List (Ref sig .tc) := [main_v91, main_v92, main_v93, main_v94, main_v95, main_v96, main_v97, main_v98, main_v99, main_v100, main_v101, main_v102]

theorem h0stack_writes : (h0stack : List (HloOp τ sig (Elt Ideal))).Forall fun op => op.writes ⊆ (h0stack_W.map (Proc.devRef (τ := τ) .tc)).toFinset := by
  simp only [h0stack, List.Forall, nullary_writes, unary_writes, binary_writes, ternary_writes, reshape_writes, nary_writes, Finset.singleton_subset_iff, List.mem_toFinset]
  repeat' apply And.intro
  all_goals exact List.mem_map_of_mem (by decide)

/-- A reference `h0stack` does not write keeps its contents. -/
theorem h0stack_keeps (V : Valuation τ sig (Elt Ideal)) (r : Ref sig .tc) (h : r ∉ h0stack_W) :
    after h0stack V (Proc.devRef .tc r) = V (Proc.devRef .tc r) :=
  after_of_writes_sub h0stack V h0stack_writes h

/-- The references `h0wts` writes. -/
abbrev h0wts_W : List (Ref sig .tc) := [main_v103, main_v104, main_cst_19, main_v105, main_v106, main_v107, main_v108, main_v109, main_v110, main_v111, main_v112, main_v113]

theorem h0wts_writes : (h0wts : List (HloOp τ sig (Elt Ideal))).Forall fun op => op.writes ⊆ (h0wts_W.map (Proc.devRef (τ := τ) .tc)).toFinset := by
  simp only [h0wts, List.Forall, nullary_writes, unary_writes, binary_writes, ternary_writes, reshape_writes, nary_writes, Finset.singleton_subset_iff, List.mem_toFinset]
  repeat' apply And.intro
  all_goals exact List.mem_map_of_mem (by decide)

/-- A reference `h0wts` does not write keeps its contents. -/
theorem h0wts_keeps (V : Valuation τ sig (Elt Ideal)) (r : Ref sig .tc) (h : r ∉ h0wts_W) :
    after h0wts V (Proc.devRef .tc r) = V (Proc.devRef .tc r) :=
  after_of_writes_sub h0wts V h0wts_writes h

/-- The references `h0bias` writes. -/
abbrev h0bias_W : List (Ref sig .tc) := [main_v114, main_v115, main_cst_20, main_v116]

theorem h0bias_writes : (h0bias : List (HloOp τ sig (Elt Ideal))).Forall fun op => op.writes ⊆ (h0bias_W.map (Proc.devRef (τ := τ) .tc)).toFinset := by
  simp only [h0bias, List.Forall, nullary_writes, unary_writes, binary_writes, ternary_writes, reshape_writes, nary_writes, Finset.singleton_subset_iff, List.mem_toFinset]
  repeat' apply And.intro
  all_goals exact List.mem_map_of_mem (by decide)

/-- A reference `h0bias` does not write keeps its contents. -/
theorem h0bias_keeps (V : Valuation τ sig (Elt Ideal)) (r : Ref sig .tc) (h : r ∉ h0bias_W) :
    after h0bias V (Proc.devRef .tc r) = V (Proc.devRef .tc r) :=
  after_of_writes_sub h0bias V h0bias_writes h

/-! ## What each piece computes -/

/-- Relation 0's degree block leaves one over the relation's clamped in-degree, as a column. -/
theorem h0d0_res (V : Valuation τ sig (Elt Ideal)) :
    after h0d0 V (Proc.devRef .tc main_v10) = invCol (dst0 (V (Proc.devRef .tc main_arg1))) := by
  host_results <;> rfl

/-- Relation 1's degree block leaves one over the relation's clamped in-degree, as a column. -/
theorem h0d1_res (V : Valuation τ sig (Elt Ideal)) :
    after h0d1 V (Proc.devRef .tc main_v21) = invCol (dst1 (V (Proc.devRef .tc main_arg1))) := by
  host_results <;> rfl

/-- Relation 2's degree block leaves one over the relation's clamped in-degree, as a column. -/
theorem h0d2_res (V : Valuation τ sig (Elt Ideal)) :
    after h0d2 V (Proc.devRef .tc main_v32) = invCol (dst2 (V (Proc.devRef .tc main_arg1))) := by
  host_results <;> rfl

/-- The three columns stacked. -/
theorem h0inv_res (V : Valuation τ sig (Elt Ideal)) :
    after h0inv V (Proc.devRef .tc main_v36) = stackCols (V (Proc.devRef .tc main_v10)) (V (Proc.devRef .tc main_v21)) (V (Proc.devRef .tc main_v32)) := by
  host_results <;> rfl

/-- Relation 0's block leaves the relation's neighbour row sums of the node features, scaled by its column of the
    reciprocal degrees found. -/
theorem h0r0_res (V : Valuation τ sig (Elt Ideal)) :
    after h0r0 V (Proc.devRef .tc main_v54)
      = mulf (rowSums (src0 (V (Proc.devRef .tc main_arg1))) (dst0 (V (Proc.devRef .tc main_arg1))) (V (Proc.devRef .tc main_arg0)))
          (spread0 (V (Proc.devRef .tc main_v36))) := by
  host_results <;> rfl

/-- Relation 1's block leaves the relation's neighbour row sums of the node features, scaled by its column of the
    reciprocal degrees found. -/
theorem h0r1_res (V : Valuation τ sig (Elt Ideal)) :
    after h0r1 V (Proc.devRef .tc main_v72)
      = mulf (rowSums (src1 (V (Proc.devRef .tc main_arg1))) (dst1 (V (Proc.devRef .tc main_arg1))) (V (Proc.devRef .tc main_arg0)))
          (spread1 (V (Proc.devRef .tc main_v36))) := by
  host_results <;> rfl

/-- Relation 2's block leaves the relation's neighbour row sums of the node features, scaled by its column of the
    reciprocal degrees found. -/
theorem h0r2_res (V : Valuation τ sig (Elt Ideal)) :
    after h0r2 V (Proc.devRef .tc main_v90)
      = mulf (rowSums (src2 (V (Proc.devRef .tc main_arg1))) (dst2 (V (Proc.devRef .tc main_arg1))) (V (Proc.devRef .tc main_arg0)))
          (spread2 (V (Proc.devRef .tc main_v36))) := by
  host_results <;> rfl

/-- The stacking block lays the node features and the three products side by side, after a trip through one stack. -/
theorem h0stack_res (V : Valuation τ sig (Elt Ideal)) :
    after h0stack V (Proc.devRef .tc main_v102)
      = sideBySide (V (Proc.devRef .tc main_arg0)) (V (Proc.devRef .tc main_v54)) (V (Proc.devRef .tc main_v72)) (V (Proc.devRef .tc main_v90)) := by
  host_results <;> rfl

/-- Layer 0's root matrices summed, over its three neighbour matrices. -/
theorem h0wts_res (V : Valuation τ sig (Elt Ideal)) :
    after h0wts V (Proc.devRef .tc main_v113)
      = oneUnderAnother (rootSum (V (Proc.devRef .tc main_arg3)) ![0, 0, 0, 0] slices_S2x3x128x128_S1x3x128x128_0_0_0_0)
          (neighMat (V (Proc.devRef .tc main_arg2)) ![0, 0, 0, 0] slices_S2x3x128x128_S1x1x128x128_0_0_0_0)
          (neighMat (V (Proc.devRef .tc main_arg2)) ![0, 1, 0, 0] slices_S2x3x128x128_S1x1x128x128_0_1_0_0)
          (neighMat (V (Proc.devRef .tc main_arg2)) ![0, 2, 0, 0] slices_S2x3x128x128_S1x1x128x128_0_2_0_0) := by
  host_results <;> rfl

/-- Layer 0's three bias vectors summed. -/
theorem h0bias_res (V : Valuation τ sig (Elt Ideal)) :
    after h0bias V (Proc.devRef .tc main_v116) = biasSum (V (Proc.devRef .tc main_arg4)) ![0, 0, 0] slices_S2x3x128_S1x3x128_0_0_0 := by
  host_results <;> rfl

/-! ## The pieces in a row -/

/-- The degree blocks and the stack of their columns, in a row. -/
def degs (V : Valuation τ sig (Elt Ideal)) : Valuation τ sig (Elt Ideal) := after h0inv (after h0d2 (after h0d1 (after h0d0 V)))

/-- A reference the degree blocks and the stack do not write keeps its contents. -/
theorem degs_keeps (V : Valuation τ sig (Elt Ideal)) (r : Ref sig .tc) (h0 : r ∉ h0d0_W) (h1 : r ∉ h0d1_W) (h2 : r ∉ h0d2_W) (h3 : r ∉ h0inv_W) :
    degs V (Proc.devRef .tc r) = V (Proc.devRef .tc r) := by
  unfold degs
  rw [h0inv_keeps _ r h3, h0d2_keeps _ r h2, h0d1_keeps _ r h1, h0d0_keeps _ r h0]

/-- The degree blocks and the stack leave the three reciprocal clamped degrees formed from the edge array. -/
theorem degs_res (V : Valuation τ sig (Elt Ideal)) : degs V (Proc.devRef .tc main_v36) = invStack (V (Proc.devRef .tc main_arg1)) := by
  unfold degs
  rw [h0inv_res,
    h0d2_keeps _ main_v10 (by decide), h0d2_keeps _ main_v21 (by decide), h0d2_res,
    h0d1_keeps _ main_v10 (by decide), h0d1_keeps _ main_arg1 (by decide), h0d1_res,
    h0d0_keeps _ main_arg1 (by decide), h0d0_res]
  rfl

/-- The three relation blocks and the stacking block, in a row. -/
def rows (V : Valuation τ sig (Elt Ideal)) : Valuation τ sig (Elt Ideal) := after h0stack (after h0r2 (after h0r1 (after h0r0 V)))

/-- A reference the relation blocks and the stacking block do not write keeps its contents. -/
theorem rows_keeps (V : Valuation τ sig (Elt Ideal)) (r : Ref sig .tc) (h0 : r ∉ h0r0_W) (h1 : r ∉ h0r1_W) (h2 : r ∉ h0r2_W) (h3 : r ∉ h0stack_W) :
    rows V (Proc.devRef .tc r) = V (Proc.devRef .tc r) := by
  unfold rows
  rw [h0stack_keeps _ r h3, h0r2_keeps _ r h2, h0r1_keeps _ r h1, h0r0_keeps _ r h0]

/-- The relation blocks and the stacking block leave the stacked row of the node features, with the reciprocal degrees
    found. -/
theorem rows_res (V : Valuation τ sig (Elt Ideal)) :
    rows V (Proc.devRef .tc main_v102) = xTerm (V (Proc.devRef .tc main_v36)) (V (Proc.devRef .tc main_arg1)) (V (Proc.devRef .tc main_arg0)) := by
  unfold rows
  rw [h0stack_res,
    h0r2_keeps _ main_arg0 (by decide), h0r2_keeps _ main_v54 (by decide), h0r2_keeps _ main_v72 (by decide), h0r2_res,
    h0r1_keeps _ main_arg0 (by decide), h0r1_keeps _ main_v54 (by decide), h0r1_keeps _ main_arg1 (by decide), h0r1_keeps _ main_v36 (by decide), h0r1_res,
    h0r0_keeps _ main_arg0 (by decide), h0r0_keeps _ main_arg1 (by decide), h0r0_keeps _ main_v36 (by decide), h0r0_res]
  rfl

/-- The whole stretch is the degree blocks with their stack, the relation blocks with theirs, the weights and the bias. -/
theorem after_hostOps0 (W : Valuation τ sig (Elt Ideal)) :
    after (hostOps0 (F := Ideal)) W = after h0bias (after h0wts (rows (degs W))) := by
  rw [hostOps0_eq, Cert.Lib.RunPieces.after_append, Cert.Lib.RunPieces.after_append, Cert.Lib.RunPieces.after_append,
    Cert.Lib.RunPieces.after_append, Cert.Lib.RunPieces.after_append, Cert.Lib.RunPieces.after_append,
    Cert.Lib.RunPieces.after_append, Cert.Lib.RunPieces.after_append, Cert.Lib.RunPieces.after_append]
  rfl

end Cert.KernelIdeal.KHost

end
-- ==== Proof.KHostAfter0Inv.lean ====
/-
  The first stretch leaves the three reciprocal clamped degrees, stacked, in the buffer the second stretch reads them
  from: each relation's target words give its in-degree, clamped below at one, and one is divided by it. The degree
  blocks and their stack form them; no later piece of the stretch writes that buffer.
-/
import proofs.«181974_j41549513621817_2_alg».proof.Proof.KHostPieces0

noncomputable section

namespace Cert.KernelIdeal.KHost

open Cert.KernelIdeal Cert.KernelIdeal.Gen Cert.KernelIdeal.Agg Idealize.ShloMosaic Idealize.ShloMosaic.ValueIdx
open Cert.Lib.NaryThree Idealize.ShloMosaic.StableHlo

/-- After the first stretch the stack of reciprocal clamped degrees is the one formed from the edge array. -/
theorem host0_inv (W : Valuation τ sig (Elt Ideal)) :
    StableHlo.after (hostOps0 (F := Ideal)) W (Proc.devRef .tc main_v36) = invStack (W (Proc.devRef .tc main_arg1)) := by
  rw [after_hostOps0, h0bias_keeps _ main_v36 (by decide), h0wts_keeps _ main_v36 (by decide),
    rows_keeps _ main_v36 (by decide) (by decide) (by decide) (by decide), degs_res]

end Cert.KernelIdeal.KHost

end
-- ==== Proof.KHostAfter0X.lean ====
/-
  The first stretch leaves, in the buffer the first region reads its rows from, the node features beside their three
  scaled neighbour row sums, with the reciprocal degrees it has just computed: the relation blocks and the stacking block
  read the stack the degree blocks left, and neither the weights nor the bias piece writes the row buffer.
-/
import proofs.«181974_j41549513621817_2_alg».proof.Proof.KHostPieces0

noncomputable section

namespace Cert.KernelIdeal.KHost

open Cert.KernelIdeal Cert.KernelIdeal.Gen Cert.KernelIdeal.Agg Idealize.ShloMosaic Idealize.ShloMosaic.ValueIdx
open Cert.Lib.NaryThree Idealize.ShloMosaic.StableHlo

/-- After the first stretch the stacked row is that of the node features, with the stretch's own reciprocal degrees. -/
theorem host0_X_term (W : Valuation τ sig (Elt Ideal)) :
    StableHlo.after (hostOps0 (F := Ideal)) W (Proc.devRef .tc main_v102)
      = xTerm (invStack (W (Proc.devRef .tc main_arg1))) (W (Proc.devRef .tc main_arg1)) (W (Proc.devRef .tc main_arg0)) := by
  rw [after_hostOps0, h0bias_keeps _ main_v102 (by decide), h0wts_keeps _ main_v102 (by decide), rows_res, degs_res,
    degs_keeps _ main_arg1 (by decide) (by decide) (by decide) (by decide), degs_keeps _ main_arg0 (by decide) (by decide) (by decide) (by decide)]

end Cert.KernelIdeal.KHost

end
-- ==== Proof.KHostAfter0W.lean ====
/-
  The first stretch leaves layer 0's stacked weights and summed bias in the buffers the first region reads them from.
-/
import proofs.«181974_j41549513621817_2_alg».proof.Proof.KHostTerms
import proofs.«181974_j41549513621817_2_alg».proof.Proof.LibNaryThree

noncomputable section

namespace Cert.KernelIdeal.KHost

open Cert.KernelIdeal Cert.KernelIdeal.Gen Cert.KernelIdeal.Agg Idealize.ShloMosaic Idealize.ShloMosaic.ValueIdx
open Cert.Lib.NaryThree Idealize.ShloMosaic.StableHlo

set_option maxHeartbeats 4000000 in
/-- After the first stretch: layer 0's root matrices summed, over its three neighbour matrices. -/
theorem host0_W_term (W : Valuation τ sig (Elt Ideal)) :
    StableHlo.after (hostOps0 (F := Ideal)) W (Proc.devRef .tc main_v113)
      = oneUnderAnother (rootSum (W (Proc.devRef .tc main_arg3)) ![0, 0, 0, 0] slices_S2x3x128x128_S1x3x128x128_0_0_0_0)
          (neighMat (W (Proc.devRef .tc main_arg2)) ![0, 0, 0, 0] slices_S2x3x128x128_S1x1x128x128_0_0_0_0)
          (neighMat (W (Proc.devRef .tc main_arg2)) ![0, 1, 0, 0] slices_S2x3x128x128_S1x1x128x128_0_1_0_0)
          (neighMat (W (Proc.devRef .tc main_arg2)) ![0, 2, 0, 0] slices_S2x3x128x128_S1x1x128x128_0_2_0_0) := by
  host_results
  rfl

set_option maxHeartbeats 4000000 in
/-- After the first stretch: layer 0's three bias vectors summed. -/
theorem host0_b_term (W : Valuation τ sig (Elt Ideal)) :
    StableHlo.after (hostOps0 (F := Ideal)) W (Proc.devRef .tc main_v116)
      = biasSum (W (Proc.devRef .tc main_arg4)) ![0, 0, 0] slices_S2x3x128_S1x3x128_0_0_0 := by
  host_results
  rfl

end Cert.KernelIdeal.KHost

end
-- ==== Proof.KHostAfter1X.lean ====
/-
  The second stretch leaves, in the buffer the second region reads its rows from, the first region's output beside its
  three scaled neighbour row sums, with the reciprocal degrees it finds where the first stretch left them.

  The stretch is read in pieces: one block per relation (the relation's row sums of the node features times its column of
  reciprocal degrees), the block that stacks the three products, cuts them apart and lays them beside the node features,
  and the rest, which writes none of these buffers. Each piece's result is a term over what the piece found; a piece
  keeps every buffer it does not write.
-/
import proofs.«181974_j41549513621817_2_alg».proof.Proof.KHostTerms
import proofs.«181974_j41549513621817_2_alg».proof.Proof.LibNaryThree
import proofs.«181974_j41549513621817_2_alg».proof.Proof.LibRunPieces

set_option maxRecDepth 16384

noncomputable section

namespace Cert.KernelIdeal.KHost

open Cert.KernelIdeal Cert.KernelIdeal.Gen Cert.KernelIdeal.Agg Idealize.ShloMosaic Idealize.ShloMosaic.ValueIdx
open Cert.Lib.NaryThree Idealize.ShloMosaic.StableHlo

section Pieces

variable {F : FTy → Type} [FloatOps F]

/-- Relation 0's block: its source and target words, the rows gathered and added up at the targets, times the relation's column of reciprocal degrees. -/
abbrev h1r0 : List (HloOp τ sig (Elt F)) :=
  [ StableHlo.unary main_arg1 main_v118 ((extractStridedSlice S1x1x640000 ![0, 0, 0] · slices_S3x2x640000_S1x1x640000_0_0_0) : (⟨S3x2x640000, .i32⟩ : BufTy).Contents (Elt F) → (⟨S1x1x640000, .i32⟩ : BufTy).Contents (Elt F)),
    StableHlo.reshape main_v118 main_v119 rfl shapeCasts_S1x1x640000_S640000,
    StableHlo.unary main_arg1 main_v120 ((extractStridedSlice S1x1x640000 ![0, 1, 0] · slices_S3x2x640000_S1x1x640000_0_1_0) : (⟨S3x2x640000, .i32⟩ : BufTy).Contents (Elt F) → (⟨S1x1x640000, .i32⟩ : BufTy).Contents (Elt F)),
    StableHlo.reshape main_v120 main_v121 rfl shapeCasts_S1x1x640000_S640000,
    StableHlo.nullary main_c_21 (constantI S_ 32 0#32),
    StableHlo.unary main_c_21 main_v122 (broadcastInDim S640000 ![] bcast_S_S640000 : (⟨S_, .i32⟩ : BufTy).Contents (Elt F) → (⟨S640000, .i32⟩ : BufTy).Contents (Elt F)),
    StableHlo.binary main_v119 main_v122 main_v123 (cmpi .slt : (⟨S640000, .i32⟩ : BufTy).Contents (Elt F) → (⟨S640000, .i32⟩ : BufTy).Contents (Elt F) → (⟨S640000, .i1⟩ : BufTy).Contents (Elt F)),
    StableHlo.nullary main_c_22 (constantI S_ 32 50000#32),
    StableHlo.unary main_c_22 main_v124 (broadcastInDim S640000 ![] bcast_S_S640000 : (⟨S_, .i32⟩ : BufTy).Contents (Elt F) → (⟨S640000, .i32⟩ : BufTy).Contents (Elt F)),
    StableHlo.binary main_v119 main_v124 main_v125 (addi : (⟨S640000, .i32⟩ : BufTy).Contents (Elt F) → (⟨S640000, .i32⟩ : BufTy).Contents (Elt F) → (⟨S640000, .i32⟩ : BufTy).Contents (Elt F)),
    StableHlo.ternary main_v123 main_v125 main_v119 main_v126 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v126 main_v127 (broadcastInDim S640000x1 ![0] bcast_S640000_S640000x1_0 : (⟨S640000, .i32⟩ : BufTy).Contents (Elt F) → (⟨S640000x1, .i32⟩ : BufTy).Contents (Elt F)),
    StableHlo.binary main_v117 main_v127 main_v128 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.nullary main_cst_23 (constant S_ .f32 0x00000000#32),
    StableHlo.unary main_cst_23 main_v129 (broadcastInDim S50000x128 ![] bcast_S_S50000x128 : (⟨S_, .f32⟩ : BufTy).Contents (Elt F) → (⟨S50000x128, .f32⟩ : BufTy).Contents (Elt F)),
    StableHlo.unary main_v121 main_v130 (broadcastInDim S640000x1 ![0] bcast_S640000_S640000x1_0 : (⟨S640000, .i32⟩ : BufTy).Contents (Elt F) → (⟨S640000x1, .i32⟩ : BufTy).Contents (Elt F)),
    StableHlo.ternary main_v129 main_v130 main_v128 main_v131 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.unary main_v36 main_v132 ((extractStridedSlice S1x50000x1 ![0, 0, 0] · slices_S3x50000x1_S1x50000x1_0_0_0) : (⟨S3x50000x1, .f32⟩ : BufTy).Contents (Elt F) → (⟨S1x50000x1, .f32⟩ : BufTy).Contents (Elt F)),
    StableHlo.reshape main_v132 main_v133 rfl shapeCasts_S1x50000x1_S50000x1,
    StableHlo.unary main_v133 main_v134 (broadcastInDim S50000x128 ![0, 1] bcast_S50000x1_S50000x128_0_1 : (⟨S50000x1, .f32⟩ : BufTy).Contents (Elt F) → (⟨S50000x128, .f32⟩ : BufTy).Contents (Elt F)),
    StableHlo.binary main_v131 main_v134 main_v135 (mulf : (⟨S50000x128, .f32⟩ : BufTy).Contents (Elt F) → (⟨S50000x128, .f32⟩ : BufTy).Contents (Elt F) → (⟨S50000x128, .f32⟩ : BufTy).Contents (Elt F)) ]

/-- Relation 1's block. -/
abbrev h1r1 : List (HloOp τ sig (Elt F)) :=
  [ StableHlo.unary main_arg1 main_v136 ((extractStridedSlice S1x1x640000 ![1, 0, 0] · slices_S3x2x640000_S1x1x640000_1_0_0) : (⟨S3x2x640000, .i32⟩ : BufTy).Contents (Elt F) → (⟨S1x1x640000, .i32⟩ : BufTy).Contents (Elt F)),
    StableHlo.reshape main_v136 main_v137 rfl shapeCasts_S1x1x640000_S640000,
    StableHlo.unary main_arg1 main_v138 ((extractStridedSlice S1x1x640000 ![1, 1, 0] · slices_S3x2x640000_S1x1x640000_1_1_0) : (⟨S3x2x640000, .i32⟩ : BufTy).Contents (Elt F) → (⟨S1x1x640000, .i32⟩ : BufTy).Contents (Elt F)),
    StableHlo.reshape main_v138 main_v139 rfl shapeCasts_S1x1x640000_S640000,
    StableHlo.nullary main_c_24 (constantI S_ 32 0#32),
    StableHlo.unary main_c_24 main_v140 (broadcastInDim S640000 ![] bcast_S_S640000 : (⟨S_, .i32⟩ : BufTy).Contents (Elt F) → (⟨S640000, .i32⟩ : BufTy).Contents (Elt F)),
    StableHlo.binary main_v137 main_v140 main_v141 (cmpi .slt : (⟨S640000, .i32⟩ : BufTy).Contents (Elt F) → (⟨S640000, .i32⟩ : BufTy).Contents (Elt F) → (⟨S640000, .i1⟩ : BufTy).Contents (Elt F)),
    StableHlo.nullary main_c_25 (constantI S_ 32 50000#32),
    StableHlo.unary main_c_25 main_v142 (broadcastInDim S640000 ![] bcast_S_S640000 : (⟨S_, .i32⟩ : BufTy).Contents (Elt F) → (⟨S640000, .i32⟩ : BufTy).Contents (Elt F)),
    StableHlo.binary main_v137 main_v142 main_v143 (addi : (⟨S640000, .i32⟩ : BufTy).Contents (Elt F) → (⟨S640000, .i32⟩ : BufTy).Contents (Elt F) → (⟨S640000, .i32⟩ : BufTy).Contents (Elt F)),
    StableHlo.ternary main_v141 main_v143 main_v137 main_v144 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v144 main_v145 (broadcastInDim S640000x1 ![0] bcast_S640000_S640000x1_0 : (⟨S640000, .i32⟩ : BufTy).Contents (Elt F) → (⟨S640000x1, .i32⟩ : BufTy).Contents (Elt F)),
    StableHlo.binary main_v117 main_v145 main_v146 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.nullary main_cst_26 (constant S_ .f32 0x00000000#32),
    StableHlo.unary main_cst_26 main_v147 (broadcastInDim S50000x128 ![] bcast_S_S50000x128 : (⟨S_, .f32⟩ : BufTy).Contents (Elt F) → (⟨S50000x128, .f32⟩ : BufTy).Contents (Elt F)),
    StableHlo.unary main_v139 main_v148 (broadcastInDim S640000x1 ![0] bcast_S640000_S640000x1_0 : (⟨S640000, .i32⟩ : BufTy).Contents (Elt F) → (⟨S640000x1, .i32⟩ : BufTy).Contents (Elt F)),
    StableHlo.ternary main_v147 main_v148 main_v146 main_v149 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.unary main_v36 main_v150 ((extractStridedSlice S1x50000x1 ![1, 0, 0] · slices_S3x50000x1_S1x50000x1_1_0_0) : (⟨S3x50000x1, .f32⟩ : BufTy).Contents (Elt F) → (⟨S1x50000x1, .f32⟩ : BufTy).Contents (Elt F)),
    StableHlo.reshape main_v150 main_v151 rfl shapeCasts_S1x50000x1_S50000x1,
    StableHlo.unary main_v151 main_v152 (broadcastInDim S50000x128 ![0, 1] bcast_S50000x1_S50000x128_0_1 : (⟨S50000x1, .f32⟩ : BufTy).Contents (Elt F) → (⟨S50000x128, .f32⟩ : BufTy).Contents (Elt F)),
    StableHlo.binary main_v149 main_v152 main_v153 (mulf : (⟨S50000x128, .f32⟩ : BufTy).Contents (Elt F) → (⟨S50000x128, .f32⟩ : BufTy).Contents (Elt F) → (⟨S50000x128, .f32⟩ : BufTy).Contents (Elt F)) ]

/-- Relation 2's block. -/
abbrev h1r2 : List (HloOp τ sig (Elt F)) :=
  [ StableHlo.unary main_arg1 main_v154 ((extractStridedSlice S1x1x640000 ![2, 0, 0] · slices_S3x2x640000_S1x1x640000_2_0_0) : (⟨S3x2x640000, .i32⟩ : BufTy).Contents (Elt F) → (⟨S1x1x640000, .i32⟩ : BufTy).Contents (Elt F)),
    StableHlo.reshape main_v154 main_v155 rfl shapeCasts_S1x1x640000_S640000,
    StableHlo.unary main_arg1 main_v156 ((extractStridedSlice S1x1x640000 ![2, 1, 0] · slices_S3x2x640000_S1x1x640000_2_1_0) : (⟨S3x2x640000, .i32⟩ : BufTy).Contents (Elt F) → (⟨S1x1x640000, .i32⟩ : BufTy).Contents (Elt F)),
    StableHlo.reshape main_v156 main_v157 rfl shapeCasts_S1x1x640000_S640000,
    StableHlo.nullary main_c_27 (constantI S_ 32 0#32),
    StableHlo.unary main_c_27 main_v158 (broadcastInDim S640000 ![] bcast_S_S640000 : (⟨S_, .i32⟩ : BufTy).Contents (Elt F) → (⟨S640000, .i32⟩ : BufTy).Contents (Elt F)),
    StableHlo.binary main_v155 main_v158 main_v159 (cmpi .slt : (⟨S640000, .i32⟩ : BufTy).Contents (Elt F) → (⟨S640000, .i32⟩ : BufTy).Contents (Elt F) → (⟨S640000, .i1⟩ : BufTy).Contents (Elt F)),
    StableHlo.nullary main_c_28 (constantI S_ 32 50000#32),
    StableHlo.unary main_c_28 main_v160 (broadcastInDim S640000 ![] bcast_S_S640000 : (⟨S_, .i32⟩ : BufTy).Contents (Elt F) → (⟨S640000, .i32⟩ : BufTy).Contents (Elt F)),
    StableHlo.binary main_v155 main_v160 main_v161 (addi : (⟨S640000, .i32⟩ : BufTy).Contents (Elt F) → (⟨S640000, .i32⟩ : BufTy).Contents (Elt F) → (⟨S640000, .i32⟩ : BufTy).Contents (Elt F)),
    StableHlo.ternary main_v159 main_v161 main_v155 main_v162 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v162 main_v163 (broadcastInDim S640000x1 ![0] bcast_S640000_S640000x1_0 : (⟨S640000, .i32⟩ : BufTy).Contents (Elt F) → (⟨S640000x1, .i32⟩ : BufTy).Contents (Elt F)),
    StableHlo.binary main_v117 main_v163 main_v164 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.nullary main_cst_29 (constant S_ .f32 0x00000000#32),
    StableHlo.unary main_cst_29 main_v165 (broadcastInDim S50000x128 ![] bcast_S_S50000x128 : (⟨S_, .f32⟩ : BufTy).Contents (Elt F) → (⟨S50000x128, .f32⟩ : BufTy).Contents (Elt F)),
    StableHlo.unary main_v157 main_v166 (broadcastInDim S640000x1 ![0] bcast_S640000_S640000x1_0 : (⟨S640000, .i32⟩ : BufTy).Contents (Elt F) → (⟨S640000x1, .i32⟩ : BufTy).Contents (Elt F)),
    StableHlo.ternary main_v165 main_v166 main_v164 main_v167 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.unary main_v36 main_v168 ((extractStridedSlice S1x50000x1 ![2, 0, 0] · slices_S3x50000x1_S1x50000x1_2_0_0) : (⟨S3x50000x1, .f32⟩ : BufTy).Contents (Elt F) → (⟨S1x50000x1, .f32⟩ : BufTy).Contents (Elt F)),
    StableHlo.reshape main_v168 main_v169 rfl shapeCasts_S1x50000x1_S50000x1,
    StableHlo.unary main_v169 main_v170 (broadcastInDim S50000x128 ![0, 1] bcast_S50000x1_S50000x128_0_1 : (⟨S50000x1, .f32⟩ : BufTy).Contents (Elt F) → (⟨S50000x128, .f32⟩ : BufTy).Contents (Elt F)),
    StableHlo.binary main_v167 main_v170 main_v171 (mulf : (⟨S50000x128, .f32⟩ : BufTy).Contents (Elt F) → (⟨S50000x128, .f32⟩ : BufTy).Contents (Elt F) → (⟨S50000x128, .f32⟩ : BufTy).Contents (Elt F)) ]

/-- The three products stacked, cut apart again, and laid beside the node features; then narrowed. -/
abbrev h1stack : List (HloOp τ sig (Elt F)) :=
  [ StableHlo.unary main_v135 main_v172 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v153 main_v173 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v171 main_v174 (broadcastInDim S1x50000x128 ![1, 2] bcast_S50000x128_S1x50000x128_1_2 : (⟨S50000x128, .f32⟩ : BufTy).Contents (Elt F) → (⟨S1x50000x128, .f32⟩ : BufTy).Contents (Elt F)),
    StableHlo.nary ![main_v172, main_v173, main_v174] main_v175 (fun u => concatenate S3x50000x128 0 [⟨S1x50000x128, u 0⟩, ⟨S1x50000x128, u 1⟩, ⟨S1x50000x128, u 2⟩] concatenates_S1x50000x128_S1x50000x128_S1x50000x128_S3x50000x128_d0),
    StableHlo.unary main_v175 main_v176 ((extractStridedSlice S1x50000x128 ![0, 0, 0] · slices_S3x50000x128_S1x50000x128_0_0_0) : (⟨S3x50000x128, .f32⟩ : BufTy).Contents (Elt F) → (⟨S1x50000x128, .f32⟩ : BufTy).Contents (Elt F)),
    StableHlo.reshape main_v176 main_v177 rfl shapeCasts_S1x50000x128_S50000x128,
    StableHlo.unary main_v175 main_v178 ((extractStridedSlice S1x50000x128 ![1, 0, 0] · slices_S3x50000x128_S1x50000x128_1_0_0) : (⟨S3x50000x128, .f32⟩ : BufTy).Contents (Elt F) → (⟨S1x50000x128, .f32⟩ : BufTy).Contents (Elt F)),
    StableHlo.reshape main_v178 main_v179 rfl shapeCasts_S1x50000x128_S50000x128,
    StableHlo.unary main_v175 main_v180 ((extractStridedSlice S1x50000x128 ![2, 0, 0] · slices_S3x50000x128_S1x50000x128_2_0_0) : (⟨S3x50000x128, .f32⟩ : BufTy).Contents (Elt F) → (⟨S1x50000x128, .f32⟩ : BufTy).Contents (Elt F)),
    StableHlo.reshape main_v180 main_v181 rfl shapeCasts_S1x50000x128_S50000x128,
    StableHlo.nary ![main_v117, main_v177, main_v179, main_v181] main_v182 (fun u => concatenate S50000x512 1 [⟨S50000x128, u 0⟩, ⟨S50000x128, u 1⟩, ⟨S50000x128, u 2⟩, ⟨S50000x128, u 3⟩] concatenates_S50000x128_S50000x128_S50000x128_S50000x128_S50000x512_d1),
    StableHlo.unary main_v182 main_v183 ((truncf .bf16 · bitsLt_bf16_f32) : (⟨S50000x512, .f32⟩ : BufTy).Contents (Elt F) → (⟨S50000x512, .bf16⟩ : BufTy).Contents (Elt F)) ]

/-- The rest of the stretch: the layer's stacked weights, its summed bias, and the head's weights. -/
abbrev h1tail : List (HloOp τ sig (Elt F)) :=
  [ StableHlo.unary main_arg3 main_v184 ((extractStridedSlice S1x3x128x128 ![1, 0, 0, 0] · slices_S2x3x128x128_S1x3x128x128_1_0_0_0) : (⟨S2x3x128x128, .f32⟩ : BufTy).Contents (Elt F) → (⟨S1x3x128x128, .f32⟩ : BufTy).Contents (Elt F)),
    StableHlo.reshape main_v184 main_v185 rfl shapeCasts_S1x3x128x128_S3x128x128,
    StableHlo.nullary main_cst_30 (constant S_ .f32 0x00000000#32),
    StableHlo.binary main_v185 main_cst_30 main_v186 ((fun x v => Host.reduceAdd x v reducesTo_S3x128x128_S128x128_d0 h_S_) : (⟨S3x128x128, .f32⟩ : BufTy).Contents (Elt F) → (⟨S_, .f32⟩ : BufTy).Contents (Elt F) → (⟨S128x128, .f32⟩ : BufTy).Contents (Elt F)),
    StableHlo.unary main_arg2 main_v187 ((extractStridedSlice S1x1x128x128 ![1, 0, 0, 0] · slices_S2x3x128x128_S1x1x128x128_1_0_0_0) : (⟨S2x3x128x128, .f32⟩ : BufTy).Contents (Elt F) → (⟨S1x1x128x128, .f32⟩ : BufTy).Contents (Elt F)),
    StableHlo.reshape main_v187 main_v188 rfl shapeCasts_S1x1x128x128_S128x128,
    StableHlo.unary main_arg2 main_v189 ((extractStridedSlice S1x1x128x128 ![1, 1, 0, 0] · slices_S2x3x128x128_S1x1x128x128_1_1_0_0) : (⟨S2x3x128x128, .f32⟩ : BufTy).Contents (Elt F) → (⟨S1x1x128x128, .f32⟩ : BufTy).Contents (Elt F)),
    StableHlo.reshape main_v189 main_v190 rfl shapeCasts_S1x1x128x128_S128x128,
    StableHlo.unary main_arg2 main_v191 ((extractStridedSlice S1x1x128x128 ![1, 2, 0, 0] · slices_S2x3x128x128_S1x1x128x128_1_2_0_0) : (⟨S2x3x128x128, .f32⟩ : BufTy).Contents (Elt F) → (⟨S1x1x128x128, .f32⟩ : BufTy).Contents (Elt F)),
    StableHlo.reshape main_v191 main_v192 rfl shapeCasts_S1x1x128x128_S128x128,
    StableHlo.nary ![main_v186, main_v188, main_v190, main_v192] main_v193 (fun u => concatenate S512x128 0 [⟨S128x128, u 0⟩, ⟨S128x128, u 1⟩, ⟨S128x128, u 2⟩, ⟨S128x128, u 3⟩] concatenates_S128x128_S128x128_S128x128_S128x128_S512x128_d0),
    StableHlo.unary main_v193 main_v194 ((truncf .bf16 · bitsLt_bf16_f32) : (⟨S512x128, .f32⟩ : BufTy).Contents (Elt F) → (⟨S512x128, .bf16⟩ : BufTy).Contents (Elt F)),
    StableHlo.unary main_arg4 main_v195 ((extractStridedSlice S1x3x128 ![1, 0, 0] · slices_S2x3x128_S1x3x128_1_0_0) : (⟨S2x3x128, .f32⟩ : BufTy).Contents (Elt F) → (⟨S1x3x128, .f32⟩ : BufTy).Contents (Elt F)),
    StableHlo.reshape main_v195 main_v196 rfl shapeCasts_S1x3x128_S3x128,
    StableHlo.nullary main_cst_31 (constant S_ .f32 0x00000000#32),
    StableHlo.binary main_v196 main_cst_31 main_v197 ((fun x v => Host.reduceAdd x v reducesTo_S3x128_S128_d0 h_S_) : (⟨S3x128, .f32⟩ : BufTy).Contents (Elt F) → (⟨S_, .f32⟩ : BufTy).Contents (Elt F) → (⟨S128, .f32⟩ : BufTy).Contents (Elt F)),
    StableHlo.unary main_arg5 main_v198 ((truncf .bf16 · bitsLt_bf16_f32) : (⟨S128x32, .f32⟩ : BufTy).Contents (Elt F) → (⟨S128x32, .bf16⟩ : BufTy).Contents (Elt F)) ]

/-- The stretch's operations are the pieces in a row. -/
theorem hostOps1_eq : (hostOps1 : List (HloOp τ sig (Elt F))) = h1r0 ++ (h1r1 ++ (h1r2 ++ (h1stack ++ h1tail))) := by
  simp only [hostOps1, h1r0, h1r1, h1r2, h1stack, h1tail, List.cons_append, List.nil_append]

end Pieces

/-! ## What each piece writes, and that it keeps the rest -/

/-- The references `h1r0` writes. -/
abbrev h1r0_W : List (Ref sig .tc) := [main_v118, main_v119, main_v120, main_v121, main_c_21, main_v122, main_v123, main_c_22, main_v124, main_v125, main_v126, main_v127, main_v128, main_cst_23, main_v129, main_v130, main_v131, main_v132, main_v133, main_v134, main_v135]

theorem h1r0_writes : (h1r0 : List (HloOp τ sig (Elt Ideal))).Forall fun op => op.writes ⊆ (h1r0_W.map (Proc.devRef (τ := τ) .tc)).toFinset := by
  simp only [h1r0, List.Forall, nullary_writes, unary_writes, binary_writes, ternary_writes, reshape_writes, nary_writes, Finset.singleton_subset_iff, List.mem_toFinset]
  repeat' apply And.intro
  all_goals exact List.mem_map_of_mem (by decide)

/-- A reference `h1r0` does not write keeps its contents. -/
theorem h1r0_keeps (V : Valuation τ sig (Elt Ideal)) (r : Ref sig .tc) (h : r ∉ h1r0_W) :
    after h1r0 V (Proc.devRef .tc r) = V (Proc.devRef .tc r) :=
  after_of_writes_sub h1r0 V h1r0_writes h

/-- The references `h1r1` writes. -/
abbrev h1r1_W : List (Ref sig .tc) := [main_v136, main_v137, main_v138, main_v139, main_c_24, main_v140, main_v141, main_c_25, main_v142, main_v143, main_v144, main_v145, main_v146, main_cst_26, main_v147, main_v148, main_v149, main_v150, main_v151, main_v152, main_v153]

theorem h1r1_writes : (h1r1 : List (HloOp τ sig (Elt Ideal))).Forall fun op => op.writes ⊆ (h1r1_W.map (Proc.devRef (τ := τ) .tc)).toFinset := by
  simp only [h1r1, List.Forall, nullary_writes, unary_writes, binary_writes, ternary_writes, reshape_writes, nary_writes, Finset.singleton_subset_iff, List.mem_toFinset]
  repeat' apply And.intro
  all_goals exact List.mem_map_of_mem (by decide)

/-- A reference `h1r1` does not write keeps its contents. -/
theorem h1r1_keeps (V : Valuation τ sig (Elt Ideal)) (r : Ref sig .tc) (h : r ∉ h1r1_W) :
    after h1r1 V (Proc.devRef .tc r) = V (Proc.devRef .tc r) :=
  after_of_writes_sub h1r1 V h1r1_writes h

/-- The references `h1r2` writes. -/
abbrev h1r2_W : List (Ref sig .tc) := [main_v154, main_v155, main_v156, main_v157, main_c_27, main_v158, main_v159, main_c_28, main_v160, main_v161, main_v162, main_v163, main_v164, main_cst_29, main_v165, main_v166, main_v167, main_v168, main_v169, main_v170, main_v171]

theorem h1r2_writes : (h1r2 : List (HloOp τ sig (Elt Ideal))).Forall fun op => op.writes ⊆ (h1r2_W.map (Proc.devRef (τ := τ) .tc)).toFinset := by
  simp only [h1r2, List.Forall, nullary_writes, unary_writes, binary_writes, ternary_writes, reshape_writes, nary_writes, Finset.singleton_subset_iff, List.mem_toFinset]
  repeat' apply And.intro
  all_goals exact List.mem_map_of_mem (by decide)

/-- A reference `h1r2` does not write keeps its contents. -/
theorem h1r2_keeps (V : Valuation τ sig (Elt Ideal)) (r : Ref sig .tc) (h : r ∉ h1r2_W) :
    after h1r2 V (Proc.devRef .tc r) = V (Proc.devRef .tc r) :=
  after_of_writes_sub h1r2 V h1r2_writes h

/-- The references `h1stack` writes. -/
abbrev h1stack_W : List (Ref sig .tc) := [main_v172, main_v173, main_v174, main_v175, main_v176, main_v177, main_v178, main_v179, main_v180, main_v181, main_v182, main_v183]

theorem h1stack_writes : (h1stack : List (HloOp τ sig (Elt Ideal))).Forall fun op => op.writes ⊆ (h1stack_W.map (Proc.devRef (τ := τ) .tc)).toFinset := by
  simp only [h1stack, List.Forall, nullary_writes, unary_writes, binary_writes, ternary_writes, reshape_writes, nary_writes, Finset.singleton_subset_iff, List.mem_toFinset]
  repeat' apply And.intro
  all_goals exact List.mem_map_of_mem (by decide)

/-- A reference `h1stack` does not write keeps its contents. -/
theorem h1stack_keeps (V : Valuation τ sig (Elt Ideal)) (r : Ref sig .tc) (h : r ∉ h1stack_W) :
    after h1stack V (Proc.devRef .tc r) = V (Proc.devRef .tc r) :=
  after_of_writes_sub h1stack V h1stack_writes h

/-- The references `h1tail` writes. -/
abbrev h1tail_W : List (Ref sig .tc) := [main_v184, main_v185, main_cst_30, main_v186, main_v187, main_v188, main_v189, main_v190, main_v191, main_v192, main_v193, main_v194, main_v195, main_v196, main_cst_31, main_v197, main_v198]

theorem h1tail_writes : (h1tail : List (HloOp τ sig (Elt Ideal))).Forall fun op => op.writes ⊆ (h1tail_W.map (Proc.devRef (τ := τ) .tc)).toFinset := by
  simp only [h1tail, List.Forall, nullary_writes, unary_writes, binary_writes, ternary_writes, reshape_writes, nary_writes, Finset.singleton_subset_iff, List.mem_toFinset]
  repeat' apply And.intro
  all_goals exact List.mem_map_of_mem (by decide)

/-- A reference `h1tail` does not write keeps its contents. -/
theorem h1tail_keeps (V : Valuation τ sig (Elt Ideal)) (r : Ref sig .tc) (h : r ∉ h1tail_W) :
    after h1tail V (Proc.devRef .tc r) = V (Proc.devRef .tc r) :=
  after_of_writes_sub h1tail V h1tail_writes h

/-! ## What each piece computes -/

/-- Relation 0's block leaves the relation's neighbour row sums of the node features, scaled by its column of the
    reciprocal degrees found. -/
theorem h1r0_res (V : Valuation τ sig (Elt Ideal)) :
    after h1r0 V (Proc.devRef .tc main_v135)
      = mulf (rowSums (src0 (V (Proc.devRef .tc main_arg1))) (dst0 (V (Proc.devRef .tc main_arg1))) (V (Proc.devRef .tc main_v117)))
          (spread0 (V (Proc.devRef .tc main_v36))) := by
  host_results <;> rfl

/-- Relation 1's block leaves the relation's neighbour row sums of the node features, scaled by its column of the
    reciprocal degrees found. -/
theorem h1r1_res (V : Valuation τ sig (Elt Ideal)) :
    after h1r1 V (Proc.devRef .tc main_v153)
      = mulf (rowSums (src1 (V (Proc.devRef .tc main_arg1))) (dst1 (V (Proc.devRef .tc main_arg1))) (V (Proc.devRef .tc main_v117)))
          (spread1 (V (Proc.devRef .tc main_v36))) := by
  host_results <;> rfl

/-- Relation 2's block leaves the relation's neighbour row sums of the node features, scaled by its column of the
    reciprocal degrees found. -/
theorem h1r2_res (V : Valuation τ sig (Elt Ideal)) :
    after h1r2 V (Proc.devRef .tc main_v171)
      = mulf (rowSums (src2 (V (Proc.devRef .tc main_arg1))) (dst2 (V (Proc.devRef .tc main_arg1))) (V (Proc.devRef .tc main_v117)))
          (spread2 (V (Proc.devRef .tc main_v36))) := by
  host_results <;> rfl

/-- The stacking block lays the node features and the three products side by side, after a trip through one stack. -/
theorem h1stack_res (V : Valuation τ sig (Elt Ideal)) :
    after h1stack V (Proc.devRef .tc main_v183)
      = sideBySide (V (Proc.devRef .tc main_v117)) (V (Proc.devRef .tc main_v135)) (V (Proc.devRef .tc main_v153)) (V (Proc.devRef .tc main_v171)) := by
  host_results <;> rfl

/-- After the second stretch the stacked row is that of the first region's output, with the reciprocal degrees found. -/
theorem host1_X_term (W : Valuation τ sig (Elt Ideal)) :
    StableHlo.after (hostOps1 (F := Ideal)) W (Proc.devRef .tc main_v183)
      = xTerm (W (Proc.devRef .tc main_v36)) (W (Proc.devRef .tc main_arg1)) (W (Proc.devRef .tc main_v117)) := by
  rw [hostOps1_eq, Cert.Lib.RunPieces.after_append, Cert.Lib.RunPieces.after_append, Cert.Lib.RunPieces.after_append,
    Cert.Lib.RunPieces.after_append]
  rw [h1tail_keeps _ main_v183 (by decide), h1stack_res,
    h1r2_keeps _ main_v117 (by decide), h1r2_keeps _ main_v135 (by decide), h1r2_keeps _ main_v153 (by decide), h1r2_res,
    h1r1_keeps _ main_v117 (by decide), h1r1_keeps _ main_v135 (by decide), h1r1_keeps _ main_arg1 (by decide), h1r1_keeps _ main_v36 (by decide), h1r1_res,
    h1r0_keeps _ main_v117 (by decide), h1r0_keeps _ main_arg1 (by decide), h1r0_keeps _ main_v36 (by decide), h1r0_res]
  rfl

end Cert.KernelIdeal.KHost

end
-- ==== Proof.KHostAfter1W.lean ====
/-
  The second stretch leaves layer 1's stacked weights and summed bias, and the head's weights, in the buffers the second
  region reads them from.
-/
import proofs.«181974_j41549513621817_2_alg».proof.Proof.KHostTerms
import proofs.«181974_j41549513621817_2_alg».proof.Proof.LibNaryThree

noncomputable section

namespace Cert.KernelIdeal.KHost

open Cert.KernelIdeal Cert.KernelIdeal.Gen Cert.KernelIdeal.Agg Idealize.ShloMosaic Idealize.ShloMosaic.ValueIdx
open Cert.Lib.NaryThree Idealize.ShloMosaic.StableHlo

set_option maxHeartbeats 4000000 in
/-- After the second stretch: layer 1's root matrices summed, over its three neighbour matrices. -/
theorem host1_W_term (W : Valuation τ sig (Elt Ideal)) :
    StableHlo.after (hostOps1 (F := Ideal)) W (Proc.devRef .tc main_v194)
      = oneUnderAnother (rootSum (W (Proc.devRef .tc main_arg3)) ![1, 0, 0, 0] slices_S2x3x128x128_S1x3x128x128_1_0_0_0)
          (neighMat (W (Proc.devRef .tc main_arg2)) ![1, 0, 0, 0] slices_S2x3x128x128_S1x1x128x128_1_0_0_0)
          (neighMat (W (Proc.devRef .tc main_arg2)) ![1, 1, 0, 0] slices_S2x3x128x128_S1x1x128x128_1_1_0_0)
          (neighMat (W (Proc.devRef .tc main_arg2)) ![1, 2, 0, 0] slices_S2x3x128x128_S1x1x128x128_1_2_0_0) := by
  host_results
  rfl

set_option maxHeartbeats 4000000 in
/-- After the second stretch: layer 1's three bias vectors summed. -/
theorem host1_b_term (W : Valuation τ sig (Elt Ideal)) :
    StableHlo.after (hostOps1 (F := Ideal)) W (Proc.devRef .tc main_v197)
      = biasSum (W (Proc.devRef .tc main_arg4)) ![1, 0, 0] slices_S2x3x128_S1x3x128_1_0_0 := by
  host_results
  rfl

set_option maxHeartbeats 4000000 in
/-- After the second stretch: the head's weights, unchanged entry by entry. -/
theorem host1_L_term (W : Valuation τ sig (Elt Ideal)) :
    StableHlo.after (hostOps1 (F := Ideal)) W (Proc.devRef .tc main_v198)
      = (truncf .bf16 (W (Proc.devRef .tc main_arg5) : FVec Ideal S128x32 .f32) bitsLt_bf16_f32 : FVec Ideal S128x32 .bf16) := by
  host_results

end Cert.KernelIdeal.KHost

end
-- ==== Proof.KHost.lean ====
/-
  The host operations of the kernel program read at an entry.

  Before each region the program lays out, from the node features h the region is given (the argument x before the
  first region, the first region's output before the second) and the layer's slices of the parameters:
  * the stacked row [h | m0 | m1 | m2] of every node — its own features, then for each relation the neighbours' row sum
    times the reciprocal of the relation's clamped in-degree;
  * the stacked weights [Wr0 + Wr1 + Wr2 ; Wn0 ; Wn1 ; Wn2] and the summed bias b0 + b1 + b2, the sums taken from zero;
  and before the second region the head's weights, entry by entry what the argument holds.  The reciprocal clamped
  degrees are computed once, by the first stretch, and found again by the second where the first left them.  Each
  statement below is the stretch's result as a term, read at the entry.
-/
import proofs.«181974_j41549513621817_2_alg».proof.Proof.KHostRead
import proofs.«181974_j41549513621817_2_alg».proof.Proof.KHostAfter0Inv
import proofs.«181974_j41549513621817_2_alg».proof.Proof.KHostAfter0X
import proofs.«181974_j41549513621817_2_alg».proof.Proof.KHostAfter0W
import proofs.«181974_j41549513621817_2_alg».proof.Proof.KHostAfter1X
import proofs.«181974_j41549513621817_2_alg».proof.Proof.KHostAfter1W

noncomputable section

namespace Cert.KernelIdeal.KHost

open Cert.KernelIdeal Cert.KernelIdeal.Gen Cert.KernelIdeal.Agg Idealize.ShloMosaic Idealize.ShloMosaic.ValueIdx

variable (W : Valuation τ sig (Elt Ideal))

/-! ## The first stretch

`host0_inv` — after the first stretch the stacked reciprocal clamped degrees are those formed from the edge array — is
stated and proved with the stretch's terms. -/

/-- After the first stretch, the stacked row at (n, c): the mathematics' stacked row of node n over the argument x. -/
theorem host0_X (n : Fin 50000) (c : Fin 512) :
    StableHlo.after (hostOps0 (F := Ideal)) W (Proc.devRef .tc main_v102) (ix2 n c)
      = Cert.Spec.band4 (Cert.Spec.kerX (agg (W (Proc.devRef .tc main_arg1))) (degc (W (Proc.devRef .tc main_arg1)))
          (W (Proc.devRef .tc main_arg0)) n) c :=
  (congrFun (host0_X_term W) (ix2 n c)).trans (xTerm_apply _ _ n c)

/-- After the first stretch, the stacked weights at (c, j): layer 0's. -/
theorem host0_W (c : Fin 512) (j : Fin 128) :
    StableHlo.after (hostOps0 (F := Ideal)) W (Proc.devRef .tc main_v113) (ix2 c j)
      = Cert.Spec.band4 (Cert.Spec.kerW (Cert.Spec.sliceW (W (Proc.devRef .tc main_arg2)) 0)
          (Cert.Spec.sliceW (W (Proc.devRef .tc main_arg3)) 0) j) c :=
  (congrFun (host0_W_term W) (ix2 c j)).trans
    (weights_apply (W (Proc.devRef .tc main_arg2)) (W (Proc.devRef .tc main_arg3)) 0 _ _ _ _ _ _ _ _ rfl rfl rfl rfl c j)

/-- After the first stretch, the summed bias at j: layer 0's. -/
theorem host0_b (j : Fin 128) :
    StableHlo.after (hostOps0 (F := Ideal)) W (Proc.devRef .tc main_v116) (ix1 j)
      = Cert.Spec.kerB (Cert.Spec.sliceB (W (Proc.devRef .tc main_arg4)) 0) j :=
  (congrFun (host0_b_term W) (ix1 j)).trans (biasSum_apply (W (Proc.devRef .tc main_arg4)) _ _ 0 rfl rfl rfl j)

/-! ## The second stretch -/

/-- After the second stretch, the stacked row at (n, c): the mathematics' stacked row of node n over the first region's
    output, provided the stacked reciprocal degrees are still where the first stretch left them. -/
theorem host1_X (hinv : W (Proc.devRef .tc main_v36) = invStack (W (Proc.devRef .tc main_arg1))) (n : Fin 50000) (c : Fin 512) :
    StableHlo.after (hostOps1 (F := Ideal)) W (Proc.devRef .tc main_v183) (ix2 n c)
      = Cert.Spec.band4 (Cert.Spec.kerX (agg (W (Proc.devRef .tc main_arg1))) (degc (W (Proc.devRef .tc main_arg1)))
          (W (Proc.devRef .tc main_v117)) n) c := by
  refine (congrFun (host1_X_term W) (ix2 n c)).trans ?_
  rw [hinv]
  exact xTerm_apply _ _ n c

/-- After the second stretch, the stacked weights at (c, j): layer 1's. -/
theorem host1_W (c : Fin 512) (j : Fin 128) :
    StableHlo.after (hostOps1 (F := Ideal)) W (Proc.devRef .tc main_v194) (ix2 c j)
      = Cert.Spec.band4 (Cert.Spec.kerW (Cert.Spec.sliceW (W (Proc.devRef .tc main_arg2)) 1)
          (Cert.Spec.sliceW (W (Proc.devRef .tc main_arg3)) 1) j) c :=
  (congrFun (host1_W_term W) (ix2 c j)).trans
    (weights_apply (W (Proc.devRef .tc main_arg2)) (W (Proc.devRef .tc main_arg3)) 1 _ _ _ _ _ _ _ _ rfl rfl rfl rfl c j)

/-- After the second stretch, the summed bias at j: layer 1's. -/
theorem host1_b (j : Fin 128) :
    StableHlo.after (hostOps1 (F := Ideal)) W (Proc.devRef .tc main_v197) (ix1 j)
      = Cert.Spec.kerB (Cert.Spec.sliceB (W (Proc.devRef .tc main_arg4)) 1) j :=
  (congrFun (host1_b_term W) (ix1 j)).trans (biasSum_apply (W (Proc.devRef .tc main_arg4)) _ _ 1 rfl rfl rfl j)

/-- After the second stretch, the head's weights at (k, j): what the argument holds. -/
theorem host1_L (k : Fin 128) (j : Fin 32) :
    StableHlo.after (hostOps1 (F := Ideal)) W (Proc.devRef .tc main_v198) (ix2 k j) = W (Proc.devRef .tc main_arg5) (ix2 k j) :=
  congrFun (host1_L_term W) (ix2 k j)

end Cert.KernelIdeal.KHost

end
-- ==== Proof.RefRun.lean ====
/-
  The reference program's run, by hand. @main is 278 host operations in a row, printed in five windows; each window is listed
  (`win0` … `win4`) and is the run of its list, so @main is the run of the lists in a row (`ops`). The same operations are also cut into
  the pieces the mathematics has — per layer: the slices of the weights and a zero matrix; one piece per relation (row sums, clamped degree,
  mean, and the relation's three terms added onto the accumulator); the clamp at zero — and the linear head (`ops_eq`). Every weakly fair
  execution terminates with every buffer at the fold of the operations over its launch contents (`run_all`); no operation writes an argument,
  so the arguments end as launched (`frame`).
-/
import proofs.«181974_j41549513621817_2_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The five printed windows -/

/-- Window 0 of @main, in order (an inlined clamp's operations stand in their call's place). -/
abbrev win0 : List (HloOp τ sig (Elt F)) :=
  [ unary main_arg2 main_v0 ((extractStridedSlice S1x3x128x128 ![0, 0, 0, 0] · slices_S2x3x128x128_S1x3x128x128_0_0_0_0) : (⟨S2x3x128x128, .f32⟩ : BufTy).Contents (Elt F) → (⟨S1x3x128x128, .f32⟩ : BufTy).Contents (Elt F)),
    reshape main_v0 main_v1 rfl shapeCasts_S1x3x128x128_S3x128x128,
    unary main_arg3 main_v2 ((extractStridedSlice S1x3x128x128 ![0, 0, 0, 0] · slices_S2x3x128x128_S1x3x128x128_0_0_0_0) : (⟨S2x3x128x128, .f32⟩ : BufTy).Contents (Elt F) → (⟨S1x3x128x128, .f32⟩ : BufTy).Contents (Elt F)),
    reshape main_v2 main_v3 rfl shapeCasts_S1x3x128x128_S3x128x128,
    unary main_arg4 main_v4 ((extractStridedSlice S1x3x128 ![0, 0, 0] · slices_S2x3x128_S1x3x128_0_0_0) : (⟨S2x3x128, .f32⟩ : BufTy).Contents (Elt F) → (⟨S1x3x128, .f32⟩ : BufTy).Contents (Elt F)),
    reshape main_v4 main_v5 rfl shapeCasts_S1x3x128_S3x128,
    nullary main_cst (constant S_ .f32 0x00000000#32),
    unary main_cst main_v6 (broadcastInDim S50000x128 ![] bcast_S_S50000x128 : (⟨S_, .f32⟩ : BufTy).Contents (Elt F) → (⟨S50000x128, .f32⟩ : BufTy).Contents (Elt F)),
    unary main_arg1 main_v7 ((extractStridedSlice S1x1x640000 ![0, 0, 0] · slices_S3x2x640000_S1x1x640000_0_0_0) : (⟨S3x2x640000, .i32⟩ : BufTy).Contents (Elt F) → (⟨S1x1x640000, .i32⟩ : BufTy).Contents (Elt F)),
    reshape main_v7 main_v8 rfl shapeCasts_S1x1x640000_S640000,
    unary main_arg1 main_v9 ((extractStridedSlice S1x1x640000 ![0, 1, 0] · slices_S3x2x640000_S1x1x640000_0_1_0) : (⟨S3x2x640000, .i32⟩ : BufTy).Contents (Elt F) → (⟨S1x1x640000, .i32⟩ : BufTy).Contents (Elt F)),
    reshape main_v9 main_v10 rfl shapeCasts_S1x1x640000_S640000,
    nullary main_c (constantI S_ 32 0#32),
    unary main_c main_v11 (broadcastInDim S640000 ![] bcast_S_S640000 : (⟨S_, .i32⟩ : BufTy).Contents (Elt F) → (⟨S640000, .i32⟩ : BufTy).Contents (Elt F)),
    binary main_v8 main_v11 main_v12 (cmpi .slt : (⟨S640000, .i32⟩ : BufTy).Contents (Elt F) → (⟨S640000, .i32⟩ : BufTy).Contents (Elt F) → (⟨S640000, .i1⟩ : BufTy).Contents (Elt F)),
    nullary main_c_0 (constantI S_ 32 50000#32),
    unary main_c_0 main_v13 (broadcastInDim S640000 ![] bcast_S_S640000 : (⟨S_, .i32⟩ : BufTy).Contents (Elt F) → (⟨S640000, .i32⟩ : BufTy).Contents (Elt F)),
    binary main_v8 main_v13 main_v14 (addi : (⟨S640000, .i32⟩ : BufTy).Contents (Elt F) → (⟨S640000, .i32⟩ : BufTy).Contents (Elt F) → (⟨S640000, .i32⟩ : BufTy).Contents (Elt F)),
    ternary main_v12 main_v14 main_v8 main_v15 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v15 main_v16 (broadcastInDim S640000x1 ![0] bcast_S640000_S640000x1_0 : (⟨S640000, .i32⟩ : BufTy).Contents (Elt F) → (⟨S640000x1, .i32⟩ : BufTy).Contents (Elt F)),
    binary main_arg0 main_v16 main_v17 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst_1 (constant S_ .f32 0x00000000#32),
    unary main_cst_1 main_v18 (broadcastInDim S50000x128 ![] bcast_S_S50000x128 : (⟨S_, .f32⟩ : BufTy).Contents (Elt F) → (⟨S50000x128, .f32⟩ : BufTy).Contents (Elt F)),
    unary main_v10 main_v19 (broadcastInDim S640000x1 ![0] bcast_S640000_S640000x1_0 : (⟨S640000, .i32⟩ : BufTy).Contents (Elt F) → (⟨S640000x1, .i32⟩ : BufTy).Contents (Elt F)),
    ternary main_v18 main_v19 main_v17 main_v20 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    nullary main_cst_2 (constant S_ .f32 0x3F800000#32),
    unary main_cst_2 main_v21 (broadcastInDim S640000 ![] bcast_S_S640000 : (⟨S_, .f32⟩ : BufTy).Contents (Elt F) → (⟨S640000, .f32⟩ : BufTy).Contents (Elt F)),
    nullary main_cst_3 (constant S_ .f32 0x00000000#32),
    unary main_cst_3 main_v22 (broadcastInDim S50000 ![] bcast_S_S50000 : (⟨S_, .f32⟩ : BufTy).Contents (Elt F) → (⟨S50000, .f32⟩ : BufTy).Contents (Elt F)),
    unary main_v10 main_v23 (broadcastInDim S640000x1 ![0] bcast_S640000_S640000x1_0 : (⟨S640000, .i32⟩ : BufTy).Contents (Elt F) → (⟨S640000x1, .i32⟩ : BufTy).Contents (Elt F)),
    ternary main_v22 main_v23 main_v21 main_v24 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    nullary main_cst_4 (constant S_ .f32 0x3F800000#32),
    unary main_cst_4 main_v25 (broadcastInDim S50000 ![] bcast_S_S50000 : (⟨S_, .f32⟩ : BufTy).Contents (Elt F) → (⟨S50000, .f32⟩ : BufTy).Contents (Elt F)),
    binary main_v24 main_v25 main_v26 (maximumf : (⟨S50000, .f32⟩ : BufTy).Contents (Elt F) → (⟨S50000, .f32⟩ : BufTy).Contents (Elt F) → (⟨S50000, .f32⟩ : BufTy).Contents (Elt F)),
    unary main_v26 main_v27 (broadcastInDim S50000x1 ![0] bcast_S50000_S50000x1_0 : (⟨S50000, .f32⟩ : BufTy).Contents (Elt F) → (⟨S50000x1, .f32⟩ : BufTy).Contents (Elt F)),
    unary main_v27 main_v28 (broadcastInDim S50000x128 ![0, 1] bcast_S50000x1_S50000x128_0_1 : (⟨S50000x1, .f32⟩ : BufTy).Contents (Elt F) → (⟨S50000x128, .f32⟩ : BufTy).Contents (Elt F)),
    binary main_v20 main_v28 main_v29 (Host.divf : (⟨S50000x128, .f32⟩ : BufTy).Contents (Elt F) → (⟨S50000x128, .f32⟩ : BufTy).Contents (Elt F) → (⟨S50000x128, .f32⟩ : BufTy).Contents (Elt F)),
    unary main_v1 main_v30 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v30 main_v31 rfl shapeCasts_S1x128x128_S128x128,
    binary main_v29 main_v31 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v6 main_v32 main_v33 (addf : (⟨S50000x128, .f32⟩ : BufTy).Contents (Elt F) → (⟨S50000x128, .f32⟩ : BufTy).Contents (Elt F) → (⟨S50000x128, .f32⟩ : BufTy).Contents (Elt F)),
    unary main_v3 main_v34 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v34 main_v35 rfl shapeCasts_S1x128x128_S128x128,
    binary main_arg0 main_v35 main_v36 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v33 main_v36 main_v37 (addf : (⟨S50000x128, .f32⟩ : BufTy).Contents (Elt F) → (⟨S50000x128, .f32⟩ : BufTy).Contents (Elt F) → (⟨S50000x128, .f32⟩ : BufTy).Contents (Elt F)),
    unary main_v5 main_v38 ((extractStridedSlice S1x128 ![0, 0] · slices_S3x128_S1x128_0_0) : (⟨S3x128, .f32⟩ : BufTy).Contents (Elt F) → (⟨S1x128, .f32⟩ : BufTy).Contents (Elt F)),
    reshape main_v38 main_v39 rfl shapeCasts_S1x128_S128,
    unary main_v39 main_v40 (broadcastInDim S1x128 ![1] bcast_S128_S1x128_1 : (⟨S128, .f32⟩ : BufTy).Contents (Elt F) → (⟨S1x128, .f32⟩ : BufTy).Contents (Elt F)),
    unary main_v40 main_v41 (broadcastInDim S50000x128 ![0, 1] bcast_S1x128_S50000x128_0_1 : (⟨S1x128, .f32⟩ : BufTy).Contents (Elt F) → (⟨S50000x128, .f32⟩ : BufTy).Contents (Elt F)),
    binary main_v37 main_v41 main_v42 (addf : (⟨S50000x128, .f32⟩ : BufTy).Contents (Elt F) → (⟨S50000x128, .f32⟩ : BufTy).Contents (Elt F) → (⟨S50000x128, .f32⟩ : BufTy).Contents (Elt F)),
    unary main_arg1 main_v43 ((extractStridedSlice S1x1x640000 ![1, 0, 0] · slices_S3x2x640000_S1x1x640000_1_0_0) : (⟨S3x2x640000, .i32⟩ : BufTy).Contents (Elt F) → (⟨S1x1x640000, .i32⟩ : BufTy).Contents (Elt F)),
    reshape main_v43 main_v44 rfl shapeCasts_S1x1x640000_S640000,
    unary main_arg1 main_v45 ((extractStridedSlice S1x1x640000 ![1, 1, 0] · slices_S3x2x640000_S1x1x640000_1_1_0) : (⟨S3x2x640000, .i32⟩ : BufTy).Contents (Elt F) → (⟨S1x1x640000, .i32⟩ : BufTy).Contents (Elt F)),
    reshape main_v45 main_v46 rfl shapeCasts_S1x1x640000_S640000,
    nullary main_c_5 (constantI S_ 32 0#32),
    unary main_c_5 main_v47 (broadcastInDim S640000 ![] bcast_S_S640000 : (⟨S_, .i32⟩ : BufTy).Contents (Elt F) → (⟨S640000, .i32⟩ : BufTy).Contents (Elt F)),
    binary main_v44 main_v47 main_v48 (cmpi .slt : (⟨S640000, .i32⟩ : BufTy).Contents (Elt F) → (⟨S640000, .i32⟩ : BufTy).Contents (Elt F) → (⟨S640000, .i1⟩ : BufTy).Contents (Elt F)),
    nullary main_c_6 (constantI S_ 32 50000#32),
    unary main_c_6 main_v49 (broadcastInDim S640000 ![] bcast_S_S640000 : (⟨S_, .i32⟩ : BufTy).Contents (Elt F) → (⟨S640000, .i32⟩ : BufTy).Contents (Elt F)),
    binary main_v44 main_v49 main_v50 (addi : (⟨S640000, .i32⟩ : BufTy).Contents (Elt F) → (⟨S640000, .i32⟩ : BufTy).Contents (Elt F) → (⟨S640000, .i32⟩ : BufTy).Contents (Elt F)) ]

/-- Window 1 of @main, in order (an inlined clamp's operations stand in their call's place). -/
abbrev win1 : List (HloOp τ sig (Elt F)) :=
  [ ternary main_v48 main_v50 main_v44 main_v51 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v51 main_v52 (broadcastInDim S640000x1 ![0] bcast_S640000_S640000x1_0 : (⟨S640000, .i32⟩ : BufTy).Contents (Elt F) → (⟨S640000x1, .i32⟩ : BufTy).Contents (Elt F)),
    binary main_arg0 main_v52 main_v53 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst_7 (constant S_ .f32 0x00000000#32),
    unary main_cst_7 main_v54 (broadcastInDim S50000x128 ![] bcast_S_S50000x128 : (⟨S_, .f32⟩ : BufTy).Contents (Elt F) → (⟨S50000x128, .f32⟩ : BufTy).Contents (Elt F)),
    unary main_v46 main_v55 (broadcastInDim S640000x1 ![0] bcast_S640000_S640000x1_0 : (⟨S640000, .i32⟩ : BufTy).Contents (Elt F) → (⟨S640000x1, .i32⟩ : BufTy).Contents (Elt F)),
    ternary main_v54 main_v55 main_v53 main_v56 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    nullary main_cst_8 (constant S_ .f32 0x3F800000#32),
    unary main_cst_8 main_v57 (broadcastInDim S640000 ![] bcast_S_S640000 : (⟨S_, .f32⟩ : BufTy).Contents (Elt F) → (⟨S640000, .f32⟩ : BufTy).Contents (Elt F)),
    nullary main_cst_9 (constant S_ .f32 0x00000000#32),
    unary main_cst_9 main_v58 (broadcastInDim S50000 ![] bcast_S_S50000 : (⟨S_, .f32⟩ : BufTy).Contents (Elt F) → (⟨S50000, .f32⟩ : BufTy).Contents (Elt F)),
    unary main_v46 main_v59 (broadcastInDim S640000x1 ![0] bcast_S640000_S640000x1_0 : (⟨S640000, .i32⟩ : BufTy).Contents (Elt F) → (⟨S640000x1, .i32⟩ : BufTy).Contents (Elt F)),
    ternary main_v58 main_v59 main_v57 main_v60 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    nullary main_cst_10 (constant S_ .f32 0x3F800000#32),
    unary main_cst_10 main_v61 (broadcastInDim S50000 ![] bcast_S_S50000 : (⟨S_, .f32⟩ : BufTy).Contents (Elt F) → (⟨S50000, .f32⟩ : BufTy).Contents (Elt F)),
    binary main_v60 main_v61 main_v62 (maximumf : (⟨S50000, .f32⟩ : BufTy).Contents (Elt F) → (⟨S50000, .f32⟩ : BufTy).Contents (Elt F) → (⟨S50000, .f32⟩ : BufTy).Contents (Elt F)),
    unary main_v62 main_v63 (broadcastInDim S50000x1 ![0] bcast_S50000_S50000x1_0 : (⟨S50000, .f32⟩ : BufTy).Contents (Elt F) → (⟨S50000x1, .f32⟩ : BufTy).Contents (Elt F)),
    unary main_v63 main_v64 (broadcastInDim S50000x128 ![0, 1] bcast_S50000x1_S50000x128_0_1 : (⟨S50000x1, .f32⟩ : BufTy).Contents (Elt F) → (⟨S50000x128, .f32⟩ : BufTy).Contents (Elt F)),
    binary main_v56 main_v64 main_v65 (Host.divf : (⟨S50000x128, .f32⟩ : BufTy).Contents (Elt F) → (⟨S50000x128, .f32⟩ : BufTy).Contents (Elt F) → (⟨S50000x128, .f32⟩ : BufTy).Contents (Elt F)),
    unary main_v1 main_v66 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v66 main_v67 rfl shapeCasts_S1x128x128_S128x128,
    binary main_v65 main_v67 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v42 main_v68 main_v69 (addf : (⟨S50000x128, .f32⟩ : BufTy).Contents (Elt F) → (⟨S50000x128, .f32⟩ : BufTy).Contents (Elt F) → (⟨S50000x128, .f32⟩ : BufTy).Contents (Elt F)),
    unary main_v3 main_v70 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v70 main_v71 rfl shapeCasts_S1x128x128_S128x128,
    binary main_arg0 main_v71 main_v72 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v69 main_v72 main_v73 (addf : (⟨S50000x128, .f32⟩ : BufTy).Contents (Elt F) → (⟨S50000x128, .f32⟩ : BufTy).Contents (Elt F) → (⟨S50000x128, .f32⟩ : BufTy).Contents (Elt F)),
    unary main_v5 main_v74 ((extractStridedSlice S1x128 ![1, 0] · slices_S3x128_S1x128_1_0) : (⟨S3x128, .f32⟩ : BufTy).Contents (Elt F) → (⟨S1x128, .f32⟩ : BufTy).Contents (Elt F)),
    reshape main_v74 main_v75 rfl shapeCasts_S1x128_S128,
    unary main_v75 main_v76 (broadcastInDim S1x128 ![1] bcast_S128_S1x128_1 : (⟨S128, .f32⟩ : BufTy).Contents (Elt F) → (⟨S1x128, .f32⟩ : BufTy).Contents (Elt F)),
    unary main_v76 main_v77 (broadcastInDim S50000x128 ![0, 1] bcast_S1x128_S50000x128_0_1 : (⟨S1x128, .f32⟩ : BufTy).Contents (Elt F) → (⟨S50000x128, .f32⟩ : BufTy).Contents (Elt F)),
    binary main_v73 main_v77 main_v78 (addf : (⟨S50000x128, .f32⟩ : BufTy).Contents (Elt F) → (⟨S50000x128, .f32⟩ : BufTy).Contents (Elt F) → (⟨S50000x128, .f32⟩ : BufTy).Contents (Elt F)),
    unary main_arg1 main_v79 ((extractStridedSlice S1x1x640000 ![2, 0, 0] · slices_S3x2x640000_S1x1x640000_2_0_0) : (⟨S3x2x640000, .i32⟩ : BufTy).Contents (Elt F) → (⟨S1x1x640000, .i32⟩ : BufTy).Contents (Elt F)),
    reshape main_v79 main_v80 rfl shapeCasts_S1x1x640000_S640000,
    unary main_arg1 main_v81 ((extractStridedSlice S1x1x640000 ![2, 1, 0] · slices_S3x2x640000_S1x1x640000_2_1_0) : (⟨S3x2x640000, .i32⟩ : BufTy).Contents (Elt F) → (⟨S1x1x640000, .i32⟩ : BufTy).Contents (Elt F)),
    reshape main_v81 main_v82 rfl shapeCasts_S1x1x640000_S640000,
    nullary main_c_11 (constantI S_ 32 0#32),
    unary main_c_11 main_v83 (broadcastInDim S640000 ![] bcast_S_S640000 : (⟨S_, .i32⟩ : BufTy).Contents (Elt F) → (⟨S640000, .i32⟩ : BufTy).Contents (Elt F)),
    binary main_v80 main_v83 main_v84 (cmpi .slt : (⟨S640000, .i32⟩ : BufTy).Contents (Elt F) → (⟨S640000, .i32⟩ : BufTy).Contents (Elt F) → (⟨S640000, .i1⟩ : BufTy).Contents (Elt F)),
    nullary main_c_12 (constantI S_ 32 50000#32),
    unary main_c_12 main_v85 (broadcastInDim S640000 ![] bcast_S_S640000 : (⟨S_, .i32⟩ : BufTy).Contents (Elt F) → (⟨S640000, .i32⟩ : BufTy).Contents (Elt F)),
    binary main_v80 main_v85 main_v86 (addi : (⟨S640000, .i32⟩ : BufTy).Contents (Elt F) → (⟨S640000, .i32⟩ : BufTy).Contents (Elt F) → (⟨S640000, .i32⟩ : BufTy).Contents (Elt F)),
    ternary main_v84 main_v86 main_v80 main_v87 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v87 main_v88 (broadcastInDim S640000x1 ![0] bcast_S640000_S640000x1_0 : (⟨S640000, .i32⟩ : BufTy).Contents (Elt F) → (⟨S640000x1, .i32⟩ : BufTy).Contents (Elt F)),
    binary main_arg0 main_v88 main_v89 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst_13 (constant S_ .f32 0x00000000#32),
    unary main_cst_13 main_v90 (broadcastInDim S50000x128 ![] bcast_S_S50000x128 : (⟨S_, .f32⟩ : BufTy).Contents (Elt F) → (⟨S50000x128, .f32⟩ : BufTy).Contents (Elt F)),
    unary main_v82 main_v91 (broadcastInDim S640000x1 ![0] bcast_S640000_S640000x1_0 : (⟨S640000, .i32⟩ : BufTy).Contents (Elt F) → (⟨S640000x1, .i32⟩ : BufTy).Contents (Elt F)),
    ternary main_v90 main_v91 main_v89 main_v92 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    nullary main_cst_14 (constant S_ .f32 0x3F800000#32),
    unary main_cst_14 main_v93 (broadcastInDim S640000 ![] bcast_S_S640000 : (⟨S_, .f32⟩ : BufTy).Contents (Elt F) → (⟨S640000, .f32⟩ : BufTy).Contents (Elt F)),
    nullary main_cst_15 (constant S_ .f32 0x00000000#32),
    unary main_cst_15 main_v94 (broadcastInDim S50000 ![] bcast_S_S50000 : (⟨S_, .f32⟩ : BufTy).Contents (Elt F) → (⟨S50000, .f32⟩ : BufTy).Contents (Elt F)),
    unary main_v82 main_v95 (broadcastInDim S640000x1 ![0] bcast_S640000_S640000x1_0 : (⟨S640000, .i32⟩ : BufTy).Contents (Elt F) → (⟨S640000x1, .i32⟩ : BufTy).Contents (Elt F)),
    ternary main_v94 main_v95 main_v93 main_v96 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    nullary main_cst_16 (constant S_ .f32 0x3F800000#32),
    unary main_cst_16 main_v97 (broadcastInDim S50000 ![] bcast_S_S50000 : (⟨S_, .f32⟩ : BufTy).Contents (Elt F) → (⟨S50000, .f32⟩ : BufTy).Contents (Elt F)),
    binary main_v96 main_v97 main_v98 (maximumf : (⟨S50000, .f32⟩ : BufTy).Contents (Elt F) → (⟨S50000, .f32⟩ : BufTy).Contents (Elt F) → (⟨S50000, .f32⟩ : BufTy).Contents (Elt F)),
    unary main_v98 main_v99 (broadcastInDim S50000x1 ![0] bcast_S50000_S50000x1_0 : (⟨S50000, .f32⟩ : BufTy).Contents (Elt F) → (⟨S50000x1, .f32⟩ : BufTy).Contents (Elt F)),
    unary main_v99 main_v100 (broadcastInDim S50000x128 ![0, 1] bcast_S50000x1_S50000x128_0_1 : (⟨S50000x1, .f32⟩ : BufTy).Contents (Elt F) → (⟨S50000x128, .f32⟩ : BufTy).Contents (Elt F)) ]

/-- Window 2 of @main, in order (an inlined clamp's operations stand in their call's place). -/
abbrev win2 : List (HloOp τ sig (Elt F)) :=
  [ binary main_v92 main_v100 main_v101 (Host.divf : (⟨S50000x128, .f32⟩ : BufTy).Contents (Elt F) → (⟨S50000x128, .f32⟩ : BufTy).Contents (Elt F) → (⟨S50000x128, .f32⟩ : BufTy).Contents (Elt F)),
    unary main_v1 main_v102 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v102 main_v103 rfl shapeCasts_S1x128x128_S128x128,
    binary main_v101 main_v103 main_v104 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v78 main_v104 main_v105 (addf : (⟨S50000x128, .f32⟩ : BufTy).Contents (Elt F) → (⟨S50000x128, .f32⟩ : BufTy).Contents (Elt F) → (⟨S50000x128, .f32⟩ : BufTy).Contents (Elt F)),
    unary main_v3 main_v106 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v106 main_v107 rfl shapeCasts_S1x128x128_S128x128,
    binary main_arg0 main_v107 main_v108 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v105 main_v108 main_v109 (addf : (⟨S50000x128, .f32⟩ : BufTy).Contents (Elt F) → (⟨S50000x128, .f32⟩ : BufTy).Contents (Elt F) → (⟨S50000x128, .f32⟩ : BufTy).Contents (Elt F)),
    unary main_v5 main_v110 ((extractStridedSlice S1x128 ![2, 0] · slices_S3x128_S1x128_2_0) : (⟨S3x128, .f32⟩ : BufTy).Contents (Elt F) → (⟨S1x128, .f32⟩ : BufTy).Contents (Elt F)),
    reshape main_v110 main_v111 rfl shapeCasts_S1x128_S128,
    unary main_v111 main_v112 (broadcastInDim S1x128 ![1] bcast_S128_S1x128_1 : (⟨S128, .f32⟩ : BufTy).Contents (Elt F) → (⟨S1x128, .f32⟩ : BufTy).Contents (Elt F)),
    unary main_v112 main_v113 (broadcastInDim S50000x128 ![0, 1] bcast_S1x128_S50000x128_0_1 : (⟨S1x128, .f32⟩ : BufTy).Contents (Elt F) → (⟨S50000x128, .f32⟩ : BufTy).Contents (Elt F)),
    binary main_v109 main_v113 main_v114 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v114) (TRef.of (T := ⟨S50000x128, .f32⟩) main_call0_v0) (TRef.of (T := ⟨S50000x128, .f32⟩) main_v115) maximumf,
    unary main_arg2 main_v116 ((extractStridedSlice S1x3x128x128 ![1, 0, 0, 0] · slices_S2x3x128x128_S1x3x128x128_1_0_0_0) : (⟨S2x3x128x128, .f32⟩ : BufTy).Contents (Elt F) → (⟨S1x3x128x128, .f32⟩ : BufTy).Contents (Elt F)),
    reshape main_v116 main_v117 rfl shapeCasts_S1x3x128x128_S3x128x128,
    unary main_arg3 main_v118 ((extractStridedSlice S1x3x128x128 ![1, 0, 0, 0] · slices_S2x3x128x128_S1x3x128x128_1_0_0_0) : (⟨S2x3x128x128, .f32⟩ : BufTy).Contents (Elt F) → (⟨S1x3x128x128, .f32⟩ : BufTy).Contents (Elt F)),
    reshape main_v118 main_v119 rfl shapeCasts_S1x3x128x128_S3x128x128,
    unary main_arg4 main_v120 ((extractStridedSlice S1x3x128 ![1, 0, 0] · slices_S2x3x128_S1x3x128_1_0_0) : (⟨S2x3x128, .f32⟩ : BufTy).Contents (Elt F) → (⟨S1x3x128, .f32⟩ : BufTy).Contents (Elt F)),
    reshape main_v120 main_v121 rfl shapeCasts_S1x3x128_S3x128,
    nullary main_cst_17 (constant S_ .f32 0x00000000#32),
    unary main_cst_17 main_v122 (broadcastInDim S50000x128 ![] bcast_S_S50000x128 : (⟨S_, .f32⟩ : BufTy).Contents (Elt F) → (⟨S50000x128, .f32⟩ : BufTy).Contents (Elt F)),
    unary main_arg1 main_v123 ((extractStridedSlice S1x1x640000 ![0, 0, 0] · slices_S3x2x640000_S1x1x640000_0_0_0) : (⟨S3x2x640000, .i32⟩ : BufTy).Contents (Elt F) → (⟨S1x1x640000, .i32⟩ : BufTy).Contents (Elt F)),
    reshape main_v123 main_v124 rfl shapeCasts_S1x1x640000_S640000,
    unary main_arg1 main_v125 ((extractStridedSlice S1x1x640000 ![0, 1, 0] · slices_S3x2x640000_S1x1x640000_0_1_0) : (⟨S3x2x640000, .i32⟩ : BufTy).Contents (Elt F) → (⟨S1x1x640000, .i32⟩ : BufTy).Contents (Elt F)),
    reshape main_v125 main_v126 rfl shapeCasts_S1x1x640000_S640000,
    nullary main_c_18 (constantI S_ 32 0#32),
    unary main_c_18 main_v127 (broadcastInDim S640000 ![] bcast_S_S640000 : (⟨S_, .i32⟩ : BufTy).Contents (Elt F) → (⟨S640000, .i32⟩ : BufTy).Contents (Elt F)),
    binary main_v124 main_v127 main_v128 (cmpi .slt : (⟨S640000, .i32⟩ : BufTy).Contents (Elt F) → (⟨S640000, .i32⟩ : BufTy).Contents (Elt F) → (⟨S640000, .i1⟩ : BufTy).Contents (Elt F)),
    nullary main_c_19 (constantI S_ 32 50000#32),
    unary main_c_19 main_v129 (broadcastInDim S640000 ![] bcast_S_S640000 : (⟨S_, .i32⟩ : BufTy).Contents (Elt F) → (⟨S640000, .i32⟩ : BufTy).Contents (Elt F)),
    binary main_v124 main_v129 main_v130 (addi : (⟨S640000, .i32⟩ : BufTy).Contents (Elt F) → (⟨S640000, .i32⟩ : BufTy).Contents (Elt F) → (⟨S640000, .i32⟩ : BufTy).Contents (Elt F)),
    ternary main_v128 main_v130 main_v124 main_v131 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v131 main_v132 (broadcastInDim S640000x1 ![0] bcast_S640000_S640000x1_0 : (⟨S640000, .i32⟩ : BufTy).Contents (Elt F) → (⟨S640000x1, .i32⟩ : BufTy).Contents (Elt F)),
    binary main_v115 main_v132 main_v133 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst_20 (constant S_ .f32 0x00000000#32),
    unary main_cst_20 main_v134 (broadcastInDim S50000x128 ![] bcast_S_S50000x128 : (⟨S_, .f32⟩ : BufTy).Contents (Elt F) → (⟨S50000x128, .f32⟩ : BufTy).Contents (Elt F)),
    unary main_v126 main_v135 (broadcastInDim S640000x1 ![0] bcast_S640000_S640000x1_0 : (⟨S640000, .i32⟩ : BufTy).Contents (Elt F) → (⟨S640000x1, .i32⟩ : BufTy).Contents (Elt F)),
    ternary main_v134 main_v135 main_v133 main_v136 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    nullary main_cst_21 (constant S_ .f32 0x3F800000#32),
    unary main_cst_21 main_v137 (broadcastInDim S640000 ![] bcast_S_S640000 : (⟨S_, .f32⟩ : BufTy).Contents (Elt F) → (⟨S640000, .f32⟩ : BufTy).Contents (Elt F)),
    nullary main_cst_22 (constant S_ .f32 0x00000000#32),
    unary main_cst_22 main_v138 (broadcastInDim S50000 ![] bcast_S_S50000 : (⟨S_, .f32⟩ : BufTy).Contents (Elt F) → (⟨S50000, .f32⟩ : BufTy).Contents (Elt F)),
    unary main_v126 main_v139 (broadcastInDim S640000x1 ![0] bcast_S640000_S640000x1_0 : (⟨S640000, .i32⟩ : BufTy).Contents (Elt F) → (⟨S640000x1, .i32⟩ : BufTy).Contents (Elt F)),
    ternary main_v138 main_v139 main_v137 main_v140 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    nullary main_cst_23 (constant S_ .f32 0x3F800000#32),
    unary main_cst_23 main_v141 (broadcastInDim S50000 ![] bcast_S_S50000 : (⟨S_, .f32⟩ : BufTy).Contents (Elt F) → (⟨S50000, .f32⟩ : BufTy).Contents (Elt F)),
    binary main_v140 main_v141 main_v142 (maximumf : (⟨S50000, .f32⟩ : BufTy).Contents (Elt F) → (⟨S50000, .f32⟩ : BufTy).Contents (Elt F) → (⟨S50000, .f32⟩ : BufTy).Contents (Elt F)),
    unary main_v142 main_v143 (broadcastInDim S50000x1 ![0] bcast_S50000_S50000x1_0 : (⟨S50000, .f32⟩ : BufTy).Contents (Elt F) → (⟨S50000x1, .f32⟩ : BufTy).Contents (Elt F)),
    unary main_v143 main_v144 (broadcastInDim S50000x128 ![0, 1] bcast_S50000x1_S50000x128_0_1 : (⟨S50000x1, .f32⟩ : BufTy).Contents (Elt F) → (⟨S50000x128, .f32⟩ : BufTy).Contents (Elt F)),
    binary main_v136 main_v144 main_v145 (Host.divf : (⟨S50000x128, .f32⟩ : BufTy).Contents (Elt F) → (⟨S50000x128, .f32⟩ : BufTy).Contents (Elt F) → (⟨S50000x128, .f32⟩ : BufTy).Contents (Elt F)),
    unary main_v117 main_v146 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v146 main_v147 rfl shapeCasts_S1x128x128_S128x128,
    binary main_v145 main_v147 main_v148 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v122 main_v148 main_v149 (addf : (⟨S50000x128, .f32⟩ : BufTy).Contents (Elt F) → (⟨S50000x128, .f32⟩ : BufTy).Contents (Elt F) → (⟨S50000x128, .f32⟩ : BufTy).Contents (Elt F)),
    unary main_v119 main_v150 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v150 main_v151 rfl shapeCasts_S1x128x128_S128x128,
    binary main_v115 main_v151 main_v152 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v149 main_v152 main_v153 (addf : (⟨S50000x128, .f32⟩ : BufTy).Contents (Elt F) → (⟨S50000x128, .f32⟩ : BufTy).Contents (Elt F) → (⟨S50000x128, .f32⟩ : BufTy).Contents (Elt F)) ]

/-- Window 3 of @main, in order (an inlined clamp's operations stand in their call's place). -/
abbrev win3 : List (HloOp τ sig (Elt F)) :=
  [ unary main_v121 main_v154 ((extractStridedSlice S1x128 ![0, 0] · slices_S3x128_S1x128_0_0) : (⟨S3x128, .f32⟩ : BufTy).Contents (Elt F) → (⟨S1x128, .f32⟩ : BufTy).Contents (Elt F)),
    reshape main_v154 main_v155 rfl shapeCasts_S1x128_S128,
    unary main_v155 main_v156 (broadcastInDim S1x128 ![1] bcast_S128_S1x128_1 : (⟨S128, .f32⟩ : BufTy).Contents (Elt F) → (⟨S1x128, .f32⟩ : BufTy).Contents (Elt F)),
    unary main_v156 main_v157 (broadcastInDim S50000x128 ![0, 1] bcast_S1x128_S50000x128_0_1 : (⟨S1x128, .f32⟩ : BufTy).Contents (Elt F) → (⟨S50000x128, .f32⟩ : BufTy).Contents (Elt F)),
    binary main_v153 main_v157 main_v158 (addf : (⟨S50000x128, .f32⟩ : BufTy).Contents (Elt F) → (⟨S50000x128, .f32⟩ : BufTy).Contents (Elt F) → (⟨S50000x128, .f32⟩ : BufTy).Contents (Elt F)),
    unary main_arg1 main_v159 ((extractStridedSlice S1x1x640000 ![1, 0, 0] · slices_S3x2x640000_S1x1x640000_1_0_0) : (⟨S3x2x640000, .i32⟩ : BufTy).Contents (Elt F) → (⟨S1x1x640000, .i32⟩ : BufTy).Contents (Elt F)),
    reshape main_v159 main_v160 rfl shapeCasts_S1x1x640000_S640000,
    unary main_arg1 main_v161 ((extractStridedSlice S1x1x640000 ![1, 1, 0] · slices_S3x2x640000_S1x1x640000_1_1_0) : (⟨S3x2x640000, .i32⟩ : BufTy).Contents (Elt F) → (⟨S1x1x640000, .i32⟩ : BufTy).Contents (Elt F)),
    reshape main_v161 main_v162 rfl shapeCasts_S1x1x640000_S640000,
    nullary main_c_24 (constantI S_ 32 0#32),
    unary main_c_24 main_v163 (broadcastInDim S640000 ![] bcast_S_S640000 : (⟨S_, .i32⟩ : BufTy).Contents (Elt F) → (⟨S640000, .i32⟩ : BufTy).Contents (Elt F)),
    binary main_v160 main_v163 main_v164 (cmpi .slt : (⟨S640000, .i32⟩ : BufTy).Contents (Elt F) → (⟨S640000, .i32⟩ : BufTy).Contents (Elt F) → (⟨S640000, .i1⟩ : BufTy).Contents (Elt F)),
    nullary main_c_25 (constantI S_ 32 50000#32),
    unary main_c_25 main_v165 (broadcastInDim S640000 ![] bcast_S_S640000 : (⟨S_, .i32⟩ : BufTy).Contents (Elt F) → (⟨S640000, .i32⟩ : BufTy).Contents (Elt F)),
    binary main_v160 main_v165 main_v166 (addi : (⟨S640000, .i32⟩ : BufTy).Contents (Elt F) → (⟨S640000, .i32⟩ : BufTy).Contents (Elt F) → (⟨S640000, .i32⟩ : BufTy).Contents (Elt F)),
    ternary main_v164 main_v166 main_v160 main_v167 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v167 main_v168 (broadcastInDim S640000x1 ![0] bcast_S640000_S640000x1_0 : (⟨S640000, .i32⟩ : BufTy).Contents (Elt F) → (⟨S640000x1, .i32⟩ : BufTy).Contents (Elt F)),
    binary main_v115 main_v168 main_v169 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst_26 (constant S_ .f32 0x00000000#32),
    unary main_cst_26 main_v170 (broadcastInDim S50000x128 ![] bcast_S_S50000x128 : (⟨S_, .f32⟩ : BufTy).Contents (Elt F) → (⟨S50000x128, .f32⟩ : BufTy).Contents (Elt F)),
    unary main_v162 main_v171 (broadcastInDim S640000x1 ![0] bcast_S640000_S640000x1_0 : (⟨S640000, .i32⟩ : BufTy).Contents (Elt F) → (⟨S640000x1, .i32⟩ : BufTy).Contents (Elt F)),
    ternary main_v170 main_v171 main_v169 main_v172 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    nullary main_cst_27 (constant S_ .f32 0x3F800000#32),
    unary main_cst_27 main_v173 (broadcastInDim S640000 ![] bcast_S_S640000 : (⟨S_, .f32⟩ : BufTy).Contents (Elt F) → (⟨S640000, .f32⟩ : BufTy).Contents (Elt F)),
    nullary main_cst_28 (constant S_ .f32 0x00000000#32),
    unary main_cst_28 main_v174 (broadcastInDim S50000 ![] bcast_S_S50000 : (⟨S_, .f32⟩ : BufTy).Contents (Elt F) → (⟨S50000, .f32⟩ : BufTy).Contents (Elt F)),
    unary main_v162 main_v175 (broadcastInDim S640000x1 ![0] bcast_S640000_S640000x1_0 : (⟨S640000, .i32⟩ : BufTy).Contents (Elt F) → (⟨S640000x1, .i32⟩ : BufTy).Contents (Elt F)),
    ternary main_v174 main_v175 main_v173 main_v176 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    nullary main_cst_29 (constant S_ .f32 0x3F800000#32),
    unary main_cst_29 main_v177 (broadcastInDim S50000 ![] bcast_S_S50000 : (⟨S_, .f32⟩ : BufTy).Contents (Elt F) → (⟨S50000, .f32⟩ : BufTy).Contents (Elt F)),
    binary main_v176 main_v177 main_v178 (maximumf : (⟨S50000, .f32⟩ : BufTy).Contents (Elt F) → (⟨S50000, .f32⟩ : BufTy).Contents (Elt F) → (⟨S50000, .f32⟩ : BufTy).Contents (Elt F)),
    unary main_v178 main_v179 (broadcastInDim S50000x1 ![0] bcast_S50000_S50000x1_0 : (⟨S50000, .f32⟩ : BufTy).Contents (Elt F) → (⟨S50000x1, .f32⟩ : BufTy).Contents (Elt F)),
    unary main_v179 main_v180 (broadcastInDim S50000x128 ![0, 1] bcast_S50000x1_S50000x128_0_1 : (⟨S50000x1, .f32⟩ : BufTy).Contents (Elt F) → (⟨S50000x128, .f32⟩ : BufTy).Contents (Elt F)),
    binary main_v172 main_v180 main_v181 (Host.divf : (⟨S50000x128, .f32⟩ : BufTy).Contents (Elt F) → (⟨S50000x128, .f32⟩ : BufTy).Contents (Elt F) → (⟨S50000x128, .f32⟩ : BufTy).Contents (Elt F)),
    unary main_v117 main_v182 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v182 main_v183 rfl shapeCasts_S1x128x128_S128x128,
    binary main_v181 main_v183 main_v184 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v158 main_v184 main_v185 (addf : (⟨S50000x128, .f32⟩ : BufTy).Contents (Elt F) → (⟨S50000x128, .f32⟩ : BufTy).Contents (Elt F) → (⟨S50000x128, .f32⟩ : BufTy).Contents (Elt F)),
    unary main_v119 main_v186 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v186 main_v187 rfl shapeCasts_S1x128x128_S128x128,
    binary main_v115 main_v187 main_v188 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v185 main_v188 main_v189 (addf : (⟨S50000x128, .f32⟩ : BufTy).Contents (Elt F) → (⟨S50000x128, .f32⟩ : BufTy).Contents (Elt F) → (⟨S50000x128, .f32⟩ : BufTy).Contents (Elt F)),
    unary main_v121 main_v190 ((extractStridedSlice S1x128 ![1, 0] · slices_S3x128_S1x128_1_0) : (⟨S3x128, .f32⟩ : BufTy).Contents (Elt F) → (⟨S1x128, .f32⟩ : BufTy).Contents (Elt F)),
    reshape main_v190 main_v191 rfl shapeCasts_S1x128_S128,
    unary main_v191 main_v192 (broadcastInDim S1x128 ![1] bcast_S128_S1x128_1 : (⟨S128, .f32⟩ : BufTy).Contents (Elt F) → (⟨S1x128, .f32⟩ : BufTy).Contents (Elt F)),
    unary main_v192 main_v193 (broadcastInDim S50000x128 ![0, 1] bcast_S1x128_S50000x128_0_1 : (⟨S1x128, .f32⟩ : BufTy).Contents (Elt F) → (⟨S50000x128, .f32⟩ : BufTy).Contents (Elt F)),
    binary main_v189 main_v193 main_v194 (addf : (⟨S50000x128, .f32⟩ : BufTy).Contents (Elt F) → (⟨S50000x128, .f32⟩ : BufTy).Contents (Elt F) → (⟨S50000x128, .f32⟩ : BufTy).Contents (Elt F)),
    unary main_arg1 main_v195 ((extractStridedSlice S1x1x640000 ![2, 0, 0] · slices_S3x2x640000_S1x1x640000_2_0_0) : (⟨S3x2x640000, .i32⟩ : BufTy).Contents (Elt F) → (⟨S1x1x640000, .i32⟩ : BufTy).Contents (Elt F)),
    reshape main_v195 main_v196 rfl shapeCasts_S1x1x640000_S640000,
    unary main_arg1 main_v197 ((extractStridedSlice S1x1x640000 ![2, 1, 0] · slices_S3x2x640000_S1x1x640000_2_1_0) : (⟨S3x2x640000, .i32⟩ : BufTy).Contents (Elt F) → (⟨S1x1x640000, .i32⟩ : BufTy).Contents (Elt F)),
    reshape main_v197 main_v198 rfl shapeCasts_S1x1x640000_S640000,
    nullary main_c_30 (constantI S_ 32 0#32),
    unary main_c_30 main_v199 (broadcastInDim S640000 ![] bcast_S_S640000 : (⟨S_, .i32⟩ : BufTy).Contents (Elt F) → (⟨S640000, .i32⟩ : BufTy).Contents (Elt F)),
    binary main_v196 main_v199 main_v200 (cmpi .slt : (⟨S640000, .i32⟩ : BufTy).Contents (Elt F) → (⟨S640000, .i32⟩ : BufTy).Contents (Elt F) → (⟨S640000, .i1⟩ : BufTy).Contents (Elt F)),
    nullary main_c_31 (constantI S_ 32 50000#32),
    unary main_c_31 main_v201 (broadcastInDim S640000 ![] bcast_S_S640000 : (⟨S_, .i32⟩ : BufTy).Contents (Elt F) → (⟨S640000, .i32⟩ : BufTy).Contents (Elt F)),
    binary main_v196 main_v201 main_v202 (addi : (⟨S640000, .i32⟩ : BufTy).Contents (Elt F) → (⟨S640000, .i32⟩ : BufTy).Contents (Elt F) → (⟨S640000, .i32⟩ : BufTy).Contents (Elt F)),
    ternary main_v200 main_v202 main_v196 main_v203 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v203 main_v204 (broadcastInDim S640000x1 ![0] bcast_S640000_S640000x1_0 : (⟨S640000, .i32⟩ : BufTy).Contents (Elt F) → (⟨S640000x1, .i32⟩ : BufTy).Contents (Elt F)),
    binary main_v115 main_v204 main_v205 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)) ]

/-- Window 4 of @main, in order (an inlined clamp's operations stand in their call's place). -/
abbrev win4 : List (HloOp τ sig (Elt F)) :=
  [ nullary main_cst_32 (constant S_ .f32 0x00000000#32),
    unary main_cst_32 main_v206 (broadcastInDim S50000x128 ![] bcast_S_S50000x128 : (⟨S_, .f32⟩ : BufTy).Contents (Elt F) → (⟨S50000x128, .f32⟩ : BufTy).Contents (Elt F)),
    unary main_v198 main_v207 (broadcastInDim S640000x1 ![0] bcast_S640000_S640000x1_0 : (⟨S640000, .i32⟩ : BufTy).Contents (Elt F) → (⟨S640000x1, .i32⟩ : BufTy).Contents (Elt F)),
    ternary main_v206 main_v207 main_v205 main_v208 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    nullary main_cst_33 (constant S_ .f32 0x3F800000#32),
    unary main_cst_33 main_v209 (broadcastInDim S640000 ![] bcast_S_S640000 : (⟨S_, .f32⟩ : BufTy).Contents (Elt F) → (⟨S640000, .f32⟩ : BufTy).Contents (Elt F)),
    nullary main_cst_34 (constant S_ .f32 0x00000000#32),
    unary main_cst_34 main_v210 (broadcastInDim S50000 ![] bcast_S_S50000 : (⟨S_, .f32⟩ : BufTy).Contents (Elt F) → (⟨S50000, .f32⟩ : BufTy).Contents (Elt F)),
    unary main_v198 main_v211 (broadcastInDim S640000x1 ![0] bcast_S640000_S640000x1_0 : (⟨S640000, .i32⟩ : BufTy).Contents (Elt F) → (⟨S640000x1, .i32⟩ : BufTy).Contents (Elt F)),
    ternary main_v210 main_v211 main_v209 main_v212 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    nullary main_cst_35 (constant S_ .f32 0x3F800000#32),
    unary main_cst_35 main_v213 (broadcastInDim S50000 ![] bcast_S_S50000 : (⟨S_, .f32⟩ : BufTy).Contents (Elt F) → (⟨S50000, .f32⟩ : BufTy).Contents (Elt F)),
    binary main_v212 main_v213 main_v214 (maximumf : (⟨S50000, .f32⟩ : BufTy).Contents (Elt F) → (⟨S50000, .f32⟩ : BufTy).Contents (Elt F) → (⟨S50000, .f32⟩ : BufTy).Contents (Elt F)),
    unary main_v214 main_v215 (broadcastInDim S50000x1 ![0] bcast_S50000_S50000x1_0 : (⟨S50000, .f32⟩ : BufTy).Contents (Elt F) → (⟨S50000x1, .f32⟩ : BufTy).Contents (Elt F)),
    unary main_v215 main_v216 (broadcastInDim S50000x128 ![0, 1] bcast_S50000x1_S50000x128_0_1 : (⟨S50000x1, .f32⟩ : BufTy).Contents (Elt F) → (⟨S50000x128, .f32⟩ : BufTy).Contents (Elt F)),
    binary main_v208 main_v216 main_v217 (Host.divf : (⟨S50000x128, .f32⟩ : BufTy).Contents (Elt F) → (⟨S50000x128, .f32⟩ : BufTy).Contents (Elt F) → (⟨S50000x128, .f32⟩ : BufTy).Contents (Elt F)),
    unary main_v117 main_v218 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v218 main_v219 rfl shapeCasts_S1x128x128_S128x128,
    binary main_v217 main_v219 main_v220 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v194 main_v220 main_v221 (addf : (⟨S50000x128, .f32⟩ : BufTy).Contents (Elt F) → (⟨S50000x128, .f32⟩ : BufTy).Contents (Elt F) → (⟨S50000x128, .f32⟩ : BufTy).Contents (Elt F)),
    unary main_v119 main_v222 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v222 main_v223 rfl shapeCasts_S1x128x128_S128x128,
    binary main_v115 main_v223 main_v224 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v221 main_v224 main_v225 (addf : (⟨S50000x128, .f32⟩ : BufTy).Contents (Elt F) → (⟨S50000x128, .f32⟩ : BufTy).Contents (Elt F) → (⟨S50000x128, .f32⟩ : BufTy).Contents (Elt F)),
    unary main_v121 main_v226 ((extractStridedSlice S1x128 ![2, 0] · slices_S3x128_S1x128_2_0) : (⟨S3x128, .f32⟩ : BufTy).Contents (Elt F) → (⟨S1x128, .f32⟩ : BufTy).Contents (Elt F)),
    reshape main_v226 main_v227 rfl shapeCasts_S1x128_S128,
    unary main_v227 main_v228 (broadcastInDim S1x128 ![1] bcast_S128_S1x128_1 : (⟨S128, .f32⟩ : BufTy).Contents (Elt F) → (⟨S1x128, .f32⟩ : BufTy).Contents (Elt F)),
    unary main_v228 main_v229 (broadcastInDim S50000x128 ![0, 1] bcast_S1x128_S50000x128_0_1 : (⟨S1x128, .f32⟩ : BufTy).Contents (Elt F) → (⟨S50000x128, .f32⟩ : BufTy).Contents (Elt F)),
    binary main_v225 main_v229 main_v230 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v230) (TRef.of (T := ⟨S50000x128, .f32⟩) main_call1_v0) (TRef.of (T := ⟨S50000x128, .f32⟩) main_v231) maximumf,
    binary main_v231 main_arg5 main_v232 ((fun l r => Host.dotGeneral dot_S50000x128_S128x32_S50000x32_1_0_0_1_n_n none l r) : (⟨S50000x128, .f32⟩ : BufTy).Contents (Elt F) → (⟨S128x32, .f32⟩ : BufTy).Contents (Elt F) → (⟨S50000x32, .f32⟩ : BufTy).Contents (Elt F)),
    unary main_arg6 main_v233 (broadcastInDim S1x32 ![1] bcast_S32_S1x32_1 : (⟨S32, .f32⟩ : BufTy).Contents (Elt F) → (⟨S1x32, .f32⟩ : BufTy).Contents (Elt F)),
    unary main_v233 main_v234 (broadcastInDim S50000x32 ![0, 1] bcast_S1x32_S50000x32_0_1 : (⟨S1x32, .f32⟩ : BufTy).Contents (Elt F) → (⟨S50000x32, .f32⟩ : BufTy).Contents (Elt F)),
    binary main_v232 main_v234 main_v235 (addf : (⟨S50000x32, .f32⟩ : BufTy).Contents (Elt F) → (⟨S50000x32, .f32⟩ : BufTy).Contents (Elt F) → (⟨S50000x32, .f32⟩ : BufTy).Contents (Elt F)) ]

/-- @main's operations: the windows in a row. -/
abbrev ops : List (HloOp τ sig (Elt F)) := win0 ++ (win1 ++ (win2 ++ (win3 ++ win4)))

set_option maxHeartbeats 4000000 in
theorem part0_eq (d : Dev nD) : main_part0 (F := F) d = seq win0 := rfl
set_option maxHeartbeats 4000000 in
theorem part1_eq (d : Dev nD) : main_part1 (F := F) d = seq win1 := rfl
set_option maxHeartbeats 4000000 in
theorem part2_eq (d : Dev nD) : main_part2 (F := F) d = seq win2 := rfl
set_option maxHeartbeats 4000000 in
theorem part3_eq (d : Dev nD) : main_part3 (F := F) d = seq win3 := rfl
set_option maxHeartbeats 4000000 in
theorem part4_eq (d : Dev nD) : main_part4 (F := F) d = seq win4 := rfl

/-- @main is the run of its operations. -/
theorem main_eq (d : Dev nD) : main (F := F) d = seq ops := by
  show (main_part0 (F := F) d >>= fun _ => main_part1 (F := F) d >>= fun _ => main_part2 (F := F) d >>= fun _ =>
    main_part3 (F := F) d >>= fun _ => main_part4 (F := F) d) = _
  rw [part0_eq, part1_eq, part2_eq, part3_eq, part4_eq]
  simp only [ops, seq_append]

theorem scopedRefs_eq : (Finset.univ.filter fun b : Ref sig .tc => b.isScoped) = ∅ := by decide
theorem scopedSems_eq : (Finset.univ.filter fun sm : SemLoc sig => sm.isScoped .tc) = ∅ := by decide

/-! ## The side facts, window by window -/

set_option maxHeartbeats 4000000 in
theorem win0_sub : (win0 : List (HloOp τ sig (Elt F))).Forall fun op => op.bufs ⊆ tcRefs τ sig := by
  simp only [List.Forall, unary_bufs_sub, reshape_bufs_sub, nullary_bufs_sub, binary_bufs_sub, ternary_bufs_sub, and_self]
set_option maxHeartbeats 4000000 in
theorem win0_fresh : (win0 : List (HloOp τ sig (Elt F))).Forall fun op => op.fresh = ∅ := by
  simp only [List.Forall]; repeat' constructor
/-- The references window 0 writes. -/
abbrev win0_W : List (Ref sig .tc) := [main_v0, main_v1, main_v2, main_v3, main_v4, main_v5, main_cst, main_v6, main_v7, main_v8, main_v9, main_v10, main_c, main_v11, main_v12, main_c_0, main_v13, main_v14, main_v15, main_v16, main_v17, main_cst_1, main_v18, main_v19, main_v20, main_cst_2, main_v21, main_cst_3, main_v22, main_v23, main_v24, main_cst_4, main_v25, main_v26, main_v27, main_v28, main_v29, main_v30, main_v31, main_v32, main_v33, main_v34, main_v35, main_v36, main_v37, main_v38, main_v39, main_v40, main_v41, main_v42, main_v43, main_v44, main_v45, main_v46, main_c_5, main_v47, main_v48, main_c_6, main_v49, main_v50]
set_option maxHeartbeats 4000000 in
theorem win0_writes : (win0 : List (HloOp τ sig (Elt F))).Forall fun op => op.writes ⊆ (win0_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

set_option maxHeartbeats 4000000 in
theorem win1_sub : (win1 : List (HloOp τ sig (Elt F))).Forall fun op => op.bufs ⊆ tcRefs τ sig := by
  simp only [List.Forall, unary_bufs_sub, reshape_bufs_sub, nullary_bufs_sub, binary_bufs_sub, ternary_bufs_sub, and_self]
set_option maxHeartbeats 4000000 in
theorem win1_fresh : (win1 : List (HloOp τ sig (Elt F))).Forall fun op => op.fresh = ∅ := by
  simp only [List.Forall]; repeat' constructor
/-- The references window 1 writes. -/
abbrev win1_W : List (Ref sig .tc) := [main_v51, main_v52, main_v53, main_cst_7, main_v54, main_v55, main_v56, main_cst_8, main_v57, main_cst_9, main_v58, main_v59, main_v60, main_cst_10, main_v61, main_v62, main_v63, main_v64, main_v65, main_v66, main_v67, main_v68, main_v69, main_v70, main_v71, main_v72, main_v73, main_v74, main_v75, main_v76, main_v77, main_v78, main_v79, main_v80, main_v81, main_v82, main_c_11, main_v83, main_v84, main_c_12, main_v85, main_v86, main_v87, main_v88, main_v89, main_cst_13, main_v90, main_v91, main_v92, main_cst_14, main_v93, main_cst_15, main_v94, main_v95, main_v96, main_cst_16, main_v97, main_v98, main_v99, main_v100]
set_option maxHeartbeats 4000000 in
theorem win1_writes : (win1 : List (HloOp τ sig (Elt F))).Forall fun op => op.writes ⊆ (win1_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

set_option maxHeartbeats 4000000 in
theorem win2_sub : (win2 : List (HloOp τ sig (Elt F))).Forall fun op => op.bufs ⊆ tcRefs τ sig := by
  simp only [List.Forall, unary_bufs_sub, reshape_bufs_sub, nullary_bufs_sub, binary_bufs_sub, ternary_bufs_sub, and_self]
set_option maxHeartbeats 4000000 in
theorem win2_fresh : (win2 : List (HloOp τ sig (Elt F))).Forall fun op => op.fresh = ∅ := by
  simp only [List.Forall]; repeat' constructor
/-- The references window 2 writes. -/
abbrev win2_W : List (Ref sig .tc) := [main_v101, main_v102, main_v103, main_v104, main_v105, main_v106, main_v107, main_v108, main_v109, main_v110, main_v111, main_v112, main_v113, main_v114, main_call0_cst, main_call0_v0, main_v115, main_v116, main_v117, main_v118, main_v119, main_v120, main_v121, main_cst_17, main_v122, main_v123, main_v124, main_v125, main_v126, main_c_18, main_v127, main_v128, main_c_19, main_v129, main_v130, main_v131, main_v132, main_v133, main_cst_20, main_v134, main_v135, main_v136, main_cst_21, main_v137, main_cst_22, main_v138, main_v139, main_v140, main_cst_23, main_v141, main_v142, main_v143, main_v144, main_v145, main_v146, main_v147, main_v148, main_v149, main_v150, main_v151, main_v152, main_v153]
set_option maxHeartbeats 4000000 in
theorem win2_writes : (win2 : List (HloOp τ sig (Elt F))).Forall fun op => op.writes ⊆ (win2_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

set_option maxHeartbeats 4000000 in
theorem win3_sub : (win3 : List (HloOp τ sig (Elt F))).Forall fun op => op.bufs ⊆ tcRefs τ sig := by
  simp only [List.Forall, unary_bufs_sub, reshape_bufs_sub, nullary_bufs_sub, binary_bufs_sub, ternary_bufs_sub, and_self]
set_option maxHeartbeats 4000000 in
theorem win3_fresh : (win3 : List (HloOp τ sig (Elt F))).Forall fun op => op.fresh = ∅ := by
  simp only [List.Forall]; repeat' constructor
/-- The references window 3 writes. -/
abbrev win3_W : List (Ref sig .tc) := [main_v154, main_v155, main_v156, main_v157, main_v158, main_v159, main_v160, main_v161, main_v162, main_c_24, main_v163, main_v164, main_c_25, main_v165, main_v166, main_v167, main_v168, main_v169, main_cst_26, main_v170, main_v171, main_v172, main_cst_27, main_v173, main_cst_28, main_v174, main_v175, main_v176, main_cst_29, main_v177, main_v178, main_v179, main_v180, main_v181, main_v182, main_v183, main_v184, main_v185, main_v186, main_v187, main_v188, main_v189, main_v190, main_v191, main_v192, main_v193, main_v194, main_v195, main_v196, main_v197, main_v198, main_c_30, main_v199, main_v200, main_c_31, main_v201, main_v202, main_v203, main_v204, main_v205]
set_option maxHeartbeats 4000000 in
theorem win3_writes : (win3 : List (HloOp τ sig (Elt F))).Forall fun op => op.writes ⊆ (win3_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

set_option maxHeartbeats 4000000 in
theorem win4_sub : (win4 : List (HloOp τ sig (Elt F))).Forall fun op => op.bufs ⊆ tcRefs τ sig := by
  simp only [List.Forall, unary_bufs_sub, reshape_bufs_sub, nullary_bufs_sub, binary_bufs_sub, ternary_bufs_sub, and_self]
set_option maxHeartbeats 4000000 in
theorem win4_fresh : (win4 : List (HloOp τ sig (Elt F))).Forall fun op => op.fresh = ∅ := by
  simp only [List.Forall]; repeat' constructor
/-- The references window 4 writes. -/
abbrev win4_W : List (Ref sig .tc) := [main_cst_32, main_v206, main_v207, main_v208, main_cst_33, main_v209, main_cst_34, main_v210, main_v211, main_v212, main_cst_35, main_v213, main_v214, main_v215, main_v216, main_v217, main_v218, main_v219, main_v220, main_v221, main_v222, main_v223, main_v224, main_v225, main_v226, main_v227, main_v228, main_v229, main_v230, main_call1_cst, main_call1_v0, main_v231, main_v232, main_v233, main_v234, main_v235]
set_option maxHeartbeats 4000000 in
theorem win4_writes : (win4 : List (HloOp τ sig (Elt F))).Forall fun op => op.writes ⊆ (win4_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A property of every operation of every window is a property of every operation. -/
theorem forall_ops (P : HloOp τ sig (Elt F) → Prop) (h0 : (win0 : List (HloOp τ sig (Elt F))).Forall P) (h1 : (win1 : List (HloOp τ sig (Elt F))).Forall P)
    (h2 : (win2 : List (HloOp τ sig (Elt F))).Forall P) (h3 : (win3 : List (HloOp τ sig (Elt F))).Forall P) (h4 : (win4 : List (HloOp τ sig (Elt F))).Forall P) :
    ∀ op ∈ (ops : List (HloOp τ sig (Elt F))), P op := by
  intro op hop
  simp only [ops, List.mem_append] at hop
  rcases hop with h | h | h | h | h
  · exact List.forall_iff_forall_mem.mp h0 op h
  · exact List.forall_iff_forall_mem.mp h1 op h
  · exact List.forall_iff_forall_mem.mp h2 op h
  · exact List.forall_iff_forall_mem.mp h3 op h
  · exact List.forall_iff_forall_mem.mp h4 op h

theorem ops_sub : (ops : List (HloOp τ sig (Elt F))).Forall fun op => op.bufs ⊆ tcRefs τ sig :=
  List.forall_iff_forall_mem.mpr (forall_ops _ win0_sub win1_sub win2_sub win3_sub win4_sub)

/-- A reference no window writes holds after each window what it held before it, hence at the end what it held at launch. -/
theorem after_of_not_written (W : Valuation τ sig (Elt F)) (r : Ref sig .tc)
    (h0 : r ∉ win0_W) (h1 : r ∉ win1_W) (h2 : r ∉ win2_W) (h3 : r ∉ win3_W) (h4 : r ∉ win4_W) :
    after ops W (Proc.devRef .tc r) = W (Proc.devRef .tc r) := by
  have app : ∀ (l₁ l₂ : List (HloOp τ sig (Elt F))) (V : Valuation τ sig (Elt F)), after (l₁ ++ l₂) V = after l₂ (after l₁ V) := by
    intro l₁; induction l₁ with
    | nil => intro _ _; rfl
    | cons op l ih => intro l₂ V; exact ih l₂ (op.result V)
  simp only [ops, app]
  rw [after_of_writes_sub win4 _ win4_writes h4, after_of_writes_sub win3 _ win3_writes h3, after_of_writes_sub win2 _ win2_writes h2,
    after_of_writes_sub win1 _ win1_writes h1, after_of_writes_sub win0 _ win0_writes h0]

/-! ## The run and the frame -/

set_option maxHeartbeats 4000000 in
/-- THE RUN: every weakly fair execution of @main terminates with every buffer at the fold of the operations over its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ => forall_ops _ win0_fresh win1_fresh win2_fresh win3_fresh win4_fresh)

/-- THE FRAME: every argument array ends as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c main_arg0).trans (after_of_not_written _ main_arg0 (by decide) (by decide) (by decide) (by decide) (by decide)),
    (h c main_arg1).trans (after_of_not_written _ main_arg1 (by decide) (by decide) (by decide) (by decide) (by decide)),
    (h c main_arg2).trans (after_of_not_written _ main_arg2 (by decide) (by decide) (by decide) (by decide) (by decide)),
    (h c main_arg3).trans (after_of_not_written _ main_arg3 (by decide) (by decide) (by decide) (by decide) (by decide)),
    (h c main_arg4).trans (after_of_not_written _ main_arg4 (by decide) (by decide) (by decide) (by decide) (by decide)),
    (h c main_arg5).trans (after_of_not_written _ main_arg5 (by decide) (by decide) (by decide) (by decide) (by decide)),
    (h c main_arg6).trans (after_of_not_written _ main_arg6 (by decide) (by decide) (by decide) (by decide) (by decide))⟩) (run_all m ρ)

end Cert.ReferenceIdeal.RefRun

end
-- ==== Proof.RefPieces.lean ====
/-
  The reference's operations cut into the pieces the mathematics has: per layer the slices of the weights and a zero matrix, one piece per
  relation (row sums, clamped degree, mean, and the relation's three terms added onto the accumulator), the clamp at zero; then the linear
  head. The pieces in a row are the program's operations.
-/
import proofs.«181974_j41549513621817_2_alg».proof.Proof.RefRun

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 0's slices of the weight stacks and bias stack, and the zero matrix the layer accumulates onto. -/
abbrev pre0 : List (HloOp τ sig (Elt F)) :=
  [ unary main_arg2 main_v0 ((extractStridedSlice S1x3x128x128 ![0, 0, 0, 0] · slices_S2x3x128x128_S1x3x128x128_0_0_0_0) : (⟨S2x3x128x128, .f32⟩ : BufTy).Contents (Elt F) → (⟨S1x3x128x128, .f32⟩ : BufTy).Contents (Elt F)),
    reshape main_v0 main_v1 rfl shapeCasts_S1x3x128x128_S3x128x128,
    unary main_arg3 main_v2 ((extractStridedSlice S1x3x128x128 ![0, 0, 0, 0] · slices_S2x3x128x128_S1x3x128x128_0_0_0_0) : (⟨S2x3x128x128, .f32⟩ : BufTy).Contents (Elt F) → (⟨S1x3x128x128, .f32⟩ : BufTy).Contents (Elt F)),
    reshape main_v2 main_v3 rfl shapeCasts_S1x3x128x128_S3x128x128,
    unary main_arg4 main_v4 ((extractStridedSlice S1x3x128 ![0, 0, 0] · slices_S2x3x128_S1x3x128_0_0_0) : (⟨S2x3x128, .f32⟩ : BufTy).Contents (Elt F) → (⟨S1x3x128, .f32⟩ : BufTy).Contents (Elt F)),
    reshape main_v4 main_v5 rfl shapeCasts_S1x3x128_S3x128,
    nullary main_cst (constant S_ .f32 0x00000000#32),
    unary main_cst main_v6 (broadcastInDim S50000x128 ![] bcast_S_S50000x128 : (⟨S_, .f32⟩ : BufTy).Contents (Elt F) → (⟨S50000x128, .f32⟩ : BufTy).Contents (Elt F)) ]

/-- Layer 0, relation 0: its row sums, its clamped degree, the mean, and its three terms added onto the accumulator. -/
abbrev l0r0 : List (HloOp τ sig (Elt F)) :=
  [ unary main_arg1 main_v7 ((extractStridedSlice S1x1x640000 ![0, 0, 0] · slices_S3x2x640000_S1x1x640000_0_0_0) : (⟨S3x2x640000, .i32⟩ : BufTy).Contents (Elt F) → (⟨S1x1x640000, .i32⟩ : BufTy).Contents (Elt F)),
    reshape main_v7 main_v8 rfl shapeCasts_S1x1x640000_S640000,
    unary main_arg1 main_v9 ((extractStridedSlice S1x1x640000 ![0, 1, 0] · slices_S3x2x640000_S1x1x640000_0_1_0) : (⟨S3x2x640000, .i32⟩ : BufTy).Contents (Elt F) → (⟨S1x1x640000, .i32⟩ : BufTy).Contents (Elt F)),
    reshape main_v9 main_v10 rfl shapeCasts_S1x1x640000_S640000,
    nullary main_c (constantI S_ 32 0#32),
    unary main_c main_v11 (broadcastInDim S640000 ![] bcast_S_S640000 : (⟨S_, .i32⟩ : BufTy).Contents (Elt F) → (⟨S640000, .i32⟩ : BufTy).Contents (Elt F)),
    binary main_v8 main_v11 main_v12 (cmpi .slt : (⟨S640000, .i32⟩ : BufTy).Contents (Elt F) → (⟨S640000, .i32⟩ : BufTy).Contents (Elt F) → (⟨S640000, .i1⟩ : BufTy).Contents (Elt F)),
    nullary main_c_0 (constantI S_ 32 50000#32),
    unary main_c_0 main_v13 (broadcastInDim S640000 ![] bcast_S_S640000 : (⟨S_, .i32⟩ : BufTy).Contents (Elt F) → (⟨S640000, .i32⟩ : BufTy).Contents (Elt F)),
    binary main_v8 main_v13 main_v14 (addi : (⟨S640000, .i32⟩ : BufTy).Contents (Elt F) → (⟨S640000, .i32⟩ : BufTy).Contents (Elt F) → (⟨S640000, .i32⟩ : BufTy).Contents (Elt F)),
    ternary main_v12 main_v14 main_v8 main_v15 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v15 main_v16 (broadcastInDim S640000x1 ![0] bcast_S640000_S640000x1_0 : (⟨S640000, .i32⟩ : BufTy).Contents (Elt F) → (⟨S640000x1, .i32⟩ : BufTy).Contents (Elt F)),
    binary main_arg0 main_v16 main_v17 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst_1 (constant S_ .f32 0x00000000#32),
    unary main_cst_1 main_v18 (broadcastInDim S50000x128 ![] bcast_S_S50000x128 : (⟨S_, .f32⟩ : BufTy).Contents (Elt F) → (⟨S50000x128, .f32⟩ : BufTy).Contents (Elt F)),
    unary main_v10 main_v19 (broadcastInDim S640000x1 ![0] bcast_S640000_S640000x1_0 : (⟨S640000, .i32⟩ : BufTy).Contents (Elt F) → (⟨S640000x1, .i32⟩ : BufTy).Contents (Elt F)),
    ternary main_v18 main_v19 main_v17 main_v20 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    nullary main_cst_2 (constant S_ .f32 0x3F800000#32),
    unary main_cst_2 main_v21 (broadcastInDim S640000 ![] bcast_S_S640000 : (⟨S_, .f32⟩ : BufTy).Contents (Elt F) → (⟨S640000, .f32⟩ : BufTy).Contents (Elt F)),
    nullary main_cst_3 (constant S_ .f32 0x00000000#32),
    unary main_cst_3 main_v22 (broadcastInDim S50000 ![] bcast_S_S50000 : (⟨S_, .f32⟩ : BufTy).Contents (Elt F) → (⟨S50000, .f32⟩ : BufTy).Contents (Elt F)),
    unary main_v10 main_v23 (broadcastInDim S640000x1 ![0] bcast_S640000_S640000x1_0 : (⟨S640000, .i32⟩ : BufTy).Contents (Elt F) → (⟨S640000x1, .i32⟩ : BufTy).Contents (Elt F)),
    ternary main_v22 main_v23 main_v21 main_v24 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    nullary main_cst_4 (constant S_ .f32 0x3F800000#32),
    unary main_cst_4 main_v25 (broadcastInDim S50000 ![] bcast_S_S50000 : (⟨S_, .f32⟩ : BufTy).Contents (Elt F) → (⟨S50000, .f32⟩ : BufTy).Contents (Elt F)),
    binary main_v24 main_v25 main_v26 (maximumf : (⟨S50000, .f32⟩ : BufTy).Contents (Elt F) → (⟨S50000, .f32⟩ : BufTy).Contents (Elt F) → (⟨S50000, .f32⟩ : BufTy).Contents (Elt F)),
    unary main_v26 main_v27 (broadcastInDim S50000x1 ![0] bcast_S50000_S50000x1_0 : (⟨S50000, .f32⟩ : BufTy).Contents (Elt F) → (⟨S50000x1, .f32⟩ : BufTy).Contents (Elt F)),
    unary main_v27 main_v28 (broadcastInDim S50000x128 ![0, 1] bcast_S50000x1_S50000x128_0_1 : (⟨S50000x1, .f32⟩ : BufTy).Contents (Elt F) → (⟨S50000x128, .f32⟩ : BufTy).Contents (Elt F)),
    binary main_v20 main_v28 main_v29 (Host.divf : (⟨S50000x128, .f32⟩ : BufTy).Contents (Elt F) → (⟨S50000x128, .f32⟩ : BufTy).Contents (Elt F) → (⟨S50000x128, .f32⟩ : BufTy).Contents (Elt F)),
    unary main_v1 main_v30 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v30 main_v31 rfl shapeCasts_S1x128x128_S128x128,
    binary main_v29 main_v31 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v6 main_v32 main_v33 (addf : (⟨S50000x128, .f32⟩ : BufTy).Contents (Elt F) → (⟨S50000x128, .f32⟩ : BufTy).Contents (Elt F) → (⟨S50000x128, .f32⟩ : BufTy).Contents (Elt F)),
    unary main_v3 main_v34 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v34 main_v35 rfl shapeCasts_S1x128x128_S128x128,
    binary main_arg0 main_v35 main_v36 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v33 main_v36 main_v37 (addf : (⟨S50000x128, .f32⟩ : BufTy).Contents (Elt F) → (⟨S50000x128, .f32⟩ : BufTy).Contents (Elt F) → (⟨S50000x128, .f32⟩ : BufTy).Contents (Elt F)),
    unary main_v5 main_v38 ((extractStridedSlice S1x128 ![0, 0] · slices_S3x128_S1x128_0_0) : (⟨S3x128, .f32⟩ : BufTy).Contents (Elt F) → (⟨S1x128, .f32⟩ : BufTy).Contents (Elt F)),
    reshape main_v38 main_v39 rfl shapeCasts_S1x128_S128,
    unary main_v39 main_v40 (broadcastInDim S1x128 ![1] bcast_S128_S1x128_1 : (⟨S128, .f32⟩ : BufTy).Contents (Elt F) → (⟨S1x128, .f32⟩ : BufTy).Contents (Elt F)),
    unary main_v40 main_v41 (broadcastInDim S50000x128 ![0, 1] bcast_S1x128_S50000x128_0_1 : (⟨S1x128, .f32⟩ : BufTy).Contents (Elt F) → (⟨S50000x128, .f32⟩ : BufTy).Contents (Elt F)),
    binary main_v37 main_v41 main_v42 (addf : (⟨S50000x128, .f32⟩ : BufTy).Contents (Elt F) → (⟨S50000x128, .f32⟩ : BufTy).Contents (Elt F) → (⟨S50000x128, .f32⟩ : BufTy).Contents (Elt F)) ]

/-- Layer 0, relation 1. -/
abbrev l0r1 : List (HloOp τ sig (Elt F)) :=
  [ unary main_arg1 main_v43 ((extractStridedSlice S1x1x640000 ![1, 0, 0] · slices_S3x2x640000_S1x1x640000_1_0_0) : (⟨S3x2x640000, .i32⟩ : BufTy).Contents (Elt F) → (⟨S1x1x640000, .i32⟩ : BufTy).Contents (Elt F)),
    reshape main_v43 main_v44 rfl shapeCasts_S1x1x640000_S640000,
    unary main_arg1 main_v45 ((extractStridedSlice S1x1x640000 ![1, 1, 0] · slices_S3x2x640000_S1x1x640000_1_1_0) : (⟨S3x2x640000, .i32⟩ : BufTy).Contents (Elt F) → (⟨S1x1x640000, .i32⟩ : BufTy).Contents (Elt F)),
    reshape main_v45 main_v46 rfl shapeCasts_S1x1x640000_S640000,
    nullary main_c_5 (constantI S_ 32 0#32),
    unary main_c_5 main_v47 (broadcastInDim S640000 ![] bcast_S_S640000 : (⟨S_, .i32⟩ : BufTy).Contents (Elt F) → (⟨S640000, .i32⟩ : BufTy).Contents (Elt F)),
    binary main_v44 main_v47 main_v48 (cmpi .slt : (⟨S640000, .i32⟩ : BufTy).Contents (Elt F) → (⟨S640000, .i32⟩ : BufTy).Contents (Elt F) → (⟨S640000, .i1⟩ : BufTy).Contents (Elt F)),
    nullary main_c_6 (constantI S_ 32 50000#32),
    unary main_c_6 main_v49 (broadcastInDim S640000 ![] bcast_S_S640000 : (⟨S_, .i32⟩ : BufTy).Contents (Elt F) → (⟨S640000, .i32⟩ : BufTy).Contents (Elt F)),
    binary main_v44 main_v49 main_v50 (addi : (⟨S640000, .i32⟩ : BufTy).Contents (Elt F) → (⟨S640000, .i32⟩ : BufTy).Contents (Elt F) → (⟨S640000, .i32⟩ : BufTy).Contents (Elt F)),
    ternary main_v48 main_v50 main_v44 main_v51 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v51 main_v52 (broadcastInDim S640000x1 ![0] bcast_S640000_S640000x1_0 : (⟨S640000, .i32⟩ : BufTy).Contents (Elt F) → (⟨S640000x1, .i32⟩ : BufTy).Contents (Elt F)),
    binary main_arg0 main_v52 main_v53 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst_7 (constant S_ .f32 0x00000000#32),
    unary main_cst_7 main_v54 (broadcastInDim S50000x128 ![] bcast_S_S50000x128 : (⟨S_, .f32⟩ : BufTy).Contents (Elt F) → (⟨S50000x128, .f32⟩ : BufTy).Contents (Elt F)),
    unary main_v46 main_v55 (broadcastInDim S640000x1 ![0] bcast_S640000_S640000x1_0 : (⟨S640000, .i32⟩ : BufTy).Contents (Elt F) → (⟨S640000x1, .i32⟩ : BufTy).Contents (Elt F)),
    ternary main_v54 main_v55 main_v53 main_v56 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    nullary main_cst_8 (constant S_ .f32 0x3F800000#32),
    unary main_cst_8 main_v57 (broadcastInDim S640000 ![] bcast_S_S640000 : (⟨S_, .f32⟩ : BufTy).Contents (Elt F) → (⟨S640000, .f32⟩ : BufTy).Contents (Elt F)),
    nullary main_cst_9 (constant S_ .f32 0x00000000#32),
    unary main_cst_9 main_v58 (broadcastInDim S50000 ![] bcast_S_S50000 : (⟨S_, .f32⟩ : BufTy).Contents (Elt F) → (⟨S50000, .f32⟩ : BufTy).Contents (Elt F)),
    unary main_v46 main_v59 (broadcastInDim S640000x1 ![0] bcast_S640000_S640000x1_0 : (⟨S640000, .i32⟩ : BufTy).Contents (Elt F) → (⟨S640000x1, .i32⟩ : BufTy).Contents (Elt F)),
    ternary main_v58 main_v59 main_v57 main_v60 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    nullary main_cst_10 (constant S_ .f32 0x3F800000#32),
    unary main_cst_10 main_v61 (broadcastInDim S50000 ![] bcast_S_S50000 : (⟨S_, .f32⟩ : BufTy).Contents (Elt F) → (⟨S50000, .f32⟩ : BufTy).Contents (Elt F)),
    binary main_v60 main_v61 main_v62 (maximumf : (⟨S50000, .f32⟩ : BufTy).Contents (Elt F) → (⟨S50000, .f32⟩ : BufTy).Contents (Elt F) → (⟨S50000, .f32⟩ : BufTy).Contents (Elt F)),
    unary main_v62 main_v63 (broadcastInDim S50000x1 ![0] bcast_S50000_S50000x1_0 : (⟨S50000, .f32⟩ : BufTy).Contents (Elt F) → (⟨S50000x1, .f32⟩ : BufTy).Contents (Elt F)),
    unary main_v63 main_v64 (broadcastInDim S50000x128 ![0, 1] bcast_S50000x1_S50000x128_0_1 : (⟨S50000x1, .f32⟩ : BufTy).Contents (Elt F) → (⟨S50000x128, .f32⟩ : BufTy).Contents (Elt F)),
    binary main_v56 main_v64 main_v65 (Host.divf : (⟨S50000x128, .f32⟩ : BufTy).Contents (Elt F) → (⟨S50000x128, .f32⟩ : BufTy).Contents (Elt F) → (⟨S50000x128, .f32⟩ : BufTy).Contents (Elt F)),
    unary main_v1 main_v66 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v66 main_v67 rfl shapeCasts_S1x128x128_S128x128,
    binary main_v65 main_v67 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v42 main_v68 main_v69 (addf : (⟨S50000x128, .f32⟩ : BufTy).Contents (Elt F) → (⟨S50000x128, .f32⟩ : BufTy).Contents (Elt F) → (⟨S50000x128, .f32⟩ : BufTy).Contents (Elt F)),
    unary main_v3 main_v70 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v70 main_v71 rfl shapeCasts_S1x128x128_S128x128,
    binary main_arg0 main_v71 main_v72 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v69 main_v72 main_v73 (addf : (⟨S50000x128, .f32⟩ : BufTy).Contents (Elt F) → (⟨S50000x128, .f32⟩ : BufTy).Contents (Elt F) → (⟨S50000x128, .f32⟩ : BufTy).Contents (Elt F)),
    unary main_v5 main_v74 ((extractStridedSlice S1x128 ![1, 0] · slices_S3x128_S1x128_1_0) : (⟨S3x128, .f32⟩ : BufTy).Contents (Elt F) → (⟨S1x128, .f32⟩ : BufTy).Contents (Elt F)),
    reshape main_v74 main_v75 rfl shapeCasts_S1x128_S128,
    unary main_v75 main_v76 (broadcastInDim S1x128 ![1] bcast_S128_S1x128_1 : (⟨S128, .f32⟩ : BufTy).Contents (Elt F) → (⟨S1x128, .f32⟩ : BufTy).Contents (Elt F)),
    unary main_v76 main_v77 (broadcastInDim S50000x128 ![0, 1] bcast_S1x128_S50000x128_0_1 : (⟨S1x128, .f32⟩ : BufTy).Contents (Elt F) → (⟨S50000x128, .f32⟩ : BufTy).Contents (Elt F)),
    binary main_v73 main_v77 main_v78 (addf : (⟨S50000x128, .f32⟩ : BufTy).Contents (Elt F) → (⟨S50000x128, .f32⟩ : BufTy).Contents (Elt F) → (⟨S50000x128, .f32⟩ : BufTy).Contents (Elt F)) ]

/-- Layer 0, relation 2. -/
abbrev l0r2 : List (HloOp τ sig (Elt F)) :=
  [ unary main_arg1 main_v79 ((extractStridedSlice S1x1x640000 ![2, 0, 0] · slices_S3x2x640000_S1x1x640000_2_0_0) : (⟨S3x2x640000, .i32⟩ : BufTy).Contents (Elt F) → (⟨S1x1x640000, .i32⟩ : BufTy).Contents (Elt F)),
    reshape main_v79 main_v80 rfl shapeCasts_S1x1x640000_S640000,
    unary main_arg1 main_v81 ((extractStridedSlice S1x1x640000 ![2, 1, 0] · slices_S3x2x640000_S1x1x640000_2_1_0) : (⟨S3x2x640000, .i32⟩ : BufTy).Contents (Elt F) → (⟨S1x1x640000, .i32⟩ : BufTy).Contents (Elt F)),
    reshape main_v81 main_v82 rfl shapeCasts_S1x1x640000_S640000,
    nullary main_c_11 (constantI S_ 32 0#32),
    unary main_c_11 main_v83 (broadcastInDim S640000 ![] bcast_S_S640000 : (⟨S_, .i32⟩ : BufTy).Contents (Elt F) → (⟨S640000, .i32⟩ : BufTy).Contents (Elt F)),
    binary main_v80 main_v83 main_v84 (cmpi .slt : (⟨S640000, .i32⟩ : BufTy).Contents (Elt F) → (⟨S640000, .i32⟩ : BufTy).Contents (Elt F) → (⟨S640000, .i1⟩ : BufTy).Contents (Elt F)),
    nullary main_c_12 (constantI S_ 32 50000#32),
    unary main_c_12 main_v85 (broadcastInDim S640000 ![] bcast_S_S640000 : (⟨S_, .i32⟩ : BufTy).Contents (Elt F) → (⟨S640000, .i32⟩ : BufTy).Contents (Elt F)),
    binary main_v80 main_v85 main_v86 (addi : (⟨S640000, .i32⟩ : BufTy).Contents (Elt F) → (⟨S640000, .i32⟩ : BufTy).Contents (Elt F) → (⟨S640000, .i32⟩ : BufTy).Contents (Elt F)),
    ternary main_v84 main_v86 main_v80 main_v87 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v87 main_v88 (broadcastInDim S640000x1 ![0] bcast_S640000_S640000x1_0 : (⟨S640000, .i32⟩ : BufTy).Contents (Elt F) → (⟨S640000x1, .i32⟩ : BufTy).Contents (Elt F)),
    binary main_arg0 main_v88 main_v89 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst_13 (constant S_ .f32 0x00000000#32),
    unary main_cst_13 main_v90 (broadcastInDim S50000x128 ![] bcast_S_S50000x128 : (⟨S_, .f32⟩ : BufTy).Contents (Elt F) → (⟨S50000x128, .f32⟩ : BufTy).Contents (Elt F)),
    unary main_v82 main_v91 (broadcastInDim S640000x1 ![0] bcast_S640000_S640000x1_0 : (⟨S640000, .i32⟩ : BufTy).Contents (Elt F) → (⟨S640000x1, .i32⟩ : BufTy).Contents (Elt F)),
    ternary main_v90 main_v91 main_v89 main_v92 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    nullary main_cst_14 (constant S_ .f32 0x3F800000#32),
    unary main_cst_14 main_v93 (broadcastInDim S640000 ![] bcast_S_S640000 : (⟨S_, .f32⟩ : BufTy).Contents (Elt F) → (⟨S640000, .f32⟩ : BufTy).Contents (Elt F)),
    nullary main_cst_15 (constant S_ .f32 0x00000000#32),
    unary main_cst_15 main_v94 (broadcastInDim S50000 ![] bcast_S_S50000 : (⟨S_, .f32⟩ : BufTy).Contents (Elt F) → (⟨S50000, .f32⟩ : BufTy).Contents (Elt F)),
    unary main_v82 main_v95 (broadcastInDim S640000x1 ![0] bcast_S640000_S640000x1_0 : (⟨S640000, .i32⟩ : BufTy).Contents (Elt F) → (⟨S640000x1, .i32⟩ : BufTy).Contents (Elt F)),
    ternary main_v94 main_v95 main_v93 main_v96 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    nullary main_cst_16 (constant S_ .f32 0x3F800000#32),
    unary main_cst_16 main_v97 (broadcastInDim S50000 ![] bcast_S_S50000 : (⟨S_, .f32⟩ : BufTy).Contents (Elt F) → (⟨S50000, .f32⟩ : BufTy).Contents (Elt F)),
    binary main_v96 main_v97 main_v98 (maximumf : (⟨S50000, .f32⟩ : BufTy).Contents (Elt F) → (⟨S50000, .f32⟩ : BufTy).Contents (Elt F) → (⟨S50000, .f32⟩ : BufTy).Contents (Elt F)),
    unary main_v98 main_v99 (broadcastInDim S50000x1 ![0] bcast_S50000_S50000x1_0 : (⟨S50000, .f32⟩ : BufTy).Contents (Elt F) → (⟨S50000x1, .f32⟩ : BufTy).Contents (Elt F)),
    unary main_v99 main_v100 (broadcastInDim S50000x128 ![0, 1] bcast_S50000x1_S50000x128_0_1 : (⟨S50000x1, .f32⟩ : BufTy).Contents (Elt F) → (⟨S50000x128, .f32⟩ : BufTy).Contents (Elt F)),
    binary main_v92 main_v100 main_v101 (Host.divf : (⟨S50000x128, .f32⟩ : BufTy).Contents (Elt F) → (⟨S50000x128, .f32⟩ : BufTy).Contents (Elt F) → (⟨S50000x128, .f32⟩ : BufTy).Contents (Elt F)),
    unary main_v1 main_v102 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v102 main_v103 rfl shapeCasts_S1x128x128_S128x128,
    binary main_v101 main_v103 main_v104 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v78 main_v104 main_v105 (addf : (⟨S50000x128, .f32⟩ : BufTy).Contents (Elt F) → (⟨S50000x128, .f32⟩ : BufTy).Contents (Elt F) → (⟨S50000x128, .f32⟩ : BufTy).Contents (Elt F)),
    unary main_v3 main_v106 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v106 main_v107 rfl shapeCasts_S1x128x128_S128x128,
    binary main_arg0 main_v107 main_v108 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v105 main_v108 main_v109 (addf : (⟨S50000x128, .f32⟩ : BufTy).Contents (Elt F) → (⟨S50000x128, .f32⟩ : BufTy).Contents (Elt F) → (⟨S50000x128, .f32⟩ : BufTy).Contents (Elt F)),
    unary main_v5 main_v110 ((extractStridedSlice S1x128 ![2, 0] · slices_S3x128_S1x128_2_0) : (⟨S3x128, .f32⟩ : BufTy).Contents (Elt F) → (⟨S1x128, .f32⟩ : BufTy).Contents (Elt F)),
    reshape main_v110 main_v111 rfl shapeCasts_S1x128_S128,
    unary main_v111 main_v112 (broadcastInDim S1x128 ![1] bcast_S128_S1x128_1 : (⟨S128, .f32⟩ : BufTy).Contents (Elt F) → (⟨S1x128, .f32⟩ : BufTy).Contents (Elt F)),
    unary main_v112 main_v113 (broadcastInDim S50000x128 ![0, 1] bcast_S1x128_S50000x128_0_1 : (⟨S1x128, .f32⟩ : BufTy).Contents (Elt F) → (⟨S50000x128, .f32⟩ : BufTy).Contents (Elt F)),
    binary main_v109 main_v113 main_v114 (addf : (⟨S50000x128, .f32⟩ : BufTy).Contents (Elt F) → (⟨S50000x128, .f32⟩ : BufTy).Contents (Elt F) → (⟨S50000x128, .f32⟩ : BufTy).Contents (Elt F)) ]

/-- Layer 0's clamp at zero. -/
abbrev relu0 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v114) (TRef.of (T := ⟨S50000x128, .f32⟩) main_call0_v0) (TRef.of (T := ⟨S50000x128, .f32⟩) main_v115) maximumf ]

/-- Layer 1's slices and zero matrix. -/
abbrev pre1 : List (HloOp τ sig (Elt F)) :=
  [ unary main_arg2 main_v116 ((extractStridedSlice S1x3x128x128 ![1, 0, 0, 0] · slices_S2x3x128x128_S1x3x128x128_1_0_0_0) : (⟨S2x3x128x128, .f32⟩ : BufTy).Contents (Elt F) → (⟨S1x3x128x128, .f32⟩ : BufTy).Contents (Elt F)),
    reshape main_v116 main_v117 rfl shapeCasts_S1x3x128x128_S3x128x128,
    unary main_arg3 main_v118 ((extractStridedSlice S1x3x128x128 ![1, 0, 0, 0] · slices_S2x3x128x128_S1x3x128x128_1_0_0_0) : (⟨S2x3x128x128, .f32⟩ : BufTy).Contents (Elt F) → (⟨S1x3x128x128, .f32⟩ : BufTy).Contents (Elt F)),
    reshape main_v118 main_v119 rfl shapeCasts_S1x3x128x128_S3x128x128,
    unary main_arg4 main_v120 ((extractStridedSlice S1x3x128 ![1, 0, 0] · slices_S2x3x128_S1x3x128_1_0_0) : (⟨S2x3x128, .f32⟩ : BufTy).Contents (Elt F) → (⟨S1x3x128, .f32⟩ : BufTy).Contents (Elt F)),
    reshape main_v120 main_v121 rfl shapeCasts_S1x3x128_S3x128,
    nullary main_cst_17 (constant S_ .f32 0x00000000#32),
    unary main_cst_17 main_v122 (broadcastInDim S50000x128 ![] bcast_S_S50000x128 : (⟨S_, .f32⟩ : BufTy).Contents (Elt F) → (⟨S50000x128, .f32⟩ : BufTy).Contents (Elt F)) ]

/-- Layer 1, relation 0. -/
abbrev l1r0 : List (HloOp τ sig (Elt F)) :=
  [ unary main_arg1 main_v123 ((extractStridedSlice S1x1x640000 ![0, 0, 0] · slices_S3x2x640000_S1x1x640000_0_0_0) : (⟨S3x2x640000, .i32⟩ : BufTy).Contents (Elt F) → (⟨S1x1x640000, .i32⟩ : BufTy).Contents (Elt F)),
    reshape main_v123 main_v124 rfl shapeCasts_S1x1x640000_S640000,
    unary main_arg1 main_v125 ((extractStridedSlice S1x1x640000 ![0, 1, 0] · slices_S3x2x640000_S1x1x640000_0_1_0) : (⟨S3x2x640000, .i32⟩ : BufTy).Contents (Elt F) → (⟨S1x1x640000, .i32⟩ : BufTy).Contents (Elt F)),
    reshape main_v125 main_v126 rfl shapeCasts_S1x1x640000_S640000,
    nullary main_c_18 (constantI S_ 32 0#32),
    unary main_c_18 main_v127 (broadcastInDim S640000 ![] bcast_S_S640000 : (⟨S_, .i32⟩ : BufTy).Contents (Elt F) → (⟨S640000, .i32⟩ : BufTy).Contents (Elt F)),
    binary main_v124 main_v127 main_v128 (cmpi .slt : (⟨S640000, .i32⟩ : BufTy).Contents (Elt F) → (⟨S640000, .i32⟩ : BufTy).Contents (Elt F) → (⟨S640000, .i1⟩ : BufTy).Contents (Elt F)),
    nullary main_c_19 (constantI S_ 32 50000#32),
    unary main_c_19 main_v129 (broadcastInDim S640000 ![] bcast_S_S640000 : (⟨S_, .i32⟩ : BufTy).Contents (Elt F) → (⟨S640000, .i32⟩ : BufTy).Contents (Elt F)),
    binary main_v124 main_v129 main_v130 (addi : (⟨S640000, .i32⟩ : BufTy).Contents (Elt F) → (⟨S640000, .i32⟩ : BufTy).Contents (Elt F) → (⟨S640000, .i32⟩ : BufTy).Contents (Elt F)),
    ternary main_v128 main_v130 main_v124 main_v131 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v131 main_v132 (broadcastInDim S640000x1 ![0] bcast_S640000_S640000x1_0 : (⟨S640000, .i32⟩ : BufTy).Contents (Elt F) → (⟨S640000x1, .i32⟩ : BufTy).Contents (Elt F)),
    binary main_v115 main_v132 main_v133 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst_20 (constant S_ .f32 0x00000000#32),
    unary main_cst_20 main_v134 (broadcastInDim S50000x128 ![] bcast_S_S50000x128 : (⟨S_, .f32⟩ : BufTy).Contents (Elt F) → (⟨S50000x128, .f32⟩ : BufTy).Contents (Elt F)),
    unary main_v126 main_v135 (broadcastInDim S640000x1 ![0] bcast_S640000_S640000x1_0 : (⟨S640000, .i32⟩ : BufTy).Contents (Elt F) → (⟨S640000x1, .i32⟩ : BufTy).Contents (Elt F)),
    ternary main_v134 main_v135 main_v133 main_v136 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    nullary main_cst_21 (constant S_ .f32 0x3F800000#32),
    unary main_cst_21 main_v137 (broadcastInDim S640000 ![] bcast_S_S640000 : (⟨S_, .f32⟩ : BufTy).Contents (Elt F) → (⟨S640000, .f32⟩ : BufTy).Contents (Elt F)),
    nullary main_cst_22 (constant S_ .f32 0x00000000#32),
    unary main_cst_22 main_v138 (broadcastInDim S50000 ![] bcast_S_S50000 : (⟨S_, .f32⟩ : BufTy).Contents (Elt F) → (⟨S50000, .f32⟩ : BufTy).Contents (Elt F)),
    unary main_v126 main_v139 (broadcastInDim S640000x1 ![0] bcast_S640000_S640000x1_0 : (⟨S640000, .i32⟩ : BufTy).Contents (Elt F) → (⟨S640000x1, .i32⟩ : BufTy).Contents (Elt F)),
    ternary main_v138 main_v139 main_v137 main_v140 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    nullary main_cst_23 (constant S_ .f32 0x3F800000#32),
    unary main_cst_23 main_v141 (broadcastInDim S50000 ![] bcast_S_S50000 : (⟨S_, .f32⟩ : BufTy).Contents (Elt F) → (⟨S50000, .f32⟩ : BufTy).Contents (Elt F)),
    binary main_v140 main_v141 main_v142 (maximumf : (⟨S50000, .f32⟩ : BufTy).Contents (Elt F) → (⟨S50000, .f32⟩ : BufTy).Contents (Elt F) → (⟨S50000, .f32⟩ : BufTy).Contents (Elt F)),
    unary main_v142 main_v143 (broadcastInDim S50000x1 ![0] bcast_S50000_S50000x1_0 : (⟨S50000, .f32⟩ : BufTy).Contents (Elt F) → (⟨S50000x1, .f32⟩ : BufTy).Contents (Elt F)),
    unary main_v143 main_v144 (broadcastInDim S50000x128 ![0, 1] bcast_S50000x1_S50000x128_0_1 : (⟨S50000x1, .f32⟩ : BufTy).Contents (Elt F) → (⟨S50000x128, .f32⟩ : BufTy).Contents (Elt F)),
    binary main_v136 main_v144 main_v145 (Host.divf : (⟨S50000x128, .f32⟩ : BufTy).Contents (Elt F) → (⟨S50000x128, .f32⟩ : BufTy).Contents (Elt F) → (⟨S50000x128, .f32⟩ : BufTy).Contents (Elt F)),
    unary main_v117 main_v146 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v146 main_v147 rfl shapeCasts_S1x128x128_S128x128,
    binary main_v145 main_v147 main_v148 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v122 main_v148 main_v149 (addf : (⟨S50000x128, .f32⟩ : BufTy).Contents (Elt F) → (⟨S50000x128, .f32⟩ : BufTy).Contents (Elt F) → (⟨S50000x128, .f32⟩ : BufTy).Contents (Elt F)),
    unary main_v119 main_v150 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v150 main_v151 rfl shapeCasts_S1x128x128_S128x128,
    binary main_v115 main_v151 main_v152 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v149 main_v152 main_v153 (addf : (⟨S50000x128, .f32⟩ : BufTy).Contents (Elt F) → (⟨S50000x128, .f32⟩ : BufTy).Contents (Elt F) → (⟨S50000x128, .f32⟩ : BufTy).Contents (Elt F)),
    unary main_v121 main_v154 ((extractStridedSlice S1x128 ![0, 0] · slices_S3x128_S1x128_0_0) : (⟨S3x128, .f32⟩ : BufTy).Contents (Elt F) → (⟨S1x128, .f32⟩ : BufTy).Contents (Elt F)),
    reshape main_v154 main_v155 rfl shapeCasts_S1x128_S128,
    unary main_v155 main_v156 (broadcastInDim S1x128 ![1] bcast_S128_S1x128_1 : (⟨S128, .f32⟩ : BufTy).Contents (Elt F) → (⟨S1x128, .f32⟩ : BufTy).Contents (Elt F)),
    unary main_v156 main_v157 (broadcastInDim S50000x128 ![0, 1] bcast_S1x128_S50000x128_0_1 : (⟨S1x128, .f32⟩ : BufTy).Contents (Elt F) → (⟨S50000x128, .f32⟩ : BufTy).Contents (Elt F)),
    binary main_v153 main_v157 main_v158 (addf : (⟨S50000x128, .f32⟩ : BufTy).Contents (Elt F) → (⟨S50000x128, .f32⟩ : BufTy).Contents (Elt F) → (⟨S50000x128, .f32⟩ : BufTy).Contents (Elt F)) ]

/-- Layer 1, relation 1. -/
abbrev l1r1 : List (HloOp τ sig (Elt F)) :=
  [ unary main_arg1 main_v159 ((extractStridedSlice S1x1x640000 ![1, 0, 0] · slices_S3x2x640000_S1x1x640000_1_0_0) : (⟨S3x2x640000, .i32⟩ : BufTy).Contents (Elt F) → (⟨S1x1x640000, .i32⟩ : BufTy).Contents (Elt F)),
    reshape main_v159 main_v160 rfl shapeCasts_S1x1x640000_S640000,
    unary main_arg1 main_v161 ((extractStridedSlice S1x1x640000 ![1, 1, 0] · slices_S3x2x640000_S1x1x640000_1_1_0) : (⟨S3x2x640000, .i32⟩ : BufTy).Contents (Elt F) → (⟨S1x1x640000, .i32⟩ : BufTy).Contents (Elt F)),
    reshape main_v161 main_v162 rfl shapeCasts_S1x1x640000_S640000,
    nullary main_c_24 (constantI S_ 32 0#32),
    unary main_c_24 main_v163 (broadcastInDim S640000 ![] bcast_S_S640000 : (⟨S_, .i32⟩ : BufTy).Contents (Elt F) → (⟨S640000, .i32⟩ : BufTy).Contents (Elt F)),
    binary main_v160 main_v163 main_v164 (cmpi .slt : (⟨S640000, .i32⟩ : BufTy).Contents (Elt F) → (⟨S640000, .i32⟩ : BufTy).Contents (Elt F) → (⟨S640000, .i1⟩ : BufTy).Contents (Elt F)),
    nullary main_c_25 (constantI S_ 32 50000#32),
    unary main_c_25 main_v165 (broadcastInDim S640000 ![] bcast_S_S640000 : (⟨S_, .i32⟩ : BufTy).Contents (Elt F) → (⟨S640000, .i32⟩ : BufTy).Contents (Elt F)),
    binary main_v160 main_v165 main_v166 (addi : (⟨S640000, .i32⟩ : BufTy).Contents (Elt F) → (⟨S640000, .i32⟩ : BufTy).Contents (Elt F) → (⟨S640000, .i32⟩ : BufTy).Contents (Elt F)),
    ternary main_v164 main_v166 main_v160 main_v167 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v167 main_v168 (broadcastInDim S640000x1 ![0] bcast_S640000_S640000x1_0 : (⟨S640000, .i32⟩ : BufTy).Contents (Elt F) → (⟨S640000x1, .i32⟩ : BufTy).Contents (Elt F)),
    binary main_v115 main_v168 main_v169 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst_26 (constant S_ .f32 0x00000000#32),
    unary main_cst_26 main_v170 (broadcastInDim S50000x128 ![] bcast_S_S50000x128 : (⟨S_, .f32⟩ : BufTy).Contents (Elt F) → (⟨S50000x128, .f32⟩ : BufTy).Contents (Elt F)),
    unary main_v162 main_v171 (broadcastInDim S640000x1 ![0] bcast_S640000_S640000x1_0 : (⟨S640000, .i32⟩ : BufTy).Contents (Elt F) → (⟨S640000x1, .i32⟩ : BufTy).Contents (Elt F)),
    ternary main_v170 main_v171 main_v169 main_v172 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    nullary main_cst_27 (constant S_ .f32 0x3F800000#32),
    unary main_cst_27 main_v173 (broadcastInDim S640000 ![] bcast_S_S640000 : (⟨S_, .f32⟩ : BufTy).Contents (Elt F) → (⟨S640000, .f32⟩ : BufTy).Contents (Elt F)),
    nullary main_cst_28 (constant S_ .f32 0x00000000#32),
    unary main_cst_28 main_v174 (broadcastInDim S50000 ![] bcast_S_S50000 : (⟨S_, .f32⟩ : BufTy).Contents (Elt F) → (⟨S50000, .f32⟩ : BufTy).Contents (Elt F)),
    unary main_v162 main_v175 (broadcastInDim S640000x1 ![0] bcast_S640000_S640000x1_0 : (⟨S640000, .i32⟩ : BufTy).Contents (Elt F) → (⟨S640000x1, .i32⟩ : BufTy).Contents (Elt F)),
    ternary main_v174 main_v175 main_v173 main_v176 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    nullary main_cst_29 (constant S_ .f32 0x3F800000#32),
    unary main_cst_29 main_v177 (broadcastInDim S50000 ![] bcast_S_S50000 : (⟨S_, .f32⟩ : BufTy).Contents (Elt F) → (⟨S50000, .f32⟩ : BufTy).Contents (Elt F)),
    binary main_v176 main_v177 main_v178 (maximumf : (⟨S50000, .f32⟩ : BufTy).Contents (Elt F) → (⟨S50000, .f32⟩ : BufTy).Contents (Elt F) → (⟨S50000, .f32⟩ : BufTy).Contents (Elt F)),
    unary main_v178 main_v179 (broadcastInDim S50000x1 ![0] bcast_S50000_S50000x1_0 : (⟨S50000, .f32⟩ : BufTy).Contents (Elt F) → (⟨S50000x1, .f32⟩ : BufTy).Contents (Elt F)),
    unary main_v179 main_v180 (broadcastInDim S50000x128 ![0, 1] bcast_S50000x1_S50000x128_0_1 : (⟨S50000x1, .f32⟩ : BufTy).Contents (Elt F) → (⟨S50000x128, .f32⟩ : BufTy).Contents (Elt F)),
    binary main_v172 main_v180 main_v181 (Host.divf : (⟨S50000x128, .f32⟩ : BufTy).Contents (Elt F) → (⟨S50000x128, .f32⟩ : BufTy).Contents (Elt F) → (⟨S50000x128, .f32⟩ : BufTy).Contents (Elt F)),
    unary main_v117 main_v182 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v182 main_v183 rfl shapeCasts_S1x128x128_S128x128,
    binary main_v181 main_v183 main_v184 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v158 main_v184 main_v185 (addf : (⟨S50000x128, .f32⟩ : BufTy).Contents (Elt F) → (⟨S50000x128, .f32⟩ : BufTy).Contents (Elt F) → (⟨S50000x128, .f32⟩ : BufTy).Contents (Elt F)),
    unary main_v119 main_v186 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v186 main_v187 rfl shapeCasts_S1x128x128_S128x128,
    binary main_v115 main_v187 main_v188 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v185 main_v188 main_v189 (addf : (⟨S50000x128, .f32⟩ : BufTy).Contents (Elt F) → (⟨S50000x128, .f32⟩ : BufTy).Contents (Elt F) → (⟨S50000x128, .f32⟩ : BufTy).Contents (Elt F)),
    unary main_v121 main_v190 ((extractStridedSlice S1x128 ![1, 0] · slices_S3x128_S1x128_1_0) : (⟨S3x128, .f32⟩ : BufTy).Contents (Elt F) → (⟨S1x128, .f32⟩ : BufTy).Contents (Elt F)),
    reshape main_v190 main_v191 rfl shapeCasts_S1x128_S128,
    unary main_v191 main_v192 (broadcastInDim S1x128 ![1] bcast_S128_S1x128_1 : (⟨S128, .f32⟩ : BufTy).Contents (Elt F) → (⟨S1x128, .f32⟩ : BufTy).Contents (Elt F)),
    unary main_v192 main_v193 (broadcastInDim S50000x128 ![0, 1] bcast_S1x128_S50000x128_0_1 : (⟨S1x128, .f32⟩ : BufTy).Contents (Elt F) → (⟨S50000x128, .f32⟩ : BufTy).Contents (Elt F)),
    binary main_v189 main_v193 main_v194 (addf : (⟨S50000x128, .f32⟩ : BufTy).Contents (Elt F) → (⟨S50000x128, .f32⟩ : BufTy).Contents (Elt F) → (⟨S50000x128, .f32⟩ : BufTy).Contents (Elt F)) ]

/-- Layer 1, relation 2. -/
abbrev l1r2 : List (HloOp τ sig (Elt F)) :=
  [ unary main_arg1 main_v195 ((extractStridedSlice S1x1x640000 ![2, 0, 0] · slices_S3x2x640000_S1x1x640000_2_0_0) : (⟨S3x2x640000, .i32⟩ : BufTy).Contents (Elt F) → (⟨S1x1x640000, .i32⟩ : BufTy).Contents (Elt F)),
    reshape main_v195 main_v196 rfl shapeCasts_S1x1x640000_S640000,
    unary main_arg1 main_v197 ((extractStridedSlice S1x1x640000 ![2, 1, 0] · slices_S3x2x640000_S1x1x640000_2_1_0) : (⟨S3x2x640000, .i32⟩ : BufTy).Contents (Elt F) → (⟨S1x1x640000, .i32⟩ : BufTy).Contents (Elt F)),
    reshape main_v197 main_v198 rfl shapeCasts_S1x1x640000_S640000,
    nullary main_c_30 (constantI S_ 32 0#32),
    unary main_c_30 main_v199 (broadcastInDim S640000 ![] bcast_S_S640000 : (⟨S_, .i32⟩ : BufTy).Contents (Elt F) → (⟨S640000, .i32⟩ : BufTy).Contents (Elt F)),
    binary main_v196 main_v199 main_v200 (cmpi .slt : (⟨S640000, .i32⟩ : BufTy).Contents (Elt F) → (⟨S640000, .i32⟩ : BufTy).Contents (Elt F) → (⟨S640000, .i1⟩ : BufTy).Contents (Elt F)),
    nullary main_c_31 (constantI S_ 32 50000#32),
    unary main_c_31 main_v201 (broadcastInDim S640000 ![] bcast_S_S640000 : (⟨S_, .i32⟩ : BufTy).Contents (Elt F) → (⟨S640000, .i32⟩ : BufTy).Contents (Elt F)),
    binary main_v196 main_v201 main_v202 (addi : (⟨S640000, .i32⟩ : BufTy).Contents (Elt F) → (⟨S640000, .i32⟩ : BufTy).Contents (Elt F) → (⟨S640000, .i32⟩ : BufTy).Contents (Elt F)),
    ternary main_v200 main_v202 main_v196 main_v203 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v203 main_v204 (broadcastInDim S640000x1 ![0] bcast_S640000_S640000x1_0 : (⟨S640000, .i32⟩ : BufTy).Contents (Elt F) → (⟨S640000x1, .i32⟩ : BufTy).Contents (Elt F)),
    binary main_v115 main_v204 main_v205 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst_32 (constant S_ .f32 0x00000000#32),
    unary main_cst_32 main_v206 (broadcastInDim S50000x128 ![] bcast_S_S50000x128 : (⟨S_, .f32⟩ : BufTy).Contents (Elt F) → (⟨S50000x128, .f32⟩ : BufTy).Contents (Elt F)),
    unary main_v198 main_v207 (broadcastInDim S640000x1 ![0] bcast_S640000_S640000x1_0 : (⟨S640000, .i32⟩ : BufTy).Contents (Elt F) → (⟨S640000x1, .i32⟩ : BufTy).Contents (Elt F)),
    ternary main_v206 main_v207 main_v205 main_v208 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    nullary main_cst_33 (constant S_ .f32 0x3F800000#32),
    unary main_cst_33 main_v209 (broadcastInDim S640000 ![] bcast_S_S640000 : (⟨S_, .f32⟩ : BufTy).Contents (Elt F) → (⟨S640000, .f32⟩ : BufTy).Contents (Elt F)),
    nullary main_cst_34 (constant S_ .f32 0x00000000#32),
    unary main_cst_34 main_v210 (broadcastInDim S50000 ![] bcast_S_S50000 : (⟨S_, .f32⟩ : BufTy).Contents (Elt F) → (⟨S50000, .f32⟩ : BufTy).Contents (Elt F)),
    unary main_v198 main_v211 (broadcastInDim S640000x1 ![0] bcast_S640000_S640000x1_0 : (⟨S640000, .i32⟩ : BufTy).Contents (Elt F) → (⟨S640000x1, .i32⟩ : BufTy).Contents (Elt F)),
    ternary main_v210 main_v211 main_v209 main_v212 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    nullary main_cst_35 (constant S_ .f32 0x3F800000#32),
    unary main_cst_35 main_v213 (broadcastInDim S50000 ![] bcast_S_S50000 : (⟨S_, .f32⟩ : BufTy).Contents (Elt F) → (⟨S50000, .f32⟩ : BufTy).Contents (Elt F)),
    binary main_v212 main_v213 main_v214 (maximumf : (⟨S50000, .f32⟩ : BufTy).Contents (Elt F) → (⟨S50000, .f32⟩ : BufTy).Contents (Elt F) → (⟨S50000, .f32⟩ : BufTy).Contents (Elt F)),
    unary main_v214 main_v215 (broadcastInDim S50000x1 ![0] bcast_S50000_S50000x1_0 : (⟨S50000, .f32⟩ : BufTy).Contents (Elt F) → (⟨S50000x1, .f32⟩ : BufTy).Contents (Elt F)),
    unary main_v215 main_v216 (broadcastInDim S50000x128 ![0, 1] bcast_S50000x1_S50000x128_0_1 : (⟨S50000x1, .f32⟩ : BufTy).Contents (Elt F) → (⟨S50000x128, .f32⟩ : BufTy).Contents (Elt F)),
    binary main_v208 main_v216 main_v217 (Host.divf : (⟨S50000x128, .f32⟩ : BufTy).Contents (Elt F) → (⟨S50000x128, .f32⟩ : BufTy).Contents (Elt F) → (⟨S50000x128, .f32⟩ : BufTy).Contents (Elt F)),
    unary main_v117 main_v218 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v218 main_v219 rfl shapeCasts_S1x128x128_S128x128,
    binary main_v217 main_v219 main_v220 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v194 main_v220 main_v221 (addf : (⟨S50000x128, .f32⟩ : BufTy).Contents (Elt F) → (⟨S50000x128, .f32⟩ : BufTy).Contents (Elt F) → (⟨S50000x128, .f32⟩ : BufTy).Contents (Elt F)),
    unary main_v119 main_v222 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v222 main_v223 rfl shapeCasts_S1x128x128_S128x128,
    binary main_v115 main_v223 main_v224 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v221 main_v224 main_v225 (addf : (⟨S50000x128, .f32⟩ : BufTy).Contents (Elt F) → (⟨S50000x128, .f32⟩ : BufTy).Contents (Elt F) → (⟨S50000x128, .f32⟩ : BufTy).Contents (Elt F)),
    unary main_v121 main_v226 ((extractStridedSlice S1x128 ![2, 0] · slices_S3x128_S1x128_2_0) : (⟨S3x128, .f32⟩ : BufTy).Contents (Elt F) → (⟨S1x128, .f32⟩ : BufTy).Contents (Elt F)),
    reshape main_v226 main_v227 rfl shapeCasts_S1x128_S128,
    unary main_v227 main_v228 (broadcastInDim S1x128 ![1] bcast_S128_S1x128_1 : (⟨S128, .f32⟩ : BufTy).Contents (Elt F) → (⟨S1x128, .f32⟩ : BufTy).Contents (Elt F)),
    unary main_v228 main_v229 (broadcastInDim S50000x128 ![0, 1] bcast_S1x128_S50000x128_0_1 : (⟨S1x128, .f32⟩ : BufTy).Contents (Elt F) → (⟨S50000x128, .f32⟩ : BufTy).Contents (Elt F)),
    binary main_v225 main_v229 main_v230 (addf : (⟨S50000x128, .f32⟩ : BufTy).Contents (Elt F) → (⟨S50000x128, .f32⟩ : BufTy).Contents (Elt F) → (⟨S50000x128, .f32⟩ : BufTy).Contents (Elt F)) ]

/-- Layer 1's clamp at zero. -/
abbrev relu1 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v230) (TRef.of (T := ⟨S50000x128, .f32⟩) main_call1_v0) (TRef.of (T := ⟨S50000x128, .f32⟩) main_v231) maximumf ]

/-- The linear head. -/
abbrev headOps : List (HloOp τ sig (Elt F)) :=
  [ binary main_v231 main_arg5 main_v232 ((fun l r => Host.dotGeneral dot_S50000x128_S128x32_S50000x32_1_0_0_1_n_n none l r) : (⟨S50000x128, .f32⟩ : BufTy).Contents (Elt F) → (⟨S128x32, .f32⟩ : BufTy).Contents (Elt F) → (⟨S50000x32, .f32⟩ : BufTy).Contents (Elt F)),
    unary main_arg6 main_v233 (broadcastInDim S1x32 ![1] bcast_S32_S1x32_1 : (⟨S32, .f32⟩ : BufTy).Contents (Elt F) → (⟨S1x32, .f32⟩ : BufTy).Contents (Elt F)),
    unary main_v233 main_v234 (broadcastInDim S50000x32 ![0, 1] bcast_S1x32_S50000x32_0_1 : (⟨S1x32, .f32⟩ : BufTy).Contents (Elt F) → (⟨S50000x32, .f32⟩ : BufTy).Contents (Elt F)),
    binary main_v232 main_v234 main_v235 (addf : (⟨S50000x32, .f32⟩ : BufTy).Contents (Elt F) → (⟨S50000x32, .f32⟩ : BufTy).Contents (Elt F) → (⟨S50000x32, .f32⟩ : BufTy).Contents (Elt F)) ]

set_option maxHeartbeats 4000000 in
/-- The operations are the pieces in a row. -/
theorem ops_eq : (ops : List (HloOp τ sig (Elt F))) = pre0 ++ (l0r0 ++ (l0r1 ++ (l0r2 ++ (relu0 ++ (pre1 ++ (l1r0 ++ (l1r1 ++ (l1r2 ++ (relu1 ++ headOps))))))))) := by
  simp only [ops, win0, win1, win2, win3, win4, pre0, l0r0, l0r1, l0r2, relu0, pre1, l1r0, l1r1, l1r2, relu1, headOps, List.cons_append, List.nil_append]

end Cert.ReferenceIdeal.RefRun

end
-- ==== Proof.AggR.lean ====
/-
  The two quantities every layer of both programs forms from the edge list, as functions of the edge array `e`
  (three relations × (source row, target row) × 640000 edges, 32-bit words) and a node-feature matrix `h`:

  * `agg e r h`: for relation `r`, row `src` of `h` gathered for every edge (a negative source index counted from the
    end: `src + 50000`) and added up at the edge's target node, from a zero matrix — the neighbours' row sums;
  * `deg e r`: a one added up at every edge's target node, from a zero vector — the in-degree —, and `degc e r`, its
    maximum with one.

  Both are the programs' own host operations composed; nothing about them is used beyond `1 ≤ degc` and that `agg` keeps
  real entries real.
-/
import proofs.«181974_j41549513621817_2_alg».proof.Proof.Gen.ReferenceIdeal
import proofs.«181974_j41549513621817_2_alg».proof.Proof.Spec
import proofs.«181974_j41549513621817_2_alg».proof.Proof.LibFinite
import Idealize.ShloMosaic.Lib.ValueIdx

noncomputable section

namespace Cert.ReferenceIdeal.Agg

open Idealize.ShloMosaic Idealize.ShloMosaic.ValueIdx Cert.ReferenceIdeal Cert.ReferenceIdeal.Gen

/-- The edge array's type: 32-bit words over `[3, 2, 640000]`. -/
abbrev Edges : Type := (⟨S3x2x640000, .i32⟩ : BufTy).Contents (Elt Ideal)
/-- A vector of 640000 edge words. -/
abbrev EdgeVec : Type := (⟨S640000, .i32⟩ : BufTy).Contents (Elt Ideal)

/-- The source rows of relation 0, 1, 2. -/
def src0 (e : Edges) : EdgeVec := shapeCast S640000 (extractStridedSlice S1x1x640000 ![0, 0, 0] e slices_S3x2x640000_S1x1x640000_0_0_0) shapeCasts_S1x1x640000_S640000
def src1 (e : Edges) : EdgeVec := shapeCast S640000 (extractStridedSlice S1x1x640000 ![1, 0, 0] e slices_S3x2x640000_S1x1x640000_1_0_0) shapeCasts_S1x1x640000_S640000
def src2 (e : Edges) : EdgeVec := shapeCast S640000 (extractStridedSlice S1x1x640000 ![2, 0, 0] e slices_S3x2x640000_S1x1x640000_2_0_0) shapeCasts_S1x1x640000_S640000
/-- The target rows of relation 0, 1, 2. -/
def dst0 (e : Edges) : EdgeVec := shapeCast S640000 (extractStridedSlice S1x1x640000 ![0, 1, 0] e slices_S3x2x640000_S1x1x640000_0_1_0) shapeCasts_S1x1x640000_S640000
def dst1 (e : Edges) : EdgeVec := shapeCast S640000 (extractStridedSlice S1x1x640000 ![1, 1, 0] e slices_S3x2x640000_S1x1x640000_1_1_0) shapeCasts_S1x1x640000_S640000
def dst2 (e : Edges) : EdgeVec := shapeCast S640000 (extractStridedSlice S1x1x640000 ![2, 1, 0] e slices_S3x2x640000_S1x1x640000_2_1_0) shapeCasts_S1x1x640000_S640000

/-- A negative index counted from the end: `s + 50000` where `s < 0`, else `s`. -/
def wrap (s : EdgeVec) : EdgeVec :=
  select (cmpi .slt s (broadcastInDim S640000 ![] bcast_S_S640000 (constantI S_ 32 0#32)))
    (addi s (broadcastInDim S640000 ![] bcast_S_S640000 (constantI S_ 32 50000#32))) s

/-- Rows of `h` gathered by the source words `s` and added up at the target words `d`, from zero. -/
def rowSums (s d : EdgeVec) (h : FVec Ideal S50000x128 .f32) : FVec Ideal S50000x128 .f32 :=
  Host.scatterAdd scatter_S50000x128_S640000x1_S640000x128_1_0_0_1
    (broadcastInDim S50000x128 ![] bcast_S_S50000x128 (constant (F := Ideal) S_ .f32 0x00000000#32))
    (broadcastInDim S640000x1 ![0] bcast_S640000_S640000x1_0 d)
    (Host.gather gather_S50000x128_S640000x1_S640000x128_1_0_n_n_0_1_1128 h
      (broadcastInDim S640000x1 ![0] bcast_S640000_S640000x1_0 (wrap s)))

/-- A one added up at every target word, from zero: the in-degree. -/
def degOf (d : EdgeVec) : FVec Ideal S50000 .f32 :=
  Host.scatterAdd scatter_S50000_S640000x1_S640000_n_0_0_1
    (broadcastInDim S50000 ![] bcast_S_S50000 (constant (F := Ideal) S_ .f32 0x00000000#32))
    (broadcastInDim S640000x1 ![0] bcast_S640000_S640000x1_0 d)
    (broadcastInDim S640000 ![] bcast_S_S640000 (constant (F := Ideal) S_ .f32 0x3F800000#32))

/-- The in-degree clamped below at one. -/
def degcOf (d : EdgeVec) : FVec Ideal S50000 .f32 :=
  maximumf (degOf d) (broadcastInDim S50000 ![] bcast_S_S50000 (constant (F := Ideal) S_ .f32 0x3F800000#32))

/-- Relation `r`'s neighbour row sums of `h`. -/
def agg (e : Edges) : Fin 3 → Spec.Mat 50000 128 → Spec.Mat 50000 128 :=
  ![rowSums (src0 e) (dst0 e), rowSums (src1 e) (dst1 e), rowSums (src2 e) (dst2 e)]
/-- Relation `r`'s clamped in-degree. -/
def degc (e : Edges) : Fin 3 → Spec.Vc 50000 :=
  ![degcOf (dst0 e), degcOf (dst1 e), degcOf (dst2 e)]

end Cert.ReferenceIdeal.Agg

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.RefValue1.lean ====
/-
  One graph-network layer of the reference, and its linear head, as the operations spell them on whole arrays, read
  entry by entry.

  The reference adds, relation by relation and onto the zero matrix, the neighbours' mean times `Wn r`, the node's own
  row times `Wr r`, and the bias row; the mean is the row sums divided by the degree laid as a column and repeated along
  the features. Entry (n, j) of one such step is
  `((acc (n, j) + ∑ k, (A (n, k) / D n) · Wn (k, j)) + ∑ k, h (n, k) · Wr (k, j)) + b j`, the step of `Spec.refStep`;
  three steps from zero and the maximum with zero are `Spec.refLayer`; a product with the head's matrix plus the head's
  bias row is `Spec.head`. Everything here is over arbitrary arrays: nothing about the aggregation or the degree is used.
-/
import proofs.«181974_j41549513621817_2_alg».proof.Proof.Gen.ReferenceIdeal
import proofs.«181974_j41549513621817_2_alg».proof.Proof.Spec
import proofs.«181974_j41549513621817_2_alg».proof.Proof.LibHostDot
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen

/-- The matrix of zeros both the accumulator and the clamp start from. -/
def zeros : FVec Ideal S50000x128 .f32 :=
  broadcastInDim S50000x128 ![] bcast_S_S50000x128 (constant (F := Ideal) S_ .f32 0x00000000#32)

theorem zeros_apply (i : S50000x128.Idx) : zeros i = (0 : EReal) := by
  unfold zeros
  rw [broadcastInDim_scalar_apply, constant_apply, Ideal.ofBits_zero_f32]

/-- A product with a 128 × 128 matrix on the right, entry by entry. -/
theorem dot128_apply (y0 : FVec Ideal S50000x128 .f32) (y1 : FVec Ideal S128x128 .f32)
    (n : Fin 50000) (j : Fin 128) :
    Host.dotGeneral (F := Ideal) dot_S50000x128_S128x128_S50000x128_1_0_0_1_n_n none y0 y1 (ix2 n j)
      = ∑ k : Fin 128, y0 (ix2 n k) * y1 (ix2 k j) := by
  have hd : dot_S50000x128_S128x128_S50000x128_1_0_0_1_n_n = DotDims.plain 50000 128 128 := rfl
  rw [hd]
  exact Cert.HostDot.dotGeneral_plain_apply none y0 y1 n j

/-- A product with a 128 × 32 matrix on the right, entry by entry. -/
theorem dot32_apply (y0 : FVec Ideal S50000x128 .f32) (y1 : FVec Ideal S128x32 .f32)
    (n : Fin 50000) (j : Fin 32) :
    Host.dotGeneral (F := Ideal) dot_S50000x128_S128x32_S50000x32_1_0_0_1_n_n none y0 y1 (ix2 n j)
      = ∑ k : Fin 128, y0 (ix2 n k) * y1 (ix2 k j) := by
  have hd : dot_S50000x128_S128x32_S50000x32_1_0_0_1_n_n = DotDims.plain 50000 128 32 := rfl
  rw [hd]
  exact Cert.HostDot.dotGeneral_plain_apply none y0 y1 n j

/-- A vector over the nodes laid as a column and repeated along the features: entry (n, k) is the vector's entry n. -/
theorem nodeCol_apply (v : FVec Ideal S50000 .f32) (n : Fin 50000) (k : Fin 128) :
    broadcastInDim S50000x128 ![0, 1] bcast_S50000x1_S50000x128_0_1
        (broadcastInDim S50000x1 ![0] bcast_S50000_S50000x1_0 v) (ix2 n k) = v (ix1 n) := by
  refine (broadcastInDim_apply _ bcast_S50000x1_S50000x128_0_1 _ (ix2 n k) (ix2 n (0 : Fin 1)) fun ax => ?_).trans ?_
  · match ax with
    | ⟨0, _⟩ => rfl
    | ⟨1, _⟩ => rfl
  · refine broadcastInDim_apply _ bcast_S50000_S50000x1_0 v (ix2 n (0 : Fin 1)) (ix1 n) fun ax => ?_
    match ax with
    | ⟨0, _⟩ => rfl

/-- A vector over 128 features laid as a row and repeated down the nodes: entry (n, j) is the vector's entry j. -/
theorem featRow_apply (v : FVec Ideal S128 .f32) (n : Fin 50000) (j : Fin 128) :
    broadcastInDim S50000x128 ![0, 1] bcast_S1x128_S50000x128_0_1
        (broadcastInDim S1x128 ![1] bcast_S128_S1x128_1 v) (ix2 n j) = v (ix1 j) := by
  refine (broadcastInDim_apply _ bcast_S1x128_S50000x128_0_1 _ (ix2 n j) (ix2 (0 : Fin 1) j) fun ax => ?_).trans ?_
  · match ax with
    | ⟨0, _⟩ => rfl
    | ⟨1, _⟩ => rfl
  · refine broadcastInDim_apply _ bcast_S128_S1x128_1 v (ix2 (0 : Fin 1) j) (ix1 j) fun ax => ?_
    match ax with
    | ⟨0, _⟩ => rfl

/-- The same for a vector over 32 features. -/
theorem outRow_apply (v : FVec Ideal S32 .f32) (n : Fin 50000) (j : Fin 32) :
    broadcastInDim S50000x32 ![0, 1] bcast_S1x32_S50000x32_0_1
        (broadcastInDim S1x32 ![1] bcast_S32_S1x32_1 v) (ix2 n j) = v (ix1 j) := by
  refine (broadcastInDim_apply _ bcast_S1x32_S50000x32_0_1 _ (ix2 n j) (ix2 (0 : Fin 1) j) fun ax => ?_).trans ?_
  · match ax with
    | ⟨0, _⟩ => rfl
    | ⟨1, _⟩ => rfl
  · refine broadcastInDim_apply _ bcast_S32_S1x32_1 v (ix2 (0 : Fin 1) j) (ix1 j) fun ax => ?_
    match ax with
    | ⟨0, _⟩ => rfl

/-- One relation's contribution added onto an accumulator, as the operations spell it on whole arrays: the row sums
    `A` divided by the degree column, times `Wn`; then `h` times `Wr`; then the bias row. -/
def stepArr (acc A : FVec Ideal S50000x128 .f32) (Dv : FVec Ideal S50000 .f32)
    (Wn Wr : FVec Ideal S128x128 .f32) (b : FVec Ideal S128 .f32)
    (h : FVec Ideal S50000x128 .f32) : FVec Ideal S50000x128 .f32 :=
  addf (addf (addf acc
        (Host.dotGeneral dot_S50000x128_S128x128_S50000x128_1_0_0_1_n_n none
          (Host.divf A (broadcastInDim S50000x128 ![0, 1] bcast_S50000x1_S50000x128_0_1
            (broadcastInDim S50000x1 ![0] bcast_S50000_S50000x1_0 Dv))) Wn))
      (Host.dotGeneral dot_S50000x128_S128x128_S50000x128_1_0_0_1_n_n none h Wr))
    (broadcastInDim S50000x128 ![0, 1] bcast_S1x128_S50000x128_0_1 (broadcastInDim S1x128 ![1] bcast_S128_S1x128_1 b))

theorem stepArr_apply (acc A : FVec Ideal S50000x128 .f32) (Dv : FVec Ideal S50000 .f32)
    (Wn Wr : FVec Ideal S128x128 .f32) (b : FVec Ideal S128 .f32)
    (h : FVec Ideal S50000x128 .f32) (n : Fin 50000) (j : Fin 128) :
    stepArr acc A Dv Wn Wr b h (ix2 n j)
      = ((acc (ix2 n j) + ∑ k : Fin 128, Ideal.div (A (ix2 n k)) (Dv (ix1 n)) * Wn (ix2 k j))
          + ∑ k : Fin 128, h (ix2 n k) * Wr (ix2 k j)) + b (ix1 j) := by
  unfold stepArr
  rw [addf_apply, addf_apply, addf_apply, dot128_apply, dot128_apply, featRow_apply]
  refine congrArg (fun s => ((acc (ix2 n j) + s) + ∑ k : Fin 128, h (ix2 n k) * Wr (ix2 k j)) + b (ix1 j)) ?_
  refine Finset.sum_congr rfl fun k _ => ?_
  rw [hostDivf_apply, nodeCol_apply]

/-- A layer as the operations spell it on whole arrays: three relations onto the zero matrix, clamped at zero. -/
def layerArr (A : Fin 3 → Spec.Mat 50000 128 → Spec.Mat 50000 128) (D : Fin 3 → Spec.Vc 50000)
    (Wn Wr : Fin 3 → Spec.Mat 128 128) (b : Fin 3 → Spec.Vc 128) (h : Spec.Mat 50000 128) : Spec.Mat 50000 128 :=
  maximumf (F := Ideal) (φ := .f32)
    (stepArr (stepArr (stepArr zeros (A 0 h) (D 0) (Wn 0) (Wr 0) (b 0) h) (A 1 h) (D 1) (Wn 1) (Wr 1) (b 1) h)
      (A 2 h) (D 2) (Wn 2) (Wr 2) (b 2) h) zeros

theorem layerArr_eq (A : Fin 3 → Spec.Mat 50000 128 → Spec.Mat 50000 128) (D : Fin 3 → Spec.Vc 50000)
    (Wn Wr : Fin 3 → Spec.Mat 128 128) (b : Fin 3 → Spec.Vc 128) (h : Spec.Mat 50000 128) :
    layerArr A D Wn Wr b h = Spec.refLayer A D Wn Wr b h := by
  funext i
  obtain ⟨n, j, rfl⟩ : ∃ (n : Fin 50000) (j : Fin 128), i = ix2 n j := ⟨i 0, i 1, eq_ix2 i⟩
  unfold layerArr
  rw [maximumf_apply, stepArr_apply, stepArr_apply, stepArr_apply, zeros_apply]
  rfl

/-- The linear head as the operations spell it on whole arrays. -/
def headArr (linW : FVec Ideal S128x32 .f32) (linb : FVec Ideal S32 .f32)
    (h : FVec Ideal S50000x128 .f32) : FVec Ideal S50000x32 .f32 :=
  addf (Host.dotGeneral dot_S50000x128_S128x32_S50000x32_1_0_0_1_n_n none h linW)
    (broadcastInDim S50000x32 ![0, 1] bcast_S1x32_S50000x32_0_1 (broadcastInDim S1x32 ![1] bcast_S32_S1x32_1 linb))

theorem headArr_eq (linW : FVec Ideal S128x32 .f32) (linb : FVec Ideal S32 .f32)
    (h : FVec Ideal S50000x128 .f32) :
    headArr linW linb h = Spec.head linW linb h := by
  funext i
  obtain ⟨n, j, rfl⟩ : ∃ (n : Fin 50000) (j : Fin 32), i = ix2 n j := ⟨i 0, i 1, eq_ix2 i⟩
  unfold headArr
  rw [addf_apply, dot32_apply, outRow_apply]
  rfl

end Cert.ReferenceIdeal.RefValue

end
-- ==== Proof.RefValue2.lean ====
/-
  The weight and bias stacks cut as the reference cuts them: first the layer's part of a stack `[2, 3, …]`, laid as
  `[3, …]`; then a relation's part of that, laid as a matrix `[128, 128]` or a vector `[128]`. Cutting layer `l` and
  then relation `r` reads entry `(l, r, k, j)` of the stack of matrices, entry `(l, r, j)` of the stack of vectors:
  `Spec.sliceW` and `Spec.sliceB`.
-/
import proofs.«181974_j41549513621817_2_alg».proof.Proof.Gen.ReferenceIdeal
import proofs.«181974_j41549513621817_2_alg».proof.Proof.Spec
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Gen

/-- The part of a stack of matrices `[2, 3, 128, 128]` at layer offset `lo`, laid as `[3, 128, 128]`. -/
def cutL (lo : ℕ) (h : S2x3x128x128.Slices ![lo, 0, 0, 0] S1x3x128x128) (W : FVec Ideal S2x3x128x128 .f32) :
    FVec Ideal S3x128x128 .f32 :=
  shapeCast S3x128x128 (extractStridedSlice S1x3x128x128 ![lo, 0, 0, 0] W h) shapeCasts_S1x3x128x128_S3x128x128

/-- The part of a stack `[3, 128, 128]` at relation offset `ro`, laid as a matrix. -/
def cutW (ro : ℕ) (h : S3x128x128.Slices ![ro, 0, 0] S1x128x128) (St : FVec Ideal S3x128x128 .f32) :
    FVec Ideal S128x128 .f32 :=
  shapeCast S128x128 (extractStridedSlice S1x128x128 ![ro, 0, 0] St h) shapeCasts_S1x128x128_S128x128

/-- The part of a stack of vectors `[2, 3, 128]` at layer offset `lo`, laid as `[3, 128]`. -/
def cutLB (lo : ℕ) (h : S2x3x128.Slices ![lo, 0, 0] S1x3x128) (B : FVec Ideal S2x3x128 .f32) : FVec Ideal S3x128 .f32 :=
  shapeCast S3x128 (extractStridedSlice S1x3x128 ![lo, 0, 0] B h) shapeCasts_S1x3x128_S3x128

/-- The part of a stack `[3, 128]` at relation offset `ro`, laid as a vector. -/
def cutB (ro : ℕ) (h : S3x128.Slices ![ro, 0] S1x128) (St : FVec Ideal S3x128 .f32) : FVec Ideal S128 .f32 :=
  shapeCast S128 (extractStridedSlice S1x128 ![ro, 0] St h) shapeCasts_S1x128_S128

/-- Layer `l`, then relation `r`, of the stack of matrices. -/
theorem cutW_cutL (W : FVec Ideal S2x3x128x128 .f32) (lo ro : ℕ) (l : Fin 2) (r : Fin 3) (hl : l.val = lo) (hr : r.val = ro)
    (h1 : S2x3x128x128.Slices ![lo, 0, 0, 0] S1x3x128x128) (h3 : S3x128x128.Slices ![ro, 0, 0] S1x128x128) :
    cutW ro h3 (cutL lo h1 W) = Spec.sliceW W l r := by
  subst hl hr
  funext i
  obtain ⟨k, j, rfl⟩ : ∃ (k : Fin 128) (j : Fin 128), i = ix2 k j := ⟨i 0, i 1, eq_ix2 i⟩
  unfold cutW cutL
  refine (shapeCast_apply _ shapeCasts_S1x128x128_S128x128 (ix2 k j) (ix3 (0 : Fin 1) k j) ?_).trans ?_
  · rw [Shape.rowMajor_val_three, Shape.rowMajor_val_two]
    show ((0 : ℕ) * 128 + k.val) * 128 + j.val = k.val * 128 + j.val
    omega
  refine (extractStridedSlice_apply ![r.val, 0, 0] _ h3 (ix3 (0 : Fin 1) k j) (ix3 r k j) fun a => ?_).trans ?_
  · match a with
    | ⟨0, _⟩ => show r.val = r.val + 0; omega
    | ⟨1, _⟩ => show k.val = 0 + k.val; omega
    | ⟨2, _⟩ => show j.val = 0 + j.val; omega
  refine (shapeCast_apply _ shapeCasts_S1x3x128x128_S3x128x128 (ix3 r k j) (ix4 (0 : Fin 1) r k j) ?_).trans ?_
  · rw [Shape.rowMajor_val_four, Shape.rowMajor_val_three]
    show (((0 : ℕ) * 3 + r.val) * 128 + k.val) * 128 + j.val = (r.val * 128 + k.val) * 128 + j.val
    omega
  refine (extractStridedSlice_apply ![l.val, 0, 0, 0] W h1 (ix4 (0 : Fin 1) r k j) (ix4 l r k j) fun a => ?_).trans ?_
  · match a with
    | ⟨0, _⟩ => show l.val = l.val + 0; omega
    | ⟨1, _⟩ => show r.val = 0 + r.val; omega
    | ⟨2, _⟩ => show k.val = 0 + k.val; omega
    | ⟨3, _⟩ => show j.val = 0 + j.val; omega
  rfl

/-- Layer `l`, then relation `r`, of the stack of vectors. -/
theorem cutB_cutLB (B : FVec Ideal S2x3x128 .f32) (lo ro : ℕ) (l : Fin 2) (r : Fin 3) (hl : l.val = lo) (hr : r.val = ro)
    (h1 : S2x3x128.Slices ![lo, 0, 0] S1x3x128) (h3 : S3x128.Slices ![ro, 0] S1x128) :
    cutB ro h3 (cutLB lo h1 B) = Spec.sliceB B l r := by
  subst hl hr
  funext i
  obtain ⟨j, rfl⟩ : ∃ (j : Fin 128), i = ix1 j := ⟨i 0, eq_ix1 i⟩
  unfold cutB cutLB
  refine (shapeCast_apply _ shapeCasts_S1x128_S128 (ix1 j) (ix2 (0 : Fin 1) j) ?_).trans ?_
  · rw [Shape.rowMajor_val_two, Shape.rowMajor_val_one]
    show (0 : ℕ) * 128 + j.val = j.val
    omega
  refine (extractStridedSlice_apply ![r.val, 0] _ h3 (ix2 (0 : Fin 1) j) (ix2 r j) fun a => ?_).trans ?_
  · match a with
    | ⟨0, _⟩ => show r.val = r.val + 0; omega
    | ⟨1, _⟩ => show j.val = 0 + j.val; omega
  refine (shapeCast_apply _ shapeCasts_S1x3x128_S3x128 (ix2 r j) (ix3 (0 : Fin 1) r j) ?_).trans ?_
  · rw [Shape.rowMajor_val_three, Shape.rowMajor_val_two]
    show ((0 : ℕ) * 3 + r.val) * 128 + j.val = r.val * 128 + j.val
    omega
  refine (extractStridedSlice_apply ![l.val, 0, 0] B h1 (ix3 (0 : Fin 1) r j) (ix3 l r j) fun a => ?_).trans ?_
  · match a with
    | ⟨0, _⟩ => show l.val = l.val + 0; omega
    | ⟨1, _⟩ => show r.val = 0 + r.val; omega
    | ⟨2, _⟩ => show j.val = 0 + j.val; omega
  rfl

end Cert.ReferenceIdeal.RefValue

end
-- ==== Proof.RefValue3.lean ====
/-
  The reference's operations, piece by piece: what each piece leaves in the buffer the next one reads, as a function of
  what it found.

  A layer's first piece cuts the layer's part out of the three stacks and forms a zero matrix. Each relation's piece forms
  the relation's row sums and clamped degree from the edge array and the layer's input — by the very operations
  `Agg.rowSums` and `Agg.degcOf` name —, cuts the relation's matrices and bias out of the layer's stacks, and adds the
  relation's three terms onto the accumulator: one `stepArr`. The clamp takes the maximum with a zero matrix, and the head
  is `headArr`. A piece leaves every buffer it does not write as it found it.
-/
import proofs.«181974_j41549513621817_2_alg».proof.Proof.RefPieces
import proofs.«181974_j41549513621817_2_alg».proof.Proof.AggR
import proofs.«181974_j41549513621817_2_alg».proof.Proof.RefValue1
import proofs.«181974_j41549513621817_2_alg».proof.Proof.RefValue2
import proofs.«181974_j41549513621817_2_alg».proof.Proof.LibRunPieces

set_option maxRecDepth 16384

noncomputable section

namespace Cert.ReferenceIdeal.RefValue

open Cert.ReferenceIdeal Cert.ReferenceIdeal.Gen Cert.ReferenceIdeal.RefRun Idealize.ShloMosaic Idealize.ShloMosaic.TcCoe Idealize.SL.Sem
  Idealize.ShloMosaic.StableHlo Cert.Lib.RunPieces

/-! ## What each piece writes, and that it keeps the rest -/

/-- The references `pre0` writes. -/
abbrev pre0_W : List (Ref sig .tc) := [main_v0, main_v1, main_v2, main_v3, main_v4, main_v5, main_cst, main_v6]

theorem pre0_writes : (pre0 : List (HloOp τ sig (Elt Ideal))).Forall fun op => op.writes ⊆ (pre0_W.map (Proc.devRef (τ := τ) .tc)).toFinset := by
  simp only [pre0, List.Forall, nullary_writes, unary_writes, binary_writes, ternary_writes, reshape_writes, Finset.singleton_subset_iff, List.mem_toFinset]
  repeat' apply And.intro
  all_goals exact List.mem_map_of_mem (by decide)

/-- A reference `pre0` does not write keeps its contents. -/
theorem pre0_keeps (V : Valuation τ sig (Elt Ideal)) (r : Ref sig .tc) (h : r ∉ pre0_W) :
    after pre0 V (Proc.devRef .tc r) = V (Proc.devRef .tc r) :=
  after_of_writes_sub pre0 V pre0_writes h

/-- The references `l0r0` writes. -/
abbrev l0r0_W : List (Ref sig .tc) := [main_v7, main_v8, main_v9, main_v10, main_c, main_v11, main_v12, main_c_0, main_v13, main_v14, main_v15, main_v16, main_v17, main_cst_1, main_v18, main_v19, main_v20, main_cst_2, main_v21, main_cst_3, main_v22, main_v23, main_v24, main_cst_4, main_v25, main_v26, main_v27, main_v28, main_v29, main_v30, main_v31, main_v32, main_v33, main_v34, main_v35, main_v36, main_v37, main_v38, main_v39, main_v40, main_v41, main_v42]

theorem l0r0_writes : (l0r0 : List (HloOp τ sig (Elt Ideal))).Forall fun op => op.writes ⊆ (l0r0_W.map (Proc.devRef (τ := τ) .tc)).toFinset := by
  simp only [l0r0, List.Forall, nullary_writes, unary_writes, binary_writes, ternary_writes, reshape_writes, Finset.singleton_subset_iff, List.mem_toFinset]
  repeat' apply And.intro
  all_goals exact List.mem_map_of_mem (by decide)

/-- A reference `l0r0` does not write keeps its contents. -/
theorem l0r0_keeps (V : Valuation τ sig (Elt Ideal)) (r : Ref sig .tc) (h : r ∉ l0r0_W) :
    after l0r0 V (Proc.devRef .tc r) = V (Proc.devRef .tc r) :=
  after_of_writes_sub l0r0 V l0r0_writes h

/-- The references `l0r1` writes. -/
abbrev l0r1_W : List (Ref sig .tc) := [main_v43, main_v44, main_v45, main_v46, main_c_5, main_v47, main_v48, main_c_6, main_v49, main_v50, main_v51, main_v52, main_v53, main_cst_7, main_v54, main_v55, main_v56, main_cst_8, main_v57, main_cst_9, main_v58, main_v59, main_v60, main_cst_10, main_v61, main_v62, main_v63, main_v64, main_v65, main_v66, main_v67, main_v68, main_v69, main_v70, main_v71, main_v72, main_v73, main_v74, main_v75, main_v76, main_v77, main_v78]

theorem l0r1_writes : (l0r1 : List (HloOp τ sig (Elt Ideal))).Forall fun op => op.writes ⊆ (l0r1_W.map (Proc.devRef (τ := τ) .tc)).toFinset := by
  simp only [l0r1, List.Forall, nullary_writes, unary_writes, binary_writes, ternary_writes, reshape_writes, Finset.singleton_subset_iff, List.mem_toFinset]
  repeat' apply And.intro
  all_goals exact List.mem_map_of_mem (by decide)

/-- A reference `l0r1` does not write keeps its contents. -/
theorem l0r1_keeps (V : Valuation τ sig (Elt Ideal)) (r : Ref sig .tc) (h : r ∉ l0r1_W) :
    after l0r1 V (Proc.devRef .tc r) = V (Proc.devRef .tc r) :=
  after_of_writes_sub l0r1 V l0r1_writes h

/-- The references `l0r2` writes. -/
abbrev l0r2_W : List (Ref sig .tc) := [main_v79, main_v80, main_v81, main_v82, main_c_11, main_v83, main_v84, main_c_12, main_v85, main_v86, main_v87, main_v88, main_v89, main_cst_13, main_v90, main_v91, main_v92, main_cst_14, main_v93, main_cst_15, main_v94, main_v95, main_v96, main_cst_16, main_v97, main_v98, main_v99, main_v100, main_v101, main_v102, main_v103, main_v104, main_v105, main_v106, main_v107, main_v108, main_v109, main_v110, main_v111, main_v112, main_v113, main_v114]

theorem l0r2_writes : (l0r2 : List (HloOp τ sig (Elt Ideal))).Forall fun op => op.writes ⊆ (l0r2_W.map (Proc.devRef (τ := τ) .tc)).toFinset := by
  simp only [l0r2, List.Forall, nullary_writes, unary_writes, binary_writes, ternary_writes, reshape_writes, Finset.singleton_subset_iff, List.mem_toFinset]
  repeat' apply And.intro
  all_goals exact List.mem_map_of_mem (by decide)

/-- A reference `l0r2` does not write keeps its contents. -/
theorem l0r2_keeps (V : Valuation τ sig (Elt Ideal)) (r : Ref sig .tc) (h : r ∉ l0r2_W) :
    after l0r2 V (Proc.devRef .tc r) = V (Proc.devRef .tc r) :=
  after_of_writes_sub l0r2 V l0r2_writes h

/-- The references `relu0` writes. -/
abbrev relu0_W : List (Ref sig .tc) := [main_call0_cst, main_call0_v0, main_v115]

theorem relu0_writes : (relu0 : List (HloOp τ sig (Elt Ideal))).Forall fun op => op.writes ⊆ (relu0_W.map (Proc.devRef (τ := τ) .tc)).toFinset := by
  simp only [relu0, List.Forall, nullary_writes, unary_writes, binary_writes, ternary_writes, reshape_writes, Finset.singleton_subset_iff, List.mem_toFinset]
  repeat' apply And.intro
  all_goals exact List.mem_map_of_mem (by decide)

/-- A reference `relu0` does not write keeps its contents. -/
theorem relu0_keeps (V : Valuation τ sig (Elt Ideal)) (r : Ref sig .tc) (h : r ∉ relu0_W) :
    after relu0 V (Proc.devRef .tc r) = V (Proc.devRef .tc r) :=
  after_of_writes_sub relu0 V relu0_writes h

/-- The references `pre1` writes. -/
abbrev pre1_W : List (Ref sig .tc) := [main_v116, main_v117, main_v118, main_v119, main_v120, main_v121, main_cst_17, main_v122]

theorem pre1_writes : (pre1 : List (HloOp τ sig (Elt Ideal))).Forall fun op => op.writes ⊆ (pre1_W.map (Proc.devRef (τ := τ) .tc)).toFinset := by
  simp only [pre1, List.Forall, nullary_writes, unary_writes, binary_writes, ternary_writes, reshape_writes, Finset.singleton_subset_iff, List.mem_toFinset]
  repeat' apply And.intro
  all_goals exact List.mem_map_of_mem (by decide)

/-- A reference `pre1` does not write keeps its contents. -/
theorem pre1_keeps (V : Valuation τ sig (Elt Ideal)) (r : Ref sig .tc) (h : r ∉ pre1_W) :
    after pre1 V (Proc.devRef .tc r) = V (Proc.devRef .tc r) :=
  after_of_writes_sub pre1 V pre1_writes h

/-- The references `l1r0` writes. -/
abbrev l1r0_W : List (Ref sig .tc) := [main_v123, main_v124, main_v125, main_v126, main_c_18, main_v127, main_v128, main_c_19, main_v129, main_v130, main_v131, main_v132, main_v133, main_cst_20, main_v134, main_v135, main_v136, main_cst_21, main_v137, main_cst_22, main_v138, main_v139, main_v140, main_cst_23, main_v141, main_v142, main_v143, main_v144, main_v145, main_v146, main_v147, main_v148, main_v149, main_v150, main_v151, main_v152, main_v153, main_v154, main_v155, main_v156, main_v157, main_v158]

theorem l1r0_writes : (l1r0 : List (HloOp τ sig (Elt Ideal))).Forall fun op => op.writes ⊆ (l1r0_W.map (Proc.devRef (τ := τ) .tc)).toFinset := by
  simp only [l1r0, List.Forall, nullary_writes, unary_writes, binary_writes, ternary_writes, reshape_writes, Finset.singleton_subset_iff, List.mem_toFinset]
  repeat' apply And.intro
  all_goals exact List.mem_map_of_mem (by decide)

/-- A reference `l1r0` does not write keeps its contents. -/
theorem l1r0_keeps (V : Valuation τ sig (Elt Ideal)) (r : Ref sig .tc) (h : r ∉ l1r0_W) :
    after l1r0 V (Proc.devRef .tc r) = V (Proc.devRef .tc r) :=
  after_of_writes_sub l1r0 V l1r0_writes h

/-- The references `l1r1` writes. -/
abbrev l1r1_W : List (Ref sig .tc) := [main_v159, main_v160, main_v161, main_v162, main_c_24, main_v163, main_v164, main_c_25, main_v165, main_v166, main_v167, main_v168, main_v169, main_cst_26, main_v170, main_v171, main_v172, main_cst_27, main_v173, main_cst_28, main_v174, main_v175, main_v176, main_cst_29, main_v177, main_v178, main_v179, main_v180, main_v181, main_v182, main_v183, main_v184, main_v185, main_v186, main_v187, main_v188, main_v189, main_v190, main_v191, main_v192, main_v193, main_v194]

theorem l1r1_writes : (l1r1 : List (HloOp τ sig (Elt Ideal))).Forall fun op => op.writes ⊆ (l1r1_W.map (Proc.devRef (τ := τ) .tc)).toFinset := by
  simp only [l1r1, List.Forall, nullary_writes, unary_writes, binary_writes, ternary_writes, reshape_writes, Finset.singleton_subset_iff, List.mem_toFinset]
  repeat' apply And.intro
  all_goals exact List.mem_map_of_mem (by decide)

/-- A reference `l1r1` does not write keeps its contents. -/
theorem l1r1_keeps (V : Valuation τ sig (Elt Ideal)) (r : Ref sig .tc) (h : r ∉ l1r1_W) :
    after l1r1 V (Proc.devRef .tc r) = V (Proc.devRef .tc r) :=
  after_of_writes_sub l1r1 V l1r1_writes h

/-- The references `l1r2` writes. -/
abbrev l1r2_W : List (Ref sig .tc) := [main_v195, main_v196, main_v197, main_v198, main_c_30, main_v199, main_v200, main_c_31, main_v201, main_v202, main_v203, main_v204, main_v205, main_cst_32, main_v206, main_v207, main_v208, main_cst_33, main_v209, main_cst_34, main_v210, main_v211, main_v212, main_cst_35, main_v213, main_v214, main_v215, main_v216, main_v217, main_v218, main_v219, main_v220, main_v221, main_v222, main_v223, main_v224, main_v225, main_v226, main_v227, main_v228, main_v229, main_v230]

theorem l1r2_writes : (l1r2 : List (HloOp τ sig (Elt Ideal))).Forall fun op => op.writes ⊆ (l1r2_W.map (Proc.devRef (τ := τ) .tc)).toFinset := by
  simp only [l1r2, List.Forall, nullary_writes, unary_writes, binary_writes, ternary_writes, reshape_writes, Finset.singleton_subset_iff, List.mem_toFinset]
  repeat' apply And.intro
  all_goals exact List.mem_map_of_mem (by decide)

/-- A reference `l1r2` does not write keeps its contents. -/
theorem l1r2_keeps (V : Valuation τ sig (Elt Ideal)) (r : Ref sig .tc) (h : r ∉ l1r2_W) :
    after l1r2 V (Proc.devRef .tc r) = V (Proc.devRef .tc r) :=
  after_of_writes_sub l1r2 V l1r2_writes h

/-- The references `relu1` writes. -/
abbrev relu1_W : List (Ref sig .tc) := [main_call1_cst, main_call1_v0, main_v231]

theorem relu1_writes : (relu1 : List (HloOp τ sig (Elt Ideal))).Forall fun op => op.writes ⊆ (relu1_W.map (Proc.devRef (τ := τ) .tc)).toFinset := by
  simp only [relu1, List.Forall, nullary_writes, unary_writes, binary_writes, ternary_writes, reshape_writes, Finset.singleton_subset_iff, List.mem_toFinset]
  repeat' apply And.intro
  all_goals exact List.mem_map_of_mem (by decide)

/-- A reference `relu1` does not write keeps its contents. -/
theorem relu1_keeps (V : Valuation τ sig (Elt Ideal)) (r : Ref sig .tc) (h : r ∉ relu1_W) :
    after relu1 V (Proc.devRef .tc r) = V (Proc.devRef .tc r) :=
  after_of_writes_sub relu1 V relu1_writes h

/-- The references `headOps` writes. -/
abbrev headOps_W : List (Ref sig .tc) := [main_v232, main_v233, main_v234, main_v235]

theorem headOps_writes : (headOps : List (HloOp τ sig (Elt Ideal))).Forall fun op => op.writes ⊆ (headOps_W.map (Proc.devRef (τ := τ) .tc)).toFinset := by
  simp only [headOps, List.Forall, nullary_writes, unary_writes, binary_writes, ternary_writes, reshape_writes, Finset.singleton_subset_iff, List.mem_toFinset]
  repeat' apply And.intro
  all_goals exact List.mem_map_of_mem (by decide)

/-- A reference `headOps` does not write keeps its contents. -/
theorem headOps_keeps (V : Valuation τ sig (Elt Ideal)) (r : Ref sig .tc) (h : r ∉ headOps_W) :
    after headOps V (Proc.devRef .tc r) = V (Proc.devRef .tc r) :=
  after_of_writes_sub headOps V headOps_writes h

/-! ## What each piece computes -/

/-- Layer 0's stacks of matrices and of bias vectors, and its zero matrix. -/
theorem pre0_wn (V : Valuation τ sig (Elt Ideal)) :
    after pre0 V (Proc.devRef .tc main_v1) = cutL 0 slices_S2x3x128x128_S1x3x128x128_0_0_0_0 (V (Proc.devRef .tc main_arg2)) := by
  after_results_simp <;> rfl
theorem pre0_wr (V : Valuation τ sig (Elt Ideal)) :
    after pre0 V (Proc.devRef .tc main_v3) = cutL 0 slices_S2x3x128x128_S1x3x128x128_0_0_0_0 (V (Proc.devRef .tc main_arg3)) := by
  after_results_simp <;> rfl
theorem pre0_b (V : Valuation τ sig (Elt Ideal)) :
    after pre0 V (Proc.devRef .tc main_v5) = cutLB 0 slices_S2x3x128_S1x3x128_0_0_0 (V (Proc.devRef .tc main_arg4)) := by
  after_results_simp <;> rfl
theorem pre0_zero (V : Valuation τ sig (Elt Ideal)) :
    after pre0 V (Proc.devRef .tc main_v6) = zeros := by
  after_results_simp <;> rfl

/-- Layer 0, relation 0: the accumulator after the relation's operations is one step onto the accumulator before. -/
theorem l0r0_res (V : Valuation τ sig (Elt Ideal)) :
    after l0r0 V (Proc.devRef .tc main_v42)
      = stepArr (V (Proc.devRef .tc main_v6))
          (Agg.rowSums (Agg.src0 (V (Proc.devRef .tc main_arg1))) (Agg.dst0 (V (Proc.devRef .tc main_arg1))) (V (Proc.devRef .tc main_arg0)))
          (Agg.degcOf (Agg.dst0 (V (Proc.devRef .tc main_arg1))))
          (cutW 0 slices_S3x128x128_S1x128x128_0_0_0 (V (Proc.devRef .tc main_v1)))
          (cutW 0 slices_S3x128x128_S1x128x128_0_0_0 (V (Proc.devRef .tc main_v3)))
          (cutB 0 slices_S3x128_S1x128_0_0 (V (Proc.devRef .tc main_v5)))
          (V (Proc.devRef .tc main_arg0)) := by
  after_results_simp <;> rfl

/-- Layer 0, relation 1: the accumulator after the relation's operations is one step onto the accumulator before. -/
theorem l0r1_res (V : Valuation τ sig (Elt Ideal)) :
    after l0r1 V (Proc.devRef .tc main_v78)
      = stepArr (V (Proc.devRef .tc main_v42))
          (Agg.rowSums (Agg.src1 (V (Proc.devRef .tc main_arg1))) (Agg.dst1 (V (Proc.devRef .tc main_arg1))) (V (Proc.devRef .tc main_arg0)))
          (Agg.degcOf (Agg.dst1 (V (Proc.devRef .tc main_arg1))))
          (cutW 1 slices_S3x128x128_S1x128x128_1_0_0 (V (Proc.devRef .tc main_v1)))
          (cutW 1 slices_S3x128x128_S1x128x128_1_0_0 (V (Proc.devRef .tc main_v3)))
          (cutB 1 slices_S3x128_S1x128_1_0 (V (Proc.devRef .tc main_v5)))
          (V (Proc.devRef .tc main_arg0)) := by
  after_results_simp <;> rfl

/-- Layer 0, relation 2: the accumulator after the relation's operations is one step onto the accumulator before. -/
theorem l0r2_res (V : Valuation τ sig (Elt Ideal)) :
    after l0r2 V (Proc.devRef .tc main_v114)
      = stepArr (V (Proc.devRef .tc main_v78))
          (Agg.rowSums (Agg.src2 (V (Proc.devRef .tc main_arg1))) (Agg.dst2 (V (Proc.devRef .tc main_arg1))) (V (Proc.devRef .tc main_arg0)))
          (Agg.degcOf (Agg.dst2 (V (Proc.devRef .tc main_arg1))))
          (cutW 2 slices_S3x128x128_S1x128x128_2_0_0 (V (Proc.devRef .tc main_v1)))
          (cutW 2 slices_S3x128x128_S1x128x128_2_0_0 (V (Proc.devRef .tc main_v3)))
          (cutB 2 slices_S3x128_S1x128_2_0 (V (Proc.devRef .tc main_v5)))
          (V (Proc.devRef .tc main_arg0)) := by
  after_results_simp <;> rfl

/-- The clamp at zero. -/
theorem relu0_res (V : Valuation τ sig (Elt Ideal)) :
    after relu0 V (Proc.devRef .tc main_v115) = maximumf (F := Ideal) (φ := .f32) (s := S50000x128) (V (Proc.devRef .tc main_v114)) zeros := by
  after_results_simp
  simp only [ofBuf_toBuf]
  rfl

/-- Layer 1's stacks of matrices and of bias vectors, and its zero matrix. -/
theorem pre1_wn (V : Valuation τ sig (Elt Ideal)) :
    after pre1 V (Proc.devRef .tc main_v117) = cutL 1 slices_S2x3x128x128_S1x3x128x128_1_0_0_0 (V (Proc.devRef .tc main_arg2)) := by
  after_results_simp <;> rfl
theorem pre1_wr (V : Valuation τ sig (Elt Ideal)) :
    after pre1 V (Proc.devRef .tc main_v119) = cutL 1 slices_S2x3x128x128_S1x3x128x128_1_0_0_0 (V (Proc.devRef .tc main_arg3)) := by
  after_results_simp <;> rfl
theorem pre1_b (V : Valuation τ sig (Elt Ideal)) :
    after pre1 V (Proc.devRef .tc main_v121) = cutLB 1 slices_S2x3x128_S1x3x128_1_0_0 (V (Proc.devRef .tc main_arg4)) := by
  after_results_simp <;> rfl
theorem pre1_zero (V : Valuation τ sig (Elt Ideal)) :
    after pre1 V (Proc.devRef .tc main_v122) = zeros := by
  after_results_simp <;> rfl

/-- Layer 1, relation 0: the accumulator after the relation's operations is one step onto the accumulator before. -/
theorem l1r0_res (V : Valuation τ sig (Elt Ideal)) :
    after l1r0 V (Proc.devRef .tc main_v158)
      = stepArr (V (Proc.devRef .tc main_v122))
          (Agg.rowSums (Agg.src0 (V (Proc.devRef .tc main_arg1))) (Agg.dst0 (V (Proc.devRef .tc main_arg1))) (V (Proc.devRef .tc main_v115)))
          (Agg.degcOf (Agg.dst0 (V (Proc.devRef .tc main_arg1))))
          (cutW 0 slices_S3x128x128_S1x128x128_0_0_0 (V (Proc.devRef .tc main_v117)))
          (cutW 0 slices_S3x128x128_S1x128x128_0_0_0 (V (Proc.devRef .tc main_v119)))
          (cutB 0 slices_S3x128_S1x128_0_0 (V (Proc.devRef .tc main_v121)))
          (V (Proc.devRef .tc main_v115)) := by
  after_results_simp <;> rfl

/-- Layer 1, relation 1: the accumulator after the relation's operations is one step onto the accumulator before. -/
theorem l1r1_res (V : Valuation τ sig (Elt Ideal)) :
    after l1r1 V (Proc.devRef .tc main_v194)
      = stepArr (V (Proc.devRef .tc main_v158))
          (Agg.rowSums (Agg.src1 (V (Proc.devRef .tc main_arg1))) (Agg.dst1 (V (Proc.devRef .tc main_arg1))) (V (Proc.devRef .tc main_v115)))
          (Agg.degcOf (Agg.dst1 (V (Proc.devRef .tc main_arg1))))
          (cutW 1 slices_S3x128x128_S1x128x128_1_0_0 (V (Proc.devRef .tc main_v117)))
          (cutW 1 slices_S3x128x128_S1x128x128_1_0_0 (V (Proc.devRef .tc main_v119)))
          (cutB 1 slices_S3x128_S1x128_1_0 (V (Proc.devRef .tc main_v121)))
          (V (Proc.devRef .tc main_v115)) := by
  after_results_simp <;> rfl

/-- Layer 1, relation 2: the accumulator after the relation's operations is one step onto the accumulator before. -/
theorem l1r2_res (V : Valuation τ sig (Elt Ideal)) :
    after l1r2 V (Proc.devRef .tc main_v230)
      = stepArr (V (Proc.devRef .tc main_v194))
          (Agg.rowSums (Agg.src2 (V (Proc.devRef .tc main_arg1))) (Agg.dst2 (V (Proc.devRef .tc main_arg1))) (V (Proc.devRef .tc main_v115)))
          (Agg.degcOf (Agg.dst2 (V (Proc.devRef .tc main_arg1))))
          (cutW 2 slices_S3x128x128_S1x128x128_2_0_0 (V (Proc.devRef .tc main_v117)))
          (cutW 2 slices_S3x128x128_S1x128x128_2_0_0 (V (Proc.devRef .tc main_v119)))
          (cutB 2 slices_S3x128_S1x128_2_0 (V (Proc.devRef .tc main_v121)))
          (V (Proc.devRef .tc main_v115)) := by
  after_results_simp <;> rfl

/-- The clamp at zero. -/
theorem relu1_res (V : Valuation τ sig (Elt Ideal)) :
    after relu1 V (Proc.devRef .tc main_v231) = maximumf (F := Ideal) (φ := .f32) (s := S50000x128) (V (Proc.devRef .tc main_v230)) zeros := by
  after_results_simp
  simp only [ofBuf_toBuf]
  rfl

/-- The linear head. -/
theorem headOps_res (V : Valuation τ sig (Elt Ideal)) :
    after headOps V (Proc.devRef .tc main_v235)
      = headArr (V (Proc.devRef .tc main_arg5)) (V (Proc.devRef .tc main_arg6)) (V (Proc.devRef .tc main_v231)) := by
  after_results_simp <;> rfl

end Cert.ReferenceIdeal.RefValue

end
-- ==== Proof.RefValue.lean ====
/-
  The reference program computes the specification: after its 278 operations, run from any contents of the buffers, the
  result buffer holds the linear head of two layers `Spec.refLayer` of the node features, each layer with its own slices
  of the weight and bias stacks and with the aggregation and clamped degree formed from the edge array.

  The operations are read in the pieces they were cut into. A layer's five pieces in a row leave `Spec.refLayer` of the
  layer's input in the clamp's buffer and keep the arguments; the second layer reads the first layer's result; the head
  reads the second's.
-/
import proofs.«181974_j41549513621817_2_alg».proof.Proof.RefValue3

set_option maxRecDepth 16384

noncomputable section

namespace Cert.ReferenceIdeal.RefValue

open Cert.ReferenceIdeal Cert.ReferenceIdeal.Gen Cert.ReferenceIdeal.RefRun Idealize.ShloMosaic Idealize.ShloMosaic.TcCoe Idealize.SL.Sem
  Idealize.ShloMosaic.StableHlo Cert.Lib.RunPieces

/-- Layer 0's pieces in a row. -/
def run0 (V : Valuation τ sig (Elt Ideal)) : Valuation τ sig (Elt Ideal) :=
  after relu0 (after l0r2 (after l0r1 (after l0r0 (after pre0 V))))

/-- A reference none of layer 0's pieces writes keeps its contents. -/
theorem run0_keeps (V : Valuation τ sig (Elt Ideal)) (r : Ref sig .tc) (h0 : r ∉ pre0_W) (h1 : r ∉ l0r0_W) (h2 : r ∉ l0r1_W)
    (h3 : r ∉ l0r2_W) (h4 : r ∉ relu0_W) : run0 V (Proc.devRef .tc r) = V (Proc.devRef .tc r) := by
  unfold run0
  rw [relu0_keeps _ r h4, l0r2_keeps _ r h3, l0r1_keeps _ r h2, l0r0_keeps _ r h1, pre0_keeps _ r h0]

/-- Layer 0's pieces compute `Spec.refLayer` of the layer's input, with the layer's slices of the weights. -/
theorem run0_res (V : Valuation τ sig (Elt Ideal)) :
    run0 V (Proc.devRef .tc main_v115)
      = Spec.refLayer (Agg.agg (V (Proc.devRef .tc main_arg1))) (Agg.degc (V (Proc.devRef .tc main_arg1)))
          (Spec.sliceW (V (Proc.devRef .tc main_arg2)) 0) (Spec.sliceW (V (Proc.devRef .tc main_arg3)) 0) (Spec.sliceB (V (Proc.devRef .tc main_arg4)) 0) (V (Proc.devRef .tc main_arg0)) := by
  unfold run0
  rw [relu0_res, l0r2_res,
    l0r1_keeps _ main_arg1 (by decide), l0r1_keeps _ main_arg0 (by decide), l0r1_keeps _ main_v1 (by decide), l0r1_keeps _ main_v3 (by decide), l0r1_keeps _ main_v5 (by decide),
    l0r1_res,
    l0r0_keeps _ main_arg1 (by decide), l0r0_keeps _ main_arg0 (by decide), l0r0_keeps _ main_v1 (by decide), l0r0_keeps _ main_v3 (by decide), l0r0_keeps _ main_v5 (by decide),
    l0r0_res,
    pre0_keeps _ main_arg1 (by decide), pre0_keeps _ main_arg0 (by decide),
    pre0_wn, pre0_wr, pre0_b, pre0_zero]
  rw [cutW_cutL (V (Proc.devRef .tc main_arg2)) 0 0 0 0 rfl rfl, cutW_cutL (V (Proc.devRef .tc main_arg2)) 0 1 0 1 rfl rfl, cutW_cutL (V (Proc.devRef .tc main_arg2)) 0 2 0 2 rfl rfl,
    cutW_cutL (V (Proc.devRef .tc main_arg3)) 0 0 0 0 rfl rfl, cutW_cutL (V (Proc.devRef .tc main_arg3)) 0 1 0 1 rfl rfl, cutW_cutL (V (Proc.devRef .tc main_arg3)) 0 2 0 2 rfl rfl,
    cutB_cutLB (V (Proc.devRef .tc main_arg4)) 0 0 0 0 rfl rfl, cutB_cutLB (V (Proc.devRef .tc main_arg4)) 0 1 0 1 rfl rfl, cutB_cutLB (V (Proc.devRef .tc main_arg4)) 0 2 0 2 rfl rfl]
  rw [← layerArr_eq]
  rfl

/-- Layer 1's pieces in a row. -/
def run1 (V : Valuation τ sig (Elt Ideal)) : Valuation τ sig (Elt Ideal) :=
  after relu1 (after l1r2 (after l1r1 (after l1r0 (after pre1 V))))

/-- A reference none of layer 1's pieces writes keeps its contents. -/
theorem run1_keeps (V : Valuation τ sig (Elt Ideal)) (r : Ref sig .tc) (h0 : r ∉ pre1_W) (h1 : r ∉ l1r0_W) (h2 : r ∉ l1r1_W)
    (h3 : r ∉ l1r2_W) (h4 : r ∉ relu1_W) : run1 V (Proc.devRef .tc r) = V (Proc.devRef .tc r) := by
  unfold run1
  rw [relu1_keeps _ r h4, l1r2_keeps _ r h3, l1r1_keeps _ r h2, l1r0_keeps _ r h1, pre1_keeps _ r h0]

/-- Layer 1's pieces compute `Spec.refLayer` of the layer's input, with the layer's slices of the weights. -/
theorem run1_res (V : Valuation τ sig (Elt Ideal)) :
    run1 V (Proc.devRef .tc main_v231)
      = Spec.refLayer (Agg.agg (V (Proc.devRef .tc main_arg1))) (Agg.degc (V (Proc.devRef .tc main_arg1)))
          (Spec.sliceW (V (Proc.devRef .tc main_arg2)) 1) (Spec.sliceW (V (Proc.devRef .tc main_arg3)) 1) (Spec.sliceB (V (Proc.devRef .tc main_arg4)) 1) (V (Proc.devRef .tc main_v115)) := by
  unfold run1
  rw [relu1_res, l1r2_res,
    l1r1_keeps _ main_arg1 (by decide), l1r1_keeps _ main_v115 (by decide), l1r1_keeps _ main_v117 (by decide), l1r1_keeps _ main_v119 (by decide), l1r1_keeps _ main_v121 (by decide),
    l1r1_res,
    l1r0_keeps _ main_arg1 (by decide), l1r0_keeps _ main_v115 (by decide), l1r0_keeps _ main_v117 (by decide), l1r0_keeps _ main_v119 (by decide), l1r0_keeps _ main_v121 (by decide),
    l1r0_res,
    pre1_keeps _ main_arg1 (by decide), pre1_keeps _ main_v115 (by decide),
    pre1_wn, pre1_wr, pre1_b, pre1_zero]
  rw [cutW_cutL (V (Proc.devRef .tc main_arg2)) 1 0 1 0 rfl rfl, cutW_cutL (V (Proc.devRef .tc main_arg2)) 1 1 1 1 rfl rfl, cutW_cutL (V (Proc.devRef .tc main_arg2)) 1 2 1 2 rfl rfl,
    cutW_cutL (V (Proc.devRef .tc main_arg3)) 1 0 1 0 rfl rfl, cutW_cutL (V (Proc.devRef .tc main_arg3)) 1 1 1 1 rfl rfl, cutW_cutL (V (Proc.devRef .tc main_arg3)) 1 2 1 2 rfl rfl,
    cutB_cutLB (V (Proc.devRef .tc main_arg4)) 1 0 1 0 rfl rfl, cutB_cutLB (V (Proc.devRef .tc main_arg4)) 1 1 1 1 rfl rfl, cutB_cutLB (V (Proc.devRef .tc main_arg4)) 1 2 1 2 rfl rfl]
  rw [← layerArr_eq]
  rfl

/-- The whole run is layer 0's pieces, layer 1's pieces, and the head, in turn. -/
theorem after_ops (W : Valuation τ sig (Elt Ideal)) : after ops W = after headOps (run1 (run0 W)) := by
  rw [ops_eq, Cert.Lib.RunPieces.after_append, Cert.Lib.RunPieces.after_append, Cert.Lib.RunPieces.after_append, Cert.Lib.RunPieces.after_append,
    Cert.Lib.RunPieces.after_append, Cert.Lib.RunPieces.after_append, Cert.Lib.RunPieces.after_append, Cert.Lib.RunPieces.after_append, Cert.Lib.RunPieces.after_append,
    Cert.Lib.RunPieces.after_append]
  rfl

/-- The reference's result, from any contents of the buffers. -/
theorem ref_after (W : Valuation τ sig (Elt Ideal)) :
    after ops W (Proc.devRef .tc main_v235)
      = Spec.head (W (Proc.devRef .tc main_arg5)) (W (Proc.devRef .tc main_arg6))
          (Spec.refLayer (Agg.agg (W (Proc.devRef .tc main_arg1))) (Agg.degc (W (Proc.devRef .tc main_arg1)))
            (Spec.sliceW (W (Proc.devRef .tc main_arg2)) 1) (Spec.sliceW (W (Proc.devRef .tc main_arg3)) 1) (Spec.sliceB (W (Proc.devRef .tc main_arg4)) 1)
            (Spec.refLayer (Agg.agg (W (Proc.devRef .tc main_arg1))) (Agg.degc (W (Proc.devRef .tc main_arg1)))
              (Spec.sliceW (W (Proc.devRef .tc main_arg2)) 0) (Spec.sliceW (W (Proc.devRef .tc main_arg3)) 0) (Spec.sliceB (W (Proc.devRef .tc main_arg4)) 0)
              (W (Proc.devRef .tc main_arg0)))) := by
  rw [after_ops, headOps_res, headArr_eq,
    run1_keeps _ main_arg5 (by decide) (by decide) (by decide) (by decide) (by decide), run1_keeps _ main_arg6 (by decide) (by decide) (by decide) (by decide) (by decide), run1_res,
    run0_keeps _ main_arg1 (by decide) (by decide) (by decide) (by decide) (by decide), run0_keeps _ main_arg2 (by decide) (by decide) (by decide) (by decide) (by decide), run0_keeps _ main_arg3 (by decide) (by decide) (by decide) (by decide) (by decide),
    run0_keeps _ main_arg4 (by decide) (by decide) (by decide) (by decide) (by decide), run0_keeps _ main_arg5 (by decide) (by decide) (by decide) (by decide) (by decide), run0_keeps _ main_arg6 (by decide) (by decide) (by decide) (by decide) (by decide), run0_res]

end Cert.ReferenceIdeal.RefValue

end
-- ==== Proof.LibTiles.lean ====
/-
  A sum over a range of `n * b` consecutive indices, cut into `n` consecutive tiles of width `b`:
  the index `k * b + j` is the `j`-th element of the `k`-th tile.
-/
import Mathlib.Algebra.BigOperators.Fin
import Mathlib.Logic.Equiv.Fin.Basic
import Mathlib.Data.EReal.Basic

open scoped BigOperators

namespace Cert.Lib.Tiles

/-- The `j`-th element of the `k`-th tile of width `b` lies below `n * b`. -/
theorem tile_lt {n b : ℕ} (k : Fin n) (j : Fin b) : k.val * b + j.val < n * b :=
  calc k.val * b + j.val < k.val * b + b := Nat.add_lt_add_left j.isLt _
    _ = (k.val + 1) * b := (Nat.succ_mul _ _).symm
    _ ≤ n * b := Nat.mul_le_mul_right b k.isLt

/-- A sum over `Fin (n * b)` is the sum over the `n` tiles of the sums over each tile's `b` elements. -/
theorem sum_tiles {M : Type*} [AddCommMonoid M] (n b : ℕ) (f : Fin (n * b) → M) :
    ∑ i : Fin (n * b), f i = ∑ k : Fin n, ∑ j : Fin b, f ⟨k.val * b + j.val, tile_lt k j⟩ := by
  rw [← Equiv.sum_comp finProdFinEquiv f, Fintype.sum_prod_type]
  refine Finset.sum_congr rfl fun k _ => Finset.sum_congr rfl fun j _ => ?_
  refine congrArg f (Fin.ext ?_)
  show j.val + b * k.val = k.val * b + j.val
  rw [Nat.mul_comm, Nat.add_comm]

/-- The inner width 11008 as 43 tiles of width 256. -/
theorem sum_11008 (f : Fin 11008 → EReal) :
    ∑ i : Fin 11008, f i = ∑ k : Fin 43, ∑ j : Fin 256, f ⟨k.val * 256 + j.val, by omega⟩ :=
  sum_tiles 43 256 f

end Cert.Lib.Tiles
-- ==== Proof.Algebra.lean ====
/-
  The two forms of a layer agree, and a layer keeps real entries real.

  Three facts separate the two forms. (1) For a degree `d` with `1 ≤ d` the quotient `s / d` is `s · d⁻¹` and the
  reciprocal `1 / d` is `d⁻¹`, so the product form of a mean is its quotient form; moreover `d⁻¹` is finite (it is `0` at
  `d = ⊤`), so a mean of finite row sums is finite. (2) A sum over 512 consecutive entries is the sum over its four
  tiles of 128, and entry `g · 128 + k` of four rows laid side by side is entry `k` of row `g`; so the one product with
  the stacked weights is the sum of four products of width 128. (3) `h · (Wr₀ + Wr₁ + Wr₂) = h · Wr₀ + h · Wr₁ + h · Wr₂`:
  distributivity, which holds between finite extended reals (it is the real identity read through the cast) and fails
  at the infinities. Everything else is the regrouping of a sum in a commutative monoid.
-/
import proofs.«181974_j41549513621817_2_alg».proof.Proof.Spec
import proofs.«181974_j41549513621817_2_alg».proof.Proof.LibFinite
import proofs.«181974_j41549513621817_2_alg».proof.Proof.LibTiles

noncomputable section

open scoped BigOperators

namespace Cert.Spec

open Idealize.ShloMosaic Idealize.ShloMosaic.ValueIdx Cert.Finite

/-! ## The quotient by a degree that is at least one -/

/-- A value that is at least one is not zero. -/
theorem ne_zero_of_one_le {d : EReal} (hd : 1 ≤ d) : d ≠ 0 := by
  intro h
  rw [h] at hd
  exact absurd hd (by norm_num)

/-- Dividing by `d ≥ 1` is multiplying by the reciprocal of `d`. -/
theorem div_eq_mul_inv_of_one_le {d : EReal} (hd : 1 ≤ d) (s : EReal) : Ideal.div s d = s * d⁻¹ := by
  unfold Ideal.div
  rw [if_neg (ne_zero_of_one_le hd)]

/-- The product with the reciprocal `1 / d` is the quotient by `d`, when `1 ≤ d`. -/
theorem mul_div_one_eq_div {d : EReal} (hd : 1 ≤ d) (s : EReal) : s * Ideal.div 1 d = Ideal.div s d := by
  rw [div_eq_mul_inv_of_one_le hd, div_eq_mul_inv_of_one_le hd, one_mul]

/-- The reciprocal of an extended real that is at least one is finite: the reciprocal of a real, or zero at `⊤`. -/
theorem isReal_inv_of_one_le {d : EReal} (hd : 1 ≤ d) : IsReal d⁻¹ := by
  induction d using EReal.rec with
  | bot => exact absurd (le_bot_iff.1 hd) (EReal.coe_ne_bot 1)
  | coe r => exact ⟨r⁻¹, (EReal.coe_inv r).symm⟩
  | top => rw [EReal.inv_top]; exact isReal_zero

/-- A finite value divided by a degree that is at least one is finite (the degree itself may be `⊤`). -/
theorem isReal_div_of_one_le {s d : EReal} (hs : IsReal s) (hd : 1 ≤ d) : IsReal (Ideal.div s d) := by
  rw [div_eq_mul_inv_of_one_le hd]
  exact hs.mul (isReal_inv_of_one_le hd)

/-! ## Distributivity between finite values -/

/-- `x · (a + b) = x · a + x · b` for finite `x`, `a`, `b`: the real identity read through the cast. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add, mul_add]

/-- A finite row against the sum of three finite columns (summed from zero) is the sum of the three products. -/
theorem dot_add3 {K : Type*} [Fintype K] (x w0 w1 w2 : K → EReal) (hx : ∀ k, IsReal (x k))
    (h0 : ∀ k, IsReal (w0 k)) (h1 : ∀ k, IsReal (w1 k)) (h2 : ∀ k, IsReal (w2 k)) :
    ∑ k, x k * (0 + (w0 k + w1 k + w2 k)) = (∑ k, x k * w0 k) + (∑ k, x k * w1 k) + ∑ k, x k * w2 k := by
  rw [← Finset.sum_add_distrib, ← Finset.sum_add_distrib]
  refine Finset.sum_congr rfl fun k _ => ?_
  rw [zero_add, mul_add_of_isReal (hx k) ((h0 k).add (h1 k)) (h2 k), mul_add_of_isReal (hx k) (h0 k) (h1 k)]

/-! ## Four rows of 128 side by side -/

/-- Entry `g · 128 + k` of four rows laid side by side is entry `k` of row `g`. -/
theorem band4_tile (f : Fin 4 → Fin 128 → EReal) (g : Fin 4) (k : Fin 128) (h : g.val * 128 + k.val < 512) :
    band4 f ⟨g.val * 128 + k.val, h⟩ = f g k := by
  have h1 : (g.val * 128 + k.val) / 128 = g.val := by omega
  have h2 : (g.val * 128 + k.val) % 128 = k.val := by omega
  have e1 : (⟨(g.val * 128 + k.val) / 128, by omega⟩ : Fin 4) = g := Fin.ext h1
  have e2 : (⟨(g.val * 128 + k.val) % 128, by omega⟩ : Fin 128) = k := Fin.ext h2
  show f ⟨(g.val * 128 + k.val) / 128, _⟩ ⟨(g.val * 128 + k.val) % 128, _⟩ = f g k
  rw [e1, e2]

/-- The product of two stacked rows of width 512 is the sum of the four products of width 128. -/
theorem sum_band4 (X W : Fin 4 → Fin 128 → EReal) :
    ∑ c : Fin 512, band4 X c * band4 W c = ∑ g : Fin 4, ∑ k : Fin 128, X g k * W g k := by
  have e : ∑ c : Fin 512, band4 X c * band4 W c
      = ∑ g : Fin 4, ∑ k : Fin 128,
          band4 X ⟨g.val * 128 + k.val, by omega⟩ * band4 W ⟨g.val * 128 + k.val, by omega⟩ :=
    Cert.Lib.Tiles.sum_tiles 4 128 _
  rw [e]
  refine Finset.sum_congr rfl fun g _ => Finset.sum_congr rfl fun k _ => ?_
  rw [band4_tile, band4_tile]

/-! ## One entry of a layer -/

/-- One entry of the two forms, over abstract rows: the node`s own row `x`, the three means `m`, the columns `wn` and
    `wr` of the weights and the biases `b`. Only `x` and `wr` need be finite. -/
theorem entry_eq (x : Fin 128 → EReal) (m wn wr : Fin 3 → Fin 128 → EReal) (b : Fin 3 → EReal)
    (hx : ∀ k, IsReal (x k)) (hwr : ∀ r k, IsReal (wr r k)) :
    (∑ c : Fin 512, band4 ![x, m 0, m 1, m 2] c
        * band4 ![fun k => 0 + ∑ r : Fin 3, wr r k, wn 0, wn 1, wn 2] c) + (0 + ∑ r : Fin 3, b r)
      = (((((((((0 + ∑ k, m 0 k * wn 0 k) + ∑ k, x k * wr 0 k) + b 0)
          + ∑ k, m 1 k * wn 1 k) + ∑ k, x k * wr 1 k) + b 1)
          + ∑ k, m 2 k * wn 2 k) + ∑ k, x k * wr 2 k) + b 2) := by
  rw [sum_band4, Fin.sum_univ_four]
  show ((∑ k, x k * (0 + ∑ r : Fin 3, wr r k)) + (∑ k, m 0 k * wn 0 k) + (∑ k, m 1 k * wn 1 k)
      + ∑ k, m 2 k * wn 2 k) + (0 + ∑ r : Fin 3, b r) = _
  simp only [Fin.sum_univ_three]
  rw [dot_add3 x (wr 0) (wr 1) (wr 2) hx (hwr 0) (hwr 1) (hwr 2)]
  abel

/-! ## The layer -/

section Layer

variable (A : Fin 3 → Mat 50000 128 → Mat 50000 128) (D : Fin 3 → Vc 50000)

/-- With degrees at least one the product form of a mean is its quotient form. -/
theorem meanK_eq_meanR (hD : ∀ r i, 1 ≤ D r i) (r : Fin 3) (h : Mat 50000 128) (n : Fin 50000) :
    meanK A D r h n = meanR A D r h n := by
  funext k
  exact mul_div_one_eq_div (hD r (ix1 n)) _

/-- A mean of finite row sums over a degree at least one is finite. -/
theorem isReal_meanR (hD : ∀ r i, 1 ≤ D r i) (r : Fin 3) (h : Mat 50000 128) (hAh : ∀ r i, IsReal (A r h i))
    (n : Fin 50000) (k : Fin 128) : IsReal (meanR A D r h n k) :=
  isReal_div_of_one_le (hAh r (ix2 n k)) (hD r (ix1 n))

/-- One relation's contribution keeps a finite accumulator finite. -/
theorem isReal_refStep (hD : ∀ r i, 1 ≤ D r i) (Wn Wr : Fin 3 → Mat 128 128) (b : Fin 3 → Vc 128)
    (hWn : ∀ r i, IsReal (Wn r i)) (hWr : ∀ r i, IsReal (Wr r i)) (hb : ∀ r i, IsReal (b r i))
    (h : Mat 50000 128) (hh : ∀ i, IsReal (h i)) (hAh : ∀ r i, IsReal (A r h i))
    (r : Fin 3) (acc : EReal) (hacc : IsReal acc) (n : Fin 50000) (j : Fin 128) :
    IsReal (refStep A D Wn Wr b h r acc n j) := by
  unfold refStep
  exact ((hacc.add (isReal_dot _ _ (fun k => isReal_meanR A D hD r h hAh n k) (fun k => hWn r (ix2 k j)))).add
    (isReal_dot _ _ (fun k => hh (ix2 n k)) (fun k => hWr r (ix2 k j)))).add (hb r (ix1 j))

/-- The two forms of a layer agree when the degrees are at least one and the features and weights are finite. -/
theorem layer_eq (hD : ∀ r i, 1 ≤ D r i)
    (Wn Wr : Fin 3 → Mat 128 128) (b : Fin 3 → Vc 128)
    (hWn : ∀ r i, IsReal (Wn r i)) (hWr : ∀ r i, IsReal (Wr r i)) (hb : ∀ r i, IsReal (b r i))
    (h : Mat 50000 128) (hh : ∀ i, IsReal (h i)) (hAh : ∀ r i, IsReal (A r h i)) :
    kerLayer A D Wn Wr b h = refLayer A D Wn Wr b h := by
  funext i
  obtain ⟨n, j, rfl⟩ : ∃ (n : Fin 50000) (j : Fin 128), i = ix2 n j := ⟨i 0, i 1, eq_ix2 i⟩
  unfold kerLayer refLayer
  rw [arr2_ix2, arr2_ix2]
  congr 1
  unfold kerX kerW kerB refStep
  rw [meanK_eq_meanR A D hD 0, meanK_eq_meanR A D hD 1, meanK_eq_meanR A D hD 2]
  exact entry_eq (fun k => h (ix2 n k)) (fun r => meanR A D r h n) (fun r k => Wn r (ix2 k j))
    (fun r k => Wr r (ix2 k j)) (fun r => b r (ix1 j)) (fun k => hh (ix2 n k)) (fun r k => hWr r (ix2 k j))

/-- A layer of finite features, finite weights and finite row sums has finite entries. -/
theorem refLayer_real (hD : ∀ r i, 1 ≤ D r i)
    (Wn Wr : Fin 3 → Mat 128 128) (b : Fin 3 → Vc 128)
    (hWn : ∀ r i, IsReal (Wn r i)) (hWr : ∀ r i, IsReal (Wr r i)) (hb : ∀ r i, IsReal (b r i))
    (h : Mat 50000 128) (hh : ∀ i, IsReal (h i)) (hAh : ∀ r i, IsReal (A r h i)) :
    ∀ i, IsReal (refLayer A D Wn Wr b h i) := by
  intro i
  obtain ⟨n, j, rfl⟩ : ∃ (n : Fin 50000) (j : Fin 128), i = ix2 n j := ⟨i 0, i 1, eq_ix2 i⟩
  unfold refLayer
  rw [arr2_ix2]
  have step : ∀ (r : Fin 3) (acc : EReal), IsReal acc → IsReal (refStep A D Wn Wr b h r acc n j) :=
    fun r acc hacc => isReal_refStep A D hD Wn Wr b hWn hWr hb h hh hAh r acc hacc n j
  exact (step 2 _ (step 1 _ (step 0 _ isReal_zero))).max isReal_zero

/-- Two layers and the head: the two programs' outputs agree. The first layer's output is finite, so the second
    layer's two forms agree on it; the head is the same function of equal arguments. -/
theorem final_eq
    (hA : ∀ r (h : Mat 50000 128), (∀ i, IsReal (h i)) → ∀ i, IsReal (A r h i)) (hD : ∀ r i, 1 ≤ D r i)
    (Wn1 Wr1 Wn2 Wr2 : Fin 3 → Mat 128 128) (b1 b2 : Fin 3 → Vc 128)
    (hWn1 : ∀ r i, IsReal (Wn1 r i)) (hWr1 : ∀ r i, IsReal (Wr1 r i)) (hb1 : ∀ r i, IsReal (b1 r i))
    (hWn2 : ∀ r i, IsReal (Wn2 r i)) (hWr2 : ∀ r i, IsReal (Wr2 r i)) (hb2 : ∀ r i, IsReal (b2 r i))
    (x : Mat 50000 128) (hx : ∀ i, IsReal (x i)) (linW : Mat 128 32) (linb : Vc 32) :
    head linW linb (kerLayer A D Wn2 Wr2 b2 (kerLayer A D Wn1 Wr1 b1 x))
      = head linW linb (refLayer A D Wn2 Wr2 b2 (refLayer A D Wn1 Wr1 b1 x)) := by
  have h1 : kerLayer A D Wn1 Wr1 b1 x = refLayer A D Wn1 Wr1 b1 x :=
    layer_eq A D hD Wn1 Wr1 b1 hWn1 hWr1 hb1 x hx (fun r => hA r x hx)
  have hr : ∀ i, IsReal (refLayer A D Wn1 Wr1 b1 x i) :=
    refLayer_real A D hD Wn1 Wr1 b1 hWn1 hWr1 hb1 x hx (fun r => hA r x hx)
  rw [h1, layer_eq A D hD Wn2 Wr2 b2 hWn2 hWr2 hb2 _ hr (fun r => hA r _ hr)]

end Layer

end Cert.Spec

end
-- ==== Proof.AggFacts.lean ====
/-
  The two facts about the aggregation and the degree that the algebra uses.

  * The clamped in-degree is a maximum with one, so it is at least one at every node — whatever the degree itself is.
  * The neighbours' row sums of a matrix of real entries are real: every gathered entry is an entry of the matrix, and each row sum adds
    finitely many of them onto zero.
-/
import proofs.«181974_j41549513621817_2_alg».proof.Proof.AggK
import Idealize.ShloMosaic.Lib.IdealHost
import Idealize.ShloMosaic.PureOps.Ideal.Laws

noncomputable section

namespace Cert.KernelIdeal.Agg

open Idealize.ShloMosaic Idealize.ShloMosaic.ValueIdx Cert.KernelIdeal Cert.KernelIdeal.Gen Cert.Finite

/-- A property of every member of a three-entry family holds at every index of the family. -/
theorem fam3 {α : Type} (P : α → Prop) (a b c : α) (ha : P a) (hb : P b) (hc : P c) (r : Fin 3) : P ((![a, b, c] : Fin 3 → α) r) := by
  match r with
  | ⟨0, _⟩ => exact ha
  | ⟨1, _⟩ => exact hb
  | ⟨2, _⟩ => exact hc

/-- The maximum of a vector with the splat of the word of 1.0 is at least one at every entry. -/
theorem one_le_max_one (g : FVec Ideal S50000 .f32) (i : S50000.Idx) :
    1 ≤ maximumf g (broadcastInDim S50000 ![] bcast_S_S50000 (constant (F := Ideal) S_ .f32 0x3F800000#32)) i := by
  have h : maximumf g (broadcastInDim S50000 ![] bcast_S_S50000 (constant (F := Ideal) S_ .f32 0x3F800000#32)) i
      = max (g i) (Ideal.ofBits .f32 0x3F800000#32) := rfl
  rw [h, Ideal.ofBits_one_f32]
  exact le_max_right _ _

/-- The clamped degree is at least one. -/
theorem one_le_degcOf (d : EdgeVec) (i : S50000.Idx) : 1 ≤ degcOf d i := by
  unfold degcOf
  generalize degOf d = g
  exact one_le_max_one g i

/-- Every relation's clamped degree is at least one. -/
theorem one_le_degc (e : Edges) (r : Fin 3) (i : (⟨1, ![50000]⟩ : Shape).Idx) : 1 ≤ degc e r i := by
  unfold degc
  exact fam3 (fun v : Spec.Vc 50000 => ∀ i, 1 ≤ v i) _ _ _ (one_le_degcOf (dst0 e)) (one_le_degcOf (dst1 e)) (one_le_degcOf (dst2 e)) r i

/-- The zero matrix has real entries. -/
theorem zeros_real (j : S50000x128.Idx) :
    IsReal (broadcastInDim S50000x128 ![] bcast_S_S50000x128 (constant (F := Ideal) S_ .f32 0x00000000#32) j) := by
  have h : broadcastInDim S50000x128 ![] bcast_S_S50000x128 (constant (F := Ideal) S_ .f32 0x00000000#32) j
      = Ideal.ofBits .f32 0x00000000#32 := rfl
  rw [h, Ideal.ofBits_zero_f32]; exact isReal_zero

/-- An accumulating scatter of real updates onto a matrix of real entries is real at every entry. -/
theorem scatter_real (z : FVec Ideal S50000x128 .f32) (hz : ∀ j, IsReal (z j)) (idx : IVec S640000x1 32)
    (u : FVec Ideal S640000x128 .f32) (hu : ∀ j, IsReal (u j)) (i : S50000x128.Idx) :
    IsReal (Host.scatterAdd scatter_S50000x128_S640000x1_S640000x128_1_0_0_1 z idx u i) := by
  unfold Host.scatterAdd
  rw [Ideal.hostScatterAdd_def]
  exact isReal_hostScatterAdd scatter_S50000x128_S640000x1_S640000x128_1_0_0_1 z idx u hz hu i

/-- Row sums of real entries are real. -/
theorem rowSums_real (s d : EdgeVec) (h : FVec Ideal S50000x128 .f32) (hh : ∀ i, IsReal (h i)) (i : S50000x128.Idx) :
    IsReal (rowSums s d h i) := by
  unfold rowSums
  refine scatter_real _ zeros_real _ _ (fun j => ?_) i
  generalize broadcastInDim S640000x1 ![0] bcast_S640000_S640000x1_0 (wrap s) = ix
  unfold Host.gather
  exact hh _

/-- Every relation's aggregation keeps real entries real. -/
theorem agg_real (e : Edges) (r : Fin 3) (h : Spec.Mat 50000 128) (hh : ∀ i, IsReal (h i)) (i : (⟨2, ![50000, 128]⟩ : Shape).Idx) :
    IsReal (agg e r h i) := by
  unfold agg
  exact fam3 (fun f : Spec.Mat 50000 128 → Spec.Mat 50000 128 => ∀ h, (∀ i, IsReal (h i)) → ∀ i, IsReal (f h i)) _ _ _
    (fun h hh i => rowSums_real (src0 e) (dst0 e) h hh i) (fun h hh i => rowSums_real (src1 e) (dst1 e) h hh i)
    (fun h hh i => rowSums_real (src2 e) (dst2 e) h hh i) r h hh i

end Cert.KernelIdeal.Agg

end
-- ==== Proof.Bridge.lean ====
/-
  The two programs form the aggregation and the clamped degree by the same host operations; each program's text carries its own copies of
  the shapes and of the gather / scatter dimension records, equal entry for entry. So the reference's terms are the kernel's.
-/
import proofs.«181974_j41549513621817_2_alg».proof.Proof.AggK
import proofs.«181974_j41549513621817_2_alg».proof.Proof.AggR

noncomputable section

namespace Cert.Bridge

open Idealize.ShloMosaic

/-- The reference's row sums are the kernel program's. -/
theorem rowSums_eq (s d : Cert.KernelIdeal.Agg.EdgeVec) (h : FVec Ideal Cert.KernelIdeal.S50000x128 .f32) :
    Cert.ReferenceIdeal.Agg.rowSums s d h = Cert.KernelIdeal.Agg.rowSums s d h := rfl

/-- The reference's clamped degree is the kernel program's. -/
theorem degcOf_eq (d : Cert.KernelIdeal.Agg.EdgeVec) :
    Cert.ReferenceIdeal.Agg.degcOf d = Cert.KernelIdeal.Agg.degcOf d := rfl

/-- Relation by relation, the reference's aggregation is the kernel program's. -/
theorem agg_eq (e : Cert.KernelIdeal.Agg.Edges) : Cert.ReferenceIdeal.Agg.agg e = Cert.KernelIdeal.Agg.agg e := rfl

/-- Relation by relation, the reference's clamped degree is the kernel program's. -/
theorem degc_eq (e : Cert.KernelIdeal.Agg.Edges) : Cert.ReferenceIdeal.Agg.degc e = Cert.KernelIdeal.Agg.degc e := rfl

end Cert.Bridge

end
-- ==== Proof.LibAllFinite.lean ====
/-
  A precondition's "every entry is finite" test, read back at an entry.

  A printed precondition tests an array by comparing each entry's absolute value against the value of the word
  0x7F800000, which is +inf, and folding the comparisons with "and" into one bit. When that bit is 1 every comparison
  is 1; an extended real whose absolute value is strictly below +inf is neither infinity, so it is the cast of a
  real number. Stated for an array of any shape reduced over any axes into a single bit.
-/
import proofs.«181974_j41549513621817_2_alg».proof.Proof.LibFinite
import Idealize.ShloMosaic.Lib.ReduceAll
import Idealize.ShloMosaic.Lib.ValueIdx
import Idealize.ShloMosaic.Lib.Pipeline.Value
import Idealize.ShloMosaic.PureOps.Ideal.Laws

noncomputable section

namespace Cert.Lib.AllFinite

open Idealize.ShloMosaic Idealize.ShloMosaic.ValueIdx Cert.Finite

/-- The shape of a single bit has one index. -/
instance : Subsingleton (⟨0, ![]⟩ : Shape).Idx := ⟨fun a b => funext fun d => d.elim0⟩

/-- The word 0x7F800000 denotes +inf. -/
theorem inf_word : Ideal.ofBits .f32 0x7F800000#32 = ⊤ := by
  simp [Ideal.ofBits, Ideal.ieee]

/-- An extended real whose absolute value compares below +inf is the cast of a real. -/
theorem isReal_of_abs_lt (x : EReal) (h : Ideal.cmp .olt (max x (-x)) (Ideal.ofBits .f32 0x7F800000#32) = 1#1) :
    IsReal x := by
  rw [inf_word] at h
  induction x using EReal.rec with
  | bot => simp [Ideal.cmp] at h
  | coe r => exact ⟨r, rfl⟩
  | top => simp [Ideal.cmp] at h

/-- One array's test, read at an index: if the fold by "and" of the comparisons |a_i| < +inf, started from 1, is 1,
    then every entry of the array is the cast of a real. -/
theorem entry_of_all {s : Shape} {axes : List (Fin s.rank)} (a : FVec Ideal s .f32)
    (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (e : Host.reduce IntOp.andi
        (cmpf .olt (Host.absf a) (broadcastInDim s ![] hb (constant (F := Ideal) ⟨0, ![]⟩ .f32 0x7F800000#32)))
        (constantI ⟨0, ![]⟩ 1 1#1) hr hu j = 1#1) (i : s.Idx) : IsReal (a i) := by
  have h := Host.reduce_andi_all _ _ hr hu j e i
  refine isReal_of_abs_lt (a i) ?_
  rw [cmpf_apply, broadcastInDim_apply _ hb _ i (fun d => d.elim0) (fun d => d.elim0)] at h
  exact h

end Cert.Lib.AllFinite

end
-- ==== Proof.PreReal.lean ====
/-
  What the precondition says, entry by entry: the printed predicate is the conjunction of six tests "every |a_i| is below +inf", one per
  float argument, each a fold by "and" from 1. If the predicate is 1, every entry of every float argument is the cast of a real.
-/
import proofs.«181974_j41549513621817_2_alg».proof.Pre_finite_inputs
import proofs.«181974_j41549513621817_2_alg».proof.Proof.Gen.Pre_finite_inputs
import proofs.«181974_j41549513621817_2_alg».proof.Proof.LibAllFinite
import Idealize.ShloMosaic.Lib.Affine

noncomputable section

namespace Cert.Pre_finite_inputs.Entries

open Idealize.ShloMosaic Idealize.ShloMosaic.ValueIdx Cert.Pre_finite_inputs Cert.Pre_finite_inputs.Gen Cert.Finite Cert.Lib.AllFinite

/-- Under the precondition every float argument has real entries. -/
theorem all_real (x0 : FVec Ideal S50000x128 .f32) (x1 : IVec S3x2x640000 32) (x2 x3 : FVec Ideal S2x3x128x128 .f32)
    (x4 : FVec Ideal S2x3x128 .f32) (x5 : FVec Ideal S128x32 .f32) (x6 : FVec Ideal S32 .f32)
    (h : Cert.Pre_finite_inputs.fn (F := Ideal) x0 x1 x2 x3 x4 x5 x6 = fun _ => 1#1) :
    (∀ i, IsReal (x0 i)) ∧ (∀ i, IsReal (x2 i)) ∧ (∀ i, IsReal (x3 i)) ∧ (∀ i, IsReal (x4 i)) ∧ (∀ i, IsReal (x5 i))
      ∧ (∀ i, IsReal (x6 i)) := by
  have h0 := congrFun h ix0
  dsimp only [fn, fn_part1] at h0
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨e0, e2⟩ := IntOp.andi_eq_one.1 h2
  exact ⟨entry_of_all x0 _ _ _ ix0 e0, entry_of_all x2 _ _ _ ix0 e2, entry_of_all x3 _ _ _ ix0 e3,
    entry_of_all x4 _ _ _ ix0 e4, entry_of_all x5 _ _ _ ix0 e5, entry_of_all x6 _ _ _ ix0 e6⟩

end Cert.Pre_finite_inputs.Entries

end
-- ==== Proof.RefSide.lean ====
/-
  The reference's result in the specification's reference form, and the agreement of the two forms.

  The reference's run leaves the result at the fold of its operations over the launch contents, which is the linear head of two layers
  accumulated relation by relation. Under the precondition every entry of every float argument is real; the row sums of real entries are
  real and the clamped degree is at least one; so each layer in the stacked form equals the layer accumulated relation by relation, and the
  two programs' results are one array.
-/
import proofs.«181974_j41549513621817_2_alg».proof.Defs
import proofs.«181974_j41549513621817_2_alg».proof.Proof.RefRun
import proofs.«181974_j41549513621817_2_alg».proof.Proof.RefValue
import proofs.«181974_j41549513621817_2_alg».proof.Proof.Algebra
import proofs.«181974_j41549513621817_2_alg».proof.Proof.AggFacts
import proofs.«181974_j41549513621817_2_alg».proof.Proof.Bridge
import proofs.«181974_j41549513621817_2_alg».proof.Proof.PreReal

noncomputable section

namespace Cert.RefSide

open Idealize.ShloMosaic Idealize.ShloMosaic.TcCoe Idealize.ShloMosaic.ValueIdx Idealize.SL.Sem Cert.Finite

/-- Any layer and relation of a stack of real matrices is a real matrix. -/
theorem sliceW_real (W : (⟨4, ![2, 3, 128, 128]⟩ : Shape).Idx → EReal) (hW : ∀ i, IsReal (W i)) (l : Fin 2) (r : Fin 3)
    (i : (⟨2, ![128, 128]⟩ : Shape).Idx) : IsReal (Cert.Spec.sliceW W l r i) := hW _
/-- Any layer and relation of a stack of real vectors is a real vector. -/
theorem sliceB_real (B : (⟨3, ![2, 3, 128]⟩ : Shape).Idx → EReal) (hB : ∀ i, IsReal (B i)) (l : Fin 2) (r : Fin 3)
    (i : (⟨1, ![128]⟩ : Shape).Idx) : IsReal (Cert.Spec.sliceB B l r i) := hB _

/-- With real arguments, the head of two layers in the stacked form (over the kernel program's aggregation terms) is the head of two
    layers accumulated relation by relation (over the reference's). -/
theorem forms_agree (x : Cert.Spec.Mat 50000 128) (e : Cert.KernelIdeal.Agg.Edges)
    (Wn Wr : (⟨4, ![2, 3, 128, 128]⟩ : Shape).Idx → EReal) (B : (⟨3, ![2, 3, 128]⟩ : Shape).Idx → EReal)
    (linW : Cert.Spec.Mat 128 32) (linb : Cert.Spec.Vc 32)
    (hx : ∀ i, IsReal (x i)) (hWn : ∀ i, IsReal (Wn i)) (hWr : ∀ i, IsReal (Wr i)) (hB : ∀ i, IsReal (B i)) :
    Cert.Spec.head linW linb
        (Cert.Spec.refLayer (Cert.ReferenceIdeal.Agg.agg e) (Cert.ReferenceIdeal.Agg.degc e)
          (Cert.Spec.sliceW Wn 1) (Cert.Spec.sliceW Wr 1) (Cert.Spec.sliceB B 1)
          (Cert.Spec.refLayer (Cert.ReferenceIdeal.Agg.agg e) (Cert.ReferenceIdeal.Agg.degc e)
            (Cert.Spec.sliceW Wn 0) (Cert.Spec.sliceW Wr 0) (Cert.Spec.sliceB B 0) x))
      = Cert.Spec.head linW linb
        (Cert.Spec.kerLayer (Cert.KernelIdeal.Agg.agg e) (Cert.KernelIdeal.Agg.degc e)
          (Cert.Spec.sliceW Wn 1) (Cert.Spec.sliceW Wr 1) (Cert.Spec.sliceB B 1)
          (Cert.Spec.kerLayer (Cert.KernelIdeal.Agg.agg e) (Cert.KernelIdeal.Agg.degc e)
            (Cert.Spec.sliceW Wn 0) (Cert.Spec.sliceW Wr 0) (Cert.Spec.sliceB B 0) x)) := by
  rw [Cert.Bridge.agg_eq e, Cert.Bridge.degc_eq e]
  exact (Cert.Spec.final_eq (Cert.KernelIdeal.Agg.agg e) (Cert.KernelIdeal.Agg.degc e)
    (fun r h hh i => Cert.KernelIdeal.Agg.agg_real e r h hh i) (fun r i => Cert.KernelIdeal.Agg.one_le_degc e r i)
    (Cert.Spec.sliceW Wn 0) (Cert.Spec.sliceW Wr 0) (Cert.Spec.sliceW Wn 1) (Cert.Spec.sliceW Wr 1) (Cert.Spec.sliceB B 0) (Cert.Spec.sliceB B 1)
    (fun r i => sliceW_real Wn hWn 0 r i) (fun r i => sliceW_real Wr hWr 0 r i) (fun r i => sliceB_real B hB 0 r i)
    (fun r i => sliceW_real Wn hWn 1 r i) (fun r i => sliceW_real Wr hWr 1 r i) (fun r i => sliceB_real B hB 1 r i)
    x hx linW linb).symm

/-- The reference's result on core `c`, as a function of its launch memory. -/
def resultR (m' : (ℓ : Loc Cert.ReferenceIdeal.nD Cert.ReferenceIdeal.τ Cert.ReferenceIdeal.sig) → Buf (Elt Ideal) ℓ) (c : Dev Cert.ReferenceIdeal.nD) :
    Cert.Spec.Mat 50000 32 :=
  Cert.Spec.head (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
    (Cert.Spec.refLayer (Cert.ReferenceIdeal.Agg.agg (m' ((c.tc : Thread Cert.ReferenceIdeal.nD Cert.ReferenceIdeal.τ).loc Cert.ReferenceIdeal.main_arg1))) (Cert.ReferenceIdeal.Agg.degc (m' ((c.tc : Thread Cert.ReferenceIdeal.nD Cert.ReferenceIdeal.τ).loc Cert.ReferenceIdeal.main_arg1)))
      (Cert.Spec.sliceW (m' ((c.tc : Thread Cert.ReferenceIdeal.nD Cert.ReferenceIdeal.τ).loc Cert.ReferenceIdeal.main_arg2)) 1) (Cert.Spec.sliceW (m' ((c.tc : Thread Cert.ReferenceIdeal.nD Cert.ReferenceIdeal.τ).loc Cert.ReferenceIdeal.main_arg3)) 1) (Cert.Spec.sliceB (m' ((c.tc : Thread Cert.ReferenceIdeal.nD Cert.ReferenceIdeal.τ).loc Cert.ReferenceIdeal.main_arg4)) 1)
      (Cert.Spec.refLayer (Cert.ReferenceIdeal.Agg.agg (m' ((c.tc : Thread Cert.ReferenceIdeal.nD Cert.ReferenceIdeal.τ).loc Cert.ReferenceIdeal.main_arg1))) (Cert.ReferenceIdeal.Agg.degc (m' ((c.tc : Thread Cert.ReferenceIdeal.nD Cert.ReferenceIdeal.τ).loc Cert.ReferenceIdeal.main_arg1)))
        (Cert.Spec.sliceW (m' ((c.tc : Thread Cert.ReferenceIdeal.nD Cert.ReferenceIdeal.τ).loc Cert.ReferenceIdeal.main_arg2)) 0) (Cert.Spec.sliceW (m' ((c.tc : Thread Cert.ReferenceIdeal.nD Cert.ReferenceIdeal.τ).loc Cert.ReferenceIdeal.main_arg3)) 0) (Cert.Spec.sliceB (m' ((c.tc : Thread Cert.ReferenceIdeal.nD Cert.ReferenceIdeal.τ).loc Cert.ReferenceIdeal.main_arg4)) 0)
        (m' ((c.tc : Thread Cert.ReferenceIdeal.nD Cert.ReferenceIdeal.τ).loc Cert.ReferenceIdeal.main_arg0))))

/-- The reference's run with the result named: it ends at `resultR`, the arguments as launched. -/
theorem ref_run_value (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v235) = resultR m' c
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run (Cert.ReferenceIdeal.defs (F := Ideal)) _ _).mono (fun r h c => ⟨(h c Cert.ReferenceIdeal.main_v235).trans
      (Cert.ReferenceIdeal.RefValue.ref_after (StableHlo.launchContents m' c)),
    (h c Cert.ReferenceIdeal.main_arg0).trans (Cert.ReferenceIdeal.RefRun.after_of_not_written _ Cert.ReferenceIdeal.main_arg0 (by decide) (by decide) (by decide) (by decide) (by decide)),
    (h c Cert.ReferenceIdeal.main_arg1).trans (Cert.ReferenceIdeal.RefRun.after_of_not_written _ Cert.ReferenceIdeal.main_arg1 (by decide) (by decide) (by decide) (by decide) (by decide)),
    (h c Cert.ReferenceIdeal.main_arg2).trans (Cert.ReferenceIdeal.RefRun.after_of_not_written _ Cert.ReferenceIdeal.main_arg2 (by decide) (by decide) (by decide) (by decide) (by decide)),
    (h c Cert.ReferenceIdeal.main_arg3).trans (Cert.ReferenceIdeal.RefRun.after_of_not_written _ Cert.ReferenceIdeal.main_arg3 (by decide) (by decide) (by decide) (by decide) (by decide)),
    (h c Cert.ReferenceIdeal.main_arg4).trans (Cert.ReferenceIdeal.RefRun.after_of_not_written _ Cert.ReferenceIdeal.main_arg4 (by decide) (by decide) (by decide) (by decide) (by decide)),
    (h c Cert.ReferenceIdeal.main_arg5).trans (Cert.ReferenceIdeal.RefRun.after_of_not_written _ Cert.ReferenceIdeal.main_arg5 (by decide) (by decide) (by decide) (by decide) (by decide)),
    (h c Cert.ReferenceIdeal.main_arg6).trans (Cert.ReferenceIdeal.RefRun.after_of_not_written _ Cert.ReferenceIdeal.main_arg6 (by decide) (by decide) (by decide) (by decide) (by decide))⟩)
    (Cert.ReferenceIdeal.RefRun.run_all (F := Ideal) m' ρ')

end Cert.RefSide

end
-- ==== Proof.lean ====
/-
  The certificate's five claims.

  The three programs run to the end with their arguments unchanged: the kernel program (at the word level and idealized) by its run through
  two host stretches and two kernel regions, the reference by its run of 278 host operations. The idealization rewrote nothing. And at the
  ideal instance the two results are one array: the kernel's is the linear head of two layers in the stacked form (one product of
  `[h | m0 | m1 | m2]` with `[Wr0+Wr1+Wr2 ; Wn0 ; Wn1 ; Wn2]`, the means formed as row sums times the reciprocal clamped degree), the
  reference's the same head of two layers accumulated relation by relation (the means as quotients); under the precondition every entry of
  every float argument is real, the row sums of real entries are real and the clamped degree is at least one, and then the two forms of a
  layer agree entry by entry.
-/
import proofs.«181974_j41549513621817_2_alg».proof.Defs
import proofs.«181974_j41549513621817_2_alg».proof.Proof.Gen.Kernel
import proofs.«181974_j41549513621817_2_alg».proof.Proof.Gen.KernelIdeal
import proofs.«181974_j41549513621817_2_alg».proof.Proof.Gen.ReferenceIdeal
import proofs.«181974_j41549513621817_2_alg».proof.Proof.Gen.Pre_finite_inputs
import proofs.«181974_j41549513621817_2_alg».proof.Proof.FrameK
import proofs.«181974_j41549513621817_2_alg».proof.Proof.FrameKI
import proofs.«181974_j41549513621817_2_alg».proof.Proof.KernelValue
import proofs.«181974_j41549513621817_2_alg».proof.Proof.KValue0
import proofs.«181974_j41549513621817_2_alg».proof.Proof.KValue1
import proofs.«181974_j41549513621817_2_alg».proof.Proof.KHost
import proofs.«181974_j41549513621817_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.Hand.frame (F := Bits) m ρ
theorem frame_ki : Cert.frame_KernelIdeal := fun m ρ _ => Cert.KernelIdeal.Gen.Hand.frame (F := Ideal) m ρ
theorem frame_ri : Cert.frame_ReferenceIdeal := fun m ρ _ =>
  (θ_run (Cert.ReferenceIdeal.defs (F := Ideal)) _ _).mono (fun _ h c => (h c).2) (Cert.RefSide.ref_run_value m ρ)

/-- The result both programs end with on core `c`, as a function of the kernel program's launch memory: the head of two layers in the
    stacked form. -/
def result (m : (ℓ : Loc Cert.KernelIdeal.nD Cert.KernelIdeal.τ Cert.KernelIdeal.sig) → Buf (Elt Ideal) ℓ) (c : Dev Cert.KernelIdeal.nD) :
    Cert.Spec.Mat 50000 32 :=
  Cert.Spec.head (m ((c.tc : Thread Cert.KernelIdeal.nD Cert.KernelIdeal.τ).loc Cert.KernelIdeal.main_arg5)) (m ((c.tc : Thread Cert.KernelIdeal.nD Cert.KernelIdeal.τ).loc Cert.KernelIdeal.main_arg6))
    (Cert.Spec.kerLayer (Cert.KernelIdeal.Agg.agg (m ((c.tc : Thread Cert.KernelIdeal.nD Cert.KernelIdeal.τ).loc Cert.KernelIdeal.main_arg1))) (Cert.KernelIdeal.Agg.degc (m ((c.tc : Thread Cert.KernelIdeal.nD Cert.KernelIdeal.τ).loc Cert.KernelIdeal.main_arg1)))
      (Cert.Spec.sliceW (m ((c.tc : Thread Cert.KernelIdeal.nD Cert.KernelIdeal.τ).loc Cert.KernelIdeal.main_arg2)) 1) (Cert.Spec.sliceW (m ((c.tc : Thread Cert.KernelIdeal.nD Cert.KernelIdeal.τ).loc Cert.KernelIdeal.main_arg3)) 1) (Cert.Spec.sliceB (m ((c.tc : Thread Cert.KernelIdeal.nD Cert.KernelIdeal.τ).loc Cert.KernelIdeal.main_arg4)) 1)
      (Cert.Spec.kerLayer (Cert.KernelIdeal.Agg.agg (m ((c.tc : Thread Cert.KernelIdeal.nD Cert.KernelIdeal.τ).loc Cert.KernelIdeal.main_arg1))) (Cert.KernelIdeal.Agg.degc (m ((c.tc : Thread Cert.KernelIdeal.nD Cert.KernelIdeal.τ).loc Cert.KernelIdeal.main_arg1)))
        (Cert.Spec.sliceW (m ((c.tc : Thread Cert.KernelIdeal.nD Cert.KernelIdeal.τ).loc Cert.KernelIdeal.main_arg2)) 0) (Cert.Spec.sliceW (m ((c.tc : Thread Cert.KernelIdeal.nD Cert.KernelIdeal.τ).loc Cert.KernelIdeal.main_arg3)) 0) (Cert.Spec.sliceB (m ((c.tc : Thread Cert.KernelIdeal.nD Cert.KernelIdeal.τ).loc Cert.KernelIdeal.main_arg4)) 0)
        (m ((c.tc : Thread Cert.KernelIdeal.nD Cert.KernelIdeal.τ).loc Cert.KernelIdeal.main_arg0))))

/-- What the second region's write-backs leave is `result`. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.Hand.dat1 (F := Ideal) (Cert.KernelIdeal.Gen.Hand.V3 m ρ) c).arrAt 5 Cert.KernelIdeal.cfg1.N = result m c :=
  Cert.KernelIdeal.Assemble.result_closed m ρ c Cert.KernelIdeal.KHost.invStack Cert.KernelIdeal.KValue.final0 Cert.KernelIdeal.KValue.final1
    Cert.KernelIdeal.KHost.host0_inv Cert.KernelIdeal.KHost.host0_X Cert.KernelIdeal.KHost.host0_W Cert.KernelIdeal.KHost.host0_b
    (fun W hinv n k => Cert.KernelIdeal.KHost.host1_X W hinv n k) Cert.KernelIdeal.KHost.host1_W Cert.KernelIdeal.KHost.host1_b Cert.KernelIdeal.KHost.host1_L

theorem preserves : Cert.preserves_Kernel_KernelIdeal := trivial

/-- The two results are one array: the kernel's run ends at `result`, the reference's at its own form of it, and under the precondition
    the forms agree. -/
theorem algebraic : Cert.algebraic_KernelIdeal_ReferenceIdeal := by
  intro m ρ m' ρ' hpre hagree
  refine ⟨fun c => result m c, ?_, ?_⟩
  · exact (θ_run (Cert.KernelIdeal.defs (F := Ideal)) _ _).mono (fun r h c => ⟨(h c).1.trans (kernel_result m ρ c), (h c).2⟩)
      (Cert.KernelIdeal.Gen.Hand.run_value (F := Ideal) m ρ)
  · refine (θ_run (Cert.ReferenceIdeal.defs (F := Ideal)) _ _).mono (fun r h c => ⟨(h c).1.trans ?_, (h c).2⟩)
      (Cert.RefSide.ref_run_value m' ρ')
    obtain ⟨hx, hWn, hWr, hB, -, -⟩ := Cert.Pre_finite_inputs.Entries.all_real _ _ _ _ _ _ _ (hpre c)
    unfold Cert.RefSide.resultR result
    rw [(hagree c).1, (hagree c).2.1, (hagree c).2.2.1, (hagree c).2.2.2.1, (hagree c).2.2.2.2.1, (hagree c).2.2.2.2.2.1,
      (hagree c).2.2.2.2.2.2]
    exact Cert.RefSide.forms_agree _ _ _ _ _ _ _ hx hWn hWr hB

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
